-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v41)) (v3 : (c : Dev Cert.KernelIdeal.nD) → Buf (Elt Ideal) ((c.tc : Thread Cert.KernelIdeal.nD Cert.KernelIdeal.τ).loc Cert.KernelIdeal.main_v38)) (v4 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_v38) = v3 c
          ∧ r.2.mem ((c.tc : Thread Cert.KernelIdeal.nD Cert.KernelIdeal.τ).loc Cert.KernelIdeal.main_v43) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32000x2048 : Shape := ⟨2, ![32000, 2048]⟩
abbrev S4x512x2048 : Shape := ⟨3, ![4, 512, 2048]⟩
abbrev S4x512 : Shape := ⟨2, ![4, 512]⟩
abbrev S4 : Shape := ⟨1, ![4]⟩
abbrev S32000 : Shape := ⟨1, ![32000]⟩
abbrev S_ : Shape := ⟨0, ![]⟩

class Facts : Prop where
  bcast_S_S32000x2048 : S_.BroadcastsInDim S32000x2048 (![] : Fin 0 → Fin S32000x2048.rank)
  reducesTo_S32000x2048_S_d0_1 : S32000x2048.ReducesTo [0, 1] S_
  h_S_ : 0 < S_.numel
  bcast_S_S4x512x2048 : S_.BroadcastsInDim S4x512x2048 (![] : Fin 0 → Fin S4x512x2048.rank)
  reducesTo_S4x512x2048_S_d0_1_2 : S4x512x2048.ReducesTo [0, 1, 2] S_
  bcast_S_S4x512 : S_.BroadcastsInDim S4x512 (![] : Fin 0 → Fin S4x512.rank)
  reducesTo_S4x512_S_d0_1 : S4x512.ReducesTo [0, 1] S_
  bcast_S_S4 : S_.BroadcastsInDim S4 (![] : Fin 0 → Fin S4.rank)
  reducesTo_S4_S_d0 : S4.ReducesTo [0] S_
  bcast_S_S32000 : S_.BroadcastsInDim S32000 (![] : Fin 0 → Fin S32000.rank)
  reducesTo_S32000_S_d0 : S32000.ReducesTo [0] S_

variable [Facts]

def fn_part2 {F : FTy → Type} [FloatOps F] (main_arg7 : FVec F S32000 .f32) (main_v33 : IVec S_ 1) : IVec S_ 1 :=
  let main_v34 : FVec F S32000 .f32 := Host.absf main_arg7
  let main_cst_12 : FVec F S_ .f32 := constant S_ .f32 0x7F800000#32
  let main_v35 : FVec F S32000 .f32 := broadcastInDim S32000 ![] bcast_S_S32000 main_cst_12
  let main_v36 : IVec S32000 1 := cmpf .olt main_v34 main_v35
  let main_c_13 : IVec S_ 1 := constantI S_ 1 1#1
  let main_v37 : IVec S_ 1 := (fun x v => Host.reduce IntOp.andi x v reducesTo_S32000_S_d0 h_S_) main_v36 main_c_13
  let main_v38 : IVec S_ 1 := andi main_v33 main_v37
  main_v38

def fn_part1 {F : FTy → Type} [FloatOps F] (main_arg4 : FVec F S32000 .f32) (main_arg5 : FVec F S4x512x2048 .f32) (main_arg6 : FVec F S32000x2048 .f32) (main_arg7 : FVec F S32000 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S32000 .f32 := Host.absf main_arg4
  let main_cst_6 : FVec F S_ .f32 := constant S_ .f32 0x7F800000#32
  let main_v20 : FVec F S32000 .f32 := broadcastInDim S32000 ![] bcast_S_S32000 main_cst_6
  let main_v21 : IVec S32000 1 := cmpf .olt main_v19 main_v20
  let main_c_7 : IVec S_ 1 := constantI S_ 1 1#1
  let main_v22 : IVec S_ 1 := (fun x v => Host.reduce IntOp.andi x v reducesTo_S32000_S_d0 h_S_) main_v21 main_c_7
  let main_v23 : IVec S_ 1 := andi main_v18 main_v22
  let main_v24 : FVec F S4x512x2048 .f32 := Host.absf main_arg5
  let main_cst_8 : FVec F S_ .f32 := constant S_ .f32 0x7F800000#32
  let main_v25 : FVec F S4x512x2048 .f32 := broadcastInDim S4x512x2048 ![] bcast_S_S4x512x2048 main_cst_8
  let main_v26 : IVec S4x512x2048 1 := cmpf .olt main_v24 main_v25
  let main_c_9 : IVec S_ 1 := constantI S_ 1 1#1
  let main_v27 : IVec S_ 1 := (fun x v => Host.reduce IntOp.andi x v reducesTo_S4x512x2048_S_d0_1_2 h_S_) main_v26 main_c_9
  let main_v28 : IVec S_ 1 := andi main_v23 main_v27
  let main_v29 : FVec F S32000x2048 .f32 := Host.absf main_arg6
  let main_cst_10 : FVec F S_ .f32 := constant S_ .f32 0x7F800000#32
  let main_v30 : FVec F S32000x2048 .f32 := broadcastInDim S32000x2048 ![] bcast_S_S32000x2048 main_cst_10
  let main_v31 : IVec S32000x2048 1 := cmpf .olt main_v29 main_v30
  let main_c_11 : IVec S_ 1 := constantI S_ 1 1#1
  let main_v32 : IVec S_ 1 := (fun x v => Host.reduce IntOp.andi x v reducesTo_S32000x2048_S_d0_1 h_S_) main_v31 main_c_11
  let main_v33 : IVec S_ 1 := andi main_v28 main_v32
  fn_part2 (F := F) main_arg7 main_v33

def fn {F : FTy → Type} [FloatOps F] (main_arg0 : FVec F S32000x2048 .f32) (main_arg1 : FVec F S4x512x2048 .f32) (main_arg2 : FVec F S4x512 .f32) (main_arg3 : FVec F S4 .f32) (main_arg4 : FVec F S32000 .f32) (main_arg5 : FVec F S4x512x2048 .f32) (main_arg6 : FVec F S32000x2048 .f32) (main_arg7 : FVec F S32000 .f32) : IVec S_ 1 :=
  let main_v0 : FVec F S32000x2048 .f32 := Host.absf main_arg0
  let main_cst : FVec F S_ .f32 := constant S_ .f32 0x7F800000#32
  let main_v1 : FVec F S32000x2048 .f32 := broadcastInDim S32000x2048 ![] bcast_S_S32000x2048 main_cst
  let main_v2 : IVec S32000x2048 1 := cmpf .olt main_v0 main_v1
  let main_c : IVec S_ 1 := constantI S_ 1 1#1
  let main_v3 : IVec S_ 1 := (fun x v => Host.reduce IntOp.andi x v reducesTo_S32000x2048_S_d0_1 h_S_) main_v2 main_c
  let main_v4 : FVec F S4x512x2048 .f32 := Host.absf main_arg1
  let main_cst_0 : FVec F S_ .f32 := constant S_ .f32 0x7F800000#32
  let main_v5 : FVec F S4x512x2048 .f32 := broadcastInDim S4x512x2048 ![] bcast_S_S4x512x2048 main_cst_0
  let main_v6 : IVec S4x512x2048 1 := cmpf .olt main_v4 main_v5
  let main_c_1 : IVec S_ 1 := constantI S_ 1 1#1
  let main_v7 : IVec S_ 1 := (fun x v => Host.reduce IntOp.andi x v reducesTo_S4x512x2048_S_d0_1_2 h_S_) main_v6 main_c_1
  let main_v8 : IVec S_ 1 := andi main_v3 main_v7
  let main_v9 : FVec F S4x512 .f32 := Host.absf main_arg2
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg4 main_arg5 main_arg6 main_arg7 main_v13 main_v16
-- ==== Kernel.lean ====
abbrev S32000x2048 : Shape := ⟨2, ![32000, 2048]⟩
abbrev S4x512x2048 : Shape := ⟨3, ![4, 512, 2048]⟩
abbrev S4x512 : Shape := ⟨2, ![4, 512]⟩
abbrev S4 : Shape := ⟨1, ![4]⟩
abbrev S32000 : Shape := ⟨1, ![32000]⟩
abbrev S2048x2048 : Shape := ⟨2, ![2048, 2048]⟩
abbrev S1x32000 : Shape := ⟨2, ![1, 32000]⟩
abbrev S2048x1 : Shape := ⟨2, ![2048, 1]⟩
abbrev S1024x2048 : Shape := ⟨2, ![1024, 2048]⟩
abbrev S1280x2048 : Shape := ⟨2, ![1280, 2048]⟩
abbrev S1x1280 : Shape := ⟨2, ![1, 1280]⟩
abbrev S1024x1 : Shape := ⟨2, ![1024, 1]⟩
abbrev S2048x1280 : Shape := ⟨2, ![2048, 1280]⟩
abbrev S1024x1280 : Shape := ⟨2, ![1024, 1280]⟩
abbrev S1024 : Shape := ⟨1, ![1024]⟩
abbrev S_ : Shape := ⟨0, ![]⟩
abbrev S1 : Shape := ⟨1, ![1]⟩

abbrev nBuf : Space → Nat
  | .hbm => 110
  | .vmem => 20
  | .smem => 0
  | _ => 0

abbrev bufTy : (tb : Table) → Fin (tcTables nBuf tb) → BufTy
  | .hbm, ⟨0, _⟩ => ⟨S32000x2048, .f32⟩
  | .hbm, ⟨1, _⟩ => ⟨S4x512x2048, .f32⟩
  | .hbm, ⟨2, _⟩ => ⟨S4x512, .f32⟩
  | .hbm, ⟨3, _⟩ => ⟨S4, .f32⟩
  | .hbm, ⟨4, _⟩ => ⟨S32000, .f32⟩
  | .hbm, ⟨5, _⟩ => ⟨S4x512x2048, .f32⟩
  | .hbm, ⟨6, _⟩ => ⟨S32000x2048, .f32⟩
  | .hbm, ⟨7, _⟩ => ⟨S32000, .f32⟩
  | .hbm, ⟨8, _⟩ => ⟨S2048x2048, .f32⟩
  | .hbm, ⟨9, _⟩ => ⟨S2048x2048, .f32⟩
  | .hbm, ⟨10, _⟩ => ⟨S2048x2048, .bf16⟩
  | .hbm, ⟨11, _⟩ => ⟨S32000x2048, .bf16⟩
  | .hbm, ⟨12, _⟩ => ⟨S1x32000, .f32⟩
  | .hbm, ⟨13, _⟩ => ⟨S2048x1, .f32⟩
  | .hbm, ⟨14, _⟩ => ⟨S2048x1, .f32⟩
  | .hbm, ⟨15, _⟩ => ⟨S2048x2048, .bf16⟩
  | .hbm, ⟨16, _⟩ => ⟨S32000x2048, .bf16⟩
  | .hbm, ⟨17, _⟩ => ⟨S1x32000, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S4x512, .f32⟩
  | .hbm, ⟨23, _⟩ => ⟨S2048x1, .f32⟩
  | .hbm, ⟨24, _⟩ => ⟨S2048x1, .f32⟩
  | .hbm, ⟨25, _⟩ => ⟨S4x512, .f32⟩
  | .hbm, ⟨26, _⟩ => ⟨S4x512, .f32⟩
  | .hbm, ⟨27, _⟩ => ⟨S_, .f32⟩
  | .hbm, ⟨28, _⟩ => ⟨S4, .f32⟩
  | .hbm, ⟨29, _⟩ => ⟨S4x512, .f32⟩
  | .hbm, ⟨30, _⟩ => ⟨S_, .f32⟩
  | .hbm, ⟨31, _⟩ => ⟨S4, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S_, .i32⟩
  | .hbm, ⟨39, _⟩ => ⟨S_, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S4, .f32⟩
  | .hbm, ⟨46, _⟩ => ⟨S4, .f32⟩
  | .hbm, ⟨47, _⟩ => ⟨S4, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .i1⟩
  | .hbm, ⟨62, _⟩ => ⟨S4, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S_, .f32⟩
  | .hbm, ⟨69, _⟩ => ⟨S4, .f32⟩
  | .hbm, ⟨70, _⟩ => ⟨S4, .f32⟩
  | .hbm, ⟨71, _⟩ => ⟨S4, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .i32⟩
  | .hbm, ⟨85, _⟩ => ⟨S_, .f32⟩
  | .hbm, ⟨86, _⟩ => ⟨S_, .f32⟩
  | .hbm, ⟨87, _⟩ => ⟨S1, .f32⟩
  | .hbm, ⟨88, _⟩ => ⟨S_, .f32⟩
  | .hbm, ⟨89, _⟩ => ⟨S1, .f32⟩
  | .hbm, ⟨90, _⟩ => ⟨S1, .f32⟩
  | .hbm, ⟨91, _⟩ => ⟨S4, .f32⟩
  | .hbm, ⟨92, _⟩ => ⟨S4, .f32⟩
  | .hbm, ⟨93, _⟩ => ⟨S4, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .i1⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .local _ .vmem, ⟨0, _⟩ => ⟨S1024x2048, .bf16⟩
  | .local _ .vmem, ⟨1, _⟩ => ⟨S1280x2048, .bf16⟩
  | .local _ .vmem, ⟨2, _⟩ => ⟨S1280x2048, .bf16⟩
  | .local _ .vmem, ⟨3, _⟩ => ⟨S1x1280, .f32⟩
  | .local _ .vmem, ⟨4, _⟩ => ⟨S1x1280, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x2048, .bf16⟩
  | .local _ .vmem, ⟨11, _⟩ => ⟨S1280x2048, .bf16⟩
  | .local _ .vmem, ⟨12, _⟩ => ⟨S1280x2048, .bf16⟩
  | .local _ .vmem, ⟨13, _⟩ => ⟨S1x1280, .f32⟩
  | .local _ .vmem, ⟨14, _⟩ => ⟨S1x1280, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | _, _ => ⟨S32000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_call0_call0_cst : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_cst_0 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_cst_1 : Ref sig .tc := ⟨.hbm, 49, rfl⟩
abbrev main_call0_call0_v8 : Ref sig .tc := ⟨.hbm, 50, rfl⟩
abbrev main_call0_call0_cst_2 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_cst_3 : Ref sig .tc := ⟨.hbm, 54, rfl⟩
abbrev main_call0_call0_v11 : Ref sig .tc := ⟨.hbm, 55, rfl⟩
abbrev main_call0_call0_cst_4 : Ref sig .tc := ⟨.hbm, 56, rfl⟩
abbrev main_call0_call0_call0_v0 : Ref sig .tc := ⟨.hbm, 57, rfl⟩
abbrev main_call0_v0 : Ref sig .tc := ⟨.hbm, 58, rfl⟩
abbrev main_v24 : Ref sig .tc := ⟨.hbm, 59, rfl⟩
abbrev main_cst_3 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_5 : Ref sig .tc := ⟨.hbm, 72, rfl⟩
abbrev main_v35 : Ref sig .tc := ⟨.hbm, 73, rfl⟩
abbrev main_cst_6 : Ref sig .tc := ⟨.hbm, 74, rfl⟩
abbrev main_v36 : Ref sig .tc := ⟨.hbm, 75, rfl⟩
abbrev main_cst_7 : Ref sig .tc := ⟨.hbm, 76, rfl⟩
abbrev main_v37 : Ref sig .tc := ⟨.hbm, 77, rfl⟩
abbrev main_cst_8 : Ref sig .tc := ⟨.hbm, 78, rfl⟩
abbrev main_v38 : Ref sig .tc := ⟨.hbm, 79, rfl⟩
abbrev main_cst_9 : Ref sig .tc := ⟨.hbm, 80, rfl⟩
abbrev main_v39 : Ref sig .tc := ⟨.hbm, 81, rfl⟩
abbrev main_cst_10 : Ref sig .tc := ⟨.hbm, 82, rfl⟩
abbrev main_v40 : Ref sig .tc := ⟨.hbm, 83, rfl⟩
abbrev main_c_11 : Ref sig .tc := ⟨.hbm, 84, rfl⟩
abbrev main_call2_call0_cst : Ref sig .tc := ⟨.hbm, 85, rfl⟩
abbrev main_call2_call0_v0 : Ref sig .tc := ⟨.hbm, 86, rfl⟩
abbrev main_call2_call0_v1 : Ref sig .tc := ⟨.hbm, 87, rfl⟩
abbrev main_call2_call0_cst_0 : Ref sig .tc := ⟨.hbm, 88, rfl⟩
abbrev main_call2_call0_v2 : Ref sig .tc := ⟨.hbm, 89, rfl⟩
abbrev main_call2_call0_v3 : Ref sig .tc := ⟨.hbm, 90, rfl⟩
abbrev main_call2_call0_v4 : Ref sig .tc := ⟨.hbm, 91, rfl⟩
abbrev main_call2_call0_v5 : Ref sig .tc := ⟨.hbm, 92, rfl⟩
abbrev main_call2_call0_v6 : Ref sig .tc := ⟨.hbm, 93, rfl⟩
abbrev main_call2_call0_v7 : Ref sig .tc := ⟨.hbm, 94, rfl⟩
abbrev main_call2_call0_cst_1 : Ref sig .tc := ⟨.hbm, 95, rfl⟩
abbrev main_call2_call0_v8 : Ref sig .tc := ⟨.hbm, 96, rfl⟩
abbrev main_call2_call0_cst_2 : Ref sig .tc := ⟨.hbm, 97, rfl⟩
abbrev main_call2_call0_v9 : Ref sig .tc := ⟨.hbm, 98, rfl⟩
abbrev main_call2_call0_v10 : Ref sig .tc := ⟨.hbm, 99, rfl⟩
abbrev main_call2_call0_cst_3 : Ref sig .tc := ⟨.hbm, 100, rfl⟩
abbrev main_call2_call0_v11 : Ref sig .tc := ⟨.hbm, 101, rfl⟩
abbrev main_call2_call0_cst_4 : Ref sig .tc := ⟨.hbm, 102, rfl⟩
abbrev main_call2_call0_call0_v0 : Ref sig .tc := ⟨.hbm, 103, rfl⟩
abbrev main_call2_v0 : Ref sig .tc := ⟨.hbm, 104, rfl⟩
abbrev main_v41 : Ref sig .tc := ⟨.hbm, 105, rfl⟩
abbrev main_cst_12 : Ref sig .tc := ⟨.hbm, 106, rfl⟩
abbrev main_v42 : Ref sig .tc := ⟨.hbm, 107, rfl⟩
abbrev main_cst_13 : Ref sig .tc := ⟨.hbm, 108, rfl⟩
abbrev main_v43 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S1024x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1280x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S4x512x2048_S2048x2048 : S4x512x2048.ShapeCasts S2048x2048
  bitsLt_bf16_f32 : FTy.bits .bf16 < FTy.bits .f32
  shapeCasts_S32000_S1x32000 : S32000.ShapeCasts S1x32000
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  transposes_S1280x2048_p1_0_S2048x1280 : S1280x2048.Transposes [1, 0] S2048x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  reduces_S1024x1280_S1024 : S1024x1280.Reduces [1] S1024
  shapeCasts_S1024_S1024x1 : S1024.ShapeCasts S1024x1
  broadcasts_S1024x1_S1024x1280 : S1024x1.Broadcasts S1024x1280
  shapeCasts_S2048x1_S4x512 : S2048x1.ShapeCasts S4x512
  reducesTo_S4x512_S4_d1 : S4x512.ReducesTo [1] S4
  h_S_ : 0 < S_.numel
  reducesTo_S4_S_d0 : S4.ReducesTo [0] S_
  bcast_S_S4 : S_.BroadcastsInDim S4 (![] : Fin 0 → Fin S4.rank)
  bcast_S_S1 : S_.BroadcastsInDim S1 (![] : Fin 0 → Fin S1.rank)
  bcast_S1_S4_0 : S1.BroadcastsInDim S4 (![0] : Fin 1 → Fin S4.rank)
  reducesTo_S2048x1_S_d0_1 : S2048x1.ReducesTo [0, 1] S_
  dot_S1024x2048_S2048x1280_S1024x1280_1_0_0_1_n_n_wf : DotDims.WF S1024x2048 S2048x1280 S1024x1280 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S2048x2048.size a
  hwx0_0 : ∀ i : grid0.Coords, EltTy.bits .bf16 = 32 ∨ (Rect.block (s := S2048x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .bf16 = 32 ∨ (Rect.block (s := S32000x2048) S1280x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x32000.size a
  hwx0_2 : ∀ i : grid0.Coords, EltTy.bits .f32 = 32 ∨ (Rect.block (s := S1x32000) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .f32 = 32 ∨ (Rect.block (s := S2048x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S2048x1.size a
  hwx0_4 : ∀ i : grid0.Coords, EltTy.bits .f32 = 32 ∨ (Rect.block (s := S2048x1) S1024x1.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S2048x2048.size a
  hwx1_0 : ∀ i : grid1.Coords, EltTy.bits .bf16 = 32 ∨ (Rect.block (s := S2048x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x2048.size a ≤ S32000x2048.size a
  hwx1_1 : ∀ i : grid1.Coords, EltTy.bits .bf16 = 32 ∨ (Rect.block (s := S32000x2048) S1280x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x32000.size a
  hwx1_2 : ∀ i : grid1.Coords, EltTy.bits .f32 = 32 ∨ (Rect.block (s := S1x32000) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S2048x1.size a
  hwx1_3 : ∀ i : grid1.Coords, EltTy.bits .f32 = 32 ∨ (Rect.block (s := S2048x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S2048x1.size a
  hwx1_4 : ∀ i : grid1.Coords, EltTy.bits .f32 = 32 ∨ (Rect.block (s := S2048x1) S1024x1.size (cc1_transform_4 i) (hinb1_4 i)).WholeWords (EltTy.packing .f32)

variable [Facts₀]

def dot_S1024x2048_S2048x1280_S1024x1280_1_0_0_1_n_n : DotDims S1024x2048 S2048x1280 S1024x1280 where
  lhsContracting := [1]
  rhsContracting := [0]
  lhsNonContracting := [0]
  rhsNonContracting := [1]
  lhsBatch := []
  rhsBatch := []
  wf := dot_S1024x2048_S2048x1280_S1024x1280_1_0_0_1_n_n_wf

abbrev win0_0 : Pipeline.Window sig grid0 :=
  Pipeline.Window.ofSpec (Memref.whole main_v2) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S1024x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1280x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_0) S1024x1.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9_1) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32000x2048 : Shape := ⟨2, ![32000, 2048]⟩
abbrev S4x512x2048 : Shape := ⟨3, ![4, 512, 2048]⟩
abbrev S4x512 : Shape := ⟨2, ![4, 512]⟩
abbrev S4 : Shape := ⟨1, ![4]⟩
abbrev S32000 : Shape := ⟨1, ![32000]⟩
abbrev S4x512x32000 : Shape := ⟨3, ![4, 512, 32000]⟩
abbrev S1x1x32000 : Shape := ⟨3, ![1, 1, 32000]⟩
abbrev S_ : Shape := ⟨0, ![]⟩
abbrev S4x512x1 : Shape := ⟨3, ![4, 512, 1]⟩
abbrev S1 : Shape := ⟨1, ![1]⟩

abbrev nBuf : Space → Nat
  | .hbm => 134
  | .vmem => 0
  | .smem => 0
  | _ => 0

abbrev hbmTy0_0 (i : Nat) : BufTy := match i % 128 with
  | 0 => ⟨S32000x2048, .f32⟩
  | 1 => ⟨S4x512x2048, .f32⟩
  | 2 => ⟨S4x512, .f32⟩
  | 3 => ⟨S4, .f32⟩
  | 4 => ⟨S32000, .f32⟩
  | 5 => ⟨S4x512x2048, .f32⟩
  | 6 => ⟨S32000x2048, .f32⟩
  | 7 => ⟨S32000, .f32⟩
  | 8 => ⟨S4x512x32000, .f32⟩
  | 9 => ⟨S1x1x32000, .f32⟩
  | 10 => ⟨S4x512x32000, .f32⟩
  | 11 => ⟨S4x512x32000, .f32⟩
  | 12 => ⟨S_, .f32⟩
  | 13 => ⟨S4x512, .f32⟩
  | 14 => ⟨S_, .f32⟩
  | 15 => ⟨S4x512, .f32⟩
  | 16 => ⟨S4x512, .f32⟩
  | 17 => ⟨S4x512x1, .f32⟩
  | 18 => ⟨S4x512x32000, .f32⟩
  | 19 => ⟨S4x512x32000, .f32⟩
  | 20 => ⟨S4x512x32000, .f32⟩
  | 21 => ⟨S_, .f32⟩
  | 22 => ⟨S4x512, .f32⟩
  | 23 => ⟨S4x512x1, .f32⟩
  | 24 => ⟨S4x512x1, .f32⟩
  | 25 => ⟨S4x512x32000, .f32⟩
  | 26 => ⟨S4x512x32000, .f32⟩
  | 27 => ⟨S_, .f32⟩
  | 28 => ⟨S4x512, .f32⟩
  | 29 => ⟨S4x512, .f32⟩
  | 30 => ⟨S_, .f32⟩
  | 31 => ⟨S4, .f32⟩
  | 32 => ⟨S4x512x32000, .f32⟩
  | 33 => ⟨S1x1x32000, .f32⟩
  | 34 => ⟨S4x512x32000, .f32⟩
  | 35 => ⟨S4x512x32000, .f32⟩
  | 36 => ⟨S_, .f32⟩
  | 37 => ⟨S4x512, .f32⟩
  | 38 => ⟨S_, .f32⟩
  | 39 => ⟨S4x512, .f32⟩
  | 40 => ⟨S4x512, .f32⟩
  | 41 => ⟨S4x512x1, .f32⟩
  | 42 => ⟨S4x512x32000, .f32⟩
  | 43 => ⟨S4x512x32000, .f32⟩
  | 44 => ⟨S4x512x32000, .f32⟩
  | 45 => ⟨S_, .f32⟩
  | 46 => ⟨S4x512, .f32⟩
  | 47 => ⟨S4x512x1, .f32⟩
  | 48 => ⟨S4x512x1, .f32⟩
  | 49 => ⟨S4x512x32000, .f32⟩
  | 50 => ⟨S4x512x32000, .f32⟩
  | 51 => ⟨S_, .f32⟩
  | 52 => ⟨S4x512, .f32⟩
  | 53 => ⟨S4x512, .f32⟩
  | 54 => ⟨S_, .f32⟩
  | 55 => ⟨S4, .f32⟩
  | 56 => ⟨S_, .f32⟩
  | 57 => ⟨S_, .f32⟩
  | 58 => ⟨S_, .f32⟩
  | 59 => ⟨S_, .f32⟩
  | 60 => ⟨S4, .f32⟩
  | 61 => ⟨S4, .f32⟩
  | 62 => ⟨S_, .i32⟩
  | 63 => ⟨S_, .f32⟩
  | 64 => ⟨S_, .f32⟩
  | 65 => ⟨S1, .f32⟩
  | 66 => ⟨S_, .f32⟩
  | 67 => ⟨S1, .f32⟩
  | 68 => ⟨S1, .f32⟩
  | 69 => ⟨S4, .f32⟩
  | 70 => ⟨S4, .f32⟩
  | 71 => ⟨S4, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .i1⟩
  | 80 => ⟨S_, .f32⟩
  | 81 => ⟨S_, .f32⟩
  | 82 => ⟨S_, .f32⟩
  | 83 => ⟨S_, .f32⟩
  | 84 => ⟨S_, .f32⟩
  | 85 => ⟨S_, .i1⟩
  | 86 => ⟨S4, .f32⟩
  | 87 => ⟨S4, .f32⟩
  | 88 => ⟨S4, .f32⟩
  | 89 => ⟨S4, .f32⟩
  | 90 => ⟨S4, .f32⟩
  | 91 => ⟨S4, .f32⟩
  | 92 => ⟨S_, .f32⟩
  | 93 => ⟨S4, .f32⟩
  | 94 => ⟨S4, .f32⟩
  | 95 => ⟨S4, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .i32⟩
  | 105 => ⟨S_, .f32⟩
  | 106 => ⟨S_, .f32⟩
  | 107 => ⟨S1, .f32⟩
  | 108 => ⟨S_, .f32⟩
  | 109 => ⟨S1, .f32⟩
  | 110 => ⟨S1, .f32⟩
  | 111 => ⟨S4, .f32⟩
  | 112 => ⟨S4, .f32⟩
  | 113 => ⟨S4, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .i1⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S32000x2048, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | _ => ⟨S32000x2048, .f32⟩

abbrev hbmTy (i : Nat) : BufTy := match i / 128 with
  | 0 => hbmTy0_0 i
  | 1 => hbmTy0_1 i
  | _ => ⟨S32000x2048, .f32⟩

abbrev bufTy : (tb : Table) → Fin (tcTables nBuf tb) → BufTy
  | .hbm, ⟨i, _⟩ => hbmTy i
  | _, _ => ⟨S32000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_v6 : Ref sig .tc := ⟨.hbm, 29, rfl⟩
abbrev main_cst_0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_call1_cst : Ref sig .tc := ⟨.hbm, 36, rfl⟩
abbrev main_call1_v0 : Ref sig .tc := ⟨.hbm, 37, rfl⟩
abbrev main_call1_cst_0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_cst_1 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_v12 : Ref sig .tc := ⟨.hbm, 50, rfl⟩
abbrev main_cst_1 : Ref sig .tc := ⟨.hbm, 51, rfl⟩
abbrev main_v13 : Ref sig .tc := ⟨.hbm, 52, rfl⟩
abbrev main_v14 : Ref sig .tc := ⟨.hbm, 53, rfl⟩
abbrev main_cst_2 : Ref sig .tc := ⟨.hbm, 54, rfl⟩
abbrev main_v15 : Ref sig .tc := ⟨.hbm, 55, rfl⟩
abbrev main_cst_3 : Ref sig .tc := ⟨.hbm, 56, rfl⟩
abbrev main_v16 : Ref sig .tc := ⟨.hbm, 57, rfl⟩
abbrev main_cst_4 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_c : Ref sig .tc := ⟨.hbm, 62, rfl⟩
abbrev main_call2_call0_cst : Ref sig .tc := ⟨.hbm, 63, rfl⟩
abbrev main_call2_call0_v0 : Ref sig .tc := ⟨.hbm, 64, rfl⟩
abbrev main_call2_call0_v1 : Ref sig .tc := ⟨.hbm, 65, rfl⟩
abbrev main_call2_call0_cst_0 : Ref sig .tc := ⟨.hbm, 66, rfl⟩
abbrev main_call2_call0_v2 : Ref sig .tc := ⟨.hbm, 67, rfl⟩
abbrev main_call2_call0_v3 : Ref sig .tc := ⟨.hbm, 68, rfl⟩
abbrev main_call2_call0_v4 : Ref sig .tc := ⟨.hbm, 69, rfl⟩
abbrev main_call2_call0_v5 : Ref sig .tc := ⟨.hbm, 70, rfl⟩
abbrev main_call2_call0_v6 : Ref sig .tc := ⟨.hbm, 71, rfl⟩
abbrev main_call2_call0_v7 : Ref sig .tc := ⟨.hbm, 72, rfl⟩
abbrev main_call2_call0_cst_1 : Ref sig .tc := ⟨.hbm, 73, rfl⟩
abbrev main_call2_call0_v8 : Ref sig .tc := ⟨.hbm, 74, rfl⟩
abbrev main_call2_call0_cst_2 : Ref sig .tc := ⟨.hbm, 75, rfl⟩
abbrev main_call2_call0_v9 : Ref sig .tc := ⟨.hbm, 76, rfl⟩
abbrev main_call2_call0_v10 : Ref sig .tc := ⟨.hbm, 77, rfl⟩
abbrev main_call2_call0_cst_3 : Ref sig .tc := ⟨.hbm, 78, rfl⟩
abbrev main_call2_call0_v11 : Ref sig .tc := ⟨.hbm, 79, rfl⟩
abbrev main_call2_call0_cst_4 : Ref sig .tc := ⟨.hbm, 80, rfl⟩
abbrev main_call2_call0_call0_v0 : Ref sig .tc := ⟨.hbm, 81, rfl⟩
abbrev main_call2_v0 : Ref sig .tc := ⟨.hbm, 82, rfl⟩
abbrev main_v20 : Ref sig .tc := ⟨.hbm, 83, rfl⟩
abbrev main_cst_5 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_cst_6 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_cst_7 : Ref sig .tc := ⟨.hbm, 96, rfl⟩
abbrev main_v31 : Ref sig .tc := ⟨.hbm, 97, rfl⟩
abbrev main_cst_8 : Ref sig .tc := ⟨.hbm, 98, rfl⟩
abbrev main_v32 : Ref sig .tc := ⟨.hbm, 99, rfl⟩
abbrev main_cst_9 : Ref sig .tc := ⟨.hbm, 100, rfl⟩
abbrev main_v33 : Ref sig .tc := ⟨.hbm, 101, rfl⟩
abbrev main_cst_10 : Ref sig .tc := ⟨.hbm, 102, rfl⟩
abbrev main_v34 : Ref sig .tc := ⟨.hbm, 103, rfl⟩
abbrev main_c_11 : Ref sig .tc := ⟨.hbm, 104, rfl⟩
abbrev main_call4_call0_cst : Ref sig .tc := ⟨.hbm, 105, rfl⟩
abbrev main_call4_call0_v0 : Ref sig .tc := ⟨.hbm, 106, rfl⟩
abbrev main_call4_call0_v1 : Ref sig .tc := ⟨.hbm, 107, rfl⟩
abbrev main_call4_call0_cst_0 : Ref sig .tc := ⟨.hbm, 108, rfl⟩
abbrev main_call4_call0_v2 : Ref sig .tc := ⟨.hbm, 109, rfl⟩
abbrev main_call4_call0_v3 : Ref sig .tc := ⟨.hbm, 110, rfl⟩
abbrev main_call4_call0_v4 : Ref sig .tc := ⟨.hbm, 111, rfl⟩
abbrev main_call4_call0_v5 : Ref sig .tc := ⟨.hbm, 112, rfl⟩
abbrev main_call4_call0_v6 : Ref sig .tc := ⟨.hbm, 113, rfl⟩
abbrev main_call4_call0_v7 : Ref sig .tc := ⟨.hbm, 114, rfl⟩
abbrev main_call4_call0_cst_1 : Ref sig .tc := ⟨.hbm, 115, rfl⟩
abbrev main_call4_call0_v8 : Ref sig .tc := ⟨.hbm, 116, rfl⟩
abbrev main_call4_call0_cst_2 : Ref sig .tc := ⟨.hbm, 117, rfl⟩
abbrev main_call4_call0_v9 : Ref sig .tc := ⟨.hbm, 118, rfl⟩
abbrev main_call4_call0_v10 : Ref sig .tc := ⟨.hbm, 119, rfl⟩
abbrev main_call4_call0_cst_3 : Ref sig .tc := ⟨.hbm, 120, rfl⟩
abbrev main_call4_call0_v11 : Ref sig .tc := ⟨.hbm, 121, rfl⟩
abbrev main_call4_call0_cst_4 : Ref sig .tc := ⟨.hbm, 122, rfl⟩
abbrev main_call4_call0_call0_v0 : Ref sig .tc := ⟨.hbm, 123, rfl⟩
abbrev main_call4_v0 : Ref sig .tc := ⟨.hbm, 124, rfl⟩
abbrev main_v35 : Ref sig .tc := ⟨.hbm, 125, rfl⟩
abbrev main_cst_12 : Ref sig .tc := ⟨.hbm, 126, rfl⟩
abbrev main_v36 : Ref sig .tc := ⟨.hbm, 127, rfl⟩
abbrev main_cst_13 : Ref sig .tc := ⟨.hbm, 128, rfl⟩
abbrev main_v37 : Ref sig .tc := ⟨.hbm, 129, rfl⟩
abbrev main_cst_14 : Ref sig .tc := ⟨.hbm, 130, rfl⟩
abbrev main_v38 : Ref sig .tc := ⟨.hbm, 131, rfl⟩
abbrev main_cst_15 : Ref sig .tc := ⟨.hbm, 132, rfl⟩
abbrev main_v39 : Ref sig .tc := ⟨.hbm, 133, rfl⟩

abbrev nD : Nat := 1
abbrev τ : Topo := Topo.v7x

variable {F : FTy → Type} [FloatOps F]

class Facts₀ : Prop where
  bcast_S32000_S1x1x32000_2 : S32000.BroadcastsInDim S1x1x32000 (![2] : Fin 1 → Fin S1x1x32000.rank)
  bcast_S1x1x32000_S4x512x32000_0_1_2 : S1x1x32000.BroadcastsInDim S4x512x32000 (![0, 1, 2] : Fin 3 → Fin S4x512x32000.rank)
  reducesTo_S4x512x32000_S4x512_d2 : S4x512x32000.ReducesTo [2] S4x512
  h_S_ : 0 < S_.numel
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x32000_0_1_2 : S4x512x1.BroadcastsInDim S4x512x32000 (![0, 1, 2] : Fin 3 → Fin S4x512x32000.rank)
  reducesTo_S4x512_S4_d1 : S4x512.ReducesTo [1] S4
  reducesTo_S4_S_d0 : S4.ReducesTo [0] S_
  bcast_S_S4 : S_.BroadcastsInDim S4 (![] : Fin 0 → Fin S4.rank)
  bcast_S_S1 : S_.BroadcastsInDim S1 (![] : Fin 0 → Fin S1.rank)
  bcast_S1_S4_0 : S1.BroadcastsInDim S4 (![0] : Fin 1 → Fin S4.rank)
  reducesTo_S4x512x32000_S_d0_1_2 : S4x512x32000.ReducesTo [0, 1, 2] S_
  dot_S4x512x2048_S32000x2048_S4x512x32000_2_1_01_0_n_n_wf : DotDims.WF S4x512x2048 S32000x2048 S4x512x32000 [2] [1] [0, 1] [0] [] []

variable [Facts₀]

def dot_S4x512x2048_S32000x2048_S4x512x32000_2_1_01_0_n_n : DotDims S4x512x2048 S32000x2048 S4x512x32000 where
  lhsContracting := [2]
  rhsContracting := [1]
  lhsNonContracting := [0, 1]
  rhsNonContracting := [0]
  lhsBatch := []
  rhsBatch := []
  wf := dot_S4x512x2048_S32000x2048_S4x512x32000_2_1_01_0_n_n_wf

class Facts : Prop extends Facts₀ where

variable [Facts]
-- ==== Proof.KB.Cond.lean ====
/-
  The statistics kernel's one branch, and where its windows live.

  Both calls run the same body on a 2 × 25 grid: row block i (1024 rows), vocabulary tile t (1280 entries).  The body
  branches once, on t = 0 (reset the running maximum and the two running sums).  In the row-major order of the grid
  that is exactly the positions divisible by 25.  No window is ever idle: the three inputs are read and the two outputs
  are rewritten at every point.
-/
import proofs.«174775_j19164144075542_1_alg».proof.Proof.Gen.Kernel.Launch
import proofs.«174775_j19164144075542_1_alg».proof.Proof.Gen.Kernel.Skeleton
import proofs.«174775_j19164144075542_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Call 0: the body's branch condition, the second grid coordinate is zero. -/
abbrev cond0_0 (i : grid0.Coords) : Prop := (Scalar.cmpi .ne (Scalar.extui (Scalar.cmpi .eq (BitVec.ofNat 32 (i 1).val) 0#32)) 0#32) = 1#1

/-- It holds exactly at the positions divisible by 25. -/
theorem hcond0_0 : ∀ t : Fin cfg0.N, cond0_0 (grid0.coords t) ↔ t.val % 25 = 0 :=
  (by decide +kernel : ∀ t : Fin grid0.N, cond0_0 (grid0.coords t) ↔ t.val % 25 = 0)

/-- Every window of call 0 is live at every point. -/
theorem liveAt0 : ∀ (w : Fin cfg0.W) (i : grid0.Coords), cfg0.idle w i = false := by decide +kernel

/-- Call 1: the body's branch condition, the second grid coordinate is zero. -/
abbrev cond1_0 (i : grid1.Coords) : Prop := (Scalar.cmpi .ne (Scalar.extui (Scalar.cmpi .eq (BitVec.ofNat 32 (i 1).val) 0#32)) 0#32) = 1#1

/-- It holds exactly at the positions divisible by 25. -/
theorem hcond1_0 : ∀ t : Fin cfg1.N, cond1_0 (grid1.coords t) ↔ t.val % 25 = 0 :=
  (by decide +kernel : ∀ t : Fin grid1.N, cond1_0 (grid1.coords t) ↔ t.val % 25 = 0)

/-- Every window of call 1 is live at every point. -/
theorem liveAt1 : ∀ (w : Fin cfg1.W) (i : grid1.Coords), cfg1.idle w i = false := by decide +kernel

end Cert.Kernel.Hand

end
-- ==== Proof.KB.Run0A.lean ====
/-
  Call 0, a resetting point (t = 0), run as a whole on any staging memrefs.

  The first tile of a row block: the body first stores -∞ into the running row maximum and 0 into the running sum of
  exponentials and the running row sum, whatever they held, and then does what every point does — forms the tile of
  logits, adds the row sums, raises the maximum, rescales and adds the exponentials.  Nothing it reads of the three
  carried buffers predates its own stores.
-/
import proofs.«174775_j19164144075542_1_alg».proof.Proof.KB.Cond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the inputs at their blocks and the three carried buffers at anything, the body runs to its return: inputs
    untouched, each carried buffer covered by the body's own whole stores; the stored pieces are found by the run. -/
noncomputable def kernelRun0_A (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : cond0_0 i)
    (x0 : Vec F S1024x2048 .bf16) (x1 : Vec F S1280x2048 .bf16) (x2 : Vec F S1x1280 .f32) :
    Σ' (L3 : List (View.Piece (Elt F) S1024x1 .f32)) (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__fused_logit_stats_kernel i arg2 harg2 arg3 harg3 arg4 harg4 arg5 harg5 arg6 harg6 arg7 harg7) K } := by
  refine ⟨?_, ?_, ?_, fun E K => ?run⟩
  case run =>
    simp only [cc0__fused_logit_stats_kernel_eq_skeleton]; unfold cc0__fused_logit_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.KB.Run0B.lean ====
/-
  Call 0, a continuing point (t > 0), run as a whole on any staging memrefs.

  The body holds a block of 1024 activation rows, a tile of 1280 weight rows and the matching biases.  It forms the
  1024 × 1280 tile of logits (a product over the 2048 hidden coordinates plus the bias), adds each row's sum to the
  running row sum, raises the running row maximum to cover the tile, rescales the running sum of exponentials by
  exp(old maximum - new maximum) and adds the tile's exponentials taken relative to the new maximum.  The three carried
  buffers are read before they are rewritten, each by one whole store.
-/
import proofs.«174775_j19164144075542_1_alg».proof.Proof.KB.Cond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the inputs at their blocks and the two running sums and the running maximum at what the point before left,
    the body runs to its return: inputs untouched, each carried buffer rewritten whole; the stored pieces are found by
    the run. -/
noncomputable def kernelRun0_B (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬cond0_0 i)
    (x0 : Vec F S1024x2048 .bf16) (x1 : Vec F S1280x2048 .bf16) (x2 : Vec F S1x1280 .f32)
    (xo3 : Vec F S1024x1 .f32) (xo4 : Vec F S1024x1 .f32) (xs0 : Vec F S1024x1 .f32) :
    Σ' (L3 : List (View.Piece (Elt F) S1024x1 .f32)) (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__fused_logit_stats_kernel i arg2 harg2 arg3 harg3 arg4 harg4 arg5 harg5 arg6 harg6 arg7 harg7) K } := by
  refine ⟨?_, ?_, ?_, fun E K => ?run⟩
  case run =>
    simp only [cc0__fused_logit_stats_kernel_eq_skeleton]; unfold cc0__fused_logit_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.KB.Frame0.lean ====
/-
  Call 0 of the statistics kernel as a region of the host program: what its buffers hold after every grid point.

  The grid is walked in row-major order: position n is row block n / 25, vocabulary tile n % 25.  The two output
  windows (the running sum of exponentials and the running row sum of a row block) and the scratch (the running row
  maximum) are carried from a position to the next while the row block stays the same, are reset by the body at the
  first tile of a row block, and the two outputs are written back after the last tile (n % 25 = 24).  The contents
  after position n are defined by recursion on n: the resetting run at n % 25 = 0, otherwise the continuing run over
  what position n - 1 left.  The region's invariant between positions holds the scratch at exactly that value.
-/
import proofs.«174775_j19164144075542_1_alg».proof.Proof.KB.Run0A
import proofs.«174775_j19164144075542_1_alg».proof.Proof.KB.Run0B
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- core c's buffers when the region is entered
variable (V : (c : Dev nD) → (b : Ref sig .tc) → Buf (Elt F) ((c : Thread nD τ).loc b))

/-- Window w's block at position t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every position, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every position, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every position, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The views through which the two outputs' and the scratch's contents are stated. -/
abbrev VO0_3 : View sig .tc .vmem S1024x1 .f32 := (Memref.whole cc0_stg3_0 : Memref sig .tc .vmem S1024x1 .f32).view
abbrev VO0_4 : View sig .tc .vmem S1024x1 .f32 := (Memref.whole cc0_stg4_0 : Memref sig .tc .vmem S1024x1 .f32).view
abbrev scM0 : Memref sig .tc .vmem S1024x1 .f32 := Memref.whole cc0_scratch0
abbrev VS0 : View sig .tc .vmem S1024x1 .f32 := scM0.view
/-- Each window's current staging memref at position t, as the body is called with it. -/
abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)

/-- The sum of exponentials after a resetting run: the run's stores tile the buffer, so they cover it. -/
theorem out0_A_3cover (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond0_0 i)
    (x0 : Vec F S1024x2048 .bf16) (x1 : Vec F S1280x2048 .bf16) (x2 : Vec F S1x1280 .f32) (y : S1024x1.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S1024x1.size (by sl_kernel_rfl) y

/-- The sum of exponentials after a resetting run: what the buffer holds afterwards, the stored pieces read back. -/
def out0_A_3 (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond0_0 i)
    (x0 : Vec F S1024x2048 .bf16) (x1 : Vec F S1280x2048 .bf16) (x2 : Vec F S1x1280 .f32) : Vec F S1024x1 .f32 :=
  VO0_3.read (Elt F) (VO0_3.writes (Elt F) VO0_3.junk (kernelRun0_A c i arg2 harg2 arg3 harg3 arg4 harg4 arg5 harg5 arg6 harg6 arg7 harg7 hc0 x0 x1 x2).1)

/-- The row sum after a resetting run: the run's stores tile the buffer, so they cover it. -/
theorem out0_A_4cover (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond0_0 i)
    (x0 : Vec F S1024x2048 .bf16) (x1 : Vec F S1280x2048 .bf16) (x2 : Vec F S1x1280 .f32) (y : S1024x1.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S1024x1.size (by sl_kernel_rfl) y

/-- The row sum after a resetting run: what the buffer holds afterwards, the stored pieces read back. -/
def out0_A_4 (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond0_0 i)
    (x0 : Vec F S1024x2048 .bf16) (x1 : Vec F S1280x2048 .bf16) (x2 : Vec F S1x1280 .f32) : Vec F S1024x1 .f32 :=
  VO0_4.read (Elt F) (VO0_4.writes (Elt F) VO0_4.junk (kernelRun0_A c i arg2 harg2 arg3 harg3 arg4 harg4 arg5 harg5 arg6 harg6 arg7 harg7 hc0 x0 x1 x2).2.1)

/-- The row maximum after a resetting run: the run's stores tile the buffer, so they cover it. -/
theorem sout0_Acover (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond0_0 i)
    (x0 : Vec F S1024x2048 .bf16) (x1 : Vec F S1280x2048 .bf16) (x2 : Vec F S1x1280 .f32) (y : S1024x1.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S1024x1.size (by sl_kernel_rfl) y

/-- The row maximum after a resetting run: what the buffer holds afterwards, the stored pieces read back. -/
def sout0_A (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond0_0 i)
    (x0 : Vec F S1024x2048 .bf16) (x1 : Vec F S1280x2048 .bf16) (x2 : Vec F S1x1280 .f32) : Vec F S1024x1 .f32 :=
  VS0.read (Elt F) (VS0.writes (Elt F) VS0.junk (kernelRun0_A c i arg2 harg2 arg3 harg3 arg4 harg4 arg5 harg5 arg6 harg6 arg7 harg7 hc0 x0 x1 x2).2.2.1)

/-- The sum of exponentials after a continuing run: the run's stores tile the buffer, so they cover it. -/
theorem out0_B_3cover (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond0_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) (y : S1024x1.Idx) :
    ∃ pc ∈ (kernelRun0_B c i arg2 harg2 arg3 harg3 arg4 harg4 arg5 harg5 arg6 harg6 arg7 harg7 hc0 x0 x1 x2 xo3 xo4 xs0).1, y ∈ pc.1.set :=
  View.cover_of_tiledL (kernelRun0_B c i arg2 harg2 arg3 harg3 arg4 harg4 arg5 harg5 arg6 harg6 arg7 harg7 hc0 x0 x1 x2 xo3 xo4 xs0).1 S1024x1.size (by sl_kernel_rfl) y

/-- The sum of exponentials after a continuing run: what the buffer holds afterwards, the stored pieces read back. -/
def out0_B_3 (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond0_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) : Vec F S1024x1 .f32 :=
  VO0_3.read (Elt F) (VO0_3.writes (Elt F) VO0_3.junk (kernelRun0_B c i arg2 harg2 arg3 harg3 arg4 harg4 arg5 harg5 arg6 harg6 arg7 harg7 hc0 x0 x1 x2 xo3 xo4 xs0).1)

/-- The row sum after a continuing run: the run's stores tile the buffer, so they cover it. -/
theorem out0_B_4cover (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond0_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) (y : S1024x1.Idx) :
    ∃ pc ∈ (kernelRun0_B c i arg2 harg2 arg3 harg3 arg4 harg4 arg5 harg5 arg6 harg6 arg7 harg7 hc0 x0 x1 x2 xo3 xo4 xs0).2.1, y ∈ pc.1.set :=
  View.cover_of_tiledL (kernelRun0_B c i arg2 harg2 arg3 harg3 arg4 harg4 arg5 harg5 arg6 harg6 arg7 harg7 hc0 x0 x1 x2 xo3 xo4 xs0).2.1 S1024x1.size (by sl_kernel_rfl) y

/-- The row sum after a continuing run: what the buffer holds afterwards, the stored pieces read back. -/
def out0_B_4 (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond0_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 hc0 x0 x1 x2 xo3 xo4 xs0).2.1)

/-- The row maximum after a continuing run: the run's stores tile the buffer, so they cover it. -/
theorem sout0_Bcover (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond0_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) (y : S1024x1.Idx) :
    ∃ pc ∈ (kernelRun0_B c i arg2 harg2 arg3 harg3 arg4 harg4 arg5 harg5 arg6 harg6 arg7 harg7 hc0 x0 x1 x2 xo3 xo4 xs0).2.2.1, y ∈ pc.1.set :=
  View.cover_of_tiledL (kernelRun0_B c i arg2 harg2 arg3 harg3 arg4 harg4 arg5 harg5 arg6 harg6 arg7 harg7 hc0 x0 x1 x2 xo3 xo4 xs0).2.2.1 S1024x1.size (by sl_kernel_rfl) y

/-- The row maximum after a continuing run: what the buffer holds afterwards, the stored pieces read back. -/
def sout0_B (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond0_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) : Vec F S1024x1 .f32 :=
  VS0.read (Elt F) (VS0.writes (Elt F) VS0.junk (kernelRun0_B c i arg2 harg2 arg3 harg3 arg4 harg4 arg5 harg5 arg6 harg6 arg7 harg7 hc0 x0 x1 x2 xo3 xo4 xs0).2.2.1)

/-- What the two outputs' staging buffers and the scratch hold after the body at position n: (sum of exponentials,
    row sum, row maximum). -/
def outsAt0 (c : Dev nD) : (n : ℕ) → n < cfg0.N → Vec F S1024x1 .f32 × Vec F S1024x1 .f32 × Vec F S1024x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 25 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2.1 (outsAt0 c n (Nat.lt_of_succ_lt hn)).2.2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2.1 (outsAt0 c n (Nat.lt_of_succ_lt hn)).2.2)

/-- At a resetting position: the resetting run's contents. -/
theorem outsAt0_A (c : Dev nD) (t : Fin cfg0.N) (h0 : t.val % 25 = 0) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (iblk0 V c 0 t) (iblk0 V c 1 t) (iblk0 V c 2 t)) := by
  obtain ⟨n, hn⟩ := t
  cases n with
  | zero => exact rfl
  | succ n => exact (dif_pos h0).trans rfl

/-- At a continuing position: the continuing run's contents over what the position before left. -/
theorem outsAt0_B (c : Dev nD) (t : Fin cfg0.N) (h0 : ¬t.val % 25 = 0) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The core's other scoped buffers (the other call's staging buffers and scratch), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with this call's scratch singled out. -/
theorem PhiA0_eq (c : Dev nD) :
    (Pipeline.ΦA spec0 c : sProp 𝕄) = iprop(((∃ d, owns (c : Thread nD τ) scM0 fullShare d) ∗ others0 c) ∗ (∃ r, prngReg c r)) := by
  unfold Pipeline.ΦA; rw [scopedRest0_eq]; unfold others0; simp only [scM0, owns_whole]; try rfl

/-- The region's invariant before position n: before the first, the class's; afterwards the scratch at the row
    maximum the position before left, the other scoped buffers and the generator register at anything. -/
def PhiS0 (c : Dev nD) : (n : ℕ) → n ≤ cfg0.N → sProp 𝕄
  | 0, _ => Pipeline.ΦA spec0 c
  | n + 1, hn => iprop((owns (c : Thread nD τ) scM0 fullShare (outsAt0 V c n hn).2.2 ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (outsAt0 V c n hn).2.2 ∗ others0 c) ∗ (∃ r, prngReg c r)) := rfl

theorem PhiS0_pos (c : Dev nD) (n : ℕ) (h : n ≤ cfg0.N) (hz : n ≠ 0) :
    PhiS0 V c n h = iprop((owns (c : Thread nD τ) scM0 fullShare (outsAt0 V c (n - 1) (by omega)).2.2 ∗ others0 c) ∗ (∃ r, prngReg c r)) := by
  cases n with
  | zero => exact absurd rfl hz
  | succ n => rfl

/-- The region's proof data on core c: the arrays as the region finds them; after the body at position t each input's
    buffer at its block, the two outputs' at the running sums; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a continuing position an output's staging buffer holds what the body left at the position before: the buffer
    was not written back in between (write-backs happen after positions ≡ 24 mod 25 only). -/
theorem before0_3_B (c : Dev nD) (t : Fin cfg0.N) (h0 : ¬t.val % 25 = 0) (d) :
    (dat0 V c).before 3 t d = (outsAt0 V c (t.val - 1) (Nat.lt_of_le_of_lt (Nat.sub_le _ _) t.isLt)).1 := by
  have hN : t.val < 50 := lt_of_lt_of_eq t.isLt (show cfg0.N = 50 from N_0)
  rw [Dat.before_out_kept _ 3 rfl t (by omega) (Bool.eq_false_iff.mpr fun h => by have := (flush0_3 _).mp h; dsimp only at this; omega)
    (fun _ => rfl) (fun _ _ => rfl)]
  dsimp only [dat0]
theorem before0_4_B (c : Dev nD) (t : Fin cfg0.N) (h0 : ¬t.val % 25 = 0) (d) :
    (dat0 V c).before 4 t d = (outsAt0 V c (t.val - 1) (Nat.lt_of_le_of_lt (Nat.sub_le _ _) t.isLt)).2.1 := by
  have hN : t.val < 50 := lt_of_lt_of_eq t.isLt (show cfg0.N = 50 from N_0)
  rw [Dat.before_out_kept _ 4 rfl t (by omega) (Bool.eq_false_iff.mpr fun h => by have := (flush0_4 _).mp h; dsimp only at this; omega)
    (fun _ => rfl) (fun _ _ => rfl)]
  dsimp only [dat0]

end

end Cert.Kernel.Hand

end
-- ==== Proof.KB.Body0.lean ====
/-
  Call 0: the body at every grid position, against the region's proof data.

  At position t the body is handed the three input blocks, the two output staging buffers and, through the region's
  invariant, the scratch.  If t is the first tile of a row block (t % 25 = 0) the three carried buffers may hold
  anything and the resetting run applies; otherwise they hold what position t - 1 left (the outputs were not written
  back in between, the invariant names the scratch's contents) and the continuing run applies.  Either way the
  buffers end at the contents defined for position t, and the invariant for position t + 1 is re-established.
-/
import proofs.«174775_j19164144075542_1_alg».proof.Proof.KB.Frame0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at position t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 4800000 in
/-- The body at any position. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4]
  have hN : t.val < 50 := lt_of_lt_of_eq t.isLt (show cfg0.N = 50 from N_0)
  by_cases h0 : t.val % 25 = 0
  · rw [outsAt0_A V c t h0]
    unfold out0_A_3 out0_A_4 sout0_A; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk0 V c 0 t) (iblk0 V c 1 t) (iblk0 V c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (sout0_Acover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (out0_A_3cover c _ _ _ _ _ _ _ _ _ _ _ _ _ _ _ _ _)
      unfold owns; iexists _; isplitr
      swap; · iexact H4
      ipureintro; exact View.read_writes_of_cover _ _ _ _ _ (out0_A_4cover c _ _ _ _ _ _ _ _ _ _ _ _ _ _ _ _ _)
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk0 V c 0 t) (iblk0 V c 1 t) (iblk0 V c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      iintro ⟨H0, H1, H2, ⟨%e3, H3⟩, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (sout0_Acover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (out0_A_3cover c _ _ _ _ _ _ _ _ _ _ _ _ _ _ _ _ _)
      unfold owns; iexists _; isplitr
      swap; · iexact H4
      ipureintro; exact View.read_writes_of_cover _ _ _ _ _ (out0_A_4cover c _ _ _ _ _ _ _ _ _ _ _ _ _ _ _ _ _)
  · rw [outsAt0_B V c t h0]
    simp only [before0_3_B V c t h0, before0_4_B V c t h0]
    unfold out0_B_3 out0_B_4 sout0_B; (try dsimp only)
    have hz : t.val ≠ 0 := fun h => h0 (by rw [h])
    rw [PhiS0_castSucc V c t, PhiS0_pos V c _ _ hz]
    iintro ⟨⟨⟨HS0, Hoth⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk0 V c 0 t) (iblk0 V c 1 t) (iblk0 V c 2 t) _ _ _).2.2.2 Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, ⟨%e3, H3⟩, ⟨%e4, H4⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (sout0_Bcover c _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (out0_B_3cover c _ _ _ _ _ _ _ _ _ _ _ _ _ _ _ _ _ _ _ _)
    unfold owns; iexists _; isplitr
    swap; · iexact H4
    ipureintro; exact View.read_writes_of_cover _ _ _ _ _ (out0_B_4cover c _ _ _ _ _ _ _ _ _ _ _ _ _ _ _ _ _ _ _ _)

/-- The library's body obligation, at every position. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first position. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last position the invariant gives the class's back: the scratch's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  iintro ⟨⟨HS0, Hoth⟩, Hg⟩
  isplitl [HS0 Hoth]
  · isplitl [HS0]; · iexists _; iexact HS0
    iexact Hoth
  iexact Hg

end

end Cert.Kernel.Hand

end
-- ==== Proof.KB.Run1A.lean ====
/-
  Call 1, a resetting point (t = 0), run as a whole on any staging memrefs.

  The first tile of a row block: the body first stores -∞ into the running row maximum and 0 into the running sum of
  exponentials and the running row sum, whatever they held, and then does what every point does — forms the tile of
  logits, adds the row sums, raises the maximum, rescales and adds the exponentials.  Nothing it reads of the three
  carried buffers predates its own stores.
-/
import proofs.«174775_j19164144075542_1_alg».proof.Proof.KB.Cond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the inputs at their blocks and the three carried buffers at anything, the body runs to its return: inputs
    untouched, each carried buffer covered by the body's own whole stores; the stored pieces are found by the run. -/
noncomputable def kernelRun1_A (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : cond1_0 i)
    (x0 : Vec F S1024x2048 .bf16) (x1 : Vec F S1280x2048 .bf16) (x2 : Vec F S1x1280 .f32) :
    Σ' (L3 : List (View.Piece (Elt F) S1024x1 .f32)) (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__fused_logit_stats_kernel i arg2 harg2 arg3 harg3 arg4 harg4 arg5 harg5 arg6 harg6 arg7 harg7) K } := by
  refine ⟨?_, ?_, ?_, fun E K => ?run⟩
  case run =>
    simp only [cc1__fused_logit_stats_kernel_eq_skeleton]; unfold cc1__fused_logit_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.KB.Run1B.lean ====
/-
  Call 1, a continuing point (t > 0), run as a whole on any staging memrefs.

  The body holds a block of 1024 activation rows, a tile of 1280 weight rows and the matching biases.  It forms the
  1024 × 1280 tile of logits (a product over the 2048 hidden coordinates plus the bias), adds each row's sum to the
  running row sum, raises the running row maximum to cover the tile, rescales the running sum of exponentials by
  exp(old maximum - new maximum) and adds the tile's exponentials taken relative to the new maximum.  The three carried
  buffers are read before they are rewritten, each by one whole store.
-/
import proofs.«174775_j19164144075542_1_alg».proof.Proof.KB.Cond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the inputs at their blocks and the two running sums and the running maximum at what the point before left,
    the body runs to its return: inputs untouched, each carried buffer rewritten whole; the stored pieces are found by
    the run. -/
noncomputable def kernelRun1_B (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬cond1_0 i)
    (x0 : Vec F S1024x2048 .bf16) (x1 : Vec F S1280x2048 .bf16) (x2 : Vec F S1x1280 .f32)
    (xo3 : Vec F S1024x1 .f32) (xo4 : Vec F S1024x1 .f32) (xs0 : Vec F S1024x1 .f32) :
    Σ' (L3 : List (View.Piece (Elt F) S1024x1 .f32)) (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__fused_logit_stats_kernel i arg2 harg2 arg3 harg3 arg4 harg4 arg5 harg5 arg6 harg6 arg7 harg7) K } := by
  refine ⟨?_, ?_, ?_, fun E K => ?run⟩
  case run =>
    simp only [cc1__fused_logit_stats_kernel_eq_skeleton]; unfold cc1__fused_logit_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.Hand

end
-- ==== Proof.KB.Frame1.lean ====
/-
  Call 1 of the statistics kernel as a region of the host program: what its buffers hold after every grid point.

  The grid is walked in row-major order: position n is row block n / 25, vocabulary tile n % 25.  The two output
  windows (the running sum of exponentials and the running row sum of a row block) and the scratch (the running row
  maximum) are carried from a position to the next while the row block stays the same, are reset by the body at the
  first tile of a row block, and the two outputs are written back after the last tile (n % 25 = 24).  The contents
  after position n are defined by recursion on n: the resetting run at n % 25 = 0, otherwise the continuing run over
  what position n - 1 left.  The region's invariant between positions holds the scratch at exactly that value.
-/
import proofs.«174775_j19164144075542_1_alg».proof.Proof.KB.Run1A
import proofs.«174775_j19164144075542_1_alg».proof.Proof.KB.Run1B
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- core c's buffers when the region is entered
variable (V : (c : Dev nD) → (b : Ref sig .tc) → Buf (Elt F) ((c : Thread nD τ).loc b))

/-- Window w's block at position t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every position, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every position, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every position, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The views through which the two outputs' and the scratch's contents are stated. -/
abbrev VO1_3 : View sig .tc .vmem S1024x1 .f32 := (Memref.whole cc1_stg3_0 : Memref sig .tc .vmem S1024x1 .f32).view
abbrev VO1_4 : View sig .tc .vmem S1024x1 .f32 := (Memref.whole cc1_stg4_0 : Memref sig .tc .vmem S1024x1 .f32).view
abbrev scM1 : Memref sig .tc .vmem S1024x1 .f32 := Memref.whole cc1_scratch0
abbrev VS1 : View sig .tc .vmem S1024x1 .f32 := scM1.view
/-- Each window's current staging memref at position t, as the body is called with it. -/
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)

/-- The sum of exponentials after a resetting run: the run's stores tile the buffer, so they cover it. -/
theorem out1_A_3cover (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond1_0 i)
    (x0 : Vec F S1024x2048 .bf16) (x1 : Vec F S1280x2048 .bf16) (x2 : Vec F S1x1280 .f32) (y : S1024x1.Idx) :
    ∃ pc ∈ (kernelRun1_A c i arg2 harg2 arg3 harg3 arg4 harg4 arg5 harg5 arg6 harg6 arg7 harg7 hc0 x0 x1 x2).1, y ∈ pc.1.set :=
  View.cover_of_tiledL (kernelRun1_A c i arg2 harg2 arg3 harg3 arg4 harg4 arg5 harg5 arg6 harg6 arg7 harg7 hc0 x0 x1 x2).1 S1024x1.size (by sl_kernel_rfl) y

/-- The sum of exponentials after a resetting run: what the buffer holds afterwards, the stored pieces read back. -/
def out1_A_3 (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond1_0 i)
    (x0 : Vec F S1024x2048 .bf16) (x1 : Vec F S1280x2048 .bf16) (x2 : Vec F S1x1280 .f32) : Vec F S1024x1 .f32 :=
  VO1_3.read (Elt F) (VO1_3.writes (Elt F) VO1_3.junk (kernelRun1_A c i arg2 harg2 arg3 harg3 arg4 harg4 arg5 harg5 arg6 harg6 arg7 harg7 hc0 x0 x1 x2).1)

/-- The row sum after a resetting run: the run's stores tile the buffer, so they cover it. -/
theorem out1_A_4cover (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond1_0 i)
    (x0 : Vec F S1024x2048 .bf16) (x1 : Vec F S1280x2048 .bf16) (x2 : Vec F S1x1280 .f32) (y : S1024x1.Idx) :
    ∃ pc ∈ (kernelRun1_A c i arg2 harg2 arg3 harg3 arg4 harg4 arg5 harg5 arg6 harg6 arg7 harg7 hc0 x0 x1 x2).2.1, y ∈ pc.1.set :=
  View.cover_of_tiledL (kernelRun1_A c i arg2 harg2 arg3 harg3 arg4 harg4 arg5 harg5 arg6 harg6 arg7 harg7 hc0 x0 x1 x2).2.1 S1024x1.size (by sl_kernel_rfl) y

/-- The row sum after a resetting run: what the buffer holds afterwards, the stored pieces read back. -/
def out1_A_4 (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond1_0 i)
    (x0 : Vec F S1024x2048 .bf16) (x1 : Vec F S1280x2048 .bf16) (x2 : Vec F S1x1280 .f32) : Vec F S1024x1 .f32 :=
  VO1_4.read (Elt F) (VO1_4.writes (Elt F) VO1_4.junk (kernelRun1_A c i arg2 harg2 arg3 harg3 arg4 harg4 arg5 harg5 arg6 harg6 arg7 harg7 hc0 x0 x1 x2).2.1)

/-- The row maximum after a resetting run: the run's stores tile the buffer, so they cover it. -/
theorem sout1_Acover (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond1_0 i)
    (x0 : Vec F S1024x2048 .bf16) (x1 : Vec F S1280x2048 .bf16) (x2 : Vec F S1x1280 .f32) (y : S1024x1.Idx) :
    ∃ pc ∈ (kernelRun1_A c i arg2 harg2 arg3 harg3 arg4 harg4 arg5 harg5 arg6 harg6 arg7 harg7 hc0 x0 x1 x2).2.2.1, y ∈ pc.1.set :=
  View.cover_of_tiledL (kernelRun1_A c i arg2 harg2 arg3 harg3 arg4 harg4 arg5 harg5 arg6 harg6 arg7 harg7 hc0 x0 x1 x2).2.2.1 S1024x1.size (by sl_kernel_rfl) y

/-- The row maximum after a resetting run: what the buffer holds afterwards, the stored pieces read back. -/
def sout1_A (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond1_0 i)
    (x0 : Vec F S1024x2048 .bf16) (x1 : Vec F S1280x2048 .bf16) (x2 : Vec F S1x1280 .f32) : Vec F S1024x1 .f32 :=
  VS1.read (Elt F) (VS1.writes (Elt F) VS1.junk (kernelRun1_A c i arg2 harg2 arg3 harg3 arg4 harg4 arg5 harg5 arg6 harg6 arg7 harg7 hc0 x0 x1 x2).2.2.1)

/-- The sum of exponentials after a continuing run: the run's stores tile the buffer, so they cover it. -/
theorem out1_B_3cover (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond1_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) (y : S1024x1.Idx) :
    ∃ pc ∈ (kernelRun1_B c i arg2 harg2 arg3 harg3 arg4 harg4 arg5 harg5 arg6 harg6 arg7 harg7 hc0 x0 x1 x2 xo3 xo4 xs0).1, y ∈ pc.1.set :=
  View.cover_of_tiledL (kernelRun1_B c i arg2 harg2 arg3 harg3 arg4 harg4 arg5 harg5 arg6 harg6 arg7 harg7 hc0 x0 x1 x2 xo3 xo4 xs0).1 S1024x1.size (by sl_kernel_rfl) y

/-- The sum of exponentials after a continuing run: what the buffer holds afterwards, the stored pieces read back. -/
def out1_B_3 (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond1_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) : Vec F S1024x1 .f32 :=
  VO1_3.read (Elt F) (VO1_3.writes (Elt F) VO1_3.junk (kernelRun1_B c i arg2 harg2 arg3 harg3 arg4 harg4 arg5 harg5 arg6 harg6 arg7 harg7 hc0 x0 x1 x2 xo3 xo4 xs0).1)

/-- The row sum after a continuing run: the run's stores tile the buffer, so they cover it. -/
theorem out1_B_4cover (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond1_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) (y : S1024x1.Idx) :
    ∃ pc ∈ (kernelRun1_B c i arg2 harg2 arg3 harg3 arg4 harg4 arg5 harg5 arg6 harg6 arg7 harg7 hc0 x0 x1 x2 xo3 xo4 xs0).2.1, y ∈ pc.1.set :=
  View.cover_of_tiledL (kernelRun1_B c i arg2 harg2 arg3 harg3 arg4 harg4 arg5 harg5 arg6 harg6 arg7 harg7 hc0 x0 x1 x2 xo3 xo4 xs0).2.1 S1024x1.size (by sl_kernel_rfl) y

/-- The row sum after a continuing run: what the buffer holds afterwards, the stored pieces read back. -/
def out1_B_4 (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond1_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) : Vec F S1024x1 .f32 :=
  VO1_4.read (Elt F) (VO1_4.writes (Elt F) VO1_4.junk (kernelRun1_B c i arg2 harg2 arg3 harg3 arg4 harg4 arg5 harg5 arg6 harg6 arg7 harg7 hc0 x0 x1 x2 xo3 xo4 xs0).2.1)

/-- The row maximum after a continuing run: the run's stores tile the buffer, so they cover it. -/
theorem sout1_Bcover (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond1_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) (y : S1024x1.Idx) :
    ∃ pc ∈ (kernelRun1_B c i arg2 harg2 arg3 harg3 arg4 harg4 arg5 harg5 arg6 harg6 arg7 harg7 hc0 x0 x1 x2 xo3 xo4 xs0).2.2.1, y ∈ pc.1.set :=
  View.cover_of_tiledL (kernelRun1_B c i arg2 harg2 arg3 harg3 arg4 harg4 arg5 harg5 arg6 harg6 arg7 harg7 hc0 x0 x1 x2 xo3 xo4 xs0).2.2.1 S1024x1.size (by sl_kernel_rfl) y

/-- The row maximum after a continuing run: what the buffer holds afterwards, the stored pieces read back. -/
def sout1_B (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond1_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) : Vec F S1024x1 .f32 :=
  VS1.read (Elt F) (VS1.writes (Elt F) VS1.junk (kernelRun1_B c i arg2 harg2 arg3 harg3 arg4 harg4 arg5 harg5 arg6 harg6 arg7 harg7 hc0 x0 x1 x2 xo3 xo4 xs0).2.2.1)

/-- What the two outputs' staging buffers and the scratch hold after the body at position n: (sum of exponentials,
    row sum, row maximum). -/
def outsAt1 (c : Dev nD) : (n : ℕ) → n < cfg1.N → Vec F S1024x1 .f32 × Vec F S1024x1 .f32 × Vec F S1024x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 25 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2)

/-- At a resetting position: the resetting run's contents. -/
theorem outsAt1_A (c : Dev nD) (t : Fin cfg1.N) (h0 : t.val % 25 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

/-- At a continuing position: the continuing run's contents over what the position before left. -/
theorem outsAt1_B (c : Dev nD) (t : Fin cfg1.N) (h0 : ¬t.val % 25 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The core's other scoped buffers (the other call's staging buffers and scratch), each whole at some contents. -/
def others1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ X)

/-- The class invariant with this call's scratch singled out. -/
theorem PhiA1_eq (c : Dev nD) :
    (Pipeline.ΦA spec1 c : sProp 𝕄) = iprop((others1 c iprop(∃ d, owns (c : Thread nD τ) scM1 fullShare d)) ∗ (∃ r, prngReg c r)) := by
  unfold Pipeline.ΦA; rw [scopedRest1_eq]; unfold others1; simp only [scM1, owns_whole]; try rfl

/-- The region's invariant before position n: before the first, the class's; afterwards the scratch at the row
    maximum the position before left, the other scoped buffers and the generator register at anything. -/
def PhiS1 (c : Dev nD) : (n : ℕ) → n ≤ cfg1.N → sProp 𝕄
  | 0, _ => Pipeline.ΦA spec1 c
  | n + 1, hn => iprop((others1 c (owns (c : Thread nD τ) scM1 fullShare (outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((others1 c (owns (c : Thread nD τ) scM1 fullShare (outsAt1 V c n hn).2.2)) ∗ (∃ r, prngReg c r)) := rfl

theorem PhiS1_pos (c : Dev nD) (n : ℕ) (h : n ≤ cfg1.N) (hz : n ≠ 0) :
    PhiS1 V c n h = iprop((others1 c (owns (c : Thread nD τ) scM1 fullShare (outsAt1 V c (n - 1) (by omega)).2.2)) ∗ (∃ r, prngReg c r)) := by
  cases n with
  | zero => exact absurd rfl hz
  | succ n => rfl

/-- The region's proof data on core c: the arrays as the region finds them; after the body at position t each input's
    buffer at its block, the two outputs' at the running sums; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a continuing position an output's staging buffer holds what the body left at the position before: the buffer
    was not written back in between (write-backs happen after positions ≡ 24 mod 25 only). -/
theorem before1_3_B (c : Dev nD) (t : Fin cfg1.N) (h0 : ¬t.val % 25 = 0) (d) :
    (dat1 V c).before 3 t d = (outsAt1 V c (t.val - 1) (Nat.lt_of_le_of_lt (Nat.sub_le _ _) t.isLt)).1 := by
  have hN : t.val < 50 := lt_of_lt_of_eq t.isLt (show cfg1.N = 50 from N_1)
  rw [Dat.before_out_kept _ 3 rfl t (by omega) (Bool.eq_false_iff.mpr fun h => by have := (flush1_3 _).mp h; dsimp only at this; omega)
    (fun _ => rfl) (fun _ _ => rfl)]
  dsimp only [dat1]
theorem before1_4_B (c : Dev nD) (t : Fin cfg1.N) (h0 : ¬t.val % 25 = 0) (d) :
    (dat1 V c).before 4 t d = (outsAt1 V c (t.val - 1) (Nat.lt_of_le_of_lt (Nat.sub_le _ _) t.isLt)).2.1 := by
  have hN : t.val < 50 := lt_of_lt_of_eq t.isLt (show cfg1.N = 50 from N_1)
  rw [Dat.before_out_kept _ 4 rfl t (by omega) (Bool.eq_false_iff.mpr fun h => by have := (flush1_4 _).mp h; dsimp only at this; omega)
    (fun _ => rfl) (fun _ _ => rfl)]
  dsimp only [dat1]

end

end Cert.Kernel.Hand

end
-- ==== Proof.KB.Body1.lean ====
/-
  Call 1: the body at every grid position, against the region's proof data.

  At position t the body is handed the three input blocks, the two output staging buffers and, through the region's
  invariant, the scratch.  If t is the first tile of a row block (t % 25 = 0) the three carried buffers may hold
  anything and the resetting run applies; otherwise they hold what position t - 1 left (the outputs were not written
  back in between, the invariant names the scratch's contents) and the continuing run applies.  Either way the
  buffers end at the contents defined for position t, and the invariant for position t + 1 is re-established.
-/
import proofs.«174775_j19164144075542_1_alg».proof.Proof.KB.Frame1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at position t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any position. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  have hN : t.val < 50 := lt_of_lt_of_eq t.isLt (show cfg1.N = 50 from N_1)
  by_cases h0 : t.val % 25 = 0
  · rw [outsAt1_A V c t h0]
    unfold out1_A_3 out1_A_4 sout1_A; (try dsimp only)
    by_cases hz : t.val = 0
    · rw [PhiS1_castSucc V c t, PhiS1_zero V c _ _ hz, PhiA1_eq]
      unfold others1
      iintro ⟨⟨⟨Hq0, Hq1, Hq2, Hq3, Hq4, Hq5, Hq6, Hq7, Hq8, Hq9, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hq0 Hq1 Hq2 Hq3 Hq4 Hq5 Hq6 Hq7 Hq8 Hq9 Hg]
      · isplitl [HS0 Hq0 Hq1 Hq2 Hq3 Hq4 Hq5 Hq6 Hq7 Hq8 Hq9]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          unfold owns; iexists _; isplitr
          swap; · iexact HS0
          ipureintro; exact View.read_writes_of_cover _ _ _ _ _ (sout1_Acover c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (out1_A_3cover c _ _ _ _ _ _ _ _ _ _ _ _ _ _ _ _ _)
      unfold owns; iexists _; isplitr
      swap; · iexact H4
      ipureintro; exact View.read_writes_of_cover _ _ _ _ _ (out1_A_4cover c _ _ _ _ _ _ _ _ _ _ _ _ _ _ _ _ _)
    · rw [PhiS1_castSucc V c t, PhiS1_pos V c _ _ hz]
      unfold others1
      iintro ⟨⟨⟨Hq0, Hq1, Hq2, Hq3, Hq4, Hq5, Hq6, Hq7, Hq8, Hq9, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      iintro ⟨H0, H1, H2, ⟨%e3, H3⟩, ⟨%e4, H4⟩, ⟨%es0, HS0⟩⟩
      isplitl [HS0 Hq0 Hq1 Hq2 Hq3 Hq4 Hq5 Hq6 Hq7 Hq8 Hq9 Hg]
      · isplitl [HS0 Hq0 Hq1 Hq2 Hq3 Hq4 Hq5 Hq6 Hq7 Hq8 Hq9]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          unfold owns; iexists _; isplitr
          swap; · iexact HS0
          ipureintro; exact View.read_writes_of_cover _ _ _ _ _ (sout1_Acover c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (out1_A_3cover c _ _ _ _ _ _ _ _ _ _ _ _ _ _ _ _ _)
      unfold owns; iexists _; isplitr
      swap; · iexact H4
      ipureintro; exact View.read_writes_of_cover _ _ _ _ _ (out1_A_4cover c _ _ _ _ _ _ _ _ _ _ _ _ _ _ _ _ _)
  · rw [outsAt1_B V c t h0]
    simp only [before1_3_B V c t h0, before1_4_B V c t h0]
    unfold out1_B_3 out1_B_4 sout1_B; (try dsimp only)
    have hz : t.val ≠ 0 := fun h => h0 (by rw [h])
    rw [PhiS1_castSucc V c t, PhiS1_pos V c _ _ hz]
    unfold others1
    iintro ⟨⟨⟨Hq0, Hq1, Hq2, Hq3, Hq4, Hq5, Hq6, Hq7, Hq8, Hq9, HS0⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (fun h => h0 ((hcond1_0 t).mp h)) (iblk1 V c 0 t) (iblk1 V c 1 t) (iblk1 V c 2 t) _ _ _).2.2.2 Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, ⟨%e3, H3⟩, ⟨%e4, H4⟩, ⟨%es0, HS0⟩⟩
    isplitl [HS0 Hq0 Hq1 Hq2 Hq3 Hq4 Hq5 Hq6 Hq7 Hq8 Hq9 Hg]
    · isplitl [HS0 Hq0 Hq1 Hq2 Hq3 Hq4 Hq5 Hq6 Hq7 Hq8 Hq9]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        unfold owns; iexists _; isplitr
        swap; · iexact HS0
        ipureintro; exact View.read_writes_of_cover _ _ _ _ _ (sout1_Bcover c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (out1_B_3cover c _ _ _ _ _ _ _ _ _ _ _ _ _ _ _ _ _ _ _ _)
    unfold owns; iexists _; isplitr
    swap; · iexact H4
    ipureintro; exact View.read_writes_of_cover _ _ _ _ _ (out1_B_4cover c _ _ _ _ _ _ _ _ _ _ _ _ _ _ _ _ _ _ _ _)

/-- The library's body obligation, at every position. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last position the invariant gives the class's back: the scratch's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 50 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  unfold others1
  iintro ⟨⟨Hq0, Hq1, Hq2, Hq3, Hq4, Hq5, Hq6, Hq7, Hq8, Hq9, HS0⟩, Hg⟩
  isplitl [HS0 Hq0 Hq1 Hq2 Hq3 Hq4 Hq5 Hq6 Hq7 Hq8 Hq9]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    iexists _; iexact HS0
  iexact Hg

end

end Cert.Kernel.Hand

end
-- ==== Proof.KB.Region.lean ====
/-
  The two calls of the statistics kernel as segments of the host program, and the contents they leave.

  The host program is: a few host operations (reshape and format changes of the first model's inputs), call 0, the same
  host operations for the second model, call 1, then the scalar tail.  Between two items every unscoped buffer is held
  at a named contents; a call changes only its two result arrays, to what the pipeline has written back after the last
  grid position (the library's fold of the write-backs over the proof data), and leaves every other buffer alone.
-/
import proofs.«174775_j19164144075542_1_alg».proof.Proof.KB.Body0
import proofs.«174775_j19164144075542_1_alg».proof.Proof.KB.Body1
import proofs.«174775_j19164144075542_1_alg».proof.Proof.Gen.Kernel.Regions
import Idealize.ShloMosaic.Lib.Pipeline.FrameSuffix
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱h : Variants := Variants.none
/-- No core owes another anything: no level is assigned. -/
abbrev Lh : GSem nD τ sig → Finset Unit := fun _ => ∅
abbrev lvh : GSem nD τ sig → Unit → ℕ := fun _ _ => 0
/-- What rides beside the buffers through every item: the generator register at some state and the core owing nothing. -/
abbrev Rr (c : Dev nD) : sProp 𝕄 := iprop((∃ r, prngReg c r) ∗ ∃ W, owes (c : Thread nD τ) (0 : CellTallies nD τ sig Unit) W)

/-- Core c's buffers when call 0 is entered, read at the TensorCore's references. -/
abbrev VR1 : (c : Dev nD) → (b : Ref sig .tc) → Buf (Elt F) ((c : Thread nD τ).loc b) := fun c b => V1 m c b
/-- At call 0's exit: its arrays at what the pipeline leaves, every other buffer as entered. -/
def W2 (c : Dev nD) : Valuation τ sig (Elt F) :=
  Pipeline.withArrays spec0 c (V1 m c) fun w => (dat0 (VR1 m) c).arrAt w cfg0.N
/-- What call 0 leaves, as the unknowns of the host-side valuations. -/
def outsA : Outs (F := F) := fun _ r c => W2 m c (Proc.devRef .tc r)
/-- Core c's buffers when call 1 is entered. -/
abbrev VR3 : (c : Dev nD) → (b : Ref sig .tc) → Buf (Elt F) ((c : Thread nD τ).loc b) := fun c b => V3 m (outsA m) c b
/-- At call 1's exit. -/
def W4 (c : Dev nD) : Valuation τ sig (Elt F) :=
  Pipeline.withArrays spec1 c (V3 m (outsA m) c) fun w => (dat1 (VR3 m) c).arrAt w cfg1.N
/-- What the two calls leave: call 0's arrays after item 1, call 1's after item 3. -/
def outsH : Outs (F := F) := fun J r c => if J = 2 then W2 m c (Proc.devRef .tc r) else W4 m c (Proc.devRef .tc r)

theorem V3_outsH (c : Dev nD) : V3 m (outsH m) c = V3 m (outsA m) c := rfl

theorem outsH_v5_0 (c : Dev nD) : outsH m 2 main_v5_0 c = (dat0 (VR1 m) c).arrAt 3 cfg0.N := by
  unfold outsH; rw [if_pos rfl]; unfold W2
  exact Pipeline.withArrays_arr spec0 launch0.win.arr_inj c _ _ 3
theorem outsH_v5_1 (c : Dev nD) : outsH m 2 main_v5_1 c = (dat0 (VR1 m) c).arrAt 4 cfg0.N := by
  unfold outsH; rw [if_pos rfl]; unfold W2
  exact Pipeline.withArrays_arr spec0 launch0.win.arr_inj c _ _ 4
theorem outsH_v9_0 (c : Dev nD) : outsH m 4 main_v9_0 c = (dat1 (VR3 m) c).arrAt 3 cfg1.N := by
  unfold outsH; rw [if_neg (by decide)]; unfold W4
  exact Pipeline.withArrays_arr spec1 launch1.win.arr_inj c _ _ 3
theorem outsH_v9_1 (c : Dev nD) : outsH m 4 main_v9_1 c = (dat1 (VR3 m) c).arrAt 4 cfg1.N := by
  unfold outsH; rw [if_neg (by decide)]; unfold W4
  exact Pipeline.withArrays_arr spec1 launch1.win.arr_inj c _ _ 4

/-- After call 0 each of its arrays holds what the pipeline leaves: the inputs what they held, the results the write-backs. -/
theorem hF0 (c : Dev nD) (w : Fin cfg0.W) : (dat0 (VR1 m) c).arrAt w cfg0.N = V2 m (outsH m) c (Pipeline.arrRef spec0 w) := by
  match w with
  | ⟨0, _⟩ => exact ((dat0 (VR1 m) c).arrAt_in 0 rfl _).trans ((A_eq0 (VR1 m) c 0).trans (V2_of m (outsH m) c _ (by decide)).symm)
  | ⟨1, _⟩ => exact ((dat0 (VR1 m) c).arrAt_in 1 rfl _).trans ((A_eq0 (VR1 m) c 1).trans (V2_of m (outsH m) c _ (by decide)).symm)
  | ⟨2, _⟩ => exact ((dat0 (VR1 m) c).arrAt_in 2 rfl _).trans ((A_eq0 (VR1 m) c 2).trans (V2_of m (outsH m) c _ (by decide)).symm)
  | ⟨3, _⟩ =>
    refine (outsH_v5_0 m c).symm.trans ?_
    show _ = Function.update (Function.update (V1 m c) main_v5_0 (outsH m 2 main_v5_0 c)) main_v5_1 (outsH m 2 main_v5_1 c) main_v5_0
    rw [Function.update_of_ne (StableHlo.devRef_ne_of_ne (by decide)), Function.update_self]
  | ⟨4, _⟩ =>
    refine (outsH_v5_1 m c).symm.trans ?_
    show _ = Function.update (Function.update (V1 m c) main_v5_0 (outsH m 2 main_v5_0 c)) main_v5_1 (outsH m 2 main_v5_1 c) main_v5_1
    rw [Function.update_self]
theorem hrest0 (c : Dev nD) : ∀ b, b ∉ Finset.univ.image (Pipeline.arrRef spec0) → V2 m (outsH m) c b = V1 m c b := fun b hb =>
  V2_of m (outsH m) c b (by
    intro h
    simp only [List.mem_cons, List.mem_nil_iff, or_false] at h
    rcases h with rfl | rfl
    · exact hb (Finset.mem_image.mpr ⟨3, Finset.mem_univ _, rfl⟩)
    · exact hb (Finset.mem_image.mpr ⟨4, Finset.mem_univ _, rfl⟩))

theorem hF1 (c : Dev nD) (w : Fin cfg1.W) : (dat1 (VR3 m) c).arrAt w cfg1.N = V4 m (outsH m) c (Pipeline.arrRef spec1 w) := by
  match w with
  | ⟨0, _⟩ => exact ((dat1 (VR3 m) c).arrAt_in 0 rfl _).trans ((A_eq1 (VR3 m) c 0).trans (V4_of m (outsH m) c _ (by decide)).symm)
  | ⟨1, _⟩ => exact ((dat1 (VR3 m) c).arrAt_in 1 rfl _).trans ((A_eq1 (VR3 m) c 1).trans (V4_of m (outsH m) c _ (by decide)).symm)
  | ⟨2, _⟩ => exact ((dat1 (VR3 m) c).arrAt_in 2 rfl _).trans ((A_eq1 (VR3 m) c 2).trans (V4_of m (outsH m) c _ (by decide)).symm)
  | ⟨3, _⟩ =>
    refine (outsH_v9_0 m c).symm.trans ?_
    show _ = Function.update (Function.update (V3 m (outsH m) c) main_v9_0 (outsH m 4 main_v9_0 c)) main_v9_1 (outsH m 4 main_v9_1 c) main_v9_0
    rw [Function.update_of_ne (StableHlo.devRef_ne_of_ne (by decide)), Function.update_self]
  | ⟨4, _⟩ =>
    refine (outsH_v9_1 m c).symm.trans ?_
    show _ = Function.update (Function.update (V3 m (outsH m) c) main_v9_0 (outsH m 4 main_v9_0 c)) main_v9_1 (outsH m 4 main_v9_1 c) main_v9_1
    rw [Function.update_self]
theorem hrest1 (c : Dev nD) : ∀ b, b ∉ Finset.univ.image (Pipeline.arrRef spec1) → V4 m (outsH m) c b = V3 m (outsA m) c b := fun b hb =>
  V4_of m (outsH m) c b (by
    intro h
    simp only [List.mem_cons, List.mem_nil_iff, or_false] at h
    rcases h with rfl | rfl
    · exact hb (Finset.mem_image.mpr ⟨3, Finset.mem_univ _, rfl⟩)
    · exact hb (Finset.mem_image.mpr ⟨4, Finset.mem_univ _, rfl⟩))

/-- Both calls' proof data, each at its entry contents. -/
def pdats : (p : Fin 2) → (c : Dev nD) → Dat τ (Elt F) Unit ℕ (UR sig nD τ) ℕ (Pipeline.pin (pcfgs (F := F)) adm p) c
  | ⟨0, _⟩ => fun c => dat0 (VR1 m) c
  | ⟨1, _⟩ => fun c => dat1 (VR3 m) c

-- applying a library lemma stated over the pinned configuration unifies only when plain definitions in a
-- metavariable's type may be unfolded
set_option backward.isDefEq.respectTransparency.types false in
/-- Call 0 as a segment of the host program: entered with every unscoped buffer at the contents before it, left with
    the two result arrays at what the pipeline wrote back and everything else unchanged.  The generator register goes
    into the region's invariant and comes back; nothing is owed; the kernel has no semaphore of its own. -/
def reg0 : Pipeline.RegionSeg (pcfgs (F := F)) adm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ Lh lvh 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outsH m) c) ∗ Rr c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VR1 m) c)
    unfold Pipeline.ΦA
    iintro ⟨Hp, -, Hr⟩
    isplitl [Hr]; · iexact Hr
    iexact Hp
  hout c := by
    refine BIBase.Entails.trans (hout0 (VR1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (fun b => (V2 m (outsH m) c) b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies only when plain definitions in a
-- metavariable's type may be unfolded
set_option backward.isDefEq.respectTransparency.types false in
/-- Call 1 as a segment of the host program: entered with every unscoped buffer at the contents before it, left with
    the two result arrays at what the pipeline wrote back and everything else unchanged.  The generator register goes
    into the region's invariant and comes back; nothing is owed; the kernel has no semaphore of its own. -/
def reg1 : Pipeline.RegionSeg (pcfgs (F := F)) adm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (VR3 m) c).loose
  hwaits := Pipeline.hwaits_of_owed_zero _ _ _ _ Lh lvh 1 fun _ _ => rfl
  pre c := iprop(StableHlo.held (c : Thread nD τ) (Pipeline.ucRefs τ sig) (V3 m (outsA m) c) ∗ Rr c)
  post c := iprop(StableHlo.held (c : Thread nD τ) (Pipeline.ucRefs τ sig) (V4 m (outsH m) c) ∗ Rr c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VR3 m) c)
    unfold Pipeline.ΦA
    iintro ⟨Hp, -, Hr⟩
    isplitl [Hr]; · iexact Hr
    iexact Hp
  hout c := by
    refine BIBase.Entails.trans (hout1 (VR3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR3 m c) (fun b => (V4 m (outsH m) c) b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The launch makes the riding state on every core at once. -/
theorem hE0h (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lh lvh)
      ⊢ (|={Set.univ}=> bigSep Finset.univ (fun c : Dev nD => Rr (F := F) c) : sProp 𝕄) := by
  refine Pipeline.initEach Lh lvh fun c => ?_
  iintro ⟨⟨-, HO, -, Hp, -⟩, -⟩
  imodintro
  isplitl [Hp]; · iexists _; iexact Hp
  iexists ∅; iexact HO

theorem hu0h : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- THE FRAME at any instance: every weakly fair execution of the host program terminates, nothing faulting, and the
    eight argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m emb₁ () 𝒱h Lh lvh (fun _ _ => rfl) ρ (outsH m) (pdats m) 0 (fun _ => iprop(emp))
    (initOf (Pipeline.cells cfgs cellOf_inj) (Pipeline.launchToks cfgs cellOf_inj)) (hu0h (F := F))
    (fun _ c => Rr c) (hE0h ρ) (fun c => by iintro ⟨-, HO⟩; iexact HO)
    (reg0 m) (fun _ => .rfl) (fun _ => .rfl) (reg1 m) (fun _ => .rfl) (fun _ => .rfl)

end Cert.Kernel.Hand

end
-- ==== Proof.KI.Cond.lean ====
/-
  The statistics kernel's one branch, and where its windows live.

  Both calls run the same body on a 2 × 25 grid: row block i (1024 rows), vocabulary tile t (1280 entries).  The body
  branches once, on t = 0 (reset the running maximum and the two running sums).  In the row-major order of the grid
  that is exactly the positions divisible by 25.  No window is ever idle: the three inputs are read and the two outputs
  are rewritten at every point.
-/
import proofs.«174775_j19164144075542_1_alg».proof.Proof.Gen.KernelIdeal.Launch
import proofs.«174775_j19164144075542_1_alg».proof.Proof.Gen.KernelIdeal.Skeleton
import proofs.«174775_j19164144075542_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Call 0: the body's branch condition, the second grid coordinate is zero. -/
abbrev cond0_0 (i : grid0.Coords) : Prop := (Scalar.cmpi .ne (Scalar.extui (Scalar.cmpi .eq (BitVec.ofNat 32 (i 1).val) 0#32)) 0#32) = 1#1

/-- It holds exactly at the positions divisible by 25. -/
theorem hcond0_0 : ∀ t : Fin cfg0.N, cond0_0 (grid0.coords t) ↔ t.val % 25 = 0 :=
  (by decide +kernel : ∀ t : Fin grid0.N, cond0_0 (grid0.coords t) ↔ t.val % 25 = 0)

/-- Every window of call 0 is live at every point. -/
theorem liveAt0 : ∀ (w : Fin cfg0.W) (i : grid0.Coords), cfg0.idle w i = false := by decide +kernel

/-- Call 1: the body's branch condition, the second grid coordinate is zero. -/
abbrev cond1_0 (i : grid1.Coords) : Prop := (Scalar.cmpi .ne (Scalar.extui (Scalar.cmpi .eq (BitVec.ofNat 32 (i 1).val) 0#32)) 0#32) = 1#1

/-- It holds exactly at the positions divisible by 25. -/
theorem hcond1_0 : ∀ t : Fin cfg1.N, cond1_0 (grid1.coords t) ↔ t.val % 25 = 0 :=
  (by decide +kernel : ∀ t : Fin grid1.N, cond1_0 (grid1.coords t) ↔ t.val % 25 = 0)

/-- Every window of call 1 is live at every point. -/
theorem liveAt1 : ∀ (w : Fin cfg1.W) (i : grid1.Coords), cfg1.idle w i = false := by decide +kernel

end Cert.KernelIdeal.Hand

end
-- ==== Proof.KI.Run0A.lean ====
/-
  Call 0, a resetting point (t = 0), run as a whole on any staging memrefs.

  The first tile of a row block: the body first stores -∞ into the running row maximum and 0 into the running sum of
  exponentials and the running row sum, whatever they held, and then does what every point does — forms the tile of
  logits, adds the row sums, raises the maximum, rescales and adds the exponentials.  Nothing it reads of the three
  carried buffers predates its own stores.
-/
import proofs.«174775_j19164144075542_1_alg».proof.Proof.KI.Cond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the inputs at their blocks and the three carried buffers at anything, the body runs to its return: inputs
    untouched, each carried buffer covered by the body's own whole stores; the stored pieces are found by the run. -/
noncomputable def kernelRun0_A (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : cond0_0 i)
    (x0 : Vec F S1024x2048 .bf16) (x1 : Vec F S1280x2048 .bf16) (x2 : Vec F S1x1280 .f32) :
    Σ' (L3 : List (View.Piece (Elt F) S1024x1 .f32)) (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__fused_logit_stats_kernel i arg2 harg2 arg3 harg3 arg4 harg4 arg5 harg5 arg6 harg6 arg7 harg7) K } := by
  refine ⟨?_, ?_, ?_, fun E K => ?run⟩
  case run =>
    simp only [cc0__fused_logit_stats_kernel_eq_skeleton]; unfold cc0__fused_logit_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.KI.Run0B.lean ====
/-
  Call 0, a continuing point (t > 0), run as a whole on any staging memrefs.

  The body holds a block of 1024 activation rows, a tile of 1280 weight rows and the matching biases.  It forms the
  1024 × 1280 tile of logits (a product over the 2048 hidden coordinates plus the bias), adds each row's sum to the
  running row sum, raises the running row maximum to cover the tile, rescales the running sum of exponentials by
  exp(old maximum - new maximum) and adds the tile's exponentials taken relative to the new maximum.  The three carried
  buffers are read before they are rewritten, each by one whole store.
-/
import proofs.«174775_j19164144075542_1_alg».proof.Proof.KI.Cond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the inputs at their blocks and the two running sums and the running maximum at what the point before left,
    the body runs to its return: inputs untouched, each carried buffer rewritten whole; the stored pieces are found by
    the run. -/
noncomputable def kernelRun0_B (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬cond0_0 i)
    (x0 : Vec F S1024x2048 .bf16) (x1 : Vec F S1280x2048 .bf16) (x2 : Vec F S1x1280 .f32)
    (xo3 : Vec F S1024x1 .f32) (xo4 : Vec F S1024x1 .f32) (xs0 : Vec F S1024x1 .f32) :
    Σ' (L3 : List (View.Piece (Elt F) S1024x1 .f32)) (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__fused_logit_stats_kernel i arg2 harg2 arg3 harg3 arg4 harg4 arg5 harg5 arg6 harg6 arg7 harg7) K } := by
  refine ⟨?_, ?_, ?_, fun E K => ?run⟩
  case run =>
    simp only [cc0__fused_logit_stats_kernel_eq_skeleton]; unfold cc0__fused_logit_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.KI.Frame0.lean ====
/-
  Call 0 of the statistics kernel as a region of the host program: what its buffers hold after every grid point.

  The grid is walked in row-major order: position n is row block n / 25, vocabulary tile n % 25.  The two output
  windows (the running sum of exponentials and the running row sum of a row block) and the scratch (the running row
  maximum) are carried from a position to the next while the row block stays the same, are reset by the body at the
  first tile of a row block, and the two outputs are written back after the last tile (n % 25 = 24).  The contents
  after position n are defined by recursion on n: the resetting run at n % 25 = 0, otherwise the continuing run over
  what position n - 1 left.  The region's invariant between positions holds the scratch at exactly that value.
-/
import proofs.«174775_j19164144075542_1_alg».proof.Proof.KI.Run0A
import proofs.«174775_j19164144075542_1_alg».proof.Proof.KI.Run0B
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- core c's buffers when the region is entered
variable (V : (c : Dev nD) → (b : Ref sig .tc) → Buf (Elt F) ((c : Thread nD τ).loc b))

/-- Window w's block at position t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every position, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every position, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every position, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The views through which the two outputs' and the scratch's contents are stated. -/
abbrev VO0_3 : View sig .tc .vmem S1024x1 .f32 := (Memref.whole cc0_stg3_0 : Memref sig .tc .vmem S1024x1 .f32).view
abbrev VO0_4 : View sig .tc .vmem S1024x1 .f32 := (Memref.whole cc0_stg4_0 : Memref sig .tc .vmem S1024x1 .f32).view
abbrev scM0 : Memref sig .tc .vmem S1024x1 .f32 := Memref.whole cc0_scratch0
abbrev VS0 : View sig .tc .vmem S1024x1 .f32 := scM0.view
/-- Each window's current staging memref at position t, as the body is called with it. -/
abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)

/-- The sum of exponentials after a resetting run: the run's stores tile the buffer, so they cover it. -/
theorem out0_A_3cover (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond0_0 i)
    (x0 : Vec F S1024x2048 .bf16) (x1 : Vec F S1280x2048 .bf16) (x2 : Vec F S1x1280 .f32) (y : S1024x1.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S1024x1.size (by sl_kernel_rfl) y

/-- The sum of exponentials after a resetting run: what the buffer holds afterwards, the stored pieces read back. -/
def out0_A_3 (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond0_0 i)
    (x0 : Vec F S1024x2048 .bf16) (x1 : Vec F S1280x2048 .bf16) (x2 : Vec F S1x1280 .f32) : Vec F S1024x1 .f32 :=
  VO0_3.read (Elt F) (VO0_3.writes (Elt F) VO0_3.junk (kernelRun0_A c i arg2 harg2 arg3 harg3 arg4 harg4 arg5 harg5 arg6 harg6 arg7 harg7 hc0 x0 x1 x2).1)

/-- The row sum after a resetting run: the run's stores tile the buffer, so they cover it. -/
theorem out0_A_4cover (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond0_0 i)
    (x0 : Vec F S1024x2048 .bf16) (x1 : Vec F S1280x2048 .bf16) (x2 : Vec F S1x1280 .f32) (y : S1024x1.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S1024x1.size (by sl_kernel_rfl) y

/-- The row sum after a resetting run: what the buffer holds afterwards, the stored pieces read back. -/
def out0_A_4 (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond0_0 i)
    (x0 : Vec F S1024x2048 .bf16) (x1 : Vec F S1280x2048 .bf16) (x2 : Vec F S1x1280 .f32) : Vec F S1024x1 .f32 :=
  VO0_4.read (Elt F) (VO0_4.writes (Elt F) VO0_4.junk (kernelRun0_A c i arg2 harg2 arg3 harg3 arg4 harg4 arg5 harg5 arg6 harg6 arg7 harg7 hc0 x0 x1 x2).2.1)

/-- The row maximum after a resetting run: the run's stores tile the buffer, so they cover it. -/
theorem sout0_Acover (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond0_0 i)
    (x0 : Vec F S1024x2048 .bf16) (x1 : Vec F S1280x2048 .bf16) (x2 : Vec F S1x1280 .f32) (y : S1024x1.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S1024x1.size (by sl_kernel_rfl) y

/-- The row maximum after a resetting run: what the buffer holds afterwards, the stored pieces read back. -/
def sout0_A (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond0_0 i)
    (x0 : Vec F S1024x2048 .bf16) (x1 : Vec F S1280x2048 .bf16) (x2 : Vec F S1x1280 .f32) : Vec F S1024x1 .f32 :=
  VS0.read (Elt F) (VS0.writes (Elt F) VS0.junk (kernelRun0_A c i arg2 harg2 arg3 harg3 arg4 harg4 arg5 harg5 arg6 harg6 arg7 harg7 hc0 x0 x1 x2).2.2.1)

/-- The sum of exponentials after a continuing run: the run's stores tile the buffer, so they cover it. -/
theorem out0_B_3cover (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond0_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) (y : S1024x1.Idx) :
    ∃ pc ∈ (kernelRun0_B c i arg2 harg2 arg3 harg3 arg4 harg4 arg5 harg5 arg6 harg6 arg7 harg7 hc0 x0 x1 x2 xo3 xo4 xs0).1, y ∈ pc.1.set :=
  View.cover_of_tiledL (kernelRun0_B c i arg2 harg2 arg3 harg3 arg4 harg4 arg5 harg5 arg6 harg6 arg7 harg7 hc0 x0 x1 x2 xo3 xo4 xs0).1 S1024x1.size (by sl_kernel_rfl) y

/-- The sum of exponentials after a continuing run: what the buffer holds afterwards, the stored pieces read back. -/
def out0_B_3 (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond0_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) : Vec F S1024x1 .f32 :=
  VO0_3.read (Elt F) (VO0_3.writes (Elt F) VO0_3.junk (kernelRun0_B c i arg2 harg2 arg3 harg3 arg4 harg4 arg5 harg5 arg6 harg6 arg7 harg7 hc0 x0 x1 x2 xo3 xo4 xs0).1)

/-- The row sum after a continuing run: the run's stores tile the buffer, so they cover it. -/
theorem out0_B_4cover (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond0_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) (y : S1024x1.Idx) :
    ∃ pc ∈ (kernelRun0_B c i arg2 harg2 arg3 harg3 arg4 harg4 arg5 harg5 arg6 harg6 arg7 harg7 hc0 x0 x1 x2 xo3 xo4 xs0).2.1, y ∈ pc.1.set :=
  View.cover_of_tiledL (kernelRun0_B c i arg2 harg2 arg3 harg3 arg4 harg4 arg5 harg5 arg6 harg6 arg7 harg7 hc0 x0 x1 x2 xo3 xo4 xs0).2.1 S1024x1.size (by sl_kernel_rfl) y

/-- The row sum after a continuing run: what the buffer holds afterwards, the stored pieces read back. -/
def out0_B_4 (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond0_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 hc0 x0 x1 x2 xo3 xo4 xs0).2.1)

/-- The row maximum after a continuing run: the run's stores tile the buffer, so they cover it. -/
theorem sout0_Bcover (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond0_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) (y : S1024x1.Idx) :
    ∃ pc ∈ (kernelRun0_B c i arg2 harg2 arg3 harg3 arg4 harg4 arg5 harg5 arg6 harg6 arg7 harg7 hc0 x0 x1 x2 xo3 xo4 xs0).2.2.1, y ∈ pc.1.set :=
  View.cover_of_tiledL (kernelRun0_B c i arg2 harg2 arg3 harg3 arg4 harg4 arg5 harg5 arg6 harg6 arg7 harg7 hc0 x0 x1 x2 xo3 xo4 xs0).2.2.1 S1024x1.size (by sl_kernel_rfl) y

/-- The row maximum after a continuing run: what the buffer holds afterwards, the stored pieces read back. -/
def sout0_B (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond0_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) : Vec F S1024x1 .f32 :=
  VS0.read (Elt F) (VS0.writes (Elt F) VS0.junk (kernelRun0_B c i arg2 harg2 arg3 harg3 arg4 harg4 arg5 harg5 arg6 harg6 arg7 harg7 hc0 x0 x1 x2 xo3 xo4 xs0).2.2.1)

/-- What the two outputs' staging buffers and the scratch hold after the body at position n: (sum of exponentials,
    row sum, row maximum). -/
def outsAt0 (c : Dev nD) : (n : ℕ) → n < cfg0.N → Vec F S1024x1 .f32 × Vec F S1024x1 .f32 × Vec F S1024x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 25 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2.1 (outsAt0 c n (Nat.lt_of_succ_lt hn)).2.2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2.1 (outsAt0 c n (Nat.lt_of_succ_lt hn)).2.2)

/-- At a resetting position: the resetting run's contents. -/
theorem outsAt0_A (c : Dev nD) (t : Fin cfg0.N) (h0 : t.val % 25 = 0) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (iblk0 V c 0 t) (iblk0 V c 1 t) (iblk0 V c 2 t)) := by
  obtain ⟨n, hn⟩ := t
  cases n with
  | zero => exact rfl
  | succ n => exact (dif_pos h0).trans rfl

/-- At a continuing position: the continuing run's contents over what the position before left. -/
theorem outsAt0_B (c : Dev nD) (t : Fin cfg0.N) (h0 : ¬t.val % 25 = 0) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The core's other scoped buffers (the other call's staging buffers and scratch), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with this call's scratch singled out. -/
theorem PhiA0_eq (c : Dev nD) :
    (Pipeline.ΦA spec0 c : sProp 𝕄) = iprop(((∃ d, owns (c : Thread nD τ) scM0 fullShare d) ∗ others0 c) ∗ (∃ r, prngReg c r)) := by
  unfold Pipeline.ΦA; rw [scopedRest0_eq]; unfold others0; simp only [scM0, owns_whole]; try rfl

/-- The region's invariant before position n: before the first, the class's; afterwards the scratch at the row
    maximum the position before left, the other scoped buffers and the generator register at anything. -/
def PhiS0 (c : Dev nD) : (n : ℕ) → n ≤ cfg0.N → sProp 𝕄
  | 0, _ => Pipeline.ΦA spec0 c
  | n + 1, hn => iprop((owns (c : Thread nD τ) scM0 fullShare (outsAt0 V c n hn).2.2 ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (outsAt0 V c n hn).2.2 ∗ others0 c) ∗ (∃ r, prngReg c r)) := rfl

theorem PhiS0_pos (c : Dev nD) (n : ℕ) (h : n ≤ cfg0.N) (hz : n ≠ 0) :
    PhiS0 V c n h = iprop((owns (c : Thread nD τ) scM0 fullShare (outsAt0 V c (n - 1) (by omega)).2.2 ∗ others0 c) ∗ (∃ r, prngReg c r)) := by
  cases n with
  | zero => exact absurd rfl hz
  | succ n => rfl

/-- The region's proof data on core c: the arrays as the region finds them; after the body at position t each input's
    buffer at its block, the two outputs' at the running sums; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a continuing position an output's staging buffer holds what the body left at the position before: the buffer
    was not written back in between (write-backs happen after positions ≡ 24 mod 25 only). -/
theorem before0_3_B (c : Dev nD) (t : Fin cfg0.N) (h0 : ¬t.val % 25 = 0) (d) :
    (dat0 V c).before 3 t d = (outsAt0 V c (t.val - 1) (Nat.lt_of_le_of_lt (Nat.sub_le _ _) t.isLt)).1 := by
  have hN : t.val < 50 := lt_of_lt_of_eq t.isLt (show cfg0.N = 50 from N_0)
  rw [Dat.before_out_kept _ 3 rfl t (by omega) (Bool.eq_false_iff.mpr fun h => by have := (flush0_3 _).mp h; dsimp only at this; omega)
    (fun _ => rfl) (fun _ _ => rfl)]
  dsimp only [dat0]
theorem before0_4_B (c : Dev nD) (t : Fin cfg0.N) (h0 : ¬t.val % 25 = 0) (d) :
    (dat0 V c).before 4 t d = (outsAt0 V c (t.val - 1) (Nat.lt_of_le_of_lt (Nat.sub_le _ _) t.isLt)).2.1 := by
  have hN : t.val < 50 := lt_of_lt_of_eq t.isLt (show cfg0.N = 50 from N_0)
  rw [Dat.before_out_kept _ 4 rfl t (by omega) (Bool.eq_false_iff.mpr fun h => by have := (flush0_4 _).mp h; dsimp only at this; omega)
    (fun _ => rfl) (fun _ _ => rfl)]
  dsimp only [dat0]

end

end Cert.KernelIdeal.Hand

end
-- ==== Proof.KI.Body0.lean ====
/-
  Call 0: the body at every grid position, against the region's proof data.

  At position t the body is handed the three input blocks, the two output staging buffers and, through the region's
  invariant, the scratch.  If t is the first tile of a row block (t % 25 = 0) the three carried buffers may hold
  anything and the resetting run applies; otherwise they hold what position t - 1 left (the outputs were not written
  back in between, the invariant names the scratch's contents) and the continuing run applies.  Either way the
  buffers end at the contents defined for position t, and the invariant for position t + 1 is re-established.
-/
import proofs.«174775_j19164144075542_1_alg».proof.Proof.KI.Frame0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at position t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 4800000 in
/-- The body at any position. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4]
  have hN : t.val < 50 := lt_of_lt_of_eq t.isLt (show cfg0.N = 50 from N_0)
  by_cases h0 : t.val % 25 = 0
  · rw [outsAt0_A V c t h0]
    unfold out0_A_3 out0_A_4 sout0_A; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk0 V c 0 t) (iblk0 V c 1 t) (iblk0 V c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (sout0_Acover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (out0_A_3cover c _ _ _ _ _ _ _ _ _ _ _ _ _ _ _ _ _)
      unfold owns; iexists _; isplitr
      swap; · iexact H4
      ipureintro; exact View.read_writes_of_cover _ _ _ _ _ (out0_A_4cover c _ _ _ _ _ _ _ _ _ _ _ _ _ _ _ _ _)
    · rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk0 V c 0 t) (iblk0 V c 1 t) (iblk0 V c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      iintro ⟨H0, H1, H2, ⟨%e3, H3⟩, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (sout0_Acover c _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (out0_A_3cover c _ _ _ _ _ _ _ _ _ _ _ _ _ _ _ _ _)
      unfold owns; iexists _; isplitr
      swap; · iexact H4
      ipureintro; exact View.read_writes_of_cover _ _ _ _ _ (out0_A_4cover c _ _ _ _ _ _ _ _ _ _ _ _ _ _ _ _ _)
  · rw [outsAt0_B V c t h0]
    simp only [before0_3_B V c t h0, before0_4_B V c t h0]
    unfold out0_B_3 out0_B_4 sout0_B; (try dsimp only)
    have hz : t.val ≠ 0 := fun h => h0 (by rw [h])
    rw [PhiS0_castSucc V c t, PhiS0_pos V c _ _ hz]
    iintro ⟨⟨⟨HS0, Hoth⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk0 V c 0 t) (iblk0 V c 1 t) (iblk0 V c 2 t) _ _ _).2.2.2 Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, ⟨%e3, H3⟩, ⟨%e4, H4⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (sout0_Bcover c _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (out0_B_3cover c _ _ _ _ _ _ _ _ _ _ _ _ _ _ _ _ _ _ _ _)
    unfold owns; iexists _; isplitr
    swap; · iexact H4
    ipureintro; exact View.read_writes_of_cover _ _ _ _ _ (out0_B_4cover c _ _ _ _ _ _ _ _ _ _ _ _ _ _ _ _ _ _ _ _)

/-- The library's body obligation, at every position. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first position. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last position the invariant gives the class's back: the scratch's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = PhiS0 V c (Fin.last cfg0.N).val (Nat.le_of_lt_succ (Fin.last cfg0.N).isLt) from rfl,
    PhiS0_pos V c _ _ ht, PhiA0_eq]
  iintro ⟨⟨HS0, Hoth⟩, Hg⟩
  isplitl [HS0 Hoth]
  · isplitl [HS0]; · iexists _; iexact HS0
    iexact Hoth
  iexact Hg

end

end Cert.KernelIdeal.Hand

end
-- ==== Proof.KI.Run1A.lean ====
/-
  Call 1, a resetting point (t = 0), run as a whole on any staging memrefs.

  The first tile of a row block: the body first stores -∞ into the running row maximum and 0 into the running sum of
  exponentials and the running row sum, whatever they held, and then does what every point does — forms the tile of
  logits, adds the row sums, raises the maximum, rescales and adds the exponentials.  Nothing it reads of the three
  carried buffers predates its own stores.
-/
import proofs.«174775_j19164144075542_1_alg».proof.Proof.KI.Cond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the inputs at their blocks and the three carried buffers at anything, the body runs to its return: inputs
    untouched, each carried buffer covered by the body's own whole stores; the stored pieces are found by the run. -/
noncomputable def kernelRun1_A (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : cond1_0 i)
    (x0 : Vec F S1024x2048 .bf16) (x1 : Vec F S1280x2048 .bf16) (x2 : Vec F S1x1280 .f32) :
    Σ' (L3 : List (View.Piece (Elt F) S1024x1 .f32)) (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__fused_logit_stats_kernel i arg2 harg2 arg3 harg3 arg4 harg4 arg5 harg5 arg6 harg6 arg7 harg7) K } := by
  refine ⟨?_, ?_, ?_, fun E K => ?run⟩
  case run =>
    simp only [cc1__fused_logit_stats_kernel_eq_skeleton]; unfold cc1__fused_logit_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.KI.Run1B.lean ====
/-
  Call 1, a continuing point (t > 0), run as a whole on any staging memrefs.

  The body holds a block of 1024 activation rows, a tile of 1280 weight rows and the matching biases.  It forms the
  1024 × 1280 tile of logits (a product over the 2048 hidden coordinates plus the bias), adds each row's sum to the
  running row sum, raises the running row maximum to cover the tile, rescales the running sum of exponentials by
  exp(old maximum - new maximum) and adds the tile's exponentials taken relative to the new maximum.  The three carried
  buffers are read before they are rewritten, each by one whole store.
-/
import proofs.«174775_j19164144075542_1_alg».proof.Proof.KI.Cond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- From the inputs at their blocks and the two running sums and the running maximum at what the point before left,
    the body runs to its return: inputs untouched, each carried buffer rewritten whole; the stored pieces are found by
    the run. -/
noncomputable def kernelRun1_B (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (hc0 : ¬cond1_0 i)
    (x0 : Vec F S1024x2048 .bf16) (x1 : Vec F S1280x2048 .bf16) (x2 : Vec F S1x1280 .f32)
    (xo3 : Vec F S1024x1 .f32) (xo4 : Vec F S1024x1 .f32) (xs0 : Vec F S1024x1 .f32) :
    Σ' (L3 : List (View.Piece (Elt F) S1024x1 .f32)) (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__fused_logit_stats_kernel i arg2 harg2 arg3 harg3 arg4 harg4 arg5 harg5 arg6 harg6 arg7 harg7) K } := by
  refine ⟨?_, ?_, ?_, fun E K => ?run⟩
  case run =>
    simp only [cc1__fused_logit_stats_kernel_eq_skeleton]; unfold cc1__fused_logit_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.Hand

end
-- ==== Proof.KI.Frame1.lean ====
/-
  Call 1 of the statistics kernel as a region of the host program: what its buffers hold after every grid point.

  The grid is walked in row-major order: position n is row block n / 25, vocabulary tile n % 25.  The two output
  windows (the running sum of exponentials and the running row sum of a row block) and the scratch (the running row
  maximum) are carried from a position to the next while the row block stays the same, are reset by the body at the
  first tile of a row block, and the two outputs are written back after the last tile (n % 25 = 24).  The contents
  after position n are defined by recursion on n: the resetting run at n % 25 = 0, otherwise the continuing run over
  what position n - 1 left.  The region's invariant between positions holds the scratch at exactly that value.
-/
import proofs.«174775_j19164144075542_1_alg».proof.Proof.KI.Run1A
import proofs.«174775_j19164144075542_1_alg».proof.Proof.KI.Run1B
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- core c's buffers when the region is entered
variable (V : (c : Dev nD) → (b : Ref sig .tc) → Buf (Elt F) ((c : Thread nD τ).loc b))

/-- Window w's block at position t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every position, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every position, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every position, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The views through which the two outputs' and the scratch's contents are stated. -/
abbrev VO1_3 : View sig .tc .vmem S1024x1 .f32 := (Memref.whole cc1_stg3_0 : Memref sig .tc .vmem S1024x1 .f32).view
abbrev VO1_4 : View sig .tc .vmem S1024x1 .f32 := (Memref.whole cc1_stg4_0 : Memref sig .tc .vmem S1024x1 .f32).view
abbrev scM1 : Memref sig .tc .vmem S1024x1 .f32 := Memref.whole cc1_scratch0
abbrev VS1 : View sig .tc .vmem S1024x1 .f32 := scM1.view
/-- Each window's current staging memref at position t, as the body is called with it. -/
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)

/-- The sum of exponentials after a resetting run: the run's stores tile the buffer, so they cover it. -/
theorem out1_A_3cover (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond1_0 i)
    (x0 : Vec F S1024x2048 .bf16) (x1 : Vec F S1280x2048 .bf16) (x2 : Vec F S1x1280 .f32) (y : S1024x1.Idx) :
    ∃ pc ∈ (kernelRun1_A c i arg2 harg2 arg3 harg3 arg4 harg4 arg5 harg5 arg6 harg6 arg7 harg7 hc0 x0 x1 x2).1, y ∈ pc.1.set :=
  View.cover_of_tiledL (kernelRun1_A c i arg2 harg2 arg3 harg3 arg4 harg4 arg5 harg5 arg6 harg6 arg7 harg7 hc0 x0 x1 x2).1 S1024x1.size (by sl_kernel_rfl) y

/-- The sum of exponentials after a resetting run: what the buffer holds afterwards, the stored pieces read back. -/
def out1_A_3 (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond1_0 i)
    (x0 : Vec F S1024x2048 .bf16) (x1 : Vec F S1280x2048 .bf16) (x2 : Vec F S1x1280 .f32) : Vec F S1024x1 .f32 :=
  VO1_3.read (Elt F) (VO1_3.writes (Elt F) VO1_3.junk (kernelRun1_A c i arg2 harg2 arg3 harg3 arg4 harg4 arg5 harg5 arg6 harg6 arg7 harg7 hc0 x0 x1 x2).1)

/-- The row sum after a resetting run: the run's stores tile the buffer, so they cover it. -/
theorem out1_A_4cover (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond1_0 i)
    (x0 : Vec F S1024x2048 .bf16) (x1 : Vec F S1280x2048 .bf16) (x2 : Vec F S1x1280 .f32) (y : S1024x1.Idx) :
    ∃ pc ∈ (kernelRun1_A c i arg2 harg2 arg3 harg3 arg4 harg4 arg5 harg5 arg6 harg6 arg7 harg7 hc0 x0 x1 x2).2.1, y ∈ pc.1.set :=
  View.cover_of_tiledL (kernelRun1_A c i arg2 harg2 arg3 harg3 arg4 harg4 arg5 harg5 arg6 harg6 arg7 harg7 hc0 x0 x1 x2).2.1 S1024x1.size (by sl_kernel_rfl) y

/-- The row sum after a resetting run: what the buffer holds afterwards, the stored pieces read back. -/
def out1_A_4 (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond1_0 i)
    (x0 : Vec F S1024x2048 .bf16) (x1 : Vec F S1280x2048 .bf16) (x2 : Vec F S1x1280 .f32) : Vec F S1024x1 .f32 :=
  VO1_4.read (Elt F) (VO1_4.writes (Elt F) VO1_4.junk (kernelRun1_A c i arg2 harg2 arg3 harg3 arg4 harg4 arg5 harg5 arg6 harg6 arg7 harg7 hc0 x0 x1 x2).2.1)

/-- The row maximum after a resetting run: the run's stores tile the buffer, so they cover it. -/
theorem sout1_Acover (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond1_0 i)
    (x0 : Vec F S1024x2048 .bf16) (x1 : Vec F S1280x2048 .bf16) (x2 : Vec F S1x1280 .f32) (y : S1024x1.Idx) :
    ∃ pc ∈ (kernelRun1_A c i arg2 harg2 arg3 harg3 arg4 harg4 arg5 harg5 arg6 harg6 arg7 harg7 hc0 x0 x1 x2).2.2.1, y ∈ pc.1.set :=
  View.cover_of_tiledL (kernelRun1_A c i arg2 harg2 arg3 harg3 arg4 harg4 arg5 harg5 arg6 harg6 arg7 harg7 hc0 x0 x1 x2).2.2.1 S1024x1.size (by sl_kernel_rfl) y

/-- The row maximum after a resetting run: what the buffer holds afterwards, the stored pieces read back. -/
def sout1_A (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond1_0 i)
    (x0 : Vec F S1024x2048 .bf16) (x1 : Vec F S1280x2048 .bf16) (x2 : Vec F S1x1280 .f32) : Vec F S1024x1 .f32 :=
  VS1.read (Elt F) (VS1.writes (Elt F) VS1.junk (kernelRun1_A c i arg2 harg2 arg3 harg3 arg4 harg4 arg5 harg5 arg6 harg6 arg7 harg7 hc0 x0 x1 x2).2.2.1)

/-- The sum of exponentials after a continuing run: the run's stores tile the buffer, so they cover it. -/
theorem out1_B_3cover (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond1_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) (y : S1024x1.Idx) :
    ∃ pc ∈ (kernelRun1_B c i arg2 harg2 arg3 harg3 arg4 harg4 arg5 harg5 arg6 harg6 arg7 harg7 hc0 x0 x1 x2 xo3 xo4 xs0).1, y ∈ pc.1.set :=
  View.cover_of_tiledL (kernelRun1_B c i arg2 harg2 arg3 harg3 arg4 harg4 arg5 harg5 arg6 harg6 arg7 harg7 hc0 x0 x1 x2 xo3 xo4 xs0).1 S1024x1.size (by sl_kernel_rfl) y

/-- The sum of exponentials after a continuing run: what the buffer holds afterwards, the stored pieces read back. -/
def out1_B_3 (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond1_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) : Vec F S1024x1 .f32 :=
  VO1_3.read (Elt F) (VO1_3.writes (Elt F) VO1_3.junk (kernelRun1_B c i arg2 harg2 arg3 harg3 arg4 harg4 arg5 harg5 arg6 harg6 arg7 harg7 hc0 x0 x1 x2 xo3 xo4 xs0).1)

/-- The row sum after a continuing run: the run's stores tile the buffer, so they cover it. -/
theorem out1_B_4cover (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond1_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) (y : S1024x1.Idx) :
    ∃ pc ∈ (kernelRun1_B c i arg2 harg2 arg3 harg3 arg4 harg4 arg5 harg5 arg6 harg6 arg7 harg7 hc0 x0 x1 x2 xo3 xo4 xs0).2.1, y ∈ pc.1.set :=
  View.cover_of_tiledL (kernelRun1_B c i arg2 harg2 arg3 harg3 arg4 harg4 arg5 harg5 arg6 harg6 arg7 harg7 hc0 x0 x1 x2 xo3 xo4 xs0).2.1 S1024x1.size (by sl_kernel_rfl) y

/-- The row sum after a continuing run: what the buffer holds afterwards, the stored pieces read back. -/
def out1_B_4 (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond1_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) : Vec F S1024x1 .f32 :=
  VO1_4.read (Elt F) (VO1_4.writes (Elt F) VO1_4.junk (kernelRun1_B c i arg2 harg2 arg3 harg3 arg4 harg4 arg5 harg5 arg6 harg6 arg7 harg7 hc0 x0 x1 x2 xo3 xo4 xs0).2.1)

/-- The row maximum after a continuing run: the run's stores tile the buffer, so they cover it. -/
theorem sout1_Bcover (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond1_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) (y : S1024x1.Idx) :
    ∃ pc ∈ (kernelRun1_B c i arg2 harg2 arg3 harg3 arg4 harg4 arg5 harg5 arg6 harg6 arg7 harg7 hc0 x0 x1 x2 xo3 xo4 xs0).2.2.1, y ∈ pc.1.set :=
  View.cover_of_tiledL (kernelRun1_B c i arg2 harg2 arg3 harg3 arg4 harg4 arg5 harg5 arg6 harg6 arg7 harg7 hc0 x0 x1 x2 xo3 xo4 xs0).2.2.1 S1024x1.size (by sl_kernel_rfl) y

/-- The row maximum after a continuing run: what the buffer holds afterwards, the stored pieces read back. -/
def sout1_B (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond1_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) : Vec F S1024x1 .f32 :=
  VS1.read (Elt F) (VS1.writes (Elt F) VS1.junk (kernelRun1_B c i arg2 harg2 arg3 harg3 arg4 harg4 arg5 harg5 arg6 harg6 arg7 harg7 hc0 x0 x1 x2 xo3 xo4 xs0).2.2.1)

/-- What the two outputs' staging buffers and the scratch hold after the body at position n: (sum of exponentials,
    row sum, row maximum). -/
def outsAt1 (c : Dev nD) : (n : ℕ) → n < cfg1.N → Vec F S1024x1 .f32 × Vec F S1024x1 .f32 × Vec F S1024x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 25 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2)

/-- At a resetting position: the resetting run's contents. -/
theorem outsAt1_A (c : Dev nD) (t : Fin cfg1.N) (h0 : t.val % 25 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

/-- At a continuing position: the continuing run's contents over what the position before left. -/
theorem outsAt1_B (c : Dev nD) (t : Fin cfg1.N) (h0 : ¬t.val % 25 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The core's other scoped buffers (the other call's staging buffers and scratch), each whole at some contents. -/
def others1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ X)

/-- The class invariant with this call's scratch singled out. -/
theorem PhiA1_eq (c : Dev nD) :
    (Pipeline.ΦA spec1 c : sProp 𝕄) = iprop((others1 c iprop(∃ d, owns (c : Thread nD τ) scM1 fullShare d)) ∗ (∃ r, prngReg c r)) := by
  unfold Pipeline.ΦA; rw [scopedRest1_eq]; unfold others1; simp only [scM1, owns_whole]; try rfl

/-- The region's invariant before position n: before the first, the class's; afterwards the scratch at the row
    maximum the position before left, the other scoped buffers and the generator register at anything. -/
def PhiS1 (c : Dev nD) : (n : ℕ) → n ≤ cfg1.N → sProp 𝕄
  | 0, _ => Pipeline.ΦA spec1 c
  | n + 1, hn => iprop((others1 c (owns (c : Thread nD τ) scM1 fullShare (outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((others1 c (owns (c : Thread nD τ) scM1 fullShare (outsAt1 V c n hn).2.2)) ∗ (∃ r, prngReg c r)) := rfl

theorem PhiS1_pos (c : Dev nD) (n : ℕ) (h : n ≤ cfg1.N) (hz : n ≠ 0) :
    PhiS1 V c n h = iprop((others1 c (owns (c : Thread nD τ) scM1 fullShare (outsAt1 V c (n - 1) (by omega)).2.2)) ∗ (∃ r, prngReg c r)) := by
  cases n with
  | zero => exact absurd rfl hz
  | succ n => rfl

/-- The region's proof data on core c: the arrays as the region finds them; after the body at position t each input's
    buffer at its block, the two outputs' at the running sums; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a continuing position an output's staging buffer holds what the body left at the position before: the buffer
    was not written back in between (write-backs happen after positions ≡ 24 mod 25 only). -/
theorem before1_3_B (c : Dev nD) (t : Fin cfg1.N) (h0 : ¬t.val % 25 = 0) (d) :
    (dat1 V c).before 3 t d = (outsAt1 V c (t.val - 1) (Nat.lt_of_le_of_lt (Nat.sub_le _ _) t.isLt)).1 := by
  have hN : t.val < 50 := lt_of_lt_of_eq t.isLt (show cfg1.N = 50 from N_1)
  rw [Dat.before_out_kept _ 3 rfl t (by omega) (Bool.eq_false_iff.mpr fun h => by have := (flush1_3 _).mp h; dsimp only at this; omega)
    (fun _ => rfl) (fun _ _ => rfl)]
  dsimp only [dat1]
theorem before1_4_B (c : Dev nD) (t : Fin cfg1.N) (h0 : ¬t.val % 25 = 0) (d) :
    (dat1 V c).before 4 t d = (outsAt1 V c (t.val - 1) (Nat.lt_of_le_of_lt (Nat.sub_le _ _) t.isLt)).2.1 := by
  have hN : t.val < 50 := lt_of_lt_of_eq t.isLt (show cfg1.N = 50 from N_1)
  rw [Dat.before_out_kept _ 4 rfl t (by omega) (Bool.eq_false_iff.mpr fun h => by have := (flush1_4 _).mp h; dsimp only at this; omega)
    (fun _ => rfl) (fun _ _ => rfl)]
  dsimp only [dat1]

end

end Cert.KernelIdeal.Hand

end
-- ==== Proof.KI.Body1.lean ====
/-
  Call 1: the body at every grid position, against the region's proof data.

  At position t the body is handed the three input blocks, the two output staging buffers and, through the region's
  invariant, the scratch.  If t is the first tile of a row block (t % 25 = 0) the three carried buffers may hold
  anything and the resetting run applies; otherwise they hold what position t - 1 left (the outputs were not written
  back in between, the invariant names the scratch's contents) and the continuing run applies.  Either way the
  buffers end at the contents defined for position t, and the invariant for position t + 1 is re-established.
-/
import proofs.«174775_j19164144075542_1_alg».proof.Proof.KI.Frame1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at position t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any position. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  have hN : t.val < 50 := lt_of_lt_of_eq t.isLt (show cfg1.N = 50 from N_1)
  by_cases h0 : t.val % 25 = 0
  · rw [outsAt1_A V c t h0]
    unfold out1_A_3 out1_A_4 sout1_A; (try dsimp only)
    by_cases hz : t.val = 0
    · rw [PhiS1_castSucc V c t, PhiS1_zero V c _ _ hz, PhiA1_eq]
      unfold others1
      iintro ⟨⟨⟨Hq0, Hq1, Hq2, Hq3, Hq4, Hq5, Hq6, Hq7, Hq8, Hq9, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hq0 Hq1 Hq2 Hq3 Hq4 Hq5 Hq6 Hq7 Hq8 Hq9 Hg]
      · isplitl [HS0 Hq0 Hq1 Hq2 Hq3 Hq4 Hq5 Hq6 Hq7 Hq8 Hq9]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          unfold owns; iexists _; isplitr
          swap; · iexact HS0
          ipureintro; exact View.read_writes_of_cover _ _ _ _ _ (sout1_Acover c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (out1_A_3cover c _ _ _ _ _ _ _ _ _ _ _ _ _ _ _ _ _)
      unfold owns; iexists _; isplitr
      swap; · iexact H4
      ipureintro; exact View.read_writes_of_cover _ _ _ _ _ (out1_A_4cover c _ _ _ _ _ _ _ _ _ _ _ _ _ _ _ _ _)
    · rw [PhiS1_castSucc V c t, PhiS1_pos V c _ _ hz]
      unfold others1
      iintro ⟨⟨⟨Hq0, Hq1, Hq2, Hq3, Hq4, Hq5, Hq6, Hq7, Hq8, Hq9, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      iintro ⟨H0, H1, H2, ⟨%e3, H3⟩, ⟨%e4, H4⟩, ⟨%es0, HS0⟩⟩
      isplitl [HS0 Hq0 Hq1 Hq2 Hq3 Hq4 Hq5 Hq6 Hq7 Hq8 Hq9 Hg]
      · isplitl [HS0 Hq0 Hq1 Hq2 Hq3 Hq4 Hq5 Hq6 Hq7 Hq8 Hq9]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          unfold owns; iexists _; isplitr
          swap; · iexact HS0
          ipureintro; exact View.read_writes_of_cover _ _ _ _ _ (sout1_Acover c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (out1_A_3cover c _ _ _ _ _ _ _ _ _ _ _ _ _ _ _ _ _)
      unfold owns; iexists _; isplitr
      swap; · iexact H4
      ipureintro; exact View.read_writes_of_cover _ _ _ _ _ (out1_A_4cover c _ _ _ _ _ _ _ _ _ _ _ _ _ _ _ _ _)
  · rw [outsAt1_B V c t h0]
    simp only [before1_3_B V c t h0, before1_4_B V c t h0]
    unfold out1_B_3 out1_B_4 sout1_B; (try dsimp only)
    have hz : t.val ≠ 0 := fun h => h0 (by rw [h])
    rw [PhiS1_castSucc V c t, PhiS1_pos V c _ _ hz]
    unfold others1
    iintro ⟨⟨⟨Hq0, Hq1, Hq2, Hq3, Hq4, Hq5, Hq6, Hq7, Hq8, Hq9, HS0⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (fun h => h0 ((hcond1_0 t).mp h)) (iblk1 V c 0 t) (iblk1 V c 1 t) (iblk1 V c 2 t) _ _ _).2.2.2 Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, ⟨%e3, H3⟩, ⟨%e4, H4⟩, ⟨%es0, HS0⟩⟩
    isplitl [HS0 Hq0 Hq1 Hq2 Hq3 Hq4 Hq5 Hq6 Hq7 Hq8 Hq9 Hg]
    · isplitl [HS0 Hq0 Hq1 Hq2 Hq3 Hq4 Hq5 Hq6 Hq7 Hq8 Hq9]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        unfold owns; iexists _; isplitr
        swap; · iexact HS0
        ipureintro; exact View.read_writes_of_cover _ _ _ _ _ (sout1_Bcover c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (out1_B_3cover c _ _ _ _ _ _ _ _ _ _ _ _ _ _ _ _ _ _ _ _)
    unfold owns; iexists _; isplitr
    swap; · iexact H4
    ipureintro; exact View.read_writes_of_cover _ _ _ _ _ (out1_B_4cover c _ _ _ _ _ _ _ _ _ _ _ _ _ _ _ _ _ _ _ _)

/-- The library's body obligation, at every position. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last position the invariant gives the class's back: the scratch's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 50 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  unfold others1
  iintro ⟨⟨Hq0, Hq1, Hq2, Hq3, Hq4, Hq5, Hq6, Hq7, Hq8, Hq9, HS0⟩, Hg⟩
  isplitl [HS0 Hq0 Hq1 Hq2 Hq3 Hq4 Hq5 Hq6 Hq7 Hq8 Hq9]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    iexists _; iexact HS0
  iexact Hg

end

end Cert.KernelIdeal.Hand

end
-- ==== Proof.KI.Region.lean ====
/-
  The two calls of the statistics kernel as segments of the host program, and the contents they leave.

  The host program is: a few host operations (reshape and format changes of the first model's inputs), call 0, the same
  host operations for the second model, call 1, then the scalar tail.  Between two items every unscoped buffer is held
  at a named contents; a call changes only its two result arrays, to what the pipeline has written back after the last
  grid position (the library's fold of the write-backs over the proof data), and leaves every other buffer alone.
-/
import proofs.«174775_j19164144075542_1_alg».proof.Proof.KI.Body0
import proofs.«174775_j19164144075542_1_alg».proof.Proof.KI.Body1
import proofs.«174775_j19164144075542_1_alg».proof.Proof.Gen.KernelIdeal.Regions
import Idealize.ShloMosaic.Lib.Pipeline.FrameSuffix
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱h : Variants := Variants.none
/-- No core owes another anything: no level is assigned. -/
abbrev Lh : GSem nD τ sig → Finset Unit := fun _ => ∅
abbrev lvh : GSem nD τ sig → Unit → ℕ := fun _ _ => 0
/-- What rides beside the buffers through every item: the generator register at some state and the core owing nothing. -/
abbrev Rr (c : Dev nD) : sProp 𝕄 := iprop((∃ r, prngReg c r) ∗ ∃ W, owes (c : Thread nD τ) (0 : CellTallies nD τ sig Unit) W)

/-- Core c's buffers when call 0 is entered, read at the TensorCore's references. -/
abbrev VR1 : (c : Dev nD) → (b : Ref sig .tc) → Buf (Elt F) ((c : Thread nD τ).loc b) := fun c b => V1 m c b
/-- At call 0's exit: its arrays at what the pipeline leaves, every other buffer as entered. -/
def W2 (c : Dev nD) : Valuation τ sig (Elt F) :=
  Pipeline.withArrays spec0 c (V1 m c) fun w => (dat0 (VR1 m) c).arrAt w cfg0.N
/-- What call 0 leaves, as the unknowns of the host-side valuations. -/
def outsA : Outs (F := F) := fun _ r c => W2 m c (Proc.devRef .tc r)
/-- Core c's buffers when call 1 is entered. -/
abbrev VR3 : (c : Dev nD) → (b : Ref sig .tc) → Buf (Elt F) ((c : Thread nD τ).loc b) := fun c b => V3 m (outsA m) c b
/-- At call 1's exit. -/
def W4 (c : Dev nD) : Valuation τ sig (Elt F) :=
  Pipeline.withArrays spec1 c (V3 m (outsA m) c) fun w => (dat1 (VR3 m) c).arrAt w cfg1.N
/-- What the two calls leave: call 0's arrays after item 1, call 1's after item 3. -/
def outsH : Outs (F := F) := fun J r c => if J = 2 then W2 m c (Proc.devRef .tc r) else W4 m c (Proc.devRef .tc r)

theorem V3_outsH (c : Dev nD) : V3 m (outsH m) c = V3 m (outsA m) c := rfl

theorem outsH_v5_0 (c : Dev nD) : outsH m 2 main_v5_0 c = (dat0 (VR1 m) c).arrAt 3 cfg0.N := by
  unfold outsH; rw [if_pos rfl]; unfold W2
  exact Pipeline.withArrays_arr spec0 launch0.win.arr_inj c _ _ 3
theorem outsH_v5_1 (c : Dev nD) : outsH m 2 main_v5_1 c = (dat0 (VR1 m) c).arrAt 4 cfg0.N := by
  unfold outsH; rw [if_pos rfl]; unfold W2
  exact Pipeline.withArrays_arr spec0 launch0.win.arr_inj c _ _ 4
theorem outsH_v9_0 (c : Dev nD) : outsH m 4 main_v9_0 c = (dat1 (VR3 m) c).arrAt 3 cfg1.N := by
  unfold outsH; rw [if_neg (by decide)]; unfold W4
  exact Pipeline.withArrays_arr spec1 launch1.win.arr_inj c _ _ 3
theorem outsH_v9_1 (c : Dev nD) : outsH m 4 main_v9_1 c = (dat1 (VR3 m) c).arrAt 4 cfg1.N := by
  unfold outsH; rw [if_neg (by decide)]; unfold W4
  exact Pipeline.withArrays_arr spec1 launch1.win.arr_inj c _ _ 4

/-- After call 0 each of its arrays holds what the pipeline leaves: the inputs what they held, the results the write-backs. -/
theorem hF0 (c : Dev nD) (w : Fin cfg0.W) : (dat0 (VR1 m) c).arrAt w cfg0.N = V2 m (outsH m) c (Pipeline.arrRef spec0 w) := by
  match w with
  | ⟨0, _⟩ => exact ((dat0 (VR1 m) c).arrAt_in 0 rfl _).trans ((A_eq0 (VR1 m) c 0).trans (V2_of m (outsH m) c _ (by decide)).symm)
  | ⟨1, _⟩ => exact ((dat0 (VR1 m) c).arrAt_in 1 rfl _).trans ((A_eq0 (VR1 m) c 1).trans (V2_of m (outsH m) c _ (by decide)).symm)
  | ⟨2, _⟩ => exact ((dat0 (VR1 m) c).arrAt_in 2 rfl _).trans ((A_eq0 (VR1 m) c 2).trans (V2_of m (outsH m) c _ (by decide)).symm)
  | ⟨3, _⟩ =>
    refine (outsH_v5_0 m c).symm.trans ?_
    show _ = Function.update (Function.update (V1 m c) main_v5_0 (outsH m 2 main_v5_0 c)) main_v5_1 (outsH m 2 main_v5_1 c) main_v5_0
    rw [Function.update_of_ne (StableHlo.devRef_ne_of_ne (by decide)), Function.update_self]
  | ⟨4, _⟩ =>
    refine (outsH_v5_1 m c).symm.trans ?_
    show _ = Function.update (Function.update (V1 m c) main_v5_0 (outsH m 2 main_v5_0 c)) main_v5_1 (outsH m 2 main_v5_1 c) main_v5_1
    rw [Function.update_self]
theorem hrest0 (c : Dev nD) : ∀ b, b ∉ Finset.univ.image (Pipeline.arrRef spec0) → V2 m (outsH m) c b = V1 m c b := fun b hb =>
  V2_of m (outsH m) c b (by
    intro h
    simp only [List.mem_cons, List.mem_nil_iff, or_false] at h
    rcases h with rfl | rfl
    · exact hb (Finset.mem_image.mpr ⟨3, Finset.mem_univ _, rfl⟩)
    · exact hb (Finset.mem_image.mpr ⟨4, Finset.mem_univ _, rfl⟩))

theorem hF1 (c : Dev nD) (w : Fin cfg1.W) : (dat1 (VR3 m) c).arrAt w cfg1.N = V4 m (outsH m) c (Pipeline.arrRef spec1 w) := by
  match w with
  | ⟨0, _⟩ => exact ((dat1 (VR3 m) c).arrAt_in 0 rfl _).trans ((A_eq1 (VR3 m) c 0).trans (V4_of m (outsH m) c _ (by decide)).symm)
  | ⟨1, _⟩ => exact ((dat1 (VR3 m) c).arrAt_in 1 rfl _).trans ((A_eq1 (VR3 m) c 1).trans (V4_of m (outsH m) c _ (by decide)).symm)
  | ⟨2, _⟩ => exact ((dat1 (VR3 m) c).arrAt_in 2 rfl _).trans ((A_eq1 (VR3 m) c 2).trans (V4_of m (outsH m) c _ (by decide)).symm)
  | ⟨3, _⟩ =>
    refine (outsH_v9_0 m c).symm.trans ?_
    show _ = Function.update (Function.update (V3 m (outsH m) c) main_v9_0 (outsH m 4 main_v9_0 c)) main_v9_1 (outsH m 4 main_v9_1 c) main_v9_0
    rw [Function.update_of_ne (StableHlo.devRef_ne_of_ne (by decide)), Function.update_self]
  | ⟨4, _⟩ =>
    refine (outsH_v9_1 m c).symm.trans ?_
    show _ = Function.update (Function.update (V3 m (outsH m) c) main_v9_0 (outsH m 4 main_v9_0 c)) main_v9_1 (outsH m 4 main_v9_1 c) main_v9_1
    rw [Function.update_self]
theorem hrest1 (c : Dev nD) : ∀ b, b ∉ Finset.univ.image (Pipeline.arrRef spec1) → V4 m (outsH m) c b = V3 m (outsA m) c b := fun b hb =>
  V4_of m (outsH m) c b (by
    intro h
    simp only [List.mem_cons, List.mem_nil_iff, or_false] at h
    rcases h with rfl | rfl
    · exact hb (Finset.mem_image.mpr ⟨3, Finset.mem_univ _, rfl⟩)
    · exact hb (Finset.mem_image.mpr ⟨4, Finset.mem_univ _, rfl⟩))

/-- Both calls' proof data, each at its entry contents. -/
def pdats : (p : Fin 2) → (c : Dev nD) → Dat τ (Elt F) Unit ℕ (UR sig nD τ) ℕ (Pipeline.pin (pcfgs (F := F)) adm p) c
  | ⟨0, _⟩ => fun c => dat0 (VR1 m) c
  | ⟨1, _⟩ => fun c => dat1 (VR3 m) c

-- applying a library lemma stated over the pinned configuration unifies only when plain definitions in a
-- metavariable's type may be unfolded
set_option backward.isDefEq.respectTransparency.types false in
/-- Call 0 as a segment of the host program: entered with every unscoped buffer at the contents before it, left with
    the two result arrays at what the pipeline wrote back and everything else unchanged.  The generator register goes
    into the region's invariant and comes back; nothing is owed; the kernel has no semaphore of its own. -/
def reg0 : Pipeline.RegionSeg (pcfgs (F := F)) adm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ Lh lvh 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outsH m) c) ∗ Rr c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VR1 m) c)
    unfold Pipeline.ΦA
    iintro ⟨Hp, -, Hr⟩
    isplitl [Hr]; · iexact Hr
    iexact Hp
  hout c := by
    refine BIBase.Entails.trans (hout0 (VR1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (fun b => (V2 m (outsH m) c) b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies only when plain definitions in a
-- metavariable's type may be unfolded
set_option backward.isDefEq.respectTransparency.types false in
/-- Call 1 as a segment of the host program: entered with every unscoped buffer at the contents before it, left with
    the two result arrays at what the pipeline wrote back and everything else unchanged.  The generator register goes
    into the region's invariant and comes back; nothing is owed; the kernel has no semaphore of its own. -/
def reg1 : Pipeline.RegionSeg (pcfgs (F := F)) adm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (VR3 m) c).loose
  hwaits := Pipeline.hwaits_of_owed_zero _ _ _ _ Lh lvh 1 fun _ _ => rfl
  pre c := iprop(StableHlo.held (c : Thread nD τ) (Pipeline.ucRefs τ sig) (V3 m (outsA m) c) ∗ Rr c)
  post c := iprop(StableHlo.held (c : Thread nD τ) (Pipeline.ucRefs τ sig) (V4 m (outsH m) c) ∗ Rr c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VR3 m) c)
    unfold Pipeline.ΦA
    iintro ⟨Hp, -, Hr⟩
    isplitl [Hr]; · iexact Hr
    iexact Hp
  hout c := by
    refine BIBase.Entails.trans (hout1 (VR3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR3 m c) (fun b => (V4 m (outsH m) c) b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The launch makes the riding state on every core at once. -/
theorem hE0h (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lh lvh)
      ⊢ (|={Set.univ}=> bigSep Finset.univ (fun c : Dev nD => Rr (F := F) c) : sProp 𝕄) := by
  refine Pipeline.initEach Lh lvh fun c => ?_
  iintro ⟨⟨-, HO, -, Hp, -⟩, -⟩
  imodintro
  isplitl [Hp]; · iexists _; iexact Hp
  iexists ∅; iexact HO

theorem hu0h : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- THE FRAME at any instance: every weakly fair execution of the host program terminates, nothing faulting, and the
    eight argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m emb₁ () 𝒱h Lh lvh (fun _ _ => rfl) ρ (outsH m) (pdats m) 0 (fun _ => iprop(emp))
    (initOf (Pipeline.cells cfgs cellOf_inj) (Pipeline.launchToks cfgs cellOf_inj)) (hu0h (F := F))
    (fun _ c => Rr c) (hE0h ρ) (fun c => by iintro ⟨-, HO⟩; iexact HO)
    (reg0 m) (fun _ => .rfl) (fun _ => .rfl) (reg1 m) (fun _ => .rfl) (fun _ => .rfl)

end Cert.KernelIdeal.Hand

end
-- ==== Proof.Ref.Ops.lean ====
/-
  The reference program's @main as one straight line of its 126 host operations: the bodies of the
  outlined functions (the log-softmax, the two unbiased standard deviations with their variance and
  select helpers, the vector select) written out at each call over that call's own buffers. From
  any memory with zero counters every weakly fair execution of the line terminates and leaves each
  buffer at the fold of the operations' results over the launch contents; no operation writes an
  argument buffer, so the eight arguments end as they began.
-/
import proofs.«174775_j19164144075542_1_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call's body in place of the call. -/
abbrev ops : List (HloOp τ sig (Elt F)) :=
  [ StableHlo.binary main_arg1 main_arg0 main_v0 ((fun l r => Host.dotGeneral dot_S4x512x2048_S32000x2048_S4x512x32000_2_1_01_0_n_n none l r) : (⟨S4x512x2048, .f32⟩ : BufTy).Contents (Elt F) → (⟨S32000x2048, .f32⟩ : BufTy).Contents (Elt F) → (⟨S4x512x32000, .f32⟩ : BufTy).Contents (Elt F)),
    StableHlo.unary main_arg4 main_v1 (broadcastInDim S1x1x32000 ![2] bcast_S32000_S1x1x32000_2 : (⟨S32000, .f32⟩ : BufTy).Contents (Elt F) → (⟨S1x1x32000, .f32⟩ : BufTy).Contents (Elt F)),
    StableHlo.unary main_v1 main_v2 (broadcastInDim S4x512x32000 ![0, 1, 2] bcast_S1x1x32000_S4x512x32000_0_1_2 : (⟨S1x1x32000, .f32⟩ : BufTy).Contents (Elt F) → (⟨S4x512x32000, .f32⟩ : BufTy).Contents (Elt F)),
    StableHlo.binary main_v0 main_v2 main_v3 (addf : (⟨S4x512x32000, .f32⟩ : BufTy).Contents (Elt F) → (⟨S4x512x32000, .f32⟩ : BufTy).Contents (Elt F) → (⟨S4x512x32000, .f32⟩ : BufTy).Contents (Elt F)),
    StableHlo.TRef.nullary main_call0.cst (constant S_ .f32 0xFF800000#32),
    StableHlo.TRef.binary (.of main_v3 : StableHlo.TRef sig ⟨S4x512x32000, .f32⟩) main_call0.cst main_call0.v0 (fun x v => Host.reduce FloatOps.maximumf x v reducesTo_S4x512x32000_S4x512_d2 h_S_),
    StableHlo.TRef.nullary main_call0.cst_0 (constant S_ .f32 0xFF800000#32),
    StableHlo.TRef.unary main_call0.cst_0 main_call0.v1 (broadcastInDim S4x512 ![] bcast_S_S4x512),
    StableHlo.TRef.binary main_call0.v1 main_call0.v0 main_call0.v2 maximumf,
    StableHlo.TRef.unary main_call0.v2 main_call0.v3 (broadcastInDim S4x512x1 ![0, 1] bcast_S4x512_S4x512x1_0_1),
    StableHlo.TRef.unary main_call0.v3 main_call0.v4 (broadcastInDim S4x512x32000 ![0, 1, 2] bcast_S4x512x1_S4x512x32000_0_1_2),
    StableHlo.TRef.binary (.of main_v3 : StableHlo.TRef sig ⟨S4x512x32000, .f32⟩) main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S4x512x32000_S4x512_d2 h_S_),
    StableHlo.TRef.unary main_call0.v7 main_call0.v8 (broadcastInDim S4x512x1 ![0, 1] bcast_S4x512_S4x512x1_0_1),
    StableHlo.TRef.unary main_call0.v8 main_call0.v9 Host.log,
    StableHlo.TRef.unary main_call0.v9 main_call0.v10 (broadcastInDim S4x512x32000 ![0, 1, 2] bcast_S4x512x1_S4x512x32000_0_1_2),
    StableHlo.TRef.binary main_call0.v5 main_call0.v10 main_call0.v11 subf,
    StableHlo.nullary main_cst (constant S_ .f32 0xFF800000#32),
    StableHlo.binary main_v4 main_cst main_v5 ((fun x v => Host.reduce FloatOps.maximumf x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)),
    StableHlo.binary main_v5 main_arg2 main_v6 (mulf : (⟨S4x512, .f32⟩ : BufTy).Contents (Elt F) → (⟨S4x512, .f32⟩ : BufTy).Contents (Elt F) → (⟨S4x512, .f32⟩ : BufTy).Contents (Elt F)),
    StableHlo.nullary main_cst_0 (constant S_ .f32 0x00000000#32),
    StableHlo.binary main_v6 main_cst_0 main_v7 ((fun x v => Host.reduceAdd x v reducesTo_S4x512_S4_d1 h_S_) : (⟨S4x512, .f32⟩ : BufTy).Contents (Elt F) → (⟨S_, .f32⟩ : BufTy).Contents (Elt F) → (⟨S4, .f32⟩ : BufTy).Contents (Elt F)),
    StableHlo.binary main_arg5 main_arg6 main_v8 ((fun l r => Host.dotGeneral dot_S4x512x2048_S32000x2048_S4x512x32000_2_1_01_0_n_n none l r) : (⟨S4x512x2048, .f32⟩ : BufTy).Contents (Elt F) → (⟨S32000x2048, .f32⟩ : BufTy).Contents (Elt F) → (⟨S4x512x32000, .f32⟩ : BufTy).Contents (Elt F)),
    StableHlo.unary main_arg7 main_v9 (broadcastInDim S1x1x32000 ![2] bcast_S32000_S1x1x32000_2 : (⟨S32000, .f32⟩ : BufTy).Contents (Elt F) → (⟨S1x1x32000, .f32⟩ : BufTy).Contents (Elt F)),
    StableHlo.unary main_v9 main_v10 (broadcastInDim S4x512x32000 ![0, 1, 2] bcast_S1x1x32000_S4x512x32000_0_1_2 : (⟨S1x1x32000, .f32⟩ : BufTy).Contents (Elt F) → (⟨S4x512x32000, .f32⟩ : BufTy).Contents (Elt F)),
    StableHlo.binary main_v8 main_v10 main_v11 (addf : (⟨S4x512x32000, .f32⟩ : BufTy).Contents (Elt F) → (⟨S4x512x32000, .f32⟩ : BufTy).Contents (Elt F) → (⟨S4x512x32000, .f32⟩ : BufTy).Contents (Elt F)),
    StableHlo.TRef.nullary main_call1.cst (constant S_ .f32 0xFF800000#32),
    StableHlo.TRef.binary (.of main_v11 : StableHlo.TRef sig ⟨S4x512x32000, .f32⟩) main_call1.cst main_call1.v0 (fun x v => Host.reduce FloatOps.maximumf x v reducesTo_S4x512x32000_S4x512_d2 h_S_),
    StableHlo.TRef.nullary main_call1.cst_0 (constant S_ .f32 0xFF800000#32),
    StableHlo.TRef.unary main_call1.cst_0 main_call1.v1 (broadcastInDim S4x512 ![] bcast_S_S4x512),
    StableHlo.TRef.binary main_call1.v1 main_call1.v0 main_call1.v2 maximumf,
    StableHlo.TRef.unary main_call1.v2 main_call1.v3 (broadcastInDim S4x512x1 ![0, 1] bcast_S4x512_S4x512x1_0_1),
    StableHlo.TRef.unary main_call1.v3 main_call1.v4 (broadcastInDim S4x512x32000 ![0, 1, 2] bcast_S4x512x1_S4x512x32000_0_1_2),
    StableHlo.TRef.binary (.of main_v11 : StableHlo.TRef sig ⟨S4x512x32000, .f32⟩) main_call1.v4 main_call1.v5 subf,
    StableHlo.TRef.unary main_call1.v5 main_call1.v6 Host.exp,
    StableHlo.TRef.nullary main_call1.cst_1 (constant S_ .f32 0x00000000#32),
    StableHlo.TRef.binary main_call1.v6 main_call1.cst_1 main_call1.v7 (fun x v => Host.reduceAdd x v reducesTo_S4x512x32000_S4x512_d2 h_S_),
    StableHlo.TRef.unary main_call1.v7 main_call1.v8 (broadcastInDim S4x512x1 ![0, 1] bcast_S4x512_S4x512x1_0_1),
    StableHlo.TRef.unary main_call1.v8 main_call1.v9 Host.log,
    StableHlo.TRef.unary main_call1.v9 main_call1.v10 (broadcastInDim S4x512x32000 ![0, 1, 2] bcast_S4x512x1_S4x512x32000_0_1_2),
    StableHlo.TRef.binary main_call1.v5 main_call1.v10 main_call1.v11 subf,
    StableHlo.nullary main_cst_1 (constant S_ .f32 0xFF800000#32),
    StableHlo.binary main_v12 main_cst_1 main_v13 ((fun x v => Host.reduce FloatOps.maximumf x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)),
    StableHlo.binary main_v13 main_arg2 main_v14 (mulf : (⟨S4x512, .f32⟩ : BufTy).Contents (Elt F) → (⟨S4x512, .f32⟩ : BufTy).Contents (Elt F) → (⟨S4x512, .f32⟩ : BufTy).Contents (Elt F)),
    StableHlo.nullary main_cst_2 (constant S_ .f32 0x00000000#32),
    StableHlo.binary main_v14 main_cst_2 main_v15 ((fun x v => Host.reduceAdd x v reducesTo_S4x512_S4_d1 h_S_) : (⟨S4x512, .f32⟩ : BufTy).Contents (Elt F) → (⟨S_, .f32⟩ : BufTy).Contents (Elt F) → (⟨S4, .f32⟩ : BufTy).Contents (Elt F)),
    StableHlo.nullary main_cst_3 (constant S_ .f32 0x00000000#32),
    StableHlo.binary main_arg3 main_cst_3 main_v16 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_4 (constant S_ .f32 0x40800000#32),
    StableHlo.binary main_v16 main_cst_4 main_v17 (Host.divf : (⟨S_, .f32⟩ : BufTy).Contents (Elt F) → (⟨S_, .f32⟩ : BufTy).Contents (Elt F) → (⟨S_, .f32⟩ : BufTy).Contents (Elt F)),
    StableHlo.unary main_v17 main_v18 (broadcastInDim S4 ![] bcast_S_S4 : (⟨S_, .f32⟩ : BufTy).Contents (Elt F) → (⟨S4, .f32⟩ : BufTy).Contents (Elt F)),
    StableHlo.binary main_arg3 main_v18 main_v19 (subf : (⟨S4, .f32⟩ : BufTy).Contents (Elt F) → (⟨S4, .f32⟩ : BufTy).Contents (Elt F) → (⟨S4, .f32⟩ : BufTy).Contents (Elt F)),
    StableHlo.nullary main_c (constantI S_ 32 1#32),
    StableHlo.TRef.nullary main_call2.call0.cst (constant S_ .f32 0x00000000#32),
    StableHlo.TRef.binary (.of main_arg3 : StableHlo.TRef sig ⟨S4, .f32⟩) main_call2.call0.cst main_call2.call0.v0 (fun x v => Host.reduceAdd x v reducesTo_S4_S_d0 h_S_),
    StableHlo.TRef.unary main_call2.call0.v0 main_call2.call0.v1 (broadcastInDim S1 ![] bcast_S_S1),
    StableHlo.TRef.nullary main_call2.call0.cst_0 (constant S_ .f32 0x40800000#32),
    StableHlo.TRef.unary main_call2.call0.cst_0 main_call2.call0.v2 (broadcastInDim S1 ![] bcast_S_S1),
    StableHlo.TRef.binary main_call2.call0.v1 main_call2.call0.v2 main_call2.call0.v3 Host.divf,
    StableHlo.TRef.unary main_call2.call0.v3 main_call2.call0.v4 (broadcastInDim S4 ![0] bcast_S1_S4_0),
    StableHlo.TRef.binary (.of main_arg3 : StableHlo.TRef sig ⟨S4, .f32⟩) main_call2.call0.v4 main_call2.call0.v5 subf,
    StableHlo.TRef.binary main_call2.call0.v5 main_call2.call0.v5 main_call2.call0.v6 mulf,
    StableHlo.TRef.unary (.of main_c : StableHlo.TRef sig ⟨S_, .i32⟩) main_call2.call0.v7 (sitofp .f32),
    StableHlo.TRef.nullary main_call2.call0.cst_1 (constant S_ .f32 0x40800000#32),
    StableHlo.TRef.binary main_call2.call0.cst_1 main_call2.call0.v7 main_call2.call0.v8 subf,
    StableHlo.TRef.nullary main_call2.call0.cst_2 (constant S_ .f32 0x00000000#32),
    StableHlo.TRef.binary main_call2.call0.v6 main_call2.call0.cst_2 main_call2.call0.v9 (fun x v => Host.reduceAdd x v reducesTo_S4_S_d0 h_S_),
    StableHlo.TRef.binary main_call2.call0.v9 main_call2.call0.v8 main_call2.call0.v10 Host.divf,
    StableHlo.TRef.nullary main_call2.call0.cst_3 (constant S_ .f32 0x00000000#32),
    StableHlo.TRef.binary main_call2.call0.v8 main_call2.call0.cst_3 main_call2.call0.v11 (cmpf .ogt),
    StableHlo.TRef.nullary main_call2.call0.cst_4 (constant S_ .f32 0x7FC00000#32),
    StableHlo.TRef.unary main_call2.call0.cst_4 main_call2.call0.call0.v0 id,
    StableHlo.TRef.ternary main_call2.call0.v11 main_call2.call0.v10 main_call2.call0.call0.v0 main_call2.call0.call0.v1 select,
    StableHlo.TRef.unary main_call2.call0.call0.v1 main_call2.v1 Host.sqrt,
    StableHlo.nullary main_cst_5 (constant S_ .f32 0x00000000#32),
    StableHlo.binary main_v20 main_cst_5 main_v21 (cmpf .ogt : (⟨S_, .f32⟩ : BufTy).Contents (Elt F) → (⟨S_, .f32⟩ : BufTy).Contents (Elt F) → (⟨S_, .i1⟩ : BufTy).Contents (Elt F)),
    StableHlo.unary main_v20 main_v22 (broadcastInDim S4 ![] bcast_S_S4 : (⟨S_, .f32⟩ : BufTy).Contents (Elt F) → (⟨S4, .f32⟩ : BufTy).Contents (Elt F)),
    StableHlo.binary main_v19 main_v22 main_v23 (Host.divf : (⟨S4, .f32⟩ : BufTy).Contents (Elt F) → (⟨S4, .f32⟩ : BufTy).Contents (Elt F) → (⟨S4, .f32⟩ : BufTy).Contents (Elt F)),
    StableHlo.TRef.ternary (.of main_v21 : StableHlo.TRef sig ⟨S_, .i1⟩) (.of main_v23 : StableHlo.TRef sig ⟨S4, .f32⟩) (.of main_v19 : StableHlo.TRef sig ⟨S4, .f32⟩) main_call3.v0 (fun p a b => select (broadcastInDim S4 ![] bcast_S_S4 p) a b),
    StableHlo.binary main_v7 main_v15 main_v25 (subf : (⟨S4, .f32⟩ : BufTy).Contents (Elt F) → (⟨S4, .f32⟩ : BufTy).Contents (Elt F) → (⟨S4, .f32⟩ : BufTy).Contents (Elt F)),
    StableHlo.binary main_v24 main_v7 main_v26 (mulf : (⟨S4, .f32⟩ : BufTy).Contents (Elt F) → (⟨S4, .f32⟩ : BufTy).Contents (Elt F) → (⟨S4, .f32⟩ : BufTy).Contents (Elt F)),
    StableHlo.unary main_v26 main_v27 (Host.negf : (⟨S4, .f32⟩ : BufTy).Contents (Elt F) → (⟨S4, .f32⟩ : BufTy).Contents (Elt F)),
    StableHlo.nullary main_cst_6 (constant S_ .f32 0x3DCCCCCD#32),
    StableHlo.unary main_cst_6 main_v28 (broadcastInDim S4 ![] bcast_S_S4 : (⟨S_, .f32⟩ : BufTy).Contents (Elt F) → (⟨S4, .f32⟩ : BufTy).Contents (Elt F)),
    StableHlo.binary main_v28 main_v25 main_v29 (mulf : (⟨S4, .f32⟩ : BufTy).Contents (Elt F) → (⟨S4, .f32⟩ : BufTy).Contents (Elt F) → (⟨S4, .f32⟩ : BufTy).Contents (Elt F)),
    StableHlo.binary main_v27 main_v29 main_v30 (addf : (⟨S4, .f32⟩ : BufTy).Contents (Elt F) → (⟨S4, .f32⟩ : BufTy).Contents (Elt F) → (⟨S4, .f32⟩ : BufTy).Contents (Elt F)),
    StableHlo.nullary main_cst_7 (constant S_ .f32 0x00000000#32),
    StableHlo.binary main_v30 main_cst_7 main_v31 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_8 (constant S_ .f32 0x40800000#32),
    StableHlo.binary main_v31 main_cst_8 main_v32 (Host.divf : (⟨S_, .f32⟩ : BufTy).Contents (Elt F) → (⟨S_, .f32⟩ : BufTy).Contents (Elt F) → (⟨S_, .f32⟩ : BufTy).Contents (Elt F)),
    StableHlo.nullary main_cst_9 (constant S_ .f32 0x00000000#32),
    StableHlo.binary main_v7 main_cst_9 main_v33 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_10 (constant S_ .f32 0x40800000#32),
    StableHlo.binary main_v33 main_cst_10 main_v34 (Host.divf : (⟨S_, .f32⟩ : BufTy).Contents (Elt F) → (⟨S_, .f32⟩ : BufTy).Contents (Elt F) → (⟨S_, .f32⟩ : BufTy).Contents (Elt F)),
    StableHlo.nullary main_c_11 (constantI S_ 32 1#32),
    StableHlo.TRef.nullary main_call4.call0.cst (constant S_ .f32 0x00000000#32),
    StableHlo.TRef.binary (.of main_v7 : StableHlo.TRef sig ⟨S4, .f32⟩) main_call4.call0.cst main_call4.call0.v0 (fun x v => Host.reduceAdd x v reducesTo_S4_S_d0 h_S_),
    StableHlo.TRef.unary main_call4.call0.v0 main_call4.call0.v1 (broadcastInDim S1 ![] bcast_S_S1),
    StableHlo.TRef.nullary main_call4.call0.cst_0 (constant S_ .f32 0x40800000#32),
    StableHlo.TRef.unary main_call4.call0.cst_0 main_call4.call0.v2 (broadcastInDim S1 ![] bcast_S_S1),
    StableHlo.TRef.binary main_call4.call0.v1 main_call4.call0.v2 main_call4.call0.v3 Host.divf,
    StableHlo.TRef.unary main_call4.call0.v3 main_call4.call0.v4 (broadcastInDim S4 ![0] bcast_S1_S4_0),
    StableHlo.TRef.binary (.of main_v7 : StableHlo.TRef sig ⟨S4, .f32⟩) main_call4.call0.v4 main_call4.call0.v5 subf,
    StableHlo.TRef.binary main_call4.call0.v5 main_call4.call0.v5 main_call4.call0.v6 mulf,
    StableHlo.TRef.unary (.of main_c_11 : StableHlo.TRef sig ⟨S_, .i32⟩) main_call4.call0.v7 (sitofp .f32),
    StableHlo.TRef.nullary main_call4.call0.cst_1 (constant S_ .f32 0x40800000#32),
    StableHlo.TRef.binary main_call4.call0.cst_1 main_call4.call0.v7 main_call4.call0.v8 subf,
    StableHlo.TRef.nullary main_call4.call0.cst_2 (constant S_ .f32 0x00000000#32),
    StableHlo.TRef.binary main_call4.call0.v6 main_call4.call0.cst_2 main_call4.call0.v9 (fun x v => Host.reduceAdd x v reducesTo_S4_S_d0 h_S_),
    StableHlo.TRef.binary main_call4.call0.v9 main_call4.call0.v8 main_call4.call0.v10 Host.divf,
    StableHlo.TRef.nullary main_call4.call0.cst_3 (constant S_ .f32 0x00000000#32),
    StableHlo.TRef.binary main_call4.call0.v8 main_call4.call0.cst_3 main_call4.call0.v11 (cmpf .ogt),
    StableHlo.TRef.nullary main_call4.call0.cst_4 (constant S_ .f32 0x7FC00000#32),
    StableHlo.TRef.unary main_call4.call0.cst_4 main_call4.call0.call0.v0 id,
    StableHlo.TRef.ternary main_call4.call0.v11 main_call4.call0.v10 main_call4.call0.call0.v0 main_call4.call0.call0.v1 select,
    StableHlo.TRef.unary main_call4.call0.call0.v1 main_call4.v1 Host.sqrt,
    StableHlo.nullary main_cst_12 (constant S_ .f32 0x00000000#32),
    StableHlo.binary main_v3 main_cst_12 main_v36 ((fun x v => Host.reduceAdd x v reducesTo_S4x512x32000_S_d0_1_2 h_S_) : (⟨S4x512x32000, .f32⟩ : BufTy).Contents (Elt F) → (⟨S_, .f32⟩ : BufTy).Contents (Elt F) → (⟨S_, .f32⟩ : BufTy).Contents (Elt F)),
    StableHlo.nullary main_cst_13 (constant S_ .f32 0x4C7A0000#32),
    StableHlo.binary main_v36 main_cst_13 main_v37 (Host.divf : (⟨S_, .f32⟩ : BufTy).Contents (Elt F) → (⟨S_, .f32⟩ : BufTy).Contents (Elt F) → (⟨S_, .f32⟩ : BufTy).Contents (Elt F)),
    StableHlo.nullary main_cst_14 (constant S_ .f32 0x00000000#32),
    StableHlo.binary main_v25 main_cst_14 main_v38 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_15 (constant S_ .f32 0x40800000#32),
    StableHlo.binary main_v38 main_cst_15 main_v39 (Host.divf : (⟨S_, .f32⟩ : BufTy).Contents (Elt F) → (⟨S_, .f32⟩ : BufTy).Contents (Elt F) → (⟨S_, .f32⟩ : BufTy).Contents (Elt F)) ]

/-- @main is that line: the functions unfolded at their calls, the sequencing reassociated. -/
theorem main_eq (c : Dev nD) : main (F := F) c = seq ops := by
  simp only [main, fn_log_softmax.body, fn_where.body, fn_var.body, fn_std.body, fn_where_0.body, fn_var_2.body, fn_std_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., binary_bufs_sub .., nullary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., binary_bufs_sub .., nullary_bufs_sub .., binary_bufs_sub .., nullary_bufs_sub .., binary_bufs_sub .., nullary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., unary_bufs_sub .., binary_bufs_sub .., ternary_bufs_sub .., binary_bufs_sub .., binary_bufs_sub .., unary_bufs_sub .., nullary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., nullary_bufs_sub .., binary_bufs_sub .., nullary_bufs_sub .., binary_bufs_sub .., nullary_bufs_sub .., binary_bufs_sub ..⟩

/-- Every weakly fair execution of @main terminates with each buffer at the fold of the operations. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The buffers the line writes: one per operation. -/
abbrev ops_W : List (Ref sig .tc) := [main_v0, main_v1, main_v2, main_v3, main_call0_cst, main_call0_v0, main_call0_cst_0, main_call0_v1, main_call0_v2, main_call0_v3, main_call0_v4, main_call0_v5, main_call0_v6, main_call0_cst_1, main_call0_v7, main_call0_v8, main_call0_v9, main_call0_v10, main_v4, main_cst, main_v5, main_v6, main_cst_0, main_v7, main_v8, main_v9, main_v10, main_v11, main_call1_cst, main_call1_v0, main_call1_cst_0, main_call1_v1, main_call1_v2, main_call1_v3, main_call1_v4, main_call1_v5, main_call1_v6, main_call1_cst_1, main_call1_v7, main_call1_v8, main_call1_v9, main_call1_v10, main_v12, main_cst_1, main_v13, main_v14, main_cst_2, main_v15, main_cst_3, main_v16, main_cst_4, main_v17, main_v18, main_v19, main_c, main_call2_call0_cst, main_call2_call0_v0, main_call2_call0_v1, main_call2_call0_cst_0, main_call2_call0_v2, main_call2_call0_v3, main_call2_call0_v4, main_call2_call0_v5, main_call2_call0_v6, main_call2_call0_v7, main_call2_call0_cst_1, main_call2_call0_v8, main_call2_call0_cst_2, main_call2_call0_v9, main_call2_call0_v10, main_call2_call0_cst_3, main_call2_call0_v11, main_call2_call0_cst_4, main_call2_call0_call0_v0, main_call2_v0, main_v20, main_cst_5, main_v21, main_v22, main_v23, main_v24, main_v25, main_v26, main_v27, main_cst_6, main_v28, main_v29, main_v30, main_cst_7, main_v31, main_cst_8, main_v32, main_cst_9, main_v33, main_cst_10, main_v34, main_c_11, main_call4_call0_cst, main_call4_call0_v0, main_call4_call0_v1, main_call4_call0_cst_0, main_call4_call0_v2, main_call4_call0_v3, main_call4_call0_v4, main_call4_call0_v5, main_call4_call0_v6, main_call4_call0_v7, main_call4_call0_cst_1, main_call4_call0_v8, main_call4_call0_cst_2, main_call4_call0_v9, main_call4_call0_v10, main_call4_call0_cst_3, main_call4_call0_v11, main_call4_call0_cst_4, main_call4_call0_call0_v0, main_call4_v0, main_v35, main_cst_12, main_v36, main_cst_13, main_v37, main_cst_14, main_v38, main_cst_15, main_v39]

theorem ops_writes : (ops : List (HloOp τ sig (Elt F))).Forall fun op =>
    op.writes ⊆ (ops_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer the line does not write keeps its contents. -/
theorem ops_keep (V : Valuation τ sig (Elt F)) (r : Ref sig .tc) (h : r ∉ ops_W) :
    after ops V (Proc.devRef .tc r) = V (Proc.devRef .tc r) :=
  after_of_writes_sub ops V ops_writes h

/-- The reference runs to its end, nothing faulting, and its arguments end unchanged. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide))⟩)
    (run_all m g)

end Cert.ReferenceIdeal.Hand

end
-- ==== Proof.Ref.Stages.lean ====
/-
  The reference program's stages as functions of vectors, at the ideal values:
    logits x w b    = x · wᵀ + b (the contraction over the hidden axis, then the bias broadcast along the vocabulary axis),
    lp L            = the maximum over the vocabulary axis of the log-softmax of L (row maximum with −∞ as the
                      initial value, subtract, exponentiate, sum from 0, logarithm, subtract; then the maximum from −∞),
    seqsum l mask   = the sum over the sequence axis of l · mask,
    total L         = the sum of every entry of L, from 0,
  and on vectors of four: the mean (sum / 4), the unbiased standard deviation (the square root of the sum of squared
  deviations over 4 − 1, a quiet NaN were that divisor not positive), the advantages (the rewards centred, divided by
  their standard deviation where it is positive), the loss (the mean of −adv · seq + 0.1 · (seq − seq')), and the four metrics.
-/
import proofs.«174775_j19164144075542_1_alg».proof.Proof.Gen.ReferenceIdeal
import Idealize.ShloMosaic.PureOps.Ideal

noncomputable section

namespace Cert.ReferenceIdeal.Hand

open Cert.ReferenceIdeal Cert.ReferenceIdeal.Gen Idealize.ShloMosaic

/-! ## The stages, as functions of vectors -/

/-- x · wᵀ + b. -/
def logits (x : FVec Ideal S4x512x2048 .f32) (w : FVec Ideal S32000x2048 .f32) (b : FVec Ideal S32000 .f32) : FVec Ideal S4x512x32000 .f32 :=
  addf (Host.dotGeneral dot_S4x512x2048_S32000x2048_S4x512x32000_2_1_01_0_n_n none x w)
    (broadcastInDim S4x512x32000 ![0, 1, 2] bcast_S1x1x32000_S4x512x32000_0_1_2 (broadcastInDim S1x1x32000 ![2] bcast_S32000_S1x1x32000_2 b))

/-- Each row's maximum over the vocabulary axis, started from −∞ and once more compared with −∞. -/
def rowMax (L : FVec Ideal S4x512x32000 .f32) : FVec Ideal S4x512 .f32 :=
  maximumf (broadcastInDim S4x512 ![] bcast_S_S4x512 (constant S_ .f32 0xFF800000#32))
    (Host.reduce FloatOps.maximumf L (constant S_ .f32 0xFF800000#32) reducesTo_S4x512x32000_S4x512_d2 h_S_)

/-- A per-row value repeated along the vocabulary axis. -/
def alongVocab (r : FVec Ideal S4x512 .f32) : FVec Ideal S4x512x32000 .f32 :=
  broadcastInDim S4x512x32000 ![0, 1, 2] bcast_S4x512x1_S4x512x32000_0_1_2 (broadcastInDim S4x512x1 ![0, 1] bcast_S4x512_S4x512x1_0_1 r)

/-- L minus its row maximum. -/
def shifted (L : FVec Ideal S4x512x32000 .f32) : FVec Ideal S4x512x32000 .f32 :=
  subf L (alongVocab (rowMax L))

/-- The log-softmax over the vocabulary axis. -/
def logSoftmax (L : FVec Ideal S4x512x32000 .f32) : FVec Ideal S4x512x32000 .f32 :=
  subf (shifted L) (broadcastInDim S4x512x32000 ![0, 1, 2] bcast_S4x512x1_S4x512x32000_0_1_2
    (Host.log (broadcastInDim S4x512x1 ![0, 1] bcast_S4x512_S4x512x1_0_1
      (Host.reduceAdd (Host.exp (shifted L)) (constant S_ .f32 0x00000000#32) reducesTo_S4x512x32000_S4x512_d2 h_S_))))

/-- The largest log-probability of each row. -/
def lp (L : FVec Ideal S4x512x32000 .f32) : FVec Ideal S4x512 .f32 :=
  Host.reduce FloatOps.maximumf (logSoftmax L) (constant S_ .f32 0xFF800000#32) reducesTo_S4x512x32000_S4x512_d2 h_S_

/-- The sum of every entry, from 0. -/
def total (L : FVec Ideal S4x512x32000 .f32) : FVec Ideal S_ .f32 :=
  Host.reduceAdd L (constant S_ .f32 0x00000000#32) reducesTo_S4x512x32000_S_d0_1_2 h_S_

/-- The masked sum over the sequence axis. -/
def seqsum (l mask : FVec Ideal S4x512 .f32) : FVec Ideal S4 .f32 :=
  Host.reduceAdd (mulf l mask) (constant S_ .f32 0x00000000#32) reducesTo_S4x512_S4_d1 h_S_

/-- The sum of a vector of four, from 0. -/
def sumS4 (x : FVec Ideal S4 .f32) : FVec Ideal S_ .f32 :=
  Host.reduceAdd x (constant S_ .f32 0x00000000#32) reducesTo_S4_S_d0 h_S_

/-- The mean of a vector of four. -/
def meanS4 (x : FVec Ideal S4 .f32) : FVec Ideal S_ .f32 :=
  Host.divf (sumS4 x) (constant S_ .f32 0x40800000#32)

/-- A vector of four minus its mean. -/
def centered (x : FVec Ideal S4 .f32) : FVec Ideal S4 .f32 :=
  subf x (broadcastInDim S4 ![] bcast_S_S4 (meanS4 x))

/-- The deviations from the mean as the variance takes them (the mean through a one-element vector). -/
def dev (x : FVec Ideal S4 .f32) : FVec Ideal S4 .f32 :=
  subf x (broadcastInDim S4 ![0] bcast_S1_S4_0
    (Host.divf (broadcastInDim S1 ![] bcast_S_S1 (sumS4 x)) (broadcastInDim S1 ![] bcast_S_S1 (constant S_ .f32 0x40800000#32))))

/-- 4 minus the degrees-of-freedom correction. -/
def dof (c : IVec S_ 32) : FVec Ideal S_ .f32 :=
  subf (constant S_ .f32 0x40800000#32) (sitofp .f32 c)

/-- The corrected variance: the sum of squared deviations over `dof c` where that is positive, a quiet NaN elsewhere. -/
def varOf (x : FVec Ideal S4 .f32) (c : IVec S_ 32) : FVec Ideal S_ .f32 :=
  select (cmpf .ogt (dof c) (constant S_ .f32 0x00000000#32)) (Host.divf (sumS4 (mulf (dev x) (dev x))) (dof c)) (id (constant S_ .f32 0x7FC00000#32))

/-- The corrected standard deviation. -/
def stdOf (x : FVec Ideal S4 .f32) (c : IVec S_ 32) : FVec Ideal S_ .f32 :=
  Host.sqrt (varOf x c)

/-- The advantages: the centred rewards divided by their standard deviation where that is positive. -/
def advOf (sd : FVec Ideal S_ .f32) (cen : FVec Ideal S4 .f32) : FVec Ideal S4 .f32 :=
  select (broadcastInDim S4 ![] bcast_S_S4 (cmpf .ogt sd (constant S_ .f32 0x00000000#32))) (Host.divf cen (broadcastInDim S4 ![] bcast_S_S4 sd)) cen

/-- The loss from the rewards' standard deviation, the centred rewards and the two models' sequence sums. -/
def lossOf (sd : FVec Ideal S_ .f32) (cen sp sr : FVec Ideal S4 .f32) : FVec Ideal S_ .f32 :=
  Host.divf (sumS4 (addf (Host.negf (mulf (advOf sd cen) sp)) (mulf (broadcastInDim S4 ![] bcast_S_S4 (constant S_ .f32 0x3DCCCCCD#32)) (subf sp sr)))) (constant S_ .f32 0x40800000#32)

/-- The loss. -/
def tail32 (lpP lpR mask : FVec Ideal S4x512 .f32) (rew : FVec Ideal S4 .f32) : FVec Ideal S_ .f32 :=
  lossOf (stdOf rew (constantI S_ 32 1#32)) (centered rew) (seqsum lpP mask) (seqsum lpR mask)

/-- The mean sequence log-probability. -/
def tail34 (lpP mask : FVec Ideal S4x512 .f32) : FVec Ideal S_ .f32 :=
  meanS4 (seqsum lpP mask)

/-- The unbiased standard deviation of the sequence log-probabilities. -/
def tail35 (lpP mask : FVec Ideal S4x512 .f32) : FVec Ideal S_ .f32 :=
  stdOf (seqsum lpP mask) (constantI S_ 32 1#32)

/-- The mean of all logits: their total over 65536000. -/
def tail37 (tot : FVec Ideal S_ .f32) : FVec Ideal S_ .f32 :=
  Host.divf tot (constant S_ .f32 0x4C7A0000#32)

/-- The mean difference of the two models' sequence log-probabilities. -/
def tail39 (lpP lpR mask : FVec Ideal S4x512 .f32) : FVec Ideal S_ .f32 :=
  meanS4 (subf (seqsum lpP mask) (seqsum lpR mask))

end Cert.ReferenceIdeal.Hand

end
-- ==== Proof.Ref.WinA.lean ====
/-
  Windows 1–6 of the reference program's line of host operations: after each window the buffers that later
  windows read are the named stage functions of the launch contents of the arguments — the two models' logits (x · wᵀ + b), their rows' largest log-probabilities, and the masked sums over the sequence axis. A buffer a window does
  not write keeps its contents through it.
-/
import proofs.«174775_j19164144075542_1_alg».proof.Proof.Ref.Ops
import proofs.«174775_j19164144075542_1_alg».proof.Proof.Ref.Stages
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Typed references at literal buffers carry the identity

A module-local function's operation reads and writes its buffers through transports along the equation
"the buffer's type is the value's type"; at a literal buffer that equation is reflexivity and the transport the identity. -/

theorem ofBuf_toBuf {Val : EltTy → Type} {T : BufTy} (x : TRef sig T) (v : T.Contents Val) : x.ofBuf (x.toBuf v) = v := by
  obtain ⟨r, rfl, _, _⟩ := x
  rfl

theorem ofBuf_main_v3 (v : (⟨S4x512x32000, .f32⟩ : BufTy).Contents (Elt Ideal)) :
    ((TRef.of main_v3 : TRef sig ⟨S4x512x32000, .f32⟩).ofBuf (Val := Elt Ideal) v) = v := rfl
theorem ofBuf_main_v11 (v : (⟨S4x512x32000, .f32⟩ : BufTy).Contents (Elt Ideal)) :
    ((TRef.of main_v11 : TRef sig ⟨S4x512x32000, .f32⟩).ofBuf (Val := Elt Ideal) v) = v := rfl
theorem ofBuf_main_arg3 (v : (⟨S4, .f32⟩ : BufTy).Contents (Elt Ideal)) :
    ((TRef.of main_arg3 : TRef sig ⟨S4, .f32⟩).ofBuf (Val := Elt Ideal) v) = v := rfl
theorem ofBuf_main_c (v : (⟨S_, .i32⟩ : BufTy).Contents (Elt Ideal)) :
    ((TRef.of main_c : TRef sig ⟨S_, .i32⟩).ofBuf (Val := Elt Ideal) v) = v := rfl
theorem ofBuf_main_v21 (v : (⟨S_, .i1⟩ : BufTy).Contents (Elt Ideal)) :
    ((TRef.of main_v21 : TRef sig ⟨S_, .i1⟩).ofBuf (Val := Elt Ideal) v) = v := rfl
theorem ofBuf_main_v23 (v : (⟨S4, .f32⟩ : BufTy).Contents (Elt Ideal)) :
    ((TRef.of main_v23 : TRef sig ⟨S4, .f32⟩).ofBuf (Val := Elt Ideal) v) = v := rfl
theorem ofBuf_main_v19 (v : (⟨S4, .f32⟩ : BufTy).Contents (Elt Ideal)) :
    ((TRef.of main_v19 : TRef sig ⟨S4, .f32⟩).ofBuf (Val := Elt Ideal) v) = v := rfl
theorem ofBuf_main_v7 (v : (⟨S4, .f32⟩ : BufTy).Contents (Elt Ideal)) :
    ((TRef.of main_v7 : TRef sig ⟨S4, .f32⟩).ofBuf (Val := Elt Ideal) v) = v := rfl
theorem ofBuf_main_c_11 (v : (⟨S_, .i32⟩ : BufTy).Contents (Elt Ideal)) :
    ((TRef.of main_c_11 : TRef sig ⟨S_, .i32⟩).ofBuf (Val := Elt Ideal) v) = v := rfl
theorem toBuf_main_v4 (v : (⟨S4x512x32000, .f32⟩ : BufTy).Contents (Elt Ideal)) :
    ((TRef.of main_v4 : TRef sig ⟨S4x512x32000, .f32⟩).toBuf (Val := Elt Ideal) v) = v := rfl
theorem toBuf_main_v12 (v : (⟨S4x512x32000, .f32⟩ : BufTy).Contents (Elt Ideal)) :
    ((TRef.of main_v12 : TRef sig ⟨S4x512x32000, .f32⟩).toBuf (Val := Elt Ideal) v) = v := rfl
theorem toBuf_main_v20 (v : (⟨S_, .f32⟩ : BufTy).Contents (Elt Ideal)) :
    ((TRef.of main_v20 : TRef sig ⟨S_, .f32⟩).toBuf (Val := Elt Ideal) v) = v := rfl
theorem toBuf_main_v24 (v : (⟨S4, .f32⟩ : BufTy).Contents (Elt Ideal)) :
    ((TRef.of main_v24 : TRef sig ⟨S4, .f32⟩).toBuf (Val := Elt Ideal) v) = v := rfl
theorem toBuf_main_v35 (v : (⟨S_, .f32⟩ : BufTy).Contents (Elt Ideal)) :
    ((TRef.of main_v35 : TRef sig ⟨S_, .f32⟩).toBuf (Val := Elt Ideal) v) = v := rfl

/-- Operations 0–3 of the line. -/
abbrev P1 : List (HloOp τ sig (Elt F)) :=
  [ StableHlo.binary main_arg1 main_arg0 main_v0 ((fun l r => Host.dotGeneral dot_S4x512x2048_S32000x2048_S4x512x32000_2_1_01_0_n_n none l r) : (⟨S4x512x2048, .f32⟩ : BufTy).Contents (Elt F) → (⟨S32000x2048, .f32⟩ : BufTy).Contents (Elt F) → (⟨S4x512x32000, .f32⟩ : BufTy).Contents (Elt F)),
    StableHlo.unary main_arg4 main_v1 (broadcastInDim S1x1x32000 ![2] bcast_S32000_S1x1x32000_2 : (⟨S32000, .f32⟩ : BufTy).Contents (Elt F) → (⟨S1x1x32000, .f32⟩ : BufTy).Contents (Elt F)),
    StableHlo.unary main_v1 main_v2 (broadcastInDim S4x512x32000 ![0, 1, 2] bcast_S1x1x32000_S4x512x32000_0_1_2 : (⟨S1x1x32000, .f32⟩ : BufTy).Contents (Elt F) → (⟨S4x512x32000, .f32⟩ : BufTy).Contents (Elt F)),
    StableHlo.binary main_v0 main_v2 main_v3 (addf : (⟨S4x512x32000, .f32⟩ : BufTy).Contents (Elt F) → (⟨S4x512x32000, .f32⟩ : BufTy).Contents (Elt F) → (⟨S4x512x32000, .f32⟩ : BufTy).Contents (Elt F)) ]

/-- The buffers those operations write. -/
abbrev P1_W : List (Ref sig .tc) := [main_v0, main_v1, main_v2, main_v3]

theorem P1_writes : (P1 : List (HloOp τ sig (Elt F))).Forall fun op =>
    op.writes ⊆ (P1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers after operations 0–3. -/
def val1 (V0 : Valuation τ sig (Elt Ideal)) : Valuation τ sig (Elt Ideal) := after (P1 (F := Ideal)) V0

/-- A buffer those operations do not write keeps its contents through them. -/
theorem val1_keep (V0 : Valuation τ sig (Elt Ideal)) (r : Ref sig .tc) (h : r ∉ P1_W) :
    val1 V0 (Proc.devRef .tc r) = V0 (Proc.devRef .tc r) :=
  after_of_writes_sub P1 _ P1_writes h

theorem val1_main_arg2 (V0 : Valuation τ sig (Elt Ideal)) : val1 V0 (no_index (Proc.devRef .tc main_arg2)) = V0 (Proc.devRef .tc main_arg2) :=
  val1_keep V0 main_arg2 (by decide)

theorem val1_main_arg3 (V0 : Valuation τ sig (Elt Ideal)) : val1 V0 (no_index (Proc.devRef .tc main_arg3)) = V0 (Proc.devRef .tc main_arg3) :=
  val1_keep V0 main_arg3 (by decide)

theorem val1_main_arg5 (V0 : Valuation τ sig (Elt Ideal)) : val1 V0 (no_index (Proc.devRef .tc main_arg5)) = V0 (Proc.devRef .tc main_arg5) :=
  val1_keep V0 main_arg5 (by decide)

theorem val1_main_arg6 (V0 : Valuation τ sig (Elt Ideal)) : val1 V0 (no_index (Proc.devRef .tc main_arg6)) = V0 (Proc.devRef .tc main_arg6) :=
  val1_keep V0 main_arg6 (by decide)

theorem val1_main_arg7 (V0 : Valuation τ sig (Elt Ideal)) : val1 V0 (no_index (Proc.devRef .tc main_arg7)) = V0 (Proc.devRef .tc main_arg7) :=
  val1_keep V0 main_arg7 (by decide)

attribute [local irreducible] Host.reduce Host.reduceAdd broadcastInDim Host.exp Host.log Host.sqrt Host.divf Host.negf subf addf mulf maximumf select cmpf sitofp constant constantI in
theorem val1_main_v3 (V0 : Valuation τ sig (Elt Ideal)) : val1 V0 (no_index (Proc.devRef .tc main_v3)) = (logits (V0 (Proc.devRef .tc main_arg1)) (V0 (Proc.devRef .tc main_arg0)) (V0 (Proc.devRef .tc main_arg4))) := by
  unfold val1
  simp only [P1]
  after_results_simp
  try simp only [ofBuf_toBuf, ofBuf_main_v3, ofBuf_main_v11, ofBuf_main_arg3, ofBuf_main_c, ofBuf_main_v21, ofBuf_main_v23, ofBuf_main_v19, ofBuf_main_v7, ofBuf_main_c_11, toBuf_main_v4, toBuf_main_v12, toBuf_main_v20, toBuf_main_v24, toBuf_main_v35]
  rfl

/-- Operations 4–20 of the line. -/
abbrev P2 : List (HloOp τ sig (Elt F)) :=
  [ StableHlo.TRef.nullary main_call0.cst (constant S_ .f32 0xFF800000#32),
    StableHlo.TRef.binary (.of main_v3 : StableHlo.TRef sig ⟨S4x512x32000, .f32⟩) main_call0.cst main_call0.v0 (fun x v => Host.reduce FloatOps.maximumf x v reducesTo_S4x512x32000_S4x512_d2 h_S_),
    StableHlo.TRef.nullary main_call0.cst_0 (constant S_ .f32 0xFF800000#32),
    StableHlo.TRef.unary main_call0.cst_0 main_call0.v1 (broadcastInDim S4x512 ![] bcast_S_S4x512),
    StableHlo.TRef.binary main_call0.v1 main_call0.v0 main_call0.v2 maximumf,
    StableHlo.TRef.unary main_call0.v2 main_call0.v3 (broadcastInDim S4x512x1 ![0, 1] bcast_S4x512_S4x512x1_0_1),
    StableHlo.TRef.unary main_call0.v3 main_call0.v4 (broadcastInDim S4x512x32000 ![0, 1, 2] bcast_S4x512x1_S4x512x32000_0_1_2),
    StableHlo.TRef.binary (.of main_v3 : StableHlo.TRef sig ⟨S4x512x32000, .f32⟩) main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S4x512x32000_S4x512_d2 h_S_),
    StableHlo.TRef.unary main_call0.v7 main_call0.v8 (broadcastInDim S4x512x1 ![0, 1] bcast_S4x512_S4x512x1_0_1),
    StableHlo.TRef.unary main_call0.v8 main_call0.v9 Host.log,
    StableHlo.TRef.unary main_call0.v9 main_call0.v10 (broadcastInDim S4x512x32000 ![0, 1, 2] bcast_S4x512x1_S4x512x32000_0_1_2),
    StableHlo.TRef.binary main_call0.v5 main_call0.v10 main_call0.v11 subf,
    StableHlo.nullary main_cst (constant S_ .f32 0xFF800000#32),
    StableHlo.binary main_v4 main_cst main_v5 ((fun x v => Host.reduce FloatOps.maximumf x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)) ]

/-- The buffers those operations write. -/
abbrev P2_W : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v4, main_cst, main_v5]

theorem P2_writes : (P2 : List (HloOp τ sig (Elt F))).Forall fun op =>
    op.writes ⊆ (P2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers after operations 0–20. -/
def val2 (V0 : Valuation τ sig (Elt Ideal)) : Valuation τ sig (Elt Ideal) := after (P2 (F := Ideal)) (val1 V0)

/-- A buffer those operations do not write keeps its contents through them. -/
theorem val2_keep (V0 : Valuation τ sig (Elt Ideal)) (r : Ref sig .tc) (h : r ∉ P2_W) :
    val2 V0 (Proc.devRef .tc r) = (val1 V0) (Proc.devRef .tc r) :=
  after_of_writes_sub P2 _ P2_writes h

theorem val2_main_arg2 (V0 : Valuation τ sig (Elt Ideal)) : val2 V0 (no_index (Proc.devRef .tc main_arg2)) = V0 (Proc.devRef .tc main_arg2) :=
  (val2_keep V0 main_arg2 (by decide)).trans (val1_main_arg2 V0)

theorem val2_main_arg3 (V0 : Valuation τ sig (Elt Ideal)) : val2 V0 (no_index (Proc.devRef .tc main_arg3)) = V0 (Proc.devRef .tc main_arg3) :=
  (val2_keep V0 main_arg3 (by decide)).trans (val1_main_arg3 V0)

theorem val2_main_arg5 (V0 : Valuation τ sig (Elt Ideal)) : val2 V0 (no_index (Proc.devRef .tc main_arg5)) = V0 (Proc.devRef .tc main_arg5) :=
  (val2_keep V0 main_arg5 (by decide)).trans (val1_main_arg5 V0)

theorem val2_main_arg6 (V0 : Valuation τ sig (Elt Ideal)) : val2 V0 (no_index (Proc.devRef .tc main_arg6)) = V0 (Proc.devRef .tc main_arg6) :=
  (val2_keep V0 main_arg6 (by decide)).trans (val1_main_arg6 V0)

theorem val2_main_arg7 (V0 : Valuation τ sig (Elt Ideal)) : val2 V0 (no_index (Proc.devRef .tc main_arg7)) = V0 (Proc.devRef .tc main_arg7) :=
  (val2_keep V0 main_arg7 (by decide)).trans (val1_main_arg7 V0)

theorem val2_main_v3 (V0 : Valuation τ sig (Elt Ideal)) : val2 V0 (no_index (Proc.devRef .tc main_v3)) = (logits (V0 (Proc.devRef .tc main_arg1)) (V0 (Proc.devRef .tc main_arg0)) (V0 (Proc.devRef .tc main_arg4))) :=
  (val2_keep V0 main_v3 (by decide)).trans (val1_main_v3 V0)

attribute [local irreducible] Host.reduce Host.reduceAdd broadcastInDim Host.exp Host.log Host.sqrt Host.divf Host.negf subf addf mulf maximumf select cmpf sitofp constant constantI in
theorem val2_main_v5 (V0 : Valuation τ sig (Elt Ideal)) : val2 V0 (no_index (Proc.devRef .tc main_v5)) = lp (logits (V0 (Proc.devRef .tc main_arg1)) (V0 (Proc.devRef .tc main_arg0)) (V0 (Proc.devRef .tc main_arg4))) := by
  unfold val2
  simp only [P2]
  after_results_simp
  try simp only [val1_main_v3]
  try simp only [ofBuf_toBuf, ofBuf_main_v3, ofBuf_main_v11, ofBuf_main_arg3, ofBuf_main_c, ofBuf_main_v21, ofBuf_main_v23, ofBuf_main_v19, ofBuf_main_v7, ofBuf_main_c_11, toBuf_main_v4, toBuf_main_v12, toBuf_main_v20, toBuf_main_v24, toBuf_main_v35]
  rfl

/-- Operations 21–23 of the line. -/
abbrev P3 : List (HloOp τ sig (Elt F)) :=
  [ StableHlo.binary main_v5 main_arg2 main_v6 (mulf : (⟨S4x512, .f32⟩ : BufTy).Contents (Elt F) → (⟨S4x512, .f32⟩ : BufTy).Contents (Elt F) → (⟨S4x512, .f32⟩ : BufTy).Contents (Elt F)),
    StableHlo.nullary main_cst_0 (constant S_ .f32 0x00000000#32),
    StableHlo.binary main_v6 main_cst_0 main_v7 ((fun x v => Host.reduceAdd x v reducesTo_S4x512_S4_d1 h_S_) : (⟨S4x512, .f32⟩ : BufTy).Contents (Elt F) → (⟨S_, .f32⟩ : BufTy).Contents (Elt F) → (⟨S4, .f32⟩ : BufTy).Contents (Elt F)) ]

/-- The buffers those operations write. -/
abbrev P3_W : List (Ref sig .tc) := [main_v6, main_cst_0, main_v7]

theorem P3_writes : (P3 : List (HloOp τ sig (Elt F))).Forall fun op =>
    op.writes ⊆ (P3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers after operations 0–23. -/
def val3 (V0 : Valuation τ sig (Elt Ideal)) : Valuation τ sig (Elt Ideal) := after (P3 (F := Ideal)) (val2 V0)

/-- A buffer those operations do not write keeps its contents through them. -/
theorem val3_keep (V0 : Valuation τ sig (Elt Ideal)) (r : Ref sig .tc) (h : r ∉ P3_W) :
    val3 V0 (Proc.devRef .tc r) = (val2 V0) (Proc.devRef .tc r) :=
  after_of_writes_sub P3 _ P3_writes h

theorem val3_main_arg2 (V0 : Valuation τ sig (Elt Ideal)) : val3 V0 (no_index (Proc.devRef .tc main_arg2)) = V0 (Proc.devRef .tc main_arg2) :=
  (val3_keep V0 main_arg2 (by decide)).trans (val2_main_arg2 V0)

theorem val3_main_arg3 (V0 : Valuation τ sig (Elt Ideal)) : val3 V0 (no_index (Proc.devRef .tc main_arg3)) = V0 (Proc.devRef .tc main_arg3) :=
  (val3_keep V0 main_arg3 (by decide)).trans (val2_main_arg3 V0)

theorem val3_main_arg5 (V0 : Valuation τ sig (Elt Ideal)) : val3 V0 (no_index (Proc.devRef .tc main_arg5)) = V0 (Proc.devRef .tc main_arg5) :=
  (val3_keep V0 main_arg5 (by decide)).trans (val2_main_arg5 V0)

theorem val3_main_arg6 (V0 : Valuation τ sig (Elt Ideal)) : val3 V0 (no_index (Proc.devRef .tc main_arg6)) = V0 (Proc.devRef .tc main_arg6) :=
  (val3_keep V0 main_arg6 (by decide)).trans (val2_main_arg6 V0)

theorem val3_main_arg7 (V0 : Valuation τ sig (Elt Ideal)) : val3 V0 (no_index (Proc.devRef .tc main_arg7)) = V0 (Proc.devRef .tc main_arg7) :=
  (val3_keep V0 main_arg7 (by decide)).trans (val2_main_arg7 V0)

theorem val3_main_v3 (V0 : Valuation τ sig (Elt Ideal)) : val3 V0 (no_index (Proc.devRef .tc main_v3)) = (logits (V0 (Proc.devRef .tc main_arg1)) (V0 (Proc.devRef .tc main_arg0)) (V0 (Proc.devRef .tc main_arg4))) :=
  (val3_keep V0 main_v3 (by decide)).trans (val2_main_v3 V0)

attribute [local irreducible] Host.reduce Host.reduceAdd broadcastInDim Host.exp Host.log Host.sqrt Host.divf Host.negf subf addf mulf maximumf select cmpf sitofp constant constantI in
theorem val3_main_v7 (V0 : Valuation τ sig (Elt Ideal)) : val3 V0 (no_index (Proc.devRef .tc main_v7)) = (seqsum (lp (logits (V0 (Proc.devRef .tc main_arg1)) (V0 (Proc.devRef .tc main_arg0)) (V0 (Proc.devRef .tc main_arg4)))) (V0 (Proc.devRef .tc main_arg2))) := by
  unfold val3
  simp only [P3]
  after_results_simp
  try simp only [val2_main_v5, val2_main_arg2]
  try simp only [ofBuf_toBuf, ofBuf_main_v3, ofBuf_main_v11, ofBuf_main_arg3, ofBuf_main_c, ofBuf_main_v21, ofBuf_main_v23, ofBuf_main_v19, ofBuf_main_v7, ofBuf_main_c_11, toBuf_main_v4, toBuf_main_v12, toBuf_main_v20, toBuf_main_v24, toBuf_main_v35]
  rfl

/-- Operations 24–27 of the line. -/
abbrev P4 : List (HloOp τ sig (Elt F)) :=
  [ StableHlo.binary main_arg5 main_arg6 main_v8 ((fun l r => Host.dotGeneral dot_S4x512x2048_S32000x2048_S4x512x32000_2_1_01_0_n_n none l r) : (⟨S4x512x2048, .f32⟩ : BufTy).Contents (Elt F) → (⟨S32000x2048, .f32⟩ : BufTy).Contents (Elt F) → (⟨S4x512x32000, .f32⟩ : BufTy).Contents (Elt F)),
    StableHlo.unary main_arg7 main_v9 (broadcastInDim S1x1x32000 ![2] bcast_S32000_S1x1x32000_2 : (⟨S32000, .f32⟩ : BufTy).Contents (Elt F) → (⟨S1x1x32000, .f32⟩ : BufTy).Contents (Elt F)),
    StableHlo.unary main_v9 main_v10 (broadcastInDim S4x512x32000 ![0, 1, 2] bcast_S1x1x32000_S4x512x32000_0_1_2 : (⟨S1x1x32000, .f32⟩ : BufTy).Contents (Elt F) → (⟨S4x512x32000, .f32⟩ : BufTy).Contents (Elt F)),
    StableHlo.binary main_v8 main_v10 main_v11 (addf : (⟨S4x512x32000, .f32⟩ : BufTy).Contents (Elt F) → (⟨S4x512x32000, .f32⟩ : BufTy).Contents (Elt F) → (⟨S4x512x32000, .f32⟩ : BufTy).Contents (Elt F)) ]

/-- The buffers those operations write. -/
abbrev P4_W : List (Ref sig .tc) := [main_v8, main_v9, main_v10, main_v11]

theorem P4_writes : (P4 : List (HloOp τ sig (Elt F))).Forall fun op =>
    op.writes ⊆ (P4_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers after operations 0–27. -/
def val4 (V0 : Valuation τ sig (Elt Ideal)) : Valuation τ sig (Elt Ideal) := after (P4 (F := Ideal)) (val3 V0)

/-- A buffer those operations do not write keeps its contents through them. -/
theorem val4_keep (V0 : Valuation τ sig (Elt Ideal)) (r : Ref sig .tc) (h : r ∉ P4_W) :
    val4 V0 (Proc.devRef .tc r) = (val3 V0) (Proc.devRef .tc r) :=
  after_of_writes_sub P4 _ P4_writes h

theorem val4_main_arg2 (V0 : Valuation τ sig (Elt Ideal)) : val4 V0 (no_index (Proc.devRef .tc main_arg2)) = V0 (Proc.devRef .tc main_arg2) :=
  (val4_keep V0 main_arg2 (by decide)).trans (val3_main_arg2 V0)

theorem val4_main_arg3 (V0 : Valuation τ sig (Elt Ideal)) : val4 V0 (no_index (Proc.devRef .tc main_arg3)) = V0 (Proc.devRef .tc main_arg3) :=
  (val4_keep V0 main_arg3 (by decide)).trans (val3_main_arg3 V0)

theorem val4_main_v3 (V0 : Valuation τ sig (Elt Ideal)) : val4 V0 (no_index (Proc.devRef .tc main_v3)) = (logits (V0 (Proc.devRef .tc main_arg1)) (V0 (Proc.devRef .tc main_arg0)) (V0 (Proc.devRef .tc main_arg4))) :=
  (val4_keep V0 main_v3 (by decide)).trans (val3_main_v3 V0)

theorem val4_main_v7 (V0 : Valuation τ sig (Elt Ideal)) : val4 V0 (no_index (Proc.devRef .tc main_v7)) = (seqsum (lp (logits (V0 (Proc.devRef .tc main_arg1)) (V0 (Proc.devRef .tc main_arg0)) (V0 (Proc.devRef .tc main_arg4)))) (V0 (Proc.devRef .tc main_arg2))) :=
  (val4_keep V0 main_v7 (by decide)).trans (val3_main_v7 V0)

attribute [local irreducible] Host.reduce Host.reduceAdd broadcastInDim Host.exp Host.log Host.sqrt Host.divf Host.negf subf addf mulf maximumf select cmpf sitofp constant constantI in
theorem val4_main_v11 (V0 : Valuation τ sig (Elt Ideal)) : val4 V0 (no_index (Proc.devRef .tc main_v11)) = (logits (V0 (Proc.devRef .tc main_arg5)) (V0 (Proc.devRef .tc main_arg6)) (V0 (Proc.devRef .tc main_arg7))) := by
  unfold val4
  simp only [P4]
  after_results_simp
  try simp only [val3_main_arg5, val3_main_arg6, val3_main_arg7]
  try simp only [ofBuf_toBuf, ofBuf_main_v3, ofBuf_main_v11, ofBuf_main_arg3, ofBuf_main_c, ofBuf_main_v21, ofBuf_main_v23, ofBuf_main_v19, ofBuf_main_v7, ofBuf_main_c_11, toBuf_main_v4, toBuf_main_v12, toBuf_main_v20, toBuf_main_v24, toBuf_main_v35]
  rfl

/-- Operations 28–44 of the line. -/
abbrev P5 : List (HloOp τ sig (Elt F)) :=
  [ StableHlo.TRef.nullary main_call1.cst (constant S_ .f32 0xFF800000#32),
    StableHlo.TRef.binary (.of main_v11 : StableHlo.TRef sig ⟨S4x512x32000, .f32⟩) main_call1.cst main_call1.v0 (fun x v => Host.reduce FloatOps.maximumf x v reducesTo_S4x512x32000_S4x512_d2 h_S_),
    StableHlo.TRef.nullary main_call1.cst_0 (constant S_ .f32 0xFF800000#32),
    StableHlo.TRef.unary main_call1.cst_0 main_call1.v1 (broadcastInDim S4x512 ![] bcast_S_S4x512),
    StableHlo.TRef.binary main_call1.v1 main_call1.v0 main_call1.v2 maximumf,
    StableHlo.TRef.unary main_call1.v2 main_call1.v3 (broadcastInDim S4x512x1 ![0, 1] bcast_S4x512_S4x512x1_0_1),
    StableHlo.TRef.unary main_call1.v3 main_call1.v4 (broadcastInDim S4x512x32000 ![0, 1, 2] bcast_S4x512x1_S4x512x32000_0_1_2),
    StableHlo.TRef.binary (.of main_v11 : StableHlo.TRef sig ⟨S4x512x32000, .f32⟩) main_call1.v4 main_call1.v5 subf,
    StableHlo.TRef.unary main_call1.v5 main_call1.v6 Host.exp,
    StableHlo.TRef.nullary main_call1.cst_1 (constant S_ .f32 0x00000000#32),
    StableHlo.TRef.binary main_call1.v6 main_call1.cst_1 main_call1.v7 (fun x v => Host.reduceAdd x v reducesTo_S4x512x32000_S4x512_d2 h_S_),
    StableHlo.TRef.unary main_call1.v7 main_call1.v8 (broadcastInDim S4x512x1 ![0, 1] bcast_S4x512_S4x512x1_0_1),
    StableHlo.TRef.unary main_call1.v8 main_call1.v9 Host.log,
    StableHlo.TRef.unary main_call1.v9 main_call1.v10 (broadcastInDim S4x512x32000 ![0, 1, 2] bcast_S4x512x1_S4x512x32000_0_1_2),
    StableHlo.TRef.binary main_call1.v5 main_call1.v10 main_call1.v11 subf,
    StableHlo.nullary main_cst_1 (constant S_ .f32 0xFF800000#32),
    StableHlo.binary main_v12 main_cst_1 main_v13 ((fun x v => Host.reduce FloatOps.maximumf x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)) ]

/-- The buffers those operations write. -/
abbrev P5_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v12, main_cst_1, main_v13]

theorem P5_writes : (P5 : List (HloOp τ sig (Elt F))).Forall fun op =>
    op.writes ⊆ (P5_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers after operations 0–44. -/
def val5 (V0 : Valuation τ sig (Elt Ideal)) : Valuation τ sig (Elt Ideal) := after (P5 (F := Ideal)) (val4 V0)

/-- A buffer those operations do not write keeps its contents through them. -/
theorem val5_keep (V0 : Valuation τ sig (Elt Ideal)) (r : Ref sig .tc) (h : r ∉ P5_W) :
    val5 V0 (Proc.devRef .tc r) = (val4 V0) (Proc.devRef .tc r) :=
  after_of_writes_sub P5 _ P5_writes h

theorem val5_main_arg2 (V0 : Valuation τ sig (Elt Ideal)) : val5 V0 (no_index (Proc.devRef .tc main_arg2)) = V0 (Proc.devRef .tc main_arg2) :=
  (val5_keep V0 main_arg2 (by decide)).trans (val4_main_arg2 V0)

theorem val5_main_arg3 (V0 : Valuation τ sig (Elt Ideal)) : val5 V0 (no_index (Proc.devRef .tc main_arg3)) = V0 (Proc.devRef .tc main_arg3) :=
  (val5_keep V0 main_arg3 (by decide)).trans (val4_main_arg3 V0)

theorem val5_main_v3 (V0 : Valuation τ sig (Elt Ideal)) : val5 V0 (no_index (Proc.devRef .tc main_v3)) = (logits (V0 (Proc.devRef .tc main_arg1)) (V0 (Proc.devRef .tc main_arg0)) (V0 (Proc.devRef .tc main_arg4))) :=
  (val5_keep V0 main_v3 (by decide)).trans (val4_main_v3 V0)

theorem val5_main_v7 (V0 : Valuation τ sig (Elt Ideal)) : val5 V0 (no_index (Proc.devRef .tc main_v7)) = (seqsum (lp (logits (V0 (Proc.devRef .tc main_arg1)) (V0 (Proc.devRef .tc main_arg0)) (V0 (Proc.devRef .tc main_arg4)))) (V0 (Proc.devRef .tc main_arg2))) :=
  (val5_keep V0 main_v7 (by decide)).trans (val4_main_v7 V0)

attribute [local irreducible] Host.reduce Host.reduceAdd broadcastInDim Host.exp Host.log Host.sqrt Host.divf Host.negf subf addf mulf maximumf select cmpf sitofp constant constantI in
theorem val5_main_v13 (V0 : Valuation τ sig (Elt Ideal)) : val5 V0 (no_index (Proc.devRef .tc main_v13)) = lp (logits (V0 (Proc.devRef .tc main_arg5)) (V0 (Proc.devRef .tc main_arg6)) (V0 (Proc.devRef .tc main_arg7))) := by
  unfold val5
  simp only [P5]
  after_results_simp
  try simp only [val4_main_v11]
  try simp only [ofBuf_toBuf, ofBuf_main_v3, ofBuf_main_v11, ofBuf_main_arg3, ofBuf_main_c, ofBuf_main_v21, ofBuf_main_v23, ofBuf_main_v19, ofBuf_main_v7, ofBuf_main_c_11, toBuf_main_v4, toBuf_main_v12, toBuf_main_v20, toBuf_main_v24, toBuf_main_v35]
  rfl

/-- Operations 45–47 of the line. -/
abbrev P6 : List (HloOp τ sig (Elt F)) :=
  [ StableHlo.binary main_v13 main_arg2 main_v14 (mulf : (⟨S4x512, .f32⟩ : BufTy).Contents (Elt F) → (⟨S4x512, .f32⟩ : BufTy).Contents (Elt F) → (⟨S4x512, .f32⟩ : BufTy).Contents (Elt F)),
    StableHlo.nullary main_cst_2 (constant S_ .f32 0x00000000#32),
    StableHlo.binary main_v14 main_cst_2 main_v15 ((fun x v => Host.reduceAdd x v reducesTo_S4x512_S4_d1 h_S_) : (⟨S4x512, .f32⟩ : BufTy).Contents (Elt F) → (⟨S_, .f32⟩ : BufTy).Contents (Elt F) → (⟨S4, .f32⟩ : BufTy).Contents (Elt F)) ]

/-- The buffers those operations write. -/
abbrev P6_W : List (Ref sig .tc) := [main_v14, main_cst_2, main_v15]

theorem P6_writes : (P6 : List (HloOp τ sig (Elt F))).Forall fun op =>
    op.writes ⊆ (P6_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers after operations 0–47. -/
def val6 (V0 : Valuation τ sig (Elt Ideal)) : Valuation τ sig (Elt Ideal) := after (P6 (F := Ideal)) (val5 V0)

/-- A buffer those operations do not write keeps its contents through them. -/
theorem val6_keep (V0 : Valuation τ sig (Elt Ideal)) (r : Ref sig .tc) (h : r ∉ P6_W) :
    val6 V0 (Proc.devRef .tc r) = (val5 V0) (Proc.devRef .tc r) :=
  after_of_writes_sub P6 _ P6_writes h

theorem val6_main_arg3 (V0 : Valuation τ sig (Elt Ideal)) : val6 V0 (no_index (Proc.devRef .tc main_arg3)) = V0 (Proc.devRef .tc main_arg3) :=
  (val6_keep V0 main_arg3 (by decide)).trans (val5_main_arg3 V0)

theorem val6_main_v3 (V0 : Valuation τ sig (Elt Ideal)) : val6 V0 (no_index (Proc.devRef .tc main_v3)) = (logits (V0 (Proc.devRef .tc main_arg1)) (V0 (Proc.devRef .tc main_arg0)) (V0 (Proc.devRef .tc main_arg4))) :=
  (val6_keep V0 main_v3 (by decide)).trans (val5_main_v3 V0)

theorem val6_main_v7 (V0 : Valuation τ sig (Elt Ideal)) : val6 V0 (no_index (Proc.devRef .tc main_v7)) = (seqsum (lp (logits (V0 (Proc.devRef .tc main_arg1)) (V0 (Proc.devRef .tc main_arg0)) (V0 (Proc.devRef .tc main_arg4)))) (V0 (Proc.devRef .tc main_arg2))) :=
  (val6_keep V0 main_v7 (by decide)).trans (val5_main_v7 V0)

attribute [local irreducible] Host.reduce Host.reduceAdd broadcastInDim Host.exp Host.log Host.sqrt Host.divf Host.negf subf addf mulf maximumf select cmpf sitofp constant constantI in
theorem val6_main_v15 (V0 : Valuation τ sig (Elt Ideal)) : val6 V0 (no_index (Proc.devRef .tc main_v15)) = (seqsum (lp (logits (V0 (Proc.devRef .tc main_arg5)) (V0 (Proc.devRef .tc main_arg6)) (V0 (Proc.devRef .tc main_arg7)))) (V0 (Proc.devRef .tc main_arg2))) := by
  unfold val6
  simp only [P6]
  after_results_simp
  try simp only [val5_main_v13, val5_main_arg2]
  try simp only [ofBuf_toBuf, ofBuf_main_v3, ofBuf_main_v11, ofBuf_main_arg3, ofBuf_main_c, ofBuf_main_v21, ofBuf_main_v23, ofBuf_main_v19, ofBuf_main_v7, ofBuf_main_c_11, toBuf_main_v4, toBuf_main_v12, toBuf_main_v20, toBuf_main_v24, toBuf_main_v35]
  rfl

end Cert.ReferenceIdeal.Hand

end
-- ==== Proof.Ref.WinB.lean ====
/-
  Windows 7–9 of the reference program's line of host operations: after each window the buffers that later
  windows read are the named stage functions of the launch contents of the arguments — the centred rewards, their unbiased standard deviation, the difference of the two sequence sums and the loss. A buffer a window does
  not write keeps its contents through it.
-/
import proofs.«174775_j19164144075542_1_alg».proof.Proof.Ref.WinA

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 48–54 of the line. -/
abbrev P7 : List (HloOp τ sig (Elt F)) :=
  [ StableHlo.nullary main_cst_3 (constant S_ .f32 0x00000000#32),
    StableHlo.binary main_arg3 main_cst_3 main_v16 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_4 (constant S_ .f32 0x40800000#32),
    StableHlo.binary main_v16 main_cst_4 main_v17 (Host.divf : (⟨S_, .f32⟩ : BufTy).Contents (Elt F) → (⟨S_, .f32⟩ : BufTy).Contents (Elt F) → (⟨S_, .f32⟩ : BufTy).Contents (Elt F)),
    StableHlo.unary main_v17 main_v18 (broadcastInDim S4 ![] bcast_S_S4 : (⟨S_, .f32⟩ : BufTy).Contents (Elt F) → (⟨S4, .f32⟩ : BufTy).Contents (Elt F)),
    StableHlo.binary main_arg3 main_v18 main_v19 (subf : (⟨S4, .f32⟩ : BufTy).Contents (Elt F) → (⟨S4, .f32⟩ : BufTy).Contents (Elt F) → (⟨S4, .f32⟩ : BufTy).Contents (Elt F)),
    StableHlo.nullary main_c (constantI S_ 32 1#32) ]

/-- The buffers those operations write. -/
abbrev P7_W : List (Ref sig .tc) := [main_cst_3, main_v16, main_cst_4, main_v17, main_v18, main_v19, main_c]

theorem P7_writes : (P7 : List (HloOp τ sig (Elt F))).Forall fun op =>
    op.writes ⊆ (P7_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers after operations 0–54. -/
def val7 (V0 : Valuation τ sig (Elt Ideal)) : Valuation τ sig (Elt Ideal) := after (P7 (F := Ideal)) (val6 V0)

/-- A buffer those operations do not write keeps its contents through them. -/
theorem val7_keep (V0 : Valuation τ sig (Elt Ideal)) (r : Ref sig .tc) (h : r ∉ P7_W) :
    val7 V0 (Proc.devRef .tc r) = (val6 V0) (Proc.devRef .tc r) :=
  after_of_writes_sub P7 _ P7_writes h

theorem val7_main_arg3 (V0 : Valuation τ sig (Elt Ideal)) : val7 V0 (no_index (Proc.devRef .tc main_arg3)) = V0 (Proc.devRef .tc main_arg3) :=
  (val7_keep V0 main_arg3 (by decide)).trans (val6_main_arg3 V0)

theorem val7_main_v3 (V0 : Valuation τ sig (Elt Ideal)) : val7 V0 (no_index (Proc.devRef .tc main_v3)) = (logits (V0 (Proc.devRef .tc main_arg1)) (V0 (Proc.devRef .tc main_arg0)) (V0 (Proc.devRef .tc main_arg4))) :=
  (val7_keep V0 main_v3 (by decide)).trans (val6_main_v3 V0)

theorem val7_main_v7 (V0 : Valuation τ sig (Elt Ideal)) : val7 V0 (no_index (Proc.devRef .tc main_v7)) = (seqsum (lp (logits (V0 (Proc.devRef .tc main_arg1)) (V0 (Proc.devRef .tc main_arg0)) (V0 (Proc.devRef .tc main_arg4)))) (V0 (Proc.devRef .tc main_arg2))) :=
  (val7_keep V0 main_v7 (by decide)).trans (val6_main_v7 V0)

theorem val7_main_v15 (V0 : Valuation τ sig (Elt Ideal)) : val7 V0 (no_index (Proc.devRef .tc main_v15)) = (seqsum (lp (logits (V0 (Proc.devRef .tc main_arg5)) (V0 (Proc.devRef .tc main_arg6)) (V0 (Proc.devRef .tc main_arg7)))) (V0 (Proc.devRef .tc main_arg2))) :=
  (val7_keep V0 main_v15 (by decide)).trans (val6_main_v15 V0)

attribute [local irreducible] Host.reduce Host.reduceAdd broadcastInDim Host.exp Host.log Host.sqrt Host.divf Host.negf subf addf mulf maximumf select cmpf sitofp constant constantI in
theorem val7_main_v19 (V0 : Valuation τ sig (Elt Ideal)) : val7 V0 (no_index (Proc.devRef .tc main_v19)) = centered (V0 (Proc.devRef .tc main_arg3)) := by
  unfold val7
  simp only [P7]
  after_results_simp
  try simp only [val6_main_arg3]
  try simp only [ofBuf_toBuf, ofBuf_main_v3, ofBuf_main_v11, ofBuf_main_arg3, ofBuf_main_c, ofBuf_main_v21, ofBuf_main_v23, ofBuf_main_v19, ofBuf_main_v7, ofBuf_main_c_11, toBuf_main_v4, toBuf_main_v12, toBuf_main_v20, toBuf_main_v24, toBuf_main_v35]
  all_goals rfl

attribute [local irreducible] Host.reduce Host.reduceAdd broadcastInDim Host.exp Host.log Host.sqrt Host.divf Host.negf subf addf mulf maximumf select cmpf sitofp constant constantI in
theorem val7_main_c (V0 : Valuation τ sig (Elt Ideal)) : val7 V0 (no_index (Proc.devRef .tc main_c)) = (constantI S_ 32 1#32) := by
  unfold val7
  simp only [P7]
  after_results_simp
  try simp only [ofBuf_toBuf, ofBuf_main_v3, ofBuf_main_v11, ofBuf_main_arg3, ofBuf_main_c, ofBuf_main_v21, ofBuf_main_v23, ofBuf_main_v19, ofBuf_main_v7, ofBuf_main_c_11, toBuf_main_v4, toBuf_main_v12, toBuf_main_v20, toBuf_main_v24, toBuf_main_v35]
  all_goals rfl

/-- Operations 55–75 of the line. -/
abbrev P8 : List (HloOp τ sig (Elt F)) :=
  [ StableHlo.TRef.nullary main_call2.call0.cst (constant S_ .f32 0x00000000#32),
    StableHlo.TRef.binary (.of main_arg3 : StableHlo.TRef sig ⟨S4, .f32⟩) main_call2.call0.cst main_call2.call0.v0 (fun x v => Host.reduceAdd x v reducesTo_S4_S_d0 h_S_),
    StableHlo.TRef.unary main_call2.call0.v0 main_call2.call0.v1 (broadcastInDim S1 ![] bcast_S_S1),
    StableHlo.TRef.nullary main_call2.call0.cst_0 (constant S_ .f32 0x40800000#32),
    StableHlo.TRef.unary main_call2.call0.cst_0 main_call2.call0.v2 (broadcastInDim S1 ![] bcast_S_S1),
    StableHlo.TRef.binary main_call2.call0.v1 main_call2.call0.v2 main_call2.call0.v3 Host.divf,
    StableHlo.TRef.unary main_call2.call0.v3 main_call2.call0.v4 (broadcastInDim S4 ![0] bcast_S1_S4_0),
    StableHlo.TRef.binary (.of main_arg3 : StableHlo.TRef sig ⟨S4, .f32⟩) main_call2.call0.v4 main_call2.call0.v5 subf,
    StableHlo.TRef.binary main_call2.call0.v5 main_call2.call0.v5 main_call2.call0.v6 mulf,
    StableHlo.TRef.unary (.of main_c : StableHlo.TRef sig ⟨S_, .i32⟩) main_call2.call0.v7 (sitofp .f32),
    StableHlo.TRef.nullary main_call2.call0.cst_1 (constant S_ .f32 0x40800000#32),
    StableHlo.TRef.binary main_call2.call0.cst_1 main_call2.call0.v7 main_call2.call0.v8 subf,
    StableHlo.TRef.nullary main_call2.call0.cst_2 (constant S_ .f32 0x00000000#32),
    StableHlo.TRef.binary main_call2.call0.v6 main_call2.call0.cst_2 main_call2.call0.v9 (fun x v => Host.reduceAdd x v reducesTo_S4_S_d0 h_S_),
    StableHlo.TRef.binary main_call2.call0.v9 main_call2.call0.v8 main_call2.call0.v10 Host.divf,
    StableHlo.TRef.nullary main_call2.call0.cst_3 (constant S_ .f32 0x00000000#32),
    StableHlo.TRef.binary main_call2.call0.v8 main_call2.call0.cst_3 main_call2.call0.v11 (cmpf .ogt),
    StableHlo.TRef.nullary main_call2.call0.cst_4 (constant S_ .f32 0x7FC00000#32),
    StableHlo.TRef.unary main_call2.call0.cst_4 main_call2.call0.call0.v0 id,
    StableHlo.TRef.ternary main_call2.call0.v11 main_call2.call0.v10 main_call2.call0.call0.v0 main_call2.call0.call0.v1 select,
    StableHlo.TRef.unary main_call2.call0.call0.v1 main_call2.v1 Host.sqrt ]

/-- The buffers those operations write. -/
abbrev P8_W : List (Ref sig .tc) := [main_call2_call0_cst, main_call2_call0_v0, main_call2_call0_v1, main_call2_call0_cst_0, main_call2_call0_v2, main_call2_call0_v3, main_call2_call0_v4, main_call2_call0_v5, main_call2_call0_v6, main_call2_call0_v7, main_call2_call0_cst_1, main_call2_call0_v8, main_call2_call0_cst_2, main_call2_call0_v9, main_call2_call0_v10, main_call2_call0_cst_3, main_call2_call0_v11, main_call2_call0_cst_4, main_call2_call0_call0_v0, main_call2_v0, main_v20]

theorem P8_writes : (P8 : List (HloOp τ sig (Elt F))).Forall fun op =>
    op.writes ⊆ (P8_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers after operations 0–75. -/
def val8 (V0 : Valuation τ sig (Elt Ideal)) : Valuation τ sig (Elt Ideal) := after (P8 (F := Ideal)) (val7 V0)

/-- A buffer those operations do not write keeps its contents through them. -/
theorem val8_keep (V0 : Valuation τ sig (Elt Ideal)) (r : Ref sig .tc) (h : r ∉ P8_W) :
    val8 V0 (Proc.devRef .tc r) = (val7 V0) (Proc.devRef .tc r) :=
  after_of_writes_sub P8 _ P8_writes h

theorem val8_main_v3 (V0 : Valuation τ sig (Elt Ideal)) : val8 V0 (no_index (Proc.devRef .tc main_v3)) = (logits (V0 (Proc.devRef .tc main_arg1)) (V0 (Proc.devRef .tc main_arg0)) (V0 (Proc.devRef .tc main_arg4))) :=
  (val8_keep V0 main_v3 (by decide)).trans (val7_main_v3 V0)

theorem val8_main_v7 (V0 : Valuation τ sig (Elt Ideal)) : val8 V0 (no_index (Proc.devRef .tc main_v7)) = (seqsum (lp (logits (V0 (Proc.devRef .tc main_arg1)) (V0 (Proc.devRef .tc main_arg0)) (V0 (Proc.devRef .tc main_arg4)))) (V0 (Proc.devRef .tc main_arg2))) :=
  (val8_keep V0 main_v7 (by decide)).trans (val7_main_v7 V0)

theorem val8_main_v15 (V0 : Valuation τ sig (Elt Ideal)) : val8 V0 (no_index (Proc.devRef .tc main_v15)) = (seqsum (lp (logits (V0 (Proc.devRef .tc main_arg5)) (V0 (Proc.devRef .tc main_arg6)) (V0 (Proc.devRef .tc main_arg7)))) (V0 (Proc.devRef .tc main_arg2))) :=
  (val8_keep V0 main_v15 (by decide)).trans (val7_main_v15 V0)

theorem val8_main_v19 (V0 : Valuation τ sig (Elt Ideal)) : val8 V0 (no_index (Proc.devRef .tc main_v19)) = centered (V0 (Proc.devRef .tc main_arg3)) :=
  (val8_keep V0 main_v19 (by decide)).trans (val7_main_v19 V0)

attribute [local irreducible] Host.reduce Host.reduceAdd broadcastInDim Host.exp Host.log Host.sqrt Host.divf Host.negf subf addf mulf maximumf select cmpf sitofp constant constantI in
theorem val8_main_v20 (V0 : Valuation τ sig (Elt Ideal)) : val8 V0 (no_index (Proc.devRef .tc main_v20)) = stdOf (V0 (Proc.devRef .tc main_arg3)) (constantI S_ 32 1#32) := by
  unfold val8
  simp only [P8]
  after_results_simp
  try simp only [val7_main_arg3, val7_main_c]
  try simp only [ofBuf_toBuf, ofBuf_main_v3, ofBuf_main_v11, ofBuf_main_arg3, ofBuf_main_c, ofBuf_main_v21, ofBuf_main_v23, ofBuf_main_v19, ofBuf_main_v7, ofBuf_main_c_11, toBuf_main_v4, toBuf_main_v12, toBuf_main_v20, toBuf_main_v24, toBuf_main_v35]
  all_goals rfl

/-- Operations 76–91 of the line. -/
abbrev P9 : List (HloOp τ sig (Elt F)) :=
  [ StableHlo.nullary main_cst_5 (constant S_ .f32 0x00000000#32),
    StableHlo.binary main_v20 main_cst_5 main_v21 (cmpf .ogt : (⟨S_, .f32⟩ : BufTy).Contents (Elt F) → (⟨S_, .f32⟩ : BufTy).Contents (Elt F) → (⟨S_, .i1⟩ : BufTy).Contents (Elt F)),
    StableHlo.unary main_v20 main_v22 (broadcastInDim S4 ![] bcast_S_S4 : (⟨S_, .f32⟩ : BufTy).Contents (Elt F) → (⟨S4, .f32⟩ : BufTy).Contents (Elt F)),
    StableHlo.binary main_v19 main_v22 main_v23 (Host.divf : (⟨S4, .f32⟩ : BufTy).Contents (Elt F) → (⟨S4, .f32⟩ : BufTy).Contents (Elt F) → (⟨S4, .f32⟩ : BufTy).Contents (Elt F)),
    StableHlo.TRef.ternary (.of main_v21 : StableHlo.TRef sig ⟨S_, .i1⟩) (.of main_v23 : StableHlo.TRef sig ⟨S4, .f32⟩) (.of main_v19 : StableHlo.TRef sig ⟨S4, .f32⟩) main_call3.v0 (fun p a b => select (broadcastInDim S4 ![] bcast_S_S4 p) a b),
    StableHlo.binary main_v7 main_v15 main_v25 (subf : (⟨S4, .f32⟩ : BufTy).Contents (Elt F) → (⟨S4, .f32⟩ : BufTy).Contents (Elt F) → (⟨S4, .f32⟩ : BufTy).Contents (Elt F)),
    StableHlo.binary main_v24 main_v7 main_v26 (mulf : (⟨S4, .f32⟩ : BufTy).Contents (Elt F) → (⟨S4, .f32⟩ : BufTy).Contents (Elt F) → (⟨S4, .f32⟩ : BufTy).Contents (Elt F)),
    StableHlo.unary main_v26 main_v27 (Host.negf : (⟨S4, .f32⟩ : BufTy).Contents (Elt F) → (⟨S4, .f32⟩ : BufTy).Contents (Elt F)),
    StableHlo.nullary main_cst_6 (constant S_ .f32 0x3DCCCCCD#32),
    StableHlo.unary main_cst_6 main_v28 (broadcastInDim S4 ![] bcast_S_S4 : (⟨S_, .f32⟩ : BufTy).Contents (Elt F) → (⟨S4, .f32⟩ : BufTy).Contents (Elt F)),
    StableHlo.binary main_v28 main_v25 main_v29 (mulf : (⟨S4, .f32⟩ : BufTy).Contents (Elt F) → (⟨S4, .f32⟩ : BufTy).Contents (Elt F) → (⟨S4, .f32⟩ : BufTy).Contents (Elt F)),
    StableHlo.binary main_v27 main_v29 main_v30 (addf : (⟨S4, .f32⟩ : BufTy).Contents (Elt F) → (⟨S4, .f32⟩ : BufTy).Contents (Elt F) → (⟨S4, .f32⟩ : BufTy).Contents (Elt F)),
    StableHlo.nullary main_cst_7 (constant S_ .f32 0x00000000#32),
    StableHlo.binary main_v30 main_cst_7 main_v31 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_8 (constant S_ .f32 0x40800000#32),
    StableHlo.binary main_v31 main_cst_8 main_v32 (Host.divf : (⟨S_, .f32⟩ : BufTy).Contents (Elt F) → (⟨S_, .f32⟩ : BufTy).Contents (Elt F) → (⟨S_, .f32⟩ : BufTy).Contents (Elt F)) ]

/-- The buffers those operations write. -/
abbrev P9_W : List (Ref sig .tc) := [main_cst_5, main_v21, main_v22, main_v23, main_v24, main_v25, main_v26, main_v27, main_cst_6, main_v28, main_v29, main_v30, main_cst_7, main_v31, main_cst_8, main_v32]

theorem P9_writes : (P9 : List (HloOp τ sig (Elt F))).Forall fun op =>
    op.writes ⊆ (P9_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers after operations 0–91. -/
def val9 (V0 : Valuation τ sig (Elt Ideal)) : Valuation τ sig (Elt Ideal) := after (P9 (F := Ideal)) (val8 V0)

/-- A buffer those operations do not write keeps its contents through them. -/
theorem val9_keep (V0 : Valuation τ sig (Elt Ideal)) (r : Ref sig .tc) (h : r ∉ P9_W) :
    val9 V0 (Proc.devRef .tc r) = (val8 V0) (Proc.devRef .tc r) :=
  after_of_writes_sub P9 _ P9_writes h

theorem val9_main_v3 (V0 : Valuation τ sig (Elt Ideal)) : val9 V0 (no_index (Proc.devRef .tc main_v3)) = (logits (V0 (Proc.devRef .tc main_arg1)) (V0 (Proc.devRef .tc main_arg0)) (V0 (Proc.devRef .tc main_arg4))) :=
  (val9_keep V0 main_v3 (by decide)).trans (val8_main_v3 V0)

theorem val9_main_v7 (V0 : Valuation τ sig (Elt Ideal)) : val9 V0 (no_index (Proc.devRef .tc main_v7)) = (seqsum (lp (logits (V0 (Proc.devRef .tc main_arg1)) (V0 (Proc.devRef .tc main_arg0)) (V0 (Proc.devRef .tc main_arg4)))) (V0 (Proc.devRef .tc main_arg2))) :=
  (val9_keep V0 main_v7 (by decide)).trans (val8_main_v7 V0)

attribute [local irreducible] Host.reduce Host.reduceAdd broadcastInDim Host.exp Host.log Host.sqrt Host.divf Host.negf subf addf mulf maximumf select cmpf sitofp constant constantI in
theorem val9_main_v25 (V0 : Valuation τ sig (Elt Ideal)) : val9 V0 (no_index (Proc.devRef .tc main_v25)) = subf (seqsum (lp (logits (V0 (Proc.devRef .tc main_arg1)) (V0 (Proc.devRef .tc main_arg0)) (V0 (Proc.devRef .tc main_arg4)))) (V0 (Proc.devRef .tc main_arg2))) (seqsum (lp (logits (V0 (Proc.devRef .tc main_arg5)) (V0 (Proc.devRef .tc main_arg6)) (V0 (Proc.devRef .tc main_arg7)))) (V0 (Proc.devRef .tc main_arg2))) := by
  unfold val9
  simp only [P9]
  after_results_simp
  try simp only [val8_main_v7, val8_main_v15]
  try simp only [ofBuf_toBuf, ofBuf_main_v3, ofBuf_main_v11, ofBuf_main_arg3, ofBuf_main_c, ofBuf_main_v21, ofBuf_main_v23, ofBuf_main_v19, ofBuf_main_v7, ofBuf_main_c_11, toBuf_main_v4, toBuf_main_v12, toBuf_main_v20, toBuf_main_v24, toBuf_main_v35]
  all_goals rfl

attribute [local irreducible] Host.reduce Host.reduceAdd broadcastInDim Host.exp Host.log Host.sqrt Host.divf Host.negf subf addf mulf maximumf select cmpf sitofp constant constantI in
theorem val9_main_v32 (V0 : Valuation τ sig (Elt Ideal)) : val9 V0 (no_index (Proc.devRef .tc main_v32)) = tail32 (lp (logits (V0 (Proc.devRef .tc main_arg1)) (V0 (Proc.devRef .tc main_arg0)) (V0 (Proc.devRef .tc main_arg4)))) (lp (logits (V0 (Proc.devRef .tc main_arg5)) (V0 (Proc.devRef .tc main_arg6)) (V0 (Proc.devRef .tc main_arg7)))) (V0 (Proc.devRef .tc main_arg2)) (V0 (Proc.devRef .tc main_arg3)) := by
  unfold val9
  simp only [P9]
  after_results_simp
  try simp only [val8_main_v20, val8_main_v19, val8_main_v7, val8_main_v15]
  try simp only [ofBuf_toBuf, ofBuf_main_v3, ofBuf_main_v11, ofBuf_main_arg3, ofBuf_main_c, ofBuf_main_v21, ofBuf_main_v23, ofBuf_main_v19, ofBuf_main_v7, ofBuf_main_c_11, toBuf_main_v4, toBuf_main_v12, toBuf_main_v20, toBuf_main_v24, toBuf_main_v35]
  all_goals rfl

end Cert.ReferenceIdeal.Hand

end
-- ==== Proof.Ref.WinC.lean ====
/-
  Windows 10–13 of the reference program's line of host operations: after each window the buffers that later
  windows read are the named stage functions of the launch contents of the arguments — the mean and the unbiased standard deviation of the sequence sums, the mean of all logits, and the mean difference of the sequence sums. A buffer a window does
  not write keeps its contents through it.
-/
import proofs.«174775_j19164144075542_1_alg».proof.Proof.Ref.WinB

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 92–95 of the line. -/
abbrev P10 : List (HloOp τ sig (Elt F)) :=
  [ StableHlo.nullary main_cst_9 (constant S_ .f32 0x00000000#32),
    StableHlo.binary main_v7 main_cst_9 main_v33 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_10 (constant S_ .f32 0x40800000#32),
    StableHlo.binary main_v33 main_cst_10 main_v34 (Host.divf : (⟨S_, .f32⟩ : BufTy).Contents (Elt F) → (⟨S_, .f32⟩ : BufTy).Contents (Elt F) → (⟨S_, .f32⟩ : BufTy).Contents (Elt F)) ]

/-- The buffers those operations write. -/
abbrev P10_W : List (Ref sig .tc) := [main_cst_9, main_v33, main_cst_10, main_v34]

theorem P10_writes : (P10 : List (HloOp τ sig (Elt F))).Forall fun op =>
    op.writes ⊆ (P10_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers after operations 0–95. -/
def val10 (V0 : Valuation τ sig (Elt Ideal)) : Valuation τ sig (Elt Ideal) := after (P10 (F := Ideal)) (val9 V0)

/-- A buffer those operations do not write keeps its contents through them. -/
theorem val10_keep (V0 : Valuation τ sig (Elt Ideal)) (r : Ref sig .tc) (h : r ∉ P10_W) :
    val10 V0 (Proc.devRef .tc r) = (val9 V0) (Proc.devRef .tc r) :=
  after_of_writes_sub P10 _ P10_writes h

theorem val10_main_v3 (V0 : Valuation τ sig (Elt Ideal)) : val10 V0 (no_index (Proc.devRef .tc main_v3)) = (logits (V0 (Proc.devRef .tc main_arg1)) (V0 (Proc.devRef .tc main_arg0)) (V0 (Proc.devRef .tc main_arg4))) :=
  (val10_keep V0 main_v3 (by decide)).trans (val9_main_v3 V0)

theorem val10_main_v7 (V0 : Valuation τ sig (Elt Ideal)) : val10 V0 (no_index (Proc.devRef .tc main_v7)) = (seqsum (lp (logits (V0 (Proc.devRef .tc main_arg1)) (V0 (Proc.devRef .tc main_arg0)) (V0 (Proc.devRef .tc main_arg4)))) (V0 (Proc.devRef .tc main_arg2))) :=
  (val10_keep V0 main_v7 (by decide)).trans (val9_main_v7 V0)

theorem val10_main_v25 (V0 : Valuation τ sig (Elt Ideal)) : val10 V0 (no_index (Proc.devRef .tc main_v25)) = subf (seqsum (lp (logits (V0 (Proc.devRef .tc main_arg1)) (V0 (Proc.devRef .tc main_arg0)) (V0 (Proc.devRef .tc main_arg4)))) (V0 (Proc.devRef .tc main_arg2))) (seqsum (lp (logits (V0 (Proc.devRef .tc main_arg5)) (V0 (Proc.devRef .tc main_arg6)) (V0 (Proc.devRef .tc main_arg7)))) (V0 (Proc.devRef .tc main_arg2))) :=
  (val10_keep V0 main_v25 (by decide)).trans (val9_main_v25 V0)

theorem val10_main_v32 (V0 : Valuation τ sig (Elt Ideal)) : val10 V0 (no_index (Proc.devRef .tc main_v32)) = tail32 (lp (logits (V0 (Proc.devRef .tc main_arg1)) (V0 (Proc.devRef .tc main_arg0)) (V0 (Proc.devRef .tc main_arg4)))) (lp (logits (V0 (Proc.devRef .tc main_arg5)) (V0 (Proc.devRef .tc main_arg6)) (V0 (Proc.devRef .tc main_arg7)))) (V0 (Proc.devRef .tc main_arg2)) (V0 (Proc.devRef .tc main_arg3)) :=
  (val10_keep V0 main_v32 (by decide)).trans (val9_main_v32 V0)

attribute [local irreducible] Host.reduce Host.reduceAdd broadcastInDim Host.exp Host.log Host.sqrt Host.divf Host.negf subf addf mulf maximumf select cmpf sitofp constant constantI in
theorem val10_main_v34 (V0 : Valuation τ sig (Elt Ideal)) : val10 V0 (no_index (Proc.devRef .tc main_v34)) = tail34 (lp (logits (V0 (Proc.devRef .tc main_arg1)) (V0 (Proc.devRef .tc main_arg0)) (V0 (Proc.devRef .tc main_arg4)))) (V0 (Proc.devRef .tc main_arg2)) := by
  unfold val10
  simp only [P10]
  after_results_simp
  try simp only [val9_main_v7]
  try simp only [ofBuf_toBuf, ofBuf_main_v3, ofBuf_main_v11, ofBuf_main_arg3, ofBuf_main_c, ofBuf_main_v21, ofBuf_main_v23, ofBuf_main_v19, ofBuf_main_v7, ofBuf_main_c_11, toBuf_main_v4, toBuf_main_v12, toBuf_main_v20, toBuf_main_v24, toBuf_main_v35]
  all_goals rfl

/-- Operations 96–117 of the line. -/
abbrev P11 : List (HloOp τ sig (Elt F)) :=
  [ StableHlo.nullary main_c_11 (constantI S_ 32 1#32),
    StableHlo.TRef.nullary main_call4.call0.cst (constant S_ .f32 0x00000000#32),
    StableHlo.TRef.binary (.of main_v7 : StableHlo.TRef sig ⟨S4, .f32⟩) main_call4.call0.cst main_call4.call0.v0 (fun x v => Host.reduceAdd x v reducesTo_S4_S_d0 h_S_),
    StableHlo.TRef.unary main_call4.call0.v0 main_call4.call0.v1 (broadcastInDim S1 ![] bcast_S_S1),
    StableHlo.TRef.nullary main_call4.call0.cst_0 (constant S_ .f32 0x40800000#32),
    StableHlo.TRef.unary main_call4.call0.cst_0 main_call4.call0.v2 (broadcastInDim S1 ![] bcast_S_S1),
    StableHlo.TRef.binary main_call4.call0.v1 main_call4.call0.v2 main_call4.call0.v3 Host.divf,
    StableHlo.TRef.unary main_call4.call0.v3 main_call4.call0.v4 (broadcastInDim S4 ![0] bcast_S1_S4_0),
    StableHlo.TRef.binary (.of main_v7 : StableHlo.TRef sig ⟨S4, .f32⟩) main_call4.call0.v4 main_call4.call0.v5 subf,
    StableHlo.TRef.binary main_call4.call0.v5 main_call4.call0.v5 main_call4.call0.v6 mulf,
    StableHlo.TRef.unary (.of main_c_11 : StableHlo.TRef sig ⟨S_, .i32⟩) main_call4.call0.v7 (sitofp .f32),
    StableHlo.TRef.nullary main_call4.call0.cst_1 (constant S_ .f32 0x40800000#32),
    StableHlo.TRef.binary main_call4.call0.cst_1 main_call4.call0.v7 main_call4.call0.v8 subf,
    StableHlo.TRef.nullary main_call4.call0.cst_2 (constant S_ .f32 0x00000000#32),
    StableHlo.TRef.binary main_call4.call0.v6 main_call4.call0.cst_2 main_call4.call0.v9 (fun x v => Host.reduceAdd x v reducesTo_S4_S_d0 h_S_),
    StableHlo.TRef.binary main_call4.call0.v9 main_call4.call0.v8 main_call4.call0.v10 Host.divf,
    StableHlo.TRef.nullary main_call4.call0.cst_3 (constant S_ .f32 0x00000000#32),
    StableHlo.TRef.binary main_call4.call0.v8 main_call4.call0.cst_3 main_call4.call0.v11 (cmpf .ogt),
    StableHlo.TRef.nullary main_call4.call0.cst_4 (constant S_ .f32 0x7FC00000#32),
    StableHlo.TRef.unary main_call4.call0.cst_4 main_call4.call0.call0.v0 id,
    StableHlo.TRef.ternary main_call4.call0.v11 main_call4.call0.v10 main_call4.call0.call0.v0 main_call4.call0.call0.v1 select,
    StableHlo.TRef.unary main_call4.call0.call0.v1 main_call4.v1 Host.sqrt ]

/-- The buffers those operations write. -/
abbrev P11_W : List (Ref sig .tc) := [main_c_11, main_call4_call0_cst, main_call4_call0_v0, main_call4_call0_v1, main_call4_call0_cst_0, main_call4_call0_v2, main_call4_call0_v3, main_call4_call0_v4, main_call4_call0_v5, main_call4_call0_v6, main_call4_call0_v7, main_call4_call0_cst_1, main_call4_call0_v8, main_call4_call0_cst_2, main_call4_call0_v9, main_call4_call0_v10, main_call4_call0_cst_3, main_call4_call0_v11, main_call4_call0_cst_4, main_call4_call0_call0_v0, main_call4_v0, main_v35]

theorem P11_writes : (P11 : List (HloOp τ sig (Elt F))).Forall fun op =>
    op.writes ⊆ (P11_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers after operations 0–117. -/
def val11 (V0 : Valuation τ sig (Elt Ideal)) : Valuation τ sig (Elt Ideal) := after (P11 (F := Ideal)) (val10 V0)

/-- A buffer those operations do not write keeps its contents through them. -/
theorem val11_keep (V0 : Valuation τ sig (Elt Ideal)) (r : Ref sig .tc) (h : r ∉ P11_W) :
    val11 V0 (Proc.devRef .tc r) = (val10 V0) (Proc.devRef .tc r) :=
  after_of_writes_sub P11 _ P11_writes h

theorem val11_main_v3 (V0 : Valuation τ sig (Elt Ideal)) : val11 V0 (no_index (Proc.devRef .tc main_v3)) = (logits (V0 (Proc.devRef .tc main_arg1)) (V0 (Proc.devRef .tc main_arg0)) (V0 (Proc.devRef .tc main_arg4))) :=
  (val11_keep V0 main_v3 (by decide)).trans (val10_main_v3 V0)

theorem val11_main_v25 (V0 : Valuation τ sig (Elt Ideal)) : val11 V0 (no_index (Proc.devRef .tc main_v25)) = subf (seqsum (lp (logits (V0 (Proc.devRef .tc main_arg1)) (V0 (Proc.devRef .tc main_arg0)) (V0 (Proc.devRef .tc main_arg4)))) (V0 (Proc.devRef .tc main_arg2))) (seqsum (lp (logits (V0 (Proc.devRef .tc main_arg5)) (V0 (Proc.devRef .tc main_arg6)) (V0 (Proc.devRef .tc main_arg7)))) (V0 (Proc.devRef .tc main_arg2))) :=
  (val11_keep V0 main_v25 (by decide)).trans (val10_main_v25 V0)

theorem val11_main_v32 (V0 : Valuation τ sig (Elt Ideal)) : val11 V0 (no_index (Proc.devRef .tc main_v32)) = tail32 (lp (logits (V0 (Proc.devRef .tc main_arg1)) (V0 (Proc.devRef .tc main_arg0)) (V0 (Proc.devRef .tc main_arg4)))) (lp (logits (V0 (Proc.devRef .tc main_arg5)) (V0 (Proc.devRef .tc main_arg6)) (V0 (Proc.devRef .tc main_arg7)))) (V0 (Proc.devRef .tc main_arg2)) (V0 (Proc.devRef .tc main_arg3)) :=
  (val11_keep V0 main_v32 (by decide)).trans (val10_main_v32 V0)

theorem val11_main_v34 (V0 : Valuation τ sig (Elt Ideal)) : val11 V0 (no_index (Proc.devRef .tc main_v34)) = tail34 (lp (logits (V0 (Proc.devRef .tc main_arg1)) (V0 (Proc.devRef .tc main_arg0)) (V0 (Proc.devRef .tc main_arg4)))) (V0 (Proc.devRef .tc main_arg2)) :=
  (val11_keep V0 main_v34 (by decide)).trans (val10_main_v34 V0)

attribute [local irreducible] Host.reduce Host.reduceAdd broadcastInDim Host.exp Host.log Host.sqrt Host.divf Host.negf subf addf mulf maximumf select cmpf sitofp constant constantI in
theorem val11_main_v35 (V0 : Valuation τ sig (Elt Ideal)) : val11 V0 (no_index (Proc.devRef .tc main_v35)) = tail35 (lp (logits (V0 (Proc.devRef .tc main_arg1)) (V0 (Proc.devRef .tc main_arg0)) (V0 (Proc.devRef .tc main_arg4)))) (V0 (Proc.devRef .tc main_arg2)) := by
  unfold val11
  simp only [P11]
  after_results_simp
  try simp only [val10_main_v7]
  try simp only [ofBuf_toBuf, ofBuf_main_v3, ofBuf_main_v11, ofBuf_main_arg3, ofBuf_main_c, ofBuf_main_v21, ofBuf_main_v23, ofBuf_main_v19, ofBuf_main_v7, ofBuf_main_c_11, toBuf_main_v4, toBuf_main_v12, toBuf_main_v20, toBuf_main_v24, toBuf_main_v35]
  all_goals rfl

/-- Operations 118–121 of the line. -/
abbrev P12 : List (HloOp τ sig (Elt F)) :=
  [ StableHlo.nullary main_cst_12 (constant S_ .f32 0x00000000#32),
    StableHlo.binary main_v3 main_cst_12 main_v36 ((fun x v => Host.reduceAdd x v reducesTo_S4x512x32000_S_d0_1_2 h_S_) : (⟨S4x512x32000, .f32⟩ : BufTy).Contents (Elt F) → (⟨S_, .f32⟩ : BufTy).Contents (Elt F) → (⟨S_, .f32⟩ : BufTy).Contents (Elt F)),
    StableHlo.nullary main_cst_13 (constant S_ .f32 0x4C7A0000#32),
    StableHlo.binary main_v36 main_cst_13 main_v37 (Host.divf : (⟨S_, .f32⟩ : BufTy).Contents (Elt F) → (⟨S_, .f32⟩ : BufTy).Contents (Elt F) → (⟨S_, .f32⟩ : BufTy).Contents (Elt F)) ]

/-- The buffers those operations write. -/
abbrev P12_W : List (Ref sig .tc) := [main_cst_12, main_v36, main_cst_13, main_v37]

theorem P12_writes : (P12 : List (HloOp τ sig (Elt F))).Forall fun op =>
    op.writes ⊆ (P12_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers after operations 0–121. -/
def val12 (V0 : Valuation τ sig (Elt Ideal)) : Valuation τ sig (Elt Ideal) := after (P12 (F := Ideal)) (val11 V0)

/-- A buffer those operations do not write keeps its contents through them. -/
theorem val12_keep (V0 : Valuation τ sig (Elt Ideal)) (r : Ref sig .tc) (h : r ∉ P12_W) :
    val12 V0 (Proc.devRef .tc r) = (val11 V0) (Proc.devRef .tc r) :=
  after_of_writes_sub P12 _ P12_writes h

theorem val12_main_v25 (V0 : Valuation τ sig (Elt Ideal)) : val12 V0 (no_index (Proc.devRef .tc main_v25)) = subf (seqsum (lp (logits (V0 (Proc.devRef .tc main_arg1)) (V0 (Proc.devRef .tc main_arg0)) (V0 (Proc.devRef .tc main_arg4)))) (V0 (Proc.devRef .tc main_arg2))) (seqsum (lp (logits (V0 (Proc.devRef .tc main_arg5)) (V0 (Proc.devRef .tc main_arg6)) (V0 (Proc.devRef .tc main_arg7)))) (V0 (Proc.devRef .tc main_arg2))) :=
  (val12_keep V0 main_v25 (by decide)).trans (val11_main_v25 V0)

theorem val12_main_v32 (V0 : Valuation τ sig (Elt Ideal)) : val12 V0 (no_index (Proc.devRef .tc main_v32)) = tail32 (lp (logits (V0 (Proc.devRef .tc main_arg1)) (V0 (Proc.devRef .tc main_arg0)) (V0 (Proc.devRef .tc main_arg4)))) (lp (logits (V0 (Proc.devRef .tc main_arg5)) (V0 (Proc.devRef .tc main_arg6)) (V0 (Proc.devRef .tc main_arg7)))) (V0 (Proc.devRef .tc main_arg2)) (V0 (Proc.devRef .tc main_arg3)) :=
  (val12_keep V0 main_v32 (by decide)).trans (val11_main_v32 V0)

theorem val12_main_v34 (V0 : Valuation τ sig (Elt Ideal)) : val12 V0 (no_index (Proc.devRef .tc main_v34)) = tail34 (lp (logits (V0 (Proc.devRef .tc main_arg1)) (V0 (Proc.devRef .tc main_arg0)) (V0 (Proc.devRef .tc main_arg4)))) (V0 (Proc.devRef .tc main_arg2)) :=
  (val12_keep V0 main_v34 (by decide)).trans (val11_main_v34 V0)

theorem val12_main_v35 (V0 : Valuation τ sig (Elt Ideal)) : val12 V0 (no_index (Proc.devRef .tc main_v35)) = tail35 (lp (logits (V0 (Proc.devRef .tc main_arg1)) (V0 (Proc.devRef .tc main_arg0)) (V0 (Proc.devRef .tc main_arg4)))) (V0 (Proc.devRef .tc main_arg2)) :=
  (val12_keep V0 main_v35 (by decide)).trans (val11_main_v35 V0)

attribute [local irreducible] Host.reduce Host.reduceAdd broadcastInDim Host.exp Host.log Host.sqrt Host.divf Host.negf subf addf mulf maximumf select cmpf sitofp constant constantI in
theorem val12_main_v37 (V0 : Valuation τ sig (Elt Ideal)) : val12 V0 (no_index (Proc.devRef .tc main_v37)) = tail37 (total (logits (V0 (Proc.devRef .tc main_arg1)) (V0 (Proc.devRef .tc main_arg0)) (V0 (Proc.devRef .tc main_arg4)))) := by
  unfold val12
  simp only [P12]
  after_results_simp
  try simp only [val11_main_v3]
  try simp only [ofBuf_toBuf, ofBuf_main_v3, ofBuf_main_v11, ofBuf_main_arg3, ofBuf_main_c, ofBuf_main_v21, ofBuf_main_v23, ofBuf_main_v19, ofBuf_main_v7, ofBuf_main_c_11, toBuf_main_v4, toBuf_main_v12, toBuf_main_v20, toBuf_main_v24, toBuf_main_v35]
  all_goals rfl

/-- Operations 122–125 of the line. -/
abbrev P13 : List (HloOp τ sig (Elt F)) :=
  [ StableHlo.nullary main_cst_14 (constant S_ .f32 0x00000000#32),
    StableHlo.binary main_v25 main_cst_14 main_v38 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_15 (constant S_ .f32 0x40800000#32),
    StableHlo.binary main_v38 main_cst_15 main_v39 (Host.divf : (⟨S_, .f32⟩ : BufTy).Contents (Elt F) → (⟨S_, .f32⟩ : BufTy).Contents (Elt F) → (⟨S_, .f32⟩ : BufTy).Contents (Elt F)) ]

/-- The buffers those operations write. -/
abbrev P13_W : List (Ref sig .tc) := [main_cst_14, main_v38, main_cst_15, main_v39]

theorem P13_writes : (P13 : List (HloOp τ sig (Elt F))).Forall fun op =>
    op.writes ⊆ (P13_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers after operations 0–125. -/
def val13 (V0 : Valuation τ sig (Elt Ideal)) : Valuation τ sig (Elt Ideal) := after (P13 (F := Ideal)) (val12 V0)

/-- A buffer those operations do not write keeps its contents through them. -/
theorem val13_keep (V0 : Valuation τ sig (Elt Ideal)) (r : Ref sig .tc) (h : r ∉ P13_W) :
    val13 V0 (Proc.devRef .tc r) = (val12 V0) (Proc.devRef .tc r) :=
  after_of_writes_sub P13 _ P13_writes h

theorem val13_main_v32 (V0 : Valuation τ sig (Elt Ideal)) : val13 V0 (no_index (Proc.devRef .tc main_v32)) = tail32 (lp (logits (V0 (Proc.devRef .tc main_arg1)) (V0 (Proc.devRef .tc main_arg0)) (V0 (Proc.devRef .tc main_arg4)))) (lp (logits (V0 (Proc.devRef .tc main_arg5)) (V0 (Proc.devRef .tc main_arg6)) (V0 (Proc.devRef .tc main_arg7)))) (V0 (Proc.devRef .tc main_arg2)) (V0 (Proc.devRef .tc main_arg3)) :=
  (val13_keep V0 main_v32 (by decide)).trans (val12_main_v32 V0)

theorem val13_main_v34 (V0 : Valuation τ sig (Elt Ideal)) : val13 V0 (no_index (Proc.devRef .tc main_v34)) = tail34 (lp (logits (V0 (Proc.devRef .tc main_arg1)) (V0 (Proc.devRef .tc main_arg0)) (V0 (Proc.devRef .tc main_arg4)))) (V0 (Proc.devRef .tc main_arg2)) :=
  (val13_keep V0 main_v34 (by decide)).trans (val12_main_v34 V0)

theorem val13_main_v35 (V0 : Valuation τ sig (Elt Ideal)) : val13 V0 (no_index (Proc.devRef .tc main_v35)) = tail35 (lp (logits (V0 (Proc.devRef .tc main_arg1)) (V0 (Proc.devRef .tc main_arg0)) (V0 (Proc.devRef .tc main_arg4)))) (V0 (Proc.devRef .tc main_arg2)) :=
  (val13_keep V0 main_v35 (by decide)).trans (val12_main_v35 V0)

theorem val13_main_v37 (V0 : Valuation τ sig (Elt Ideal)) : val13 V0 (no_index (Proc.devRef .tc main_v37)) = tail37 (total (logits (V0 (Proc.devRef .tc main_arg1)) (V0 (Proc.devRef .tc main_arg0)) (V0 (Proc.devRef .tc main_arg4)))) :=
  (val13_keep V0 main_v37 (by decide)).trans (val12_main_v37 V0)

attribute [local irreducible] Host.reduce Host.reduceAdd broadcastInDim Host.exp Host.log Host.sqrt Host.divf Host.negf subf addf mulf maximumf select cmpf sitofp constant constantI in
theorem val13_main_v39 (V0 : Valuation τ sig (Elt Ideal)) : val13 V0 (no_index (Proc.devRef .tc main_v39)) = tail39 (lp (logits (V0 (Proc.devRef .tc main_arg1)) (V0 (Proc.devRef .tc main_arg0)) (V0 (Proc.devRef .tc main_arg4)))) (lp (logits (V0 (Proc.devRef .tc main_arg5)) (V0 (Proc.devRef .tc main_arg6)) (V0 (Proc.devRef .tc main_arg7)))) (V0 (Proc.devRef .tc main_arg2)) := by
  unfold val13
  simp only [P13]
  after_results_simp
  try simp only [val12_main_v25]
  try simp only [ofBuf_toBuf, ofBuf_main_v3, ofBuf_main_v11, ofBuf_main_arg3, ofBuf_main_c, ofBuf_main_v21, ofBuf_main_v23, ofBuf_main_v19, ofBuf_main_v7, ofBuf_main_c_11, toBuf_main_v4, toBuf_main_v12, toBuf_main_v20, toBuf_main_v24, toBuf_main_v35]
  all_goals rfl

end Cert.ReferenceIdeal.Hand

end
-- ==== Proof.Ref.Run.lean ====
/-
  The reference program's run, assembled: the line of 126 host operations is its thirteen windows in a row, so the
  buffers after the line are the buffers after the last window. Every weakly fair execution of @main terminates with
  the five results at the stage functions composed over the arguments' launch contents — the loss, the mean and the
  unbiased standard deviation of the sequence log-probabilities, the mean of all logits, the mean difference of the
  two models' sequence log-probabilities — and with the eight arguments unchanged.
-/
import proofs.«174775_j19164144075542_1_alg».proof.Proof.Ref.WinC

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The line is its windows in a row. -/
theorem ops_parts : (ops : List (HloOp τ sig (Elt F))) = P1 ++ P2 ++ P3 ++ P4 ++ P5 ++ P6 ++ P7 ++ P8 ++ P9 ++ P10 ++ P11 ++ P12 ++ P13 := rfl

/-- The buffers after the whole line are the buffers after the last window. -/
theorem after_ops (V0 : Valuation τ sig (Elt Ideal)) : after ops V0 = val13 V0 := by
  rw [ops_parts (F := Ideal)]
  simp only [after_append]
  rfl

/-- Every weakly fair execution of @main terminates with the five results at the stages' composition over the
    arguments' launch contents, and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v32) = tail32 (lp (logits (m ((c.tc : Thread nD τ).loc main_arg1)) (m ((c.tc : Thread nD τ).loc main_arg0)) (m ((c.tc : Thread nD τ).loc main_arg4)))) (lp (logits (m ((c.tc : Thread nD τ).loc main_arg5)) (m ((c.tc : Thread nD τ).loc main_arg6)) (m ((c.tc : Thread nD τ).loc main_arg7)))) (m ((c.tc : Thread nD τ).loc main_arg2)) (m ((c.tc : Thread nD τ).loc main_arg3))
      ∧ r.2.mem ((c.tc : Thread nD τ).loc main_v34) = tail34 (lp (logits (m ((c.tc : Thread nD τ).loc main_arg1)) (m ((c.tc : Thread nD τ).loc main_arg0)) (m ((c.tc : Thread nD τ).loc main_arg4)))) (m ((c.tc : Thread nD τ).loc main_arg2))
      ∧ r.2.mem ((c.tc : Thread nD τ).loc main_v35) = tail35 (lp (logits (m ((c.tc : Thread nD τ).loc main_arg1)) (m ((c.tc : Thread nD τ).loc main_arg0)) (m ((c.tc : Thread nD τ).loc main_arg4)))) (m ((c.tc : Thread nD τ).loc main_arg2))
      ∧ r.2.mem ((c.tc : Thread nD τ).loc main_v37) = tail37 (total (logits (m ((c.tc : Thread nD τ).loc main_arg1)) (m ((c.tc : Thread nD τ).loc main_arg0)) (m ((c.tc : Thread nD τ).loc main_arg4))))
      ∧ r.2.mem ((c.tc : Thread nD τ).loc main_v39) = tail39 (lp (logits (m ((c.tc : Thread nD τ).loc main_arg1)) (m ((c.tc : Thread nD τ).loc main_arg0)) (m ((c.tc : Thread nD τ).loc main_arg4)))) (lp (logits (m ((c.tc : Thread nD τ).loc main_arg5)) (m ((c.tc : Thread nD τ).loc main_arg6)) (m ((c.tc : Thread nD τ).loc main_arg7)))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v32).trans ((congrFun (after_ops _) _).trans (val13_main_v32 _)),
      (h c main_v34).trans ((congrFun (after_ops _) _).trans (val13_main_v34 _)),
      (h c main_v35).trans ((congrFun (after_ops _) _).trans (val13_main_v35 _)),
      (h c main_v37).trans ((congrFun (after_ops _) _).trans (val13_main_v37 _)),
      (h c main_v39).trans ((congrFun (after_ops _) _).trans (val13_main_v39 _)),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide))⟩)
    (run_all m g)

end Cert.ReferenceIdeal.Hand

end
-- ==== Proof.KI.Piece0.lean ====
/-
  Call 0: what the runs' stores leave, as the body's arithmetic.

  Each of the three carried buffers is rewritten by one whole store, so what it holds afterwards is that store's value:
  the new running maximum max(old, tile maximum); the new sum of exponentials old · exp(old max - new max) + Σ exp(logit
  - new max); the new row sum old + Σ logit.  At a resetting point the "old" values are the ones the body itself has
  just stored: -∞, 0 and 0.
-/
import proofs.«174775_j19164144075542_1_alg».proof.Proof.KI.Frame0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- Continuing: the sum of exponentials. -/
theorem out0_B_3_eq (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond0_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) :
    out0_B_3 c i arg2 harg2 arg3 harg3 arg4 harg4 arg5 harg5 arg6 harg6 arg7 harg7 hc0 x0 x1 x2 xo3 xo4 xs0 = k0_pay1 (k0_pay9 x0 x1 x2 xs0 xs0 xo3) (k0_pay10 x0 x1 x2 xs0) := by
  unfold out0_B_3
  rw [View.read_writes_eq_canon _ _ _ (out0_B_3cover c i arg2 harg2 arg3 harg3 arg4 harg4 arg5 harg5 arg6 harg6 arg7 harg7 hc0 x0 x1 x2 xo3 xo4 xs0)]
  unfold kernelRun0_B; dsimp only
  sl_unfold_words
  rw [View.canon_unit_zero hz2]
  simp only [View.readAt_eq_ld, harg2.read_unread, harg3.read_unread, harg4.read_unread, harg5.read_unread, harg6.read_unread, harg7.read_unread, View.ld_unit_zero (S := S1024x1) hz2, View.ld_unit_zero (S := S1024x2048) hz2, View.ld_unit_zero (S := S1280x2048) hz2, View.ld_unit_zero (S := S1x1280) hz2, View.readCov_unit_zero (S := S1024x1) _ hz2]

/-- Continuing: the row sum. -/
theorem out0_B_4_eq (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond0_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) :
    out0_B_4 c i arg2 harg2 arg3 harg3 arg4 harg4 arg5 harg5 arg6 harg6 arg7 harg7 hc0 x0 x1 x2 xo3 xo4 xs0 = k0_pay7 x0 x1 x2 xo4 := by
  unfold out0_B_4
  rw [View.read_writes_eq_canon _ _ _ (out0_B_4cover c i arg2 harg2 arg3 harg3 arg4 harg4 arg5 harg5 arg6 harg6 arg7 harg7 hc0 x0 x1 x2 xo3 xo4 xs0)]
  unfold kernelRun0_B; dsimp only
  sl_unfold_words
  rw [View.canon_unit_zero hz2]
  simp only [View.readAt_eq_ld, harg2.read_unread, harg3.read_unread, harg4.read_unread, harg5.read_unread, harg6.read_unread, harg7.read_unread, View.ld_unit_zero (S := S1024x1) hz2, View.ld_unit_zero (S := S1024x2048) hz2, View.ld_unit_zero (S := S1280x2048) hz2, View.ld_unit_zero (S := S1x1280) hz2, View.readCov_unit_zero (S := S1024x1) _ hz2]

/-- Continuing: the row maximum. -/
theorem sout0_B_eq (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond0_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) :
    sout0_B c i arg2 harg2 arg3 harg3 arg4 harg4 arg5 harg5 arg6 harg6 arg7 harg7 hc0 x0 x1 x2 xo3 xo4 xs0 = k0_pay2 (k0_pay8 x0 x1 x2 xs0) := by
  unfold sout0_B
  rw [View.read_writes_eq_canon _ _ _ (sout0_Bcover c i arg2 harg2 arg3 harg3 arg4 harg4 arg5 harg5 arg6 harg6 arg7 harg7 hc0 x0 x1 x2 xo3 xo4 xs0)]
  unfold kernelRun0_B; dsimp only
  sl_unfold_words
  rw [View.canon_unit_zero hz2]
  simp only [View.readAt_eq_ld, harg2.read_unread, harg3.read_unread, harg4.read_unread, harg5.read_unread, harg6.read_unread, harg7.read_unread, View.ld_unit_zero (S := S1024x1) hz2, View.ld_unit_zero (S := S1024x2048) hz2, View.ld_unit_zero (S := S1280x2048) hz2, View.ld_unit_zero (S := S1x1280) hz2, View.readCov_unit_zero (S := S1024x1) _ hz2]

/-- Resetting: the sum of exponentials, from -∞ and 0. -/
theorem out0_A_3_eq (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond0_0 i)
    (x0 : Vec F S1024x2048 .bf16) (x1 : Vec F S1280x2048 .bf16) (x2 : Vec F S1x1280 .f32) :
    out0_A_3 c i arg2 harg2 arg3 harg3 arg4 harg4 arg5 harg5 arg6 harg6 arg7 harg7 hc0 x0 x1 x2 = k0_pay1 (k0_pay9 x0 x1 x2 k0_pay3 k0_pay3 k0_pay4) (k0_pay10 x0 x1 x2 k0_pay3) := by
  unfold out0_A_3
  rw [View.read_writes_eq_canon _ _ _ (out0_A_3cover c i arg2 harg2 arg3 harg3 arg4 harg4 arg5 harg5 arg6 harg6 arg7 harg7 hc0 x0 x1 x2)]
  unfold kernelRun0_A; dsimp only
  sl_unfold_words
  rw [View.canon_cons_unit_zero hz2]
  simp only [View.readAt_eq_ld, harg2.read_unread, harg3.read_unread, harg4.read_unread, harg5.read_unread, harg6.read_unread, harg7.read_unread, View.ld_unit_zero (S := S1024x1) hz2, View.ld_unit_zero (S := S1024x2048) hz2, View.ld_unit_zero (S := S1280x2048) hz2, View.ld_unit_zero (S := S1x1280) hz2, View.readCov_unit_zero (S := S1024x1) _ hz2]

/-- Resetting: the row sum, from 0. -/
theorem out0_A_4_eq (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond0_0 i)
    (x0 : Vec F S1024x2048 .bf16) (x1 : Vec F S1280x2048 .bf16) (x2 : Vec F S1x1280 .f32) :
    out0_A_4 c i arg2 harg2 arg3 harg3 arg4 harg4 arg5 harg5 arg6 harg6 arg7 harg7 hc0 x0 x1 x2 = k0_pay7 x0 x1 x2 k0_pay5 := by
  unfold out0_A_4
  rw [View.read_writes_eq_canon _ _ _ (out0_A_4cover c i arg2 harg2 arg3 harg3 arg4 harg4 arg5 harg5 arg6 harg6 arg7 harg7 hc0 x0 x1 x2)]
  unfold kernelRun0_A; dsimp only
  sl_unfold_words
  rw [View.canon_cons_unit_zero hz2]
  simp only [View.readAt_eq_ld, harg2.read_unread, harg3.read_unread, harg4.read_unread, harg5.read_unread, harg6.read_unread, harg7.read_unread, View.ld_unit_zero (S := S1024x1) hz2, View.ld_unit_zero (S := S1024x2048) hz2, View.ld_unit_zero (S := S1280x2048) hz2, View.ld_unit_zero (S := S1x1280) hz2, View.readCov_unit_zero (S := S1024x1) _ hz2]

/-- Resetting: the row maximum, from -∞. -/
theorem sout0_A_eq (c : Dev nD) (i : grid0.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond0_0 i)
    (x0 : Vec F S1024x2048 .bf16) (x1 : Vec F S1280x2048 .bf16) (x2 : Vec F S1x1280 .f32) :
    sout0_A c i arg2 harg2 arg3 harg3 arg4 harg4 arg5 harg5 arg6 harg6 arg7 harg7 hc0 x0 x1 x2 = k0_pay2 (k0_pay8 x0 x1 x2 k0_pay3) := by
  unfold sout0_A
  rw [View.read_writes_eq_canon _ _ _ (sout0_Acover c i arg2 harg2 arg3 harg3 arg4 harg4 arg5 harg5 arg6 harg6 arg7 harg7 hc0 x0 x1 x2)]
  unfold kernelRun0_A; dsimp only
  sl_unfold_words
  rw [View.canon_cons_unit_zero hz2]
  simp only [View.readAt_eq_ld, harg2.read_unread, harg3.read_unread, harg4.read_unread, harg5.read_unread, harg6.read_unread, harg7.read_unread, View.ld_unit_zero (S := S1024x1) hz2, View.ld_unit_zero (S := S1024x2048) hz2, View.ld_unit_zero (S := S1280x2048) hz2, View.ld_unit_zero (S := S1x1280) hz2, View.readCov_unit_zero (S := S1024x1) _ hz2]

end Cert.KernelIdeal.Hand

end
-- ==== Proof.Math.Basic.lean ====
/-
Elementary facts about extended reals used by the tile-by-tile log-sum-exp:
the cast from the reals commutes with finite sums; the maximum (folded from the
bottom element) of a finite family of real casts is the cast of a real number m
as soon as m bounds every entry and is one of the entries; a nonempty finite
family of reals has such an m; the exponential and the logarithm of a real cast.
-/
import Mathlib
import Idealize.ShloMosaic.PureOps.Ideal

namespace Cert.Math
open Idealize.ShloMosaic

/-- the cast ℝ → EReal commutes with finite sums -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- the folded maximum is an upper bound of every entry and below any common upper bound -/
theorem foldmax_le {ι : Type*} [Fintype ι] (F : ι → EReal) (b : EReal) (h : ∀ i, F i ≤ b) :
    Finset.univ.fold max ⊥ F ≤ b := by
  classical
  have : ∀ s : Finset ι, s.fold max ⊥ F ≤ b := by
    intro s
    induction s using Finset.induction_on with
    | empty => simp
    | insert a s ha ih => rw [Finset.fold_insert ha]; exact max_le (h a) ih
  exact this _

theorem le_foldmax {ι : Type*} [Fintype ι] (F : ι → EReal) (i : ι) :
    F i ≤ Finset.univ.fold max ⊥ F := by
  classical
  have : ∀ s : Finset ι, i ∈ s → F i ≤ s.fold max ⊥ F := by
    intro s
    induction s using Finset.induction_on with
    | empty => simp
    | insert a s ha ih =>
      intro hi
      rw [Finset.fold_insert ha]
      rcases Finset.mem_insert.mp hi with rfl | hi
      · exact le_max_left _ _
      · exact le_trans (ih hi) (le_max_right _ _)
  exact this _ (Finset.mem_univ i)

/-- the folded maximum of real casts is the cast of m when m bounds all entries and is attained -/
theorem foldmax_coe_eq {ι : Type*} [Fintype ι] (g : ι → ℝ) (m : ℝ)
    (hle : ∀ i, g i ≤ m) (hatt : ∃ i, g i = m) :
    Finset.univ.fold max ⊥ (fun i => (g i : EReal)) = (m : EReal) := by
  apply le_antisymm
  · exact foldmax_le _ _ (fun i => EReal.coe_le_coe_iff.mpr (hle i))
  · obtain ⟨i, hi⟩ := hatt
    have := le_foldmax (fun i => (g i : EReal)) i
    simpa [hi] using this

/-- a nonempty finite family of reals has a largest entry -/
theorem exists_max {ι : Type*} [Fintype ι] [Nonempty ι] (g : ι → ℝ) :
    ∃ m : ℝ, (∀ i, g i ≤ m) ∧ ∃ i, g i = m := by
  obtain ⟨i, -, hi⟩ := Finset.exists_max_image Finset.univ g Finset.univ_nonempty
  exact ⟨g i, fun j => hi j (Finset.mem_univ j), i, rfl⟩

theorem exp_coe_sub (a m : ℝ) : Ideal.exp ((a : EReal) - (m : EReal)) = ((Real.exp (a - m) : ℝ) : EReal) := by
  rw [← EReal.coe_sub]; rfl

theorem log_coe_pos (s : ℝ) (hs : 0 < s) : Ideal.log (s : EReal) = ((Real.log s : ℝ) : EReal) := by
  rw [Ideal.log_coe, if_neg (not_le.mpr hs)]

end Cert.Math
-- ==== Proof.Math.Reindex.lean ====
/-
Cutting a row of 32000 entries into 25 tiles of 1280: the map sending
(tile t, position j) to the row position 1280·t + j is a bijection of
Fin 25 × Fin 1280 onto Fin 32000, so a sum over the row is the double sum over
tiles and positions, and the double sum over the first 25 naturals and the
positions when a tile beyond the row is read as anything at all.
-/
import Mathlib

namespace Cert.Math

/-- position of entry j of tile t in the row -/
def tileIdx (t : Fin 25) (j : Fin 1280) : Fin 32000 := ⟨1280 * t.val + j.val, by omega⟩

theorem tileIdx_bijective :
    Function.Bijective (fun p : Fin 25 × Fin 1280 => tileIdx p.1 p.2) := by
  constructor
  · rintro ⟨a, b⟩ ⟨a', b'⟩ h
    have h' : 1280 * a.val + b.val = 1280 * a'.val + b'.val := by
      simpa [tileIdx] using congrArg Fin.val h
    have hb := b.isLt
    have hb' := b'.isLt
    have h1 : a.val = a'.val := by omega
    have h2 : b.val = b'.val := by omega
    exact Prod.ext (Fin.ext h1) (Fin.ext h2)
  · intro v
    have hv := v.isLt
    refine ⟨(⟨v.val / 1280, by omega⟩, ⟨v.val % 1280, by omega⟩), ?_⟩
    apply Fin.ext
    simp only [tileIdx]
    omega

theorem tileIdx_surj (v : Fin 32000) : ∃ (t : Fin 25) (j : Fin 1280), tileIdx t j = v := by
  obtain ⟨⟨t, j⟩, h⟩ := tileIdx_bijective.2 v
  exact ⟨t, j, h⟩

/-- a sum over the row is the double sum over tiles and positions -/
theorem sum_tiles {M : Type*} [AddCommMonoid M] (G : Fin 32000 → M) :
    ∑ t : Fin 25, ∑ j : Fin 1280, G (tileIdx t j) = ∑ v : Fin 32000, G v := by
  rw [← Fintype.sum_prod_type' (fun t j => G (tileIdx t j))]
  exact tileIdx_bijective.sum_comp G

/-- the same with the tiles numbered by the naturals below 25 -/
theorem sum_range_tiles {M : Type*} [AddCommMonoid M] (G : Fin 32000 → M) (z : M) :
    ∑ t ∈ Finset.range 25, ∑ j : Fin 1280,
        (if h : t < 25 then G (tileIdx ⟨t, h⟩ j) else z) = ∑ v : Fin 32000, G v := by
  rw [Finset.sum_range (fun t => ∑ j : Fin 1280, (if h : t < 25 then G (tileIdx ⟨t, h⟩ j) else z))]
  rw [← sum_tiles G]
  apply Finset.sum_congr rfl
  intro t _
  apply Finset.sum_congr rfl
  intro j _
  rw [dif_pos t.isLt]

end Cert.Math
-- ==== Proof.Math.Online.lean ====
/-
The tile-by-tile log-sum-exp agrees with the whole-row one.

A row of real numbers is read tile after tile while three numbers are kept: the
largest entry seen so far, the sum over the entries seen so far of
exp (entry - that largest entry), and the plain sum of the entries.  When a new
tile raises the maximum from m to m', the old sum of exponentials is multiplied by
exp (m - m'), which turns each exp (a - m) into exp (a - m'); so after every tile
the kept sum is the sum of exp (a - m) over everything read, m being the current
maximum.  After the last tile m is the maximum M of the row and the kept sum is
S = Σ exp (a - M) ≥ exp 0 > 0.  The largest log-softmax value of the row is
max_a ((a - M) - log S) = (M - M) - log S = - log S, which is what is claimed.
The plain sum after the last tile is the sum of the row, and a sum of row sums is
the sum over all (row, entry) pairs.
-/
import Mathlib
import Idealize.ShloMosaic.PureOps.Ideal
import proofs.«174775_j19164144075542_1_alg».proof.Proof.Math.Basic
import proofs.«174775_j19164144075542_1_alg».proof.Proof.Math.Reindex

namespace Cert.Math
open Idealize.ShloMosaic

noncomputable section

def stepMax {n : ℕ} (mx : EReal) (L : Fin n → EReal) : EReal := max mx (Finset.univ.fold max ⊥ L)
def stepLse {n : ℕ} (mx lse : EReal) (L : Fin n → EReal) : EReal :=
  lse * Ideal.exp (mx - stepMax mx L) + ∑ j, Ideal.exp (L j - stepMax mx L)
def stepSum {n : ℕ} (sl : EReal) (L : Fin n → EReal) : EReal := sl + ∑ j, L j

def runMax {n : ℕ} (L : ℕ → Fin n → EReal) : ℕ → EReal
  | 0 => stepMax ⊥ (L 0)
  | t + 1 => stepMax (runMax L t) (L (t + 1))
def runLse {n : ℕ} (L : ℕ → Fin n → EReal) : ℕ → EReal
  | 0 => stepLse ⊥ 0 (L 0)
  | t + 1 => stepLse (runMax L t) (runLse L t) (L (t + 1))
def runSum {n : ℕ} (L : ℕ → Fin n → EReal) : ℕ → EReal
  | 0 => stepSum 0 (L 0)
  | t + 1 => stepSum (runSum L t) (L (t + 1))

/-- a row cut into its 25 tiles (anything beyond the last tile) -/
def tiles (Lr : Fin 32000 → EReal) : ℕ → Fin 1280 → EReal :=
  fun t j => if h : t < 25 then Lr (tileIdx ⟨t, h⟩ j) else 0

/-- one step of the running maximum on a tile of reals whose largest entry is mt -/
theorem stepMax_coe {n : ℕ} (mx : EReal) (L : Fin n → EReal) (g : Fin n → ℝ) (mt : ℝ)
    (hL : ∀ j, L j = (g j : EReal)) (hle : ∀ j, g j ≤ mt) (hatt : ∃ j, g j = mt) :
    stepMax mx L = max mx (mt : EReal) := by
  have h : L = fun j => (g j : EReal) := funext hL
  rw [stepMax, h, foldmax_coe_eq g mt hle hatt]

/-- one step of the running sum of exponentials, all quantities real -/
theorem stepLse_coe {n : ℕ} (m s m' : ℝ) (L : Fin n → EReal) (g : Fin n → ℝ)
    (hL : ∀ j, L j = (g j : EReal)) (hm' : stepMax (m : EReal) L = (m' : EReal)) :
    stepLse (m : EReal) (s : EReal) L
      = ((s * Real.exp (m - m') + ∑ j, Real.exp (g j - m') : ℝ) : EReal) := by
  rw [stepLse, hm', exp_coe_sub, EReal.coe_add, EReal.coe_mul, coe_sum]
  congr 1
  apply Finset.sum_congr rfl
  intro j _
  rw [hL j, exp_coe_sub]

/-- the first step: the maximum starts at the bottom element and the sum at zero -/
theorem stepLse_bot {n : ℕ} (m' : ℝ) (L : Fin n → EReal) (g : Fin n → ℝ)
    (hL : ∀ j, L j = (g j : EReal)) (hm' : stepMax ⊥ L = (m' : EReal)) :
    stepLse ⊥ 0 L = ((∑ j, Real.exp (g j - m') : ℝ) : EReal) := by
  rw [stepLse, hm', EReal.bot_sub, Ideal.exp_bot, mul_zero, zero_add, coe_sum]
  apply Finset.sum_congr rfl
  intro j _
  rw [hL j, exp_coe_sub]

/-- after tile t the running maximum is the largest real read so far, m, and the running
    sum of exponentials is the sum of exp (a - m) over everything read so far -/
theorem run_real {n : ℕ} (hn : 0 < n) (f : ℕ → Fin n → ℝ) (L : ℕ → Fin n → EReal)
    (hL : ∀ t j, L t j = (f t j : EReal)) (t : ℕ) :
    ∃ m : ℝ, runMax L t = (m : EReal) ∧ (∀ s, s ≤ t → ∀ j, f s j ≤ m) ∧
      (∃ s, s ≤ t ∧ ∃ j, f s j = m) ∧
      runLse L t = ((∑ s ∈ Finset.range (t + 1), ∑ j, Real.exp (f s j - m) : ℝ) : EReal) := by
  haveI : Nonempty (Fin n) := ⟨⟨0, hn⟩⟩
  induction t with
  | zero =>
    obtain ⟨m0, hle, hatt⟩ := exists_max (f 0)
    have hmax : stepMax ⊥ (L 0) = (m0 : EReal) := by
      rw [stepMax_coe ⊥ (L 0) (f 0) m0 (hL 0) hle hatt]
      exact max_eq_right bot_le
    refine ⟨m0, hmax, ?_, ⟨0, le_refl _, hatt⟩, ?_⟩
    · intro s hs j
      obtain rfl : s = 0 := by omega
      exact hle j
    · show stepLse ⊥ 0 (L 0) = _
      rw [stepLse_bot m0 (L 0) (f 0) (hL 0) hmax]
      simp
  | succ t ih =>
    obtain ⟨m, hm, hle, hatt, hlse⟩ := ih
    obtain ⟨mt, hlet, hattt⟩ := exists_max (f (t + 1))
    have hmax : stepMax (m : EReal) (L (t + 1)) = ((max m mt : ℝ) : EReal) := by
      rw [stepMax_coe _ (L (t + 1)) (f (t + 1)) mt (hL (t + 1)) hlet hattt,
        EReal.coe_strictMono.monotone.map_max]
    refine ⟨max m mt, ?_, ?_, ?_, ?_⟩
    · show stepMax (runMax L t) (L (t + 1)) = _
      rw [hm, hmax]
    · intro s hs j
      rcases Nat.lt_or_ge s (t + 1) with h | h
      · exact le_trans (hle s (by omega) j) (le_max_left _ _)
      · obtain rfl : s = t + 1 := by omega
        exact le_trans (hlet j) (le_max_right _ _)
    · rcases le_total mt m with h | h
      · obtain ⟨s, hs, j, hj⟩ := hatt
        exact ⟨s, by omega, j, by rw [hj, max_eq_left h]⟩
      · obtain ⟨j, hj⟩ := hattt
        exact ⟨t + 1, le_refl _, j, by rw [hj, max_eq_right h]⟩
    · show stepLse (runMax L t) (runLse L t) (L (t + 1)) = _
      rw [hm, hlse, stepLse_coe m _ (max m mt) (L (t + 1)) (f (t + 1)) (hL (t + 1)) hmax]
      congr 1
      rw [Finset.sum_range_succ _ (t + 1), Finset.sum_mul]
      congr 1
      apply Finset.sum_congr rfl
      intro s _
      rw [Finset.sum_mul]
      apply Finset.sum_congr rfl
      intro j _
      rw [← Real.exp_add]
      congr 1
      ring

/-- the running plain sum after tile t is the sum of everything read so far -/
theorem runSum_eq {n : ℕ} (L : ℕ → Fin n → EReal) (t : ℕ) :
    runSum L t = ∑ s ∈ Finset.range (t + 1), ∑ j, L s j := by
  induction t with
  | zero => simp [runSum, stepSum]
  | succ t ih =>
    rw [Finset.sum_range_succ _ (t + 1), ← ih]
    rfl

/-- (A) minus the logarithm of the running sum of exponentials after the last tile is the
    largest log-softmax value of the row -/
theorem online_lp (Lr : Fin 32000 → EReal) (hL : ∀ v, ∃ r : ℝ, Lr v = (r : EReal)) :
    - Ideal.log (runLse (tiles Lr) 24)
      = Finset.univ.fold max ⊥ (fun v : Fin 32000 =>
          (Lr v - max ⊥ (Finset.univ.fold max ⊥ Lr))
            - Ideal.log (0 + ∑ v' : Fin 32000, Ideal.exp (Lr v' - max ⊥ (Finset.univ.fold max ⊥ Lr)))) := by
  choose f hf using hL
  have hLr : Lr = fun v => (f v : EReal) := funext hf
  have hft : ∀ t j, tiles Lr t j
      = ((if h : t < 25 then f (tileIdx ⟨t, h⟩ j) else 0 : ℝ) : EReal) := by
    intro t j
    simp only [tiles]
    split
    · exact hf _
    · simp
  obtain ⟨m, -, hle, hatt, hlse⟩ :=
    run_real (by norm_num) (fun t j => if h : t < 25 then f (tileIdx ⟨t, h⟩ j) else 0)
      (tiles Lr) hft 24
  have hle' : ∀ v, f v ≤ m := by
    intro v
    obtain ⟨t, j, rfl⟩ := tileIdx_surj v
    have h := hle t.val (by omega) j
    simpa [t.isLt] using h
  have hatt' : ∃ v, f v = m := by
    obtain ⟨s, hs, j, hj⟩ := hatt
    have hs' : s < 25 := by omega
    refine ⟨tileIdx ⟨s, hs'⟩ j, ?_⟩
    simpa [hs'] using hj
  have hS : (∑ s ∈ Finset.range (24 + 1), ∑ j : Fin 1280,
        Real.exp ((if h : s < 25 then f (tileIdx ⟨s, h⟩ j) else 0) - m))
      = ∑ v, Real.exp (f v - m) := by
    rw [← sum_range_tiles (fun v => Real.exp (f v - m)) (Real.exp (0 - m))]
    apply Finset.sum_congr rfl
    intro s _
    apply Finset.sum_congr rfl
    intro j _
    split <;> rfl
  have hSpos : 0 < ∑ v, Real.exp (f v - m) :=
    Finset.sum_pos (fun v _ => Real.exp_pos _) Finset.univ_nonempty
  have hM : max ⊥ (Finset.univ.fold max ⊥ Lr) = (m : EReal) := by
    rw [hLr, foldmax_coe_eq f m hle' hatt']
    exact max_eq_right bot_le
  have hsum : (0 : EReal) + ∑ v', Ideal.exp (Lr v' - (m : EReal))
      = ((∑ v, Real.exp (f v - m) : ℝ) : EReal) := by
    rw [zero_add, coe_sum]
    apply Finset.sum_congr rfl
    intro v _
    rw [hf v, exp_coe_sub]
  rw [hlse, hS, hM, hsum, log_coe_pos _ hSpos]
  have hfun : (fun v : Fin 32000 =>
        (Lr v - (m : EReal)) - ((Real.log (∑ v, Real.exp (f v - m)) : ℝ) : EReal))
      = fun v => ((f v - m - Real.log (∑ v, Real.exp (f v - m)) : ℝ) : EReal) := by
    funext v
    rw [hf v, EReal.coe_sub, EReal.coe_sub]
  rw [hfun, foldmax_coe_eq (fun v => f v - m - Real.log (∑ v, Real.exp (f v - m)))
    (-Real.log (∑ v, Real.exp (f v - m)))]
  · rw [EReal.coe_neg]
  · intro v
    have := hle' v
    linarith
  · obtain ⟨v, hv⟩ := hatt'
    exact ⟨v, by rw [hv]; ring⟩

/-- (B) the running plain sum after the last tile is the sum of the row -/
theorem online_sum (Lr : Fin 32000 → EReal) (hL : ∀ v, ∃ r : ℝ, Lr v = (r : EReal)) :
    runSum (tiles Lr) 24 = ∑ v : Fin 32000, Lr v := by
  rw [runSum_eq]
  exact sum_range_tiles Lr 0

/-- (C) the total over rows of the row sums is the sum over all (row, entry) pairs -/
theorem sum_rows {ι κ : Type*} [Fintype ι] [Fintype κ] (g : ι → κ → EReal) :
    ∑ r, ∑ v, g r v = ∑ p : ι × κ, g p.1 p.2 :=
  (Fintype.sum_prod_type' g).symm

end

end Cert.Math
-- ==== Proof.KI.Payload.lean ====
/-
One tile of the kernel read entry by entry, over the extended reals.

The tile's logit at row p and position j is the inner product over the 2048
features of row p of the activations and row j of the weight tile (the tile is
multiplied transposed, so both factors are read along their second axis) plus
the bias at j.  From the 1280 logits of a row the body forms: the new running
maximum, the larger of the old one and the largest logit; the new running sum of
exponentials, the old one times exp (old maximum - new maximum) plus the sum of
exp (logit - new maximum); and the new running plain sum, the old one plus the
sum of the logits.  These are exactly one step of the tile-by-tile maximum, sum
of exponentials and sum.  Before the first tile the three are set to the bottom
element, zero and zero.  Both calls of the kernel have the same body, so every
statement is made twice.
-/
import proofs.«174775_j19164144075542_1_alg».proof.Proof.Gen.KernelIdeal.Skeleton
import proofs.«174775_j19164144075542_1_alg».proof.Proof.Math.Online
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand
open Cert.KernelIdeal Cert.KernelIdeal.Gen Idealize.ShloMosaic Idealize.ShloMosaic.ValueIdx

/-- the logit of row p at position j of the tile -/
def tileLogit (x0 : Vec Ideal S1024x2048 .bf16) (x1 : Vec Ideal S1280x2048 .bf16)
    (x2 : Vec Ideal S1x1280 .f32) (p : Fin 1024) (j : Fin 1280) : EReal :=
  (∑ k : Fin 2048, x0 (ValueIdx.ix2 p k) * x1 (ValueIdx.ix2 j k)) + x2 (ValueIdx.ix2 0 j)

/-- an index of a one-column shape is its row -/
theorem idx_1024x1 (j : S1024x1.Idx) : j = ValueIdx.ix2 (j 0) 0 := by
  obtain ⟨p, q, rfl⟩ : ∃ (p : Fin 1024) (q : Fin 1), j = ix2 p q := ⟨j 0, j 1, eq_ix2 j⟩
  have hq : q = 0 := Subsingleton.elim _ _
  subst hq
  rfl

/-- the contraction of the tile product runs over the 2048 features -/
theorem dot_lhs (p : Fin 1024) (j : Fin 1280) (c : Fin 2048) :
    dot_S1024x2048_S2048x1280_S1024x1280_1_0_0_1_n_n.lhsIdx (ix2 p j) ((contrEquiv1 dot_S1024x2048_S2048x1280_S1024x1280_1_0_0_1_n_n 2048 rfl rfl).symm c) = ix2 p c := by
  have c2 := contrEquiv1_symm_val dot_S1024x2048_S2048x1280_S1024x1280_1_0_0_1_n_n 2048 rfl rfl c
  funext ax
  apply Fin.ext
  match ax with
  | ⟨0, _⟩ => simp [DotDims.lhsIdx, dot_S1024x2048_S2048x1280_S1024x1280_1_0_0_1_n_n]; rfl
  | ⟨1, _⟩ => simp [DotDims.lhsIdx, dot_S1024x2048_S2048x1280_S1024x1280_1_0_0_1_n_n]; exact c2

theorem dot_rhs (p : Fin 1024) (j : Fin 1280) (c : Fin 2048) :
    dot_S1024x2048_S2048x1280_S1024x1280_1_0_0_1_n_n.rhsIdx (ix2 p j) ((contrEquiv1 dot_S1024x2048_S2048x1280_S1024x1280_1_0_0_1_n_n 2048 rfl rfl).symm c) = ix2 c j := by
  have c2 := contrEquiv1_symm_val dot_S1024x2048_S2048x1280_S1024x1280_1_0_0_1_n_n 2048 rfl rfl c
  funext ax
  apply Fin.ext
  match ax with
  | ⟨0, _⟩ => simp [DotDims.rhsIdx, dot_S1024x2048_S2048x1280_S1024x1280_1_0_0_1_n_n]; exact c2
  | ⟨1, _⟩ => simp [DotDims.rhsIdx, dot_S1024x2048_S2048x1280_S1024x1280_1_0_0_1_n_n]; rfl

/-- a vector of 1024 entries seen as a column reads, at (p, 0), the entry p -/
theorem col_apply {α : Type} (v : S1024.Idx → α) (p : Fin 1024) :
    shapeCast S1024x1 v shapeCasts_S1024_S1024x1 (ix2 p (0 : Fin 1)) = v (ix1 p) :=
  shapeCast_apply v _ (ix2 p (0 : Fin 1)) (ix1 p) (by
    rw [Shape.rowMajor_val_two, Shape.rowMajor_val_one]
    show p.val = p.val * 1 + 0
    omega)

/-- a column laid along 1280 positions reads, at (p, j), the column's entry p -/
theorem bcast_col_apply {α : Type} (v : S1024x1.Idx → α) (p : Fin 1024) (j : Fin 1280) :
    broadcastTo S1024x1280 v broadcasts_S1024x1_S1024x1280 (ix2 p j) = v (ix2 p (0 : Fin 1)) := by
  refine broadcastTo_apply v _ (ix2 p j) (ix2 p (0 : Fin 1)) fun ax => ?_
  match ax with
  | ⟨0, _⟩ =>
    show p.val = if (1024 : ℕ) = 1 then 0 else p.val
    simp
  | ⟨1, _⟩ =>
    show (0 : ℕ) = if (1 : ℕ) = 1 then 0 else j.val
    simp

/-- the row index p with the position j put back on the reduced axis is (p, j) -/
theorem lift_apply (p : Fin 1024) (j : Fin 1280) :
    reduces_S1024x1280_S1024.lift (ix1 p) j = ix2 p j := by
  funext ax
  apply Fin.ext
  match ax with
  | ⟨0, _⟩ => rfl
  | ⟨1, _⟩ => rfl

/-- the pattern of minus infinity is the bottom element -/
theorem ofBits_neg_inf : Ideal.ofBits .f32 0xFF800000#32 = ⊥ := by simp [Ideal.ofBits, Ideal.ieee]

/-- the maximum along a row, from minus infinity, is the folded maximum of the row's entries -/
theorem rowmax_apply (src : FVec Ideal S1024x1280 .f32) (hφ : FKind.Formats .f32)
    (hacc : (0xFF800000#32 : BitVec FTy.f32.bits) = FKind.maximumf.neutral .f32 hφ) (p : Fin 1024) :
    multiReduction .maximumf [1] S1024 src 0xFF800000#32 reduces_S1024x1280_S1024 hφ hacc (ix1 p)
      = Finset.univ.fold max ⊥ (fun j : Fin 1280 => src (ix2 p j)) := by
  refine (Ideal.multiReduction_maximumf_single src _ reduces_S1024x1280_S1024 hφ hacc (ix1 p)).trans ?_
  show (Finset.univ : Finset (Fin 1280)).fold max (Ideal.ofBits .f32 0xFF800000#32)
      (fun j => src (reduces_S1024x1280_S1024.lift (ix1 p) j)) = _
  rw [ofBits_neg_inf]
  congr 1
  funext j
  exact congrArg src (lift_apply p j)

/-- the sum along a row is the sum of the row's entries -/
theorem rowsum_apply (src : FVec Ideal S1024x1280 .f32) (hφ : FKind.Formats .f32)
    (hacc : (0x00000000#32 : BitVec FTy.f32.bits) = FKind.add.neutral .f32 hφ) (p : Fin 1024) :
    multiReduction .add [1] S1024 src 0x00000000#32 reduces_S1024x1280_S1024 hφ hacc (ix1 p)
      = ∑ j : Fin 1280, src (ix2 p j) := by
  refine (Ideal.multiReduction_add_single src _ reduces_S1024x1280_S1024 hφ hacc (ix1 p)).trans ?_
  show ∑ j : Fin 1280, src (reduces_S1024x1280_S1024.lift (ix1 p) j) = _
  exact Finset.sum_congr rfl fun j _ => congrArg src (lift_apply p j)

/-! Each step of the body over arbitrary vectors: the logits enter only through their entries. -/

/-- the new maximum: the larger of the old one and the row's largest entry -/
theorem maxstep_apply (src : FVec Ideal S1024x1280 .f32) (mx : FVec Ideal S1024x1 .f32)
    (hφ : FKind.Formats .f32)
    (hacc : (0xFF800000#32 : BitVec FTy.f32.bits) = FKind.maximumf.neutral .f32 hφ) (p : Fin 1024) :
    maximumf mx (shapeCast S1024x1 (multiReduction .maximumf [1] S1024 src 0xFF800000#32
        reduces_S1024x1280_S1024 hφ hacc) shapeCasts_S1024_S1024x1) (ix2 p (0 : Fin 1))
      = max (mx (ix2 p (0 : Fin 1))) (Finset.univ.fold max ⊥ (fun j : Fin 1280 => src (ix2 p j))) := by
  rw [maximumf_apply, col_apply, rowmax_apply]

/-- the old sum of exponentials times exp (old maximum - new maximum) -/
theorem rescale_apply (lse mx' M : FVec Ideal S1024x1 .f32) (h : S1024x1.ShapeCasts S1024x1) (p : Fin 1024) :
    mulf (shapeCast S1024x1 lse h) (exp (subf mx' M)) (ix2 p (0 : Fin 1))
      = lse (ix2 p (0 : Fin 1)) * Ideal.exp (mx' (ix2 p (0 : Fin 1)) - M (ix2 p (0 : Fin 1))) := by
  rw [shapeCast_self]
  rfl

/-- the row's sum of exp (entry - new maximum) -/
theorem expsum_apply (src : FVec Ideal S1024x1280 .f32) (M : FVec Ideal S1024x1 .f32)
    (hφ : FKind.Formats .f32)
    (hacc : (0x00000000#32 : BitVec FTy.f32.bits) = FKind.add.neutral .f32 hφ) (p : Fin 1024) :
    shapeCast S1024x1 (multiReduction .add [1] S1024
        (exp (subf src (broadcastTo S1024x1280 M broadcasts_S1024x1_S1024x1280))) 0x00000000#32
        reduces_S1024x1280_S1024 hφ hacc) shapeCasts_S1024_S1024x1 (ix2 p (0 : Fin 1))
      = ∑ j : Fin 1280, Ideal.exp (src (ix2 p j) - M (ix2 p (0 : Fin 1))) := by
  rw [col_apply, rowsum_apply]
  refine Finset.sum_congr rfl fun j _ => ?_
  show Ideal.exp (src (ix2 p j) - broadcastTo S1024x1280 M broadcasts_S1024x1_S1024x1280 (ix2 p j)) = _
  rw [bcast_col_apply]

/-- the old plain sum plus the row's sum -/
theorem addsum_apply (src : FVec Ideal S1024x1280 .f32) (sl : FVec Ideal S1024x1 .f32)
    (h : S1024x1.ShapeCasts S1024x1) (hφ : FKind.Formats .f32)
    (hacc : (0x00000000#32 : BitVec FTy.f32.bits) = FKind.add.neutral .f32 hφ) (p : Fin 1024) :
    addf (shapeCast S1024x1 sl h) (shapeCast S1024x1 (multiReduction .add [1] S1024 src 0x00000000#32
        reduces_S1024x1280_S1024 hφ hacc) shapeCasts_S1024_S1024x1) (ix2 p (0 : Fin 1))
      = sl (ix2 p (0 : Fin 1)) + ∑ j : Fin 1280, src (ix2 p j) := by
  rw [addf_apply, shapeCast_self, col_apply, rowsum_apply]

/-- call 0: the tile's logits, entry by entry -/
theorem logit0_apply (x0 : Vec Ideal S1024x2048 .bf16) (x1 : Vec Ideal S1280x2048 .bf16)
    (x2 : Vec Ideal S1x1280 .f32) (p : Fin 1024) (j : Fin 1280) :
    k0_pay6 (F := Ideal) x0 x1 x2 (ValueIdx.ix2 p j) = tileLogit x0 x1 x2 p j := by
  unfold k0_pay6 tileLogit
  simp only [shapeCast_self]
  rw [addf_apply]
  congr 1
  · simp only [matmul]
    rw [Ideal.matmul_constant_zero_apply,
      ← Equiv.sum_comp (contrEquiv1 dot_S1024x2048_S2048x1280_S1024x1280_1_0_0_1_n_n 2048 rfl rfl).symm]
    refine Finset.sum_congr rfl fun c _ => ?_
    rw [dot_lhs, dot_rhs, transpose_ix2_apply]
  · exact broadcastTo_1b_ab_apply _ _ p j

/-- call 0: the new running maximum of row p -/
theorem pay8_0_apply (x0 : Vec Ideal S1024x2048 .bf16) (x1 : Vec Ideal S1280x2048 .bf16)
    (x2 : Vec Ideal S1x1280 .f32) (mx : Vec Ideal S1024x1 .f32) (p : Fin 1024) :
    k0_pay8 (F := Ideal) x0 x1 x2 mx (ValueIdx.ix2 p 0)
      = Cert.Math.stepMax (mx (ValueIdx.ix2 p 0)) (tileLogit x0 x1 x2 p) := by
  have hl : ∀ j : Fin 1280, k0_pay6 (F := Ideal) x0 x1 x2 (ix2 p j) = tileLogit x0 x1 x2 p j :=
    fun j => logit0_apply x0 x1 x2 p j
  unfold k0_pay8 Cert.Math.stepMax
  generalize k0_pay6 (F := Ideal) x0 x1 x2 = src at hl ⊢
  refine (maxstep_apply src mx _ _ p).trans ?_
  rw [show (fun j : Fin 1280 => src (ix2 p j)) = tileLogit x0 x1 x2 p from funext hl]

theorem max0_apply (x0 : Vec Ideal S1024x2048 .bf16) (x1 : Vec Ideal S1280x2048 .bf16)
    (x2 : Vec Ideal S1x1280 .f32) (mx : Vec Ideal S1024x1 .f32) (p : Fin 1024) :
    k0_pay2 (k0_pay8 (F := Ideal) x0 x1 x2 mx) (ValueIdx.ix2 p 0)
      = Cert.Math.stepMax (mx (ValueIdx.ix2 p 0)) (tileLogit x0 x1 x2 p) := by
  have h8 := pay8_0_apply x0 x1 x2 mx p
  unfold k0_pay2
  generalize k0_pay8 (F := Ideal) x0 x1 x2 mx = M at h8 ⊢
  rw [shapeCast_self]
  exact h8

/-- call 0: the old sum of exponentials rescaled to the new maximum -/
theorem pay9_0_apply (x0 : Vec Ideal S1024x2048 .bf16) (x1 : Vec Ideal S1280x2048 .bf16)
    (x2 : Vec Ideal S1x1280 .f32) (mx mx' lse : Vec Ideal S1024x1 .f32) (p : Fin 1024) :
    k0_pay9 (F := Ideal) x0 x1 x2 mx mx' lse (ValueIdx.ix2 p 0)
      = lse (ValueIdx.ix2 p 0) * Ideal.exp (mx' (ValueIdx.ix2 p 0)
          - Cert.Math.stepMax (mx (ValueIdx.ix2 p 0)) (tileLogit x0 x1 x2 p)) := by
  have h8 := pay8_0_apply x0 x1 x2 mx p
  unfold k0_pay9
  generalize k0_pay8 (F := Ideal) x0 x1 x2 mx = M at h8 ⊢
  refine (rescale_apply lse mx' M _ p).trans ?_
  rw [h8]

/-- call 0: the tile's sum of exponentials against the new maximum -/
theorem pay10_0_apply (x0 : Vec Ideal S1024x2048 .bf16) (x1 : Vec Ideal S1280x2048 .bf16)
    (x2 : Vec Ideal S1x1280 .f32) (mx : Vec Ideal S1024x1 .f32) (p : Fin 1024) :
    k0_pay10 (F := Ideal) x0 x1 x2 mx (ValueIdx.ix2 p 0)
      = ∑ j : Fin 1280, Ideal.exp (tileLogit x0 x1 x2 p j
          - Cert.Math.stepMax (mx (ValueIdx.ix2 p 0)) (tileLogit x0 x1 x2 p)) := by
  have h8 := pay8_0_apply x0 x1 x2 mx p
  have hl : ∀ j : Fin 1280, k0_pay6 (F := Ideal) x0 x1 x2 (ix2 p j) = tileLogit x0 x1 x2 p j :=
    fun j => logit0_apply x0 x1 x2 p j
  unfold k0_pay10
  generalize k0_pay8 (F := Ideal) x0 x1 x2 mx = M at h8 ⊢
  generalize k0_pay6 (F := Ideal) x0 x1 x2 = src at hl ⊢
  refine (expsum_apply src M _ _ p).trans ?_
  rw [h8]
  exact Finset.sum_congr rfl fun j _ => by rw [hl j]

theorem lse0_apply (x0 : Vec Ideal S1024x2048 .bf16) (x1 : Vec Ideal S1280x2048 .bf16)
    (x2 : Vec Ideal S1x1280 .f32) (mx lse : Vec Ideal S1024x1 .f32) (p : Fin 1024) :
    k0_pay1 (k0_pay9 (F := Ideal) x0 x1 x2 mx mx lse) (k0_pay10 x0 x1 x2 mx) (ValueIdx.ix2 p 0)
      = Cert.Math.stepLse (mx (ValueIdx.ix2 p 0)) (lse (ValueIdx.ix2 p 0)) (tileLogit x0 x1 x2 p) := by
  have h9 := pay9_0_apply x0 x1 x2 mx mx lse p
  have h10 := pay10_0_apply x0 x1 x2 mx p
  unfold k0_pay1 Cert.Math.stepLse
  generalize k0_pay9 (F := Ideal) x0 x1 x2 mx mx lse = A at h9 ⊢
  generalize k0_pay10 (F := Ideal) x0 x1 x2 mx = B at h10 ⊢
  refine (addf_apply A B (ix2 p (0 : Fin 1))).trans ?_
  rw [h9, h10]

theorem sum0_apply (x0 : Vec Ideal S1024x2048 .bf16) (x1 : Vec Ideal S1280x2048 .bf16)
    (x2 : Vec Ideal S1x1280 .f32) (sl : Vec Ideal S1024x1 .f32) (p : Fin 1024) :
    k0_pay7 (F := Ideal) x0 x1 x2 sl (ValueIdx.ix2 p 0)
      = Cert.Math.stepSum (sl (ValueIdx.ix2 p 0)) (tileLogit x0 x1 x2 p) := by
  have hl : ∀ j : Fin 1280, k0_pay6 (F := Ideal) x0 x1 x2 (ix2 p j) = tileLogit x0 x1 x2 p j :=
    fun j => logit0_apply x0 x1 x2 p j
  unfold k0_pay7 Cert.Math.stepSum
  generalize k0_pay6 (F := Ideal) x0 x1 x2 = src at hl ⊢
  refine (addsum_apply src sl _ _ _ p).trans ?_
  exact congrArg (sl (ix2 p (0 : Fin 1)) + ·) (Finset.sum_congr rfl fun j _ => hl j)

theorem init_max0 (p : Fin 1024) : (k0_pay3 (F := Ideal)) (ValueIdx.ix2 p 0) = ⊥ := by
  unfold k0_pay3
  simp only [shapeCast_self]
  exact ofBits_neg_inf

theorem init_lse0 (p : Fin 1024) : (k0_pay4 (F := Ideal)) (ValueIdx.ix2 p 0) = 0 :=
  Ideal.ofBits_zero_f32

theorem init_sum0 (p : Fin 1024) : (k0_pay5 (F := Ideal)) (ValueIdx.ix2 p 0) = 0 :=
  Ideal.ofBits_zero_f32

/-- call 1: the tile's logits, entry by entry -/
theorem logit1_apply (x0 : Vec Ideal S1024x2048 .bf16) (x1 : Vec Ideal S1280x2048 .bf16)
    (x2 : Vec Ideal S1x1280 .f32) (p : Fin 1024) (j : Fin 1280) :
    k1_pay6 (F := Ideal) x0 x1 x2 (ValueIdx.ix2 p j) = tileLogit x0 x1 x2 p j := by
  unfold k1_pay6 tileLogit
  simp only [shapeCast_self]
  rw [addf_apply]
  congr 1
  · simp only [matmul]
    rw [Ideal.matmul_constant_zero_apply,
      ← Equiv.sum_comp (contrEquiv1 dot_S1024x2048_S2048x1280_S1024x1280_1_0_0_1_n_n 2048 rfl rfl).symm]
    refine Finset.sum_congr rfl fun c _ => ?_
    rw [dot_lhs, dot_rhs, transpose_ix2_apply]
  · exact broadcastTo_1b_ab_apply _ _ p j

/-- call 1: the new running maximum of row p -/
theorem pay8_1_apply (x0 : Vec Ideal S1024x2048 .bf16) (x1 : Vec Ideal S1280x2048 .bf16)
    (x2 : Vec Ideal S1x1280 .f32) (mx : Vec Ideal S1024x1 .f32) (p : Fin 1024) :
    k1_pay8 (F := Ideal) x0 x1 x2 mx (ValueIdx.ix2 p 0)
      = Cert.Math.stepMax (mx (ValueIdx.ix2 p 0)) (tileLogit x0 x1 x2 p) := by
  have hl : ∀ j : Fin 1280, k1_pay6 (F := Ideal) x0 x1 x2 (ix2 p j) = tileLogit x0 x1 x2 p j :=
    fun j => logit1_apply x0 x1 x2 p j
  unfold k1_pay8 Cert.Math.stepMax
  generalize k1_pay6 (F := Ideal) x0 x1 x2 = src at hl ⊢
  refine (maxstep_apply src mx _ _ p).trans ?_
  rw [show (fun j : Fin 1280 => src (ix2 p j)) = tileLogit x0 x1 x2 p from funext hl]

theorem max1_apply (x0 : Vec Ideal S1024x2048 .bf16) (x1 : Vec Ideal S1280x2048 .bf16)
    (x2 : Vec Ideal S1x1280 .f32) (mx : Vec Ideal S1024x1 .f32) (p : Fin 1024) :
    k1_pay2 (k1_pay8 (F := Ideal) x0 x1 x2 mx) (ValueIdx.ix2 p 0)
      = Cert.Math.stepMax (mx (ValueIdx.ix2 p 0)) (tileLogit x0 x1 x2 p) := by
  have h8 := pay8_1_apply x0 x1 x2 mx p
  unfold k1_pay2
  generalize k1_pay8 (F := Ideal) x0 x1 x2 mx = M at h8 ⊢
  rw [shapeCast_self]
  exact h8

/-- call 1: the old sum of exponentials rescaled to the new maximum -/
theorem pay9_1_apply (x0 : Vec Ideal S1024x2048 .bf16) (x1 : Vec Ideal S1280x2048 .bf16)
    (x2 : Vec Ideal S1x1280 .f32) (mx mx' lse : Vec Ideal S1024x1 .f32) (p : Fin 1024) :
    k1_pay9 (F := Ideal) x0 x1 x2 mx mx' lse (ValueIdx.ix2 p 0)
      = lse (ValueIdx.ix2 p 0) * Ideal.exp (mx' (ValueIdx.ix2 p 0)
          - Cert.Math.stepMax (mx (ValueIdx.ix2 p 0)) (tileLogit x0 x1 x2 p)) := by
  have h8 := pay8_1_apply x0 x1 x2 mx p
  unfold k1_pay9
  generalize k1_pay8 (F := Ideal) x0 x1 x2 mx = M at h8 ⊢
  refine (rescale_apply lse mx' M _ p).trans ?_
  rw [h8]

/-- call 1: the tile's sum of exponentials against the new maximum -/
theorem pay10_1_apply (x0 : Vec Ideal S1024x2048 .bf16) (x1 : Vec Ideal S1280x2048 .bf16)
    (x2 : Vec Ideal S1x1280 .f32) (mx : Vec Ideal S1024x1 .f32) (p : Fin 1024) :
    k1_pay10 (F := Ideal) x0 x1 x2 mx (ValueIdx.ix2 p 0)
      = ∑ j : Fin 1280, Ideal.exp (tileLogit x0 x1 x2 p j
          - Cert.Math.stepMax (mx (ValueIdx.ix2 p 0)) (tileLogit x0 x1 x2 p)) := by
  have h8 := pay8_1_apply x0 x1 x2 mx p
  have hl : ∀ j : Fin 1280, k1_pay6 (F := Ideal) x0 x1 x2 (ix2 p j) = tileLogit x0 x1 x2 p j :=
    fun j => logit1_apply x0 x1 x2 p j
  unfold k1_pay10
  generalize k1_pay8 (F := Ideal) x0 x1 x2 mx = M at h8 ⊢
  generalize k1_pay6 (F := Ideal) x0 x1 x2 = src at hl ⊢
  refine (expsum_apply src M _ _ p).trans ?_
  rw [h8]
  exact Finset.sum_congr rfl fun j _ => by rw [hl j]

theorem lse1_apply (x0 : Vec Ideal S1024x2048 .bf16) (x1 : Vec Ideal S1280x2048 .bf16)
    (x2 : Vec Ideal S1x1280 .f32) (mx lse : Vec Ideal S1024x1 .f32) (p : Fin 1024) :
    k1_pay1 (k1_pay9 (F := Ideal) x0 x1 x2 mx mx lse) (k1_pay10 x0 x1 x2 mx) (ValueIdx.ix2 p 0)
      = Cert.Math.stepLse (mx (ValueIdx.ix2 p 0)) (lse (ValueIdx.ix2 p 0)) (tileLogit x0 x1 x2 p) := by
  have h9 := pay9_1_apply x0 x1 x2 mx mx lse p
  have h10 := pay10_1_apply x0 x1 x2 mx p
  unfold k1_pay1 Cert.Math.stepLse
  generalize k1_pay9 (F := Ideal) x0 x1 x2 mx mx lse = A at h9 ⊢
  generalize k1_pay10 (F := Ideal) x0 x1 x2 mx = B at h10 ⊢
  refine (addf_apply A B (ix2 p (0 : Fin 1))).trans ?_
  rw [h9, h10]

theorem sum1_apply (x0 : Vec Ideal S1024x2048 .bf16) (x1 : Vec Ideal S1280x2048 .bf16)
    (x2 : Vec Ideal S1x1280 .f32) (sl : Vec Ideal S1024x1 .f32) (p : Fin 1024) :
    k1_pay7 (F := Ideal) x0 x1 x2 sl (ValueIdx.ix2 p 0)
      = Cert.Math.stepSum (sl (ValueIdx.ix2 p 0)) (tileLogit x0 x1 x2 p) := by
  have hl : ∀ j : Fin 1280, k1_pay6 (F := Ideal) x0 x1 x2 (ix2 p j) = tileLogit x0 x1 x2 p j :=
    fun j => logit1_apply x0 x1 x2 p j
  unfold k1_pay7 Cert.Math.stepSum
  generalize k1_pay6 (F := Ideal) x0 x1 x2 = src at hl ⊢
  refine (addsum_apply src sl _ _ _ p).trans ?_
  exact congrArg (sl (ix2 p (0 : Fin 1)) + ·) (Finset.sum_congr rfl fun j _ => hl j)

theorem init_max1 (p : Fin 1024) : (k1_pay3 (F := Ideal)) (ValueIdx.ix2 p 0) = ⊥ := by
  unfold k1_pay3
  simp only [shapeCast_self]
  exact ofBits_neg_inf

theorem init_lse1 (p : Fin 1024) : (k1_pay4 (F := Ideal)) (ValueIdx.ix2 p 0) = 0 :=
  Ideal.ofBits_zero_f32

theorem init_sum1 (p : Fin 1024) : (k1_pay5 (F := Ideal)) (ValueIdx.ix2 p 0) = 0 :=
  Ideal.ofBits_zero_f32

end Cert.KernelIdeal.Hand
-- ==== Proof.KI.Value0.lean ====
/-
  Call 0: the three carried values, row by row, are the tile-by-tile recurrences.

  Fix a row block q and a row p of it.  Walking the 25 tiles of the block, the scratch, the first output and the second
  output hold at row p the running maximum, the running sum of exponentials and the running sum of the row's logits
  seen so far: after tile 0 the step from (-∞, 0, 0), after tile s + 1 the step from the values after tile s.  This is
  an induction on the tile: a resetting position starts the recurrences, a continuing position advances them by one
  step, and the step is exactly what the body's stores compute.
-/
import proofs.«174775_j19164144075542_1_alg».proof.Proof.KI.Piece0
import proofs.«174775_j19164144075542_1_alg».proof.Proof.KI.Payload
import proofs.«174775_j19164144075542_1_alg».proof.Proof.Math.Online
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Math
variable (V : (c : Dev nD) → (b : Ref sig .tc) → Buf (Elt Ideal) ((c : Thread nD τ).loc b))

/-- The logits of the tile handled at position n, at row p of the row block and entry j of the tile. -/
def tl0 (c : Dev nD) (n : ℕ) (p : Fin 1024) (j : Fin 1280) : EReal :=
  if h : n < cfg0.N then tileLogit (iblk0 V c 0 ⟨n, h⟩) (iblk0 V c 1 ⟨n, h⟩) (iblk0 V c 2 ⟨n, h⟩) p j else 0

theorem tl0_pos (c : Dev nD) (n : ℕ) (h : n < cfg0.N) (p : Fin 1024) :
    tl0 V c n p = tileLogit (iblk0 V c 0 ⟨n, h⟩) (iblk0 V c 1 ⟨n, h⟩) (iblk0 V c 2 ⟨n, h⟩) p := by
  funext j; unfold tl0; rw [dif_pos h]

theorem outsAt0_congr (c : Dev nD) {n n' : ℕ} (e : n = n') (hn : n < cfg0.N) (hn' : n' < cfg0.N) :
    outsAt0 V c n hn = outsAt0 V c n' hn' := by subst e; rfl

/-- The contents at a resetting position, through the body's arithmetic. -/
theorem atA0 (c : Dev nD) (n : ℕ) (hn : n < cfg0.N) (h0 : n % 25 = 0) (p : Fin 1024) :
    (outsAt0 V c n hn).1 (ValueIdx.ix2 p 0) = stepLse ⊥ 0 (tl0 V c n p)
    ∧ (outsAt0 V c n hn).2.1 (ValueIdx.ix2 p 0) = stepSum 0 (tl0 V c n p)
    ∧ (outsAt0 V c n hn).2.2 (ValueIdx.ix2 p 0) = stepMax ⊥ (tl0 V c n p) := by
  have hA := outsAt0_A V c ⟨n, hn⟩ h0
  dsimp only at hA
  rw [hA, tl0_pos V c n hn p]
  dsimp only
  refine ⟨?_, ?_, ?_⟩
  · rw [out0_A_3_eq]
    refine (lse0_apply (x0 := iblk0 V c 0 ⟨n, hn⟩) (x1 := iblk0 V c 1 ⟨n, hn⟩) (x2 := iblk0 V c 2 ⟨n, hn⟩) (mx := k0_pay3 (F := Ideal)) (lse := k0_pay4 (F := Ideal)) (p := p)).trans ?_
    rw [init_max0, init_lse0]
  · rw [out0_A_4_eq]
    refine (sum0_apply (x0 := iblk0 V c 0 ⟨n, hn⟩) (x1 := iblk0 V c 1 ⟨n, hn⟩) (x2 := iblk0 V c 2 ⟨n, hn⟩) (sl := k0_pay5 (F := Ideal)) (p := p)).trans ?_
    rw [init_sum0]
  · rw [sout0_A_eq]
    refine (max0_apply (x0 := iblk0 V c 0 ⟨n, hn⟩) (x1 := iblk0 V c 1 ⟨n, hn⟩) (x2 := iblk0 V c 2 ⟨n, hn⟩) (mx := k0_pay3 (F := Ideal)) (p := p)).trans ?_
    rw [init_max0]

/-- The contents at a continuing position, through the body's arithmetic, over what the position before left. -/
theorem atB0 (c : Dev nD) (n : ℕ) (hn : n + 1 < cfg0.N) (h0 : ¬(n + 1) % 25 = 0) (p : Fin 1024) :
    (outsAt0 V c (n + 1) hn).1 (ValueIdx.ix2 p 0)
        = stepLse ((outsAt0 V c n (Nat.lt_of_succ_lt hn)).2.2 (ValueIdx.ix2 p 0)) ((outsAt0 V c n (Nat.lt_of_succ_lt hn)).1 (ValueIdx.ix2 p 0)) (tl0 V c (n + 1) p)
    ∧ (outsAt0 V c (n + 1) hn).2.1 (ValueIdx.ix2 p 0)
        = stepSum ((outsAt0 V c n (Nat.lt_of_succ_lt hn)).2.1 (ValueIdx.ix2 p 0)) (tl0 V c (n + 1) p)
    ∧ (outsAt0 V c (n + 1) hn).2.2 (ValueIdx.ix2 p 0)
        = stepMax ((outsAt0 V c n (Nat.lt_of_succ_lt hn)).2.2 (ValueIdx.ix2 p 0)) (tl0 V c (n + 1) p) := by
  have hB := outsAt0_B V c ⟨n + 1, hn⟩ h0
  dsimp only at hB
  rw [hB, tl0_pos V c (n + 1) hn p]
  dsimp only
  have hprev : outsAt0 V c (n + 1 - 1) (Nat.lt_of_le_of_lt (Nat.sub_le _ _) hn) = outsAt0 V c n (Nat.lt_of_succ_lt hn) :=
    outsAt0_congr V c (by omega) _ _
  rw [hprev]
  refine ⟨?_, ?_, ?_⟩
  · rw [out0_B_3_eq]
    exact lse0_apply (x0 := iblk0 V c 0 ⟨n + 1, hn⟩) (x1 := iblk0 V c 1 ⟨n + 1, hn⟩) (x2 := iblk0 V c 2 ⟨n + 1, hn⟩) (mx := (outsAt0 V c n (Nat.lt_of_succ_lt hn)).2.2) (lse := (outsAt0 V c n (Nat.lt_of_succ_lt hn)).1) (p := p)
  · rw [out0_B_4_eq]
    exact sum0_apply (x0 := iblk0 V c 0 ⟨n + 1, hn⟩) (x1 := iblk0 V c 1 ⟨n + 1, hn⟩) (x2 := iblk0 V c 2 ⟨n + 1, hn⟩) (sl := (outsAt0 V c n (Nat.lt_of_succ_lt hn)).2.1) (p := p)
  · rw [sout0_B_eq]
    exact max0_apply (x0 := iblk0 V c 0 ⟨n + 1, hn⟩) (x1 := iblk0 V c 1 ⟨n + 1, hn⟩) (x2 := iblk0 V c 2 ⟨n + 1, hn⟩) (mx := (outsAt0 V c n (Nat.lt_of_succ_lt hn)).2.2) (p := p)

/-- Row block q, row p, after tile s: the three recurrences run over the block's tiles. -/
theorem state0 (c : Dev nD) (q : ℕ) (p : Fin 1024) : ∀ (s : ℕ) (hs : s < 25) (hn : 25 * q + s < cfg0.N),
    (outsAt0 V c (25 * q + s) hn).1 (ValueIdx.ix2 p 0) = runLse (fun t => tl0 V c (25 * q + t) p) s
    ∧ (outsAt0 V c (25 * q + s) hn).2.1 (ValueIdx.ix2 p 0) = runSum (fun t => tl0 V c (25 * q + t) p) s
    ∧ (outsAt0 V c (25 * q + s) hn).2.2 (ValueIdx.ix2 p 0) = runMax (fun t => tl0 V c (25 * q + t) p) s := by
  intro s
  induction s with
  | zero =>
    intro hs hn
    exact atA0 V c (25 * q + 0) hn (by omega) p
  | succ s ih =>
    intro hs hn
    obtain ⟨i1, i2, i3⟩ := ih (by omega) (by omega)
    have hB := atB0 V c (25 * q + s) hn (by omega) p
    rw [i1, i2, i3] at hB
    exact hB

end Cert.KernelIdeal.Hand

end
-- ==== Proof.KI.Piece1.lean ====
/-
  Call 1: what the runs' stores leave, as the body's arithmetic.

  Each of the three carried buffers is rewritten by one whole store, so what it holds afterwards is that store's value:
  the new running maximum max(old, tile maximum); the new sum of exponentials old · exp(old max - new max) + Σ exp(logit
  - new max); the new row sum old + Σ logit.  At a resetting point the "old" values are the ones the body itself has
  just stored: -∞, 0 and 0.
-/
import proofs.«174775_j19164144075542_1_alg».proof.Proof.KI.Frame1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2' : (![0, 0] : Fin 2 → Nat) = fun _ => 0 := funext fun a => by fin_cases a <;> rfl

/-- Continuing: the sum of exponentials. -/
theorem out1_B_3_eq (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond1_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) :
    out1_B_3 c i arg2 harg2 arg3 harg3 arg4 harg4 arg5 harg5 arg6 harg6 arg7 harg7 hc0 x0 x1 x2 xo3 xo4 xs0 = k1_pay1 (k1_pay9 x0 x1 x2 xs0 xs0 xo3) (k1_pay10 x0 x1 x2 xs0) := by
  unfold out1_B_3
  rw [View.read_writes_eq_canon _ _ _ (out1_B_3cover c i arg2 harg2 arg3 harg3 arg4 harg4 arg5 harg5 arg6 harg6 arg7 harg7 hc0 x0 x1 x2 xo3 xo4 xs0)]
  unfold kernelRun1_B; dsimp only
  sl_unfold_words
  rw [View.canon_unit_zero hz2']
  simp only [View.readAt_eq_ld, harg2.read_unread, harg3.read_unread, harg4.read_unread, harg5.read_unread, harg6.read_unread, harg7.read_unread, View.ld_unit_zero (S := S1024x1) hz2', View.ld_unit_zero (S := S1024x2048) hz2', View.ld_unit_zero (S := S1280x2048) hz2', View.ld_unit_zero (S := S1x1280) hz2', View.readCov_unit_zero (S := S1024x1) _ hz2']

/-- Continuing: the row sum. -/
theorem out1_B_4_eq (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond1_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) :
    out1_B_4 c i arg2 harg2 arg3 harg3 arg4 harg4 arg5 harg5 arg6 harg6 arg7 harg7 hc0 x0 x1 x2 xo3 xo4 xs0 = k1_pay7 x0 x1 x2 xo4 := by
  unfold out1_B_4
  rw [View.read_writes_eq_canon _ _ _ (out1_B_4cover c i arg2 harg2 arg3 harg3 arg4 harg4 arg5 harg5 arg6 harg6 arg7 harg7 hc0 x0 x1 x2 xo3 xo4 xs0)]
  unfold kernelRun1_B; dsimp only
  sl_unfold_words
  rw [View.canon_unit_zero hz2']
  simp only [View.readAt_eq_ld, harg2.read_unread, harg3.read_unread, harg4.read_unread, harg5.read_unread, harg6.read_unread, harg7.read_unread, View.ld_unit_zero (S := S1024x1) hz2', View.ld_unit_zero (S := S1024x2048) hz2', View.ld_unit_zero (S := S1280x2048) hz2', View.ld_unit_zero (S := S1x1280) hz2', View.readCov_unit_zero (S := S1024x1) _ hz2']

/-- Continuing: the row maximum. -/
theorem sout1_B_eq (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : ¬cond1_0 i)
    (x0 : Vec F S1024x2048 .bf16) (x1 : Vec F S1280x2048 .bf16) (x2 : Vec F S1x1280 .f32) (xo3 : Vec F S1024x1 .f32) (xo4 : Vec F S1024x1 .f32) (xs0 : Vec F S1024x1 .f32) :
    sout1_B c i arg2 harg2 arg3 harg3 arg4 harg4 arg5 harg5 arg6 harg6 arg7 harg7 hc0 x0 x1 x2 xo3 xo4 xs0 = k1_pay2 (k1_pay8 x0 x1 x2 xs0) := by
  unfold sout1_B
  rw [View.read_writes_eq_canon _ _ _ (sout1_Bcover c i arg2 harg2 arg3 harg3 arg4 harg4 arg5 harg5 arg6 harg6 arg7 harg7 hc0 x0 x1 x2 xo3 xo4 xs0)]
  unfold kernelRun1_B; dsimp only
  sl_unfold_words
  rw [View.canon_unit_zero hz2']
  simp only [View.readAt_eq_ld, harg2.read_unread, harg3.read_unread, harg4.read_unread, harg5.read_unread, harg6.read_unread, harg7.read_unread, View.ld_unit_zero (S := S1024x1) hz2', View.ld_unit_zero (S := S1024x2048) hz2', View.ld_unit_zero (S := S1280x2048) hz2', View.ld_unit_zero (S := S1x1280) hz2', View.readCov_unit_zero (S := S1024x1) _ hz2']

/-- Resetting: the sum of exponentials, from -∞ and 0. -/
theorem out1_A_3_eq (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond1_0 i)
    (x0 : Vec F S1024x2048 .bf16) (x1 : Vec F S1280x2048 .bf16) (x2 : Vec F S1x1280 .f32) :
    out1_A_3 c i arg2 harg2 arg3 harg3 arg4 harg4 arg5 harg5 arg6 harg6 arg7 harg7 hc0 x0 x1 x2 = k1_pay1 (k1_pay9 x0 x1 x2 k1_pay3 k1_pay3 k1_pay4) (k1_pay10 x0 x1 x2 k1_pay3) := by
  unfold out1_A_3
  rw [View.read_writes_eq_canon _ _ _ (out1_A_3cover c i arg2 harg2 arg3 harg3 arg4 harg4 arg5 harg5 arg6 harg6 arg7 harg7 hc0 x0 x1 x2)]
  unfold kernelRun1_A; dsimp only
  sl_unfold_words
  rw [View.canon_cons_unit_zero hz2']
  simp only [View.readAt_eq_ld, harg2.read_unread, harg3.read_unread, harg4.read_unread, harg5.read_unread, harg6.read_unread, harg7.read_unread, View.ld_unit_zero (S := S1024x1) hz2', View.ld_unit_zero (S := S1024x2048) hz2', View.ld_unit_zero (S := S1280x2048) hz2', View.ld_unit_zero (S := S1x1280) hz2', View.readCov_unit_zero (S := S1024x1) _ hz2']

/-- Resetting: the row sum, from 0. -/
theorem out1_A_4_eq (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond1_0 i)
    (x0 : Vec F S1024x2048 .bf16) (x1 : Vec F S1280x2048 .bf16) (x2 : Vec F S1x1280 .f32) :
    out1_A_4 c i arg2 harg2 arg3 harg3 arg4 harg4 arg5 harg5 arg6 harg6 arg7 harg7 hc0 x0 x1 x2 = k1_pay7 x0 x1 x2 k1_pay5 := by
  unfold out1_A_4
  rw [View.read_writes_eq_canon _ _ _ (out1_A_4cover c i arg2 harg2 arg3 harg3 arg4 harg4 arg5 harg5 arg6 harg6 arg7 harg7 hc0 x0 x1 x2)]
  unfold kernelRun1_A; dsimp only
  sl_unfold_words
  rw [View.canon_cons_unit_zero hz2']
  simp only [View.readAt_eq_ld, harg2.read_unread, harg3.read_unread, harg4.read_unread, harg5.read_unread, harg6.read_unread, harg7.read_unread, View.ld_unit_zero (S := S1024x1) hz2', View.ld_unit_zero (S := S1024x2048) hz2', View.ld_unit_zero (S := S1280x2048) hz2', View.ld_unit_zero (S := S1x1280) hz2', View.readCov_unit_zero (S := S1024x1) _ hz2']

/-- Resetting: the row maximum, from -∞. -/
theorem sout1_A_eq (c : Dev nD) (i : grid1.Coords)
    (arg2 : Memref sig .tc .vmem S1024x2048 .bf16) (harg2 : arg2.IsWhole) (arg3 : Memref sig .tc .vmem S1280x2048 .bf16) (harg3 : arg3.IsWhole)
    (arg4 : Memref sig .tc .vmem S1x1280 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole) (hc0 : cond1_0 i)
    (x0 : Vec F S1024x2048 .bf16) (x1 : Vec F S1280x2048 .bf16) (x2 : Vec F S1x1280 .f32) :
    sout1_A c i arg2 harg2 arg3 harg3 arg4 harg4 arg5 harg5 arg6 harg6 arg7 harg7 hc0 x0 x1 x2 = k1_pay2 (k1_pay8 x0 x1 x2 k1_pay3) := by
  unfold sout1_A
  rw [View.read_writes_eq_canon _ _ _ (sout1_Acover c i arg2 harg2 arg3 harg3 arg4 harg4 arg5 harg5 arg6 harg6 arg7 harg7 hc0 x0 x1 x2)]
  unfold kernelRun1_A; dsimp only
  sl_unfold_words
  rw [View.canon_cons_unit_zero hz2']
  simp only [View.readAt_eq_ld, harg2.read_unread, harg3.read_unread, harg4.read_unread, harg5.read_unread, harg6.read_unread, harg7.read_unread, View.ld_unit_zero (S := S1024x1) hz2', View.ld_unit_zero (S := S1024x2048) hz2', View.ld_unit_zero (S := S1280x2048) hz2', View.ld_unit_zero (S := S1x1280) hz2', View.readCov_unit_zero (S := S1024x1) _ hz2']

end Cert.KernelIdeal.Hand

end
-- ==== Proof.KI.Value1.lean ====
/-
  Call 1: the three carried values, row by row, are the tile-by-tile recurrences.

  Fix a row block q and a row p of it.  Walking the 25 tiles of the block, the scratch, the first output and the second
  output hold at row p the running maximum, the running sum of exponentials and the running sum of the row's logits
  seen so far: after tile 0 the step from (-∞, 0, 0), after tile s + 1 the step from the values after tile s.  This is
  an induction on the tile: a resetting position starts the recurrences, a continuing position advances them by one
  step, and the step is exactly what the body's stores compute.
-/
import proofs.«174775_j19164144075542_1_alg».proof.Proof.KI.Piece1
import proofs.«174775_j19164144075542_1_alg».proof.Proof.KI.Payload
import proofs.«174775_j19164144075542_1_alg».proof.Proof.Math.Online
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Math
variable (V : (c : Dev nD) → (b : Ref sig .tc) → Buf (Elt Ideal) ((c : Thread nD τ).loc b))

/-- The logits of the tile handled at position n, at row p of the row block and entry j of the tile. -/
def tl1 (c : Dev nD) (n : ℕ) (p : Fin 1024) (j : Fin 1280) : EReal :=
  if h : n < cfg1.N then tileLogit (iblk1 V c 0 ⟨n, h⟩) (iblk1 V c 1 ⟨n, h⟩) (iblk1 V c 2 ⟨n, h⟩) p j else 0

theorem tl1_pos (c : Dev nD) (n : ℕ) (h : n < cfg1.N) (p : Fin 1024) :
    tl1 V c n p = tileLogit (iblk1 V c 0 ⟨n, h⟩) (iblk1 V c 1 ⟨n, h⟩) (iblk1 V c 2 ⟨n, h⟩) p := by
  funext j; unfold tl1; rw [dif_pos h]

theorem outsAt1_congr (c : Dev nD) {n n' : ℕ} (e : n = n') (hn : n < cfg1.N) (hn' : n' < cfg1.N) :
    outsAt1 V c n hn = outsAt1 V c n' hn' := by subst e; rfl

/-- The contents at a resetting position, through the body's arithmetic. -/
theorem atA1 (c : Dev nD) (n : ℕ) (hn : n < cfg1.N) (h0 : n % 25 = 0) (p : Fin 1024) :
    (outsAt1 V c n hn).1 (ValueIdx.ix2 p 0) = stepLse ⊥ 0 (tl1 V c n p)
    ∧ (outsAt1 V c n hn).2.1 (ValueIdx.ix2 p 0) = stepSum 0 (tl1 V c n p)
    ∧ (outsAt1 V c n hn).2.2 (ValueIdx.ix2 p 0) = stepMax ⊥ (tl1 V c n p) := by
  have hA := outsAt1_A V c ⟨n, hn⟩ h0
  dsimp only at hA
  rw [hA, tl1_pos V c n hn p]
  dsimp only
  refine ⟨?_, ?_, ?_⟩
  · rw [out1_A_3_eq]
    refine (lse1_apply (x0 := iblk1 V c 0 ⟨n, hn⟩) (x1 := iblk1 V c 1 ⟨n, hn⟩) (x2 := iblk1 V c 2 ⟨n, hn⟩) (mx := k1_pay3 (F := Ideal)) (lse := k1_pay4 (F := Ideal)) (p := p)).trans ?_
    rw [init_max1, init_lse1]
  · rw [out1_A_4_eq]
    refine (sum1_apply (x0 := iblk1 V c 0 ⟨n, hn⟩) (x1 := iblk1 V c 1 ⟨n, hn⟩) (x2 := iblk1 V c 2 ⟨n, hn⟩) (sl := k1_pay5 (F := Ideal)) (p := p)).trans ?_
    rw [init_sum1]
  · rw [sout1_A_eq]
    refine (max1_apply (x0 := iblk1 V c 0 ⟨n, hn⟩) (x1 := iblk1 V c 1 ⟨n, hn⟩) (x2 := iblk1 V c 2 ⟨n, hn⟩) (mx := k1_pay3 (F := Ideal)) (p := p)).trans ?_
    rw [init_max1]

/-- The contents at a continuing position, through the body's arithmetic, over what the position before left. -/
theorem atB1 (c : Dev nD) (n : ℕ) (hn : n + 1 < cfg1.N) (h0 : ¬(n + 1) % 25 = 0) (p : Fin 1024) :
    (outsAt1 V c (n + 1) hn).1 (ValueIdx.ix2 p 0)
        = stepLse ((outsAt1 V c n (Nat.lt_of_succ_lt hn)).2.2 (ValueIdx.ix2 p 0)) ((outsAt1 V c n (Nat.lt_of_succ_lt hn)).1 (ValueIdx.ix2 p 0)) (tl1 V c (n + 1) p)
    ∧ (outsAt1 V c (n + 1) hn).2.1 (ValueIdx.ix2 p 0)
        = stepSum ((outsAt1 V c n (Nat.lt_of_succ_lt hn)).2.1 (ValueIdx.ix2 p 0)) (tl1 V c (n + 1) p)
    ∧ (outsAt1 V c (n + 1) hn).2.2 (ValueIdx.ix2 p 0)
        = stepMax ((outsAt1 V c n (Nat.lt_of_succ_lt hn)).2.2 (ValueIdx.ix2 p 0)) (tl1 V c (n + 1) p) := by
  have hB := outsAt1_B V c ⟨n + 1, hn⟩ h0
  dsimp only at hB
  rw [hB, tl1_pos V c (n + 1) hn p]
  dsimp only
  have hprev : outsAt1 V c (n + 1 - 1) (Nat.lt_of_le_of_lt (Nat.sub_le _ _) hn) = outsAt1 V c n (Nat.lt_of_succ_lt hn) :=
    outsAt1_congr V c (by omega) _ _
  rw [hprev]
  refine ⟨?_, ?_, ?_⟩
  · rw [out1_B_3_eq]
    exact lse1_apply (x0 := iblk1 V c 0 ⟨n + 1, hn⟩) (x1 := iblk1 V c 1 ⟨n + 1, hn⟩) (x2 := iblk1 V c 2 ⟨n + 1, hn⟩) (mx := (outsAt1 V c n (Nat.lt_of_succ_lt hn)).2.2) (lse := (outsAt1 V c n (Nat.lt_of_succ_lt hn)).1) (p := p)
  · rw [out1_B_4_eq]
    exact sum1_apply (x0 := iblk1 V c 0 ⟨n + 1, hn⟩) (x1 := iblk1 V c 1 ⟨n + 1, hn⟩) (x2 := iblk1 V c 2 ⟨n + 1, hn⟩) (sl := (outsAt1 V c n (Nat.lt_of_succ_lt hn)).2.1) (p := p)
  · rw [sout1_B_eq]
    exact max1_apply (x0 := iblk1 V c 0 ⟨n + 1, hn⟩) (x1 := iblk1 V c 1 ⟨n + 1, hn⟩) (x2 := iblk1 V c 2 ⟨n + 1, hn⟩) (mx := (outsAt1 V c n (Nat.lt_of_succ_lt hn)).2.2) (p := p)

/-- Row block q, row p, after tile s: the three recurrences run over the block's tiles. -/
theorem state1 (c : Dev nD) (q : ℕ) (p : Fin 1024) : ∀ (s : ℕ) (hs : s < 25) (hn : 25 * q + s < cfg1.N),
    (outsAt1 V c (25 * q + s) hn).1 (ValueIdx.ix2 p 0) = runLse (fun t => tl1 V c (25 * q + t) p) s
    ∧ (outsAt1 V c (25 * q + s) hn).2.1 (ValueIdx.ix2 p 0) = runSum (fun t => tl1 V c (25 * q + t) p) s
    ∧ (outsAt1 V c (25 * q + s) hn).2.2 (ValueIdx.ix2 p 0) = runMax (fun t => tl1 V c (25 * q + t) p) s := by
  intro s
  induction s with
  | zero =>
    intro hs hn
    exact atA1 V c (25 * q + 0) hn (by omega) p
  | succ s ih =>
    intro hs hn
    obtain ⟨i1, i2, i3⟩ := ih (by omega) (by omega)
    have hB := atB1 V c (25 * q + s) hn (by omega) p
    rw [i1, i2, i3] at hB
    exact hB

end Cert.KernelIdeal.Hand

end
-- ==== Proof.KI.Cover0.lean ====
/-
  Call 0, from blocks to arrays.

  The grid has 2 × 25 positions walked row-major: position n works on row block n / 25 and vocabulary tile n % 25.
  An element of a window's block sits in the window's array, on each axis, at (block index) × (block size) + its
  coordinate inside the block.  So the activations' block at position n is rows 1024·(n / 25) … of the activations,
  the weights' block is rows 1280·(n % 25) … of the weights, and the bias' block is columns 1280·(n % 25) … of the bias.

  Each of the two output columns (2048 × 1) is written back twice: after the last tile of row block i (position
  25·i + 24) rows 1024·i … 1024·i + 1023 receive what the output's staging buffer holds there.  The two written
  blocks tile the column, so if the buffer after position 25·i + 24 holds G (1024·i + p) at row p, for both i, the
  column ends holding G.
-/
import proofs.«174775_j19164144075542_1_alg».proof.Proof.KI.Frame0
import Idealize.ShloMosaic.Lib.Pipeline.Value
import Idealize.ShloMosaic.Lib.ValueIdx

noncomputable section

namespace Cert.KernelIdeal.Hand

open Cert.KernelIdeal Cert.KernelIdeal.Gen Idealize.ShloMosaic
open Idealize.ShloMosaic.TcCoe Idealize.SL.Sem
open Idealize.ShloMosaic.Pipeline (Dat)

variable (V : (c : Dev nD) → (b : Ref sig .tc) → Buf (Elt Ideal) ((c : Thread nD τ).loc b))

/-- The block indices of the five windows at every position of the grid: the row block is n / 25, the vocabulary tile
    n % 25. -/
theorem blockIdx0 : ∀ t : Fin cfg0.N,
    win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = 0 ∧ win0_2.index t (1 : Fin 2) = t.val % 25
    ∧ win0_3.index t (0 : Fin 2) = t.val / 25 ∧ win0_3.index t (1 : Fin 2) = 0
    ∧ win0_4.index t (0 : Fin 2) = t.val / 25 ∧ win0_4.index t (1 : Fin 2) = 0 :=
  (by decide +kernel : ∀ t : Fin grid0.N, _)

/-- The activations' block at position t is rows 1024·(t / 25) … of the activations. -/
theorem iblk0_0_apply (c : Dev nD) (t : Fin cfg0.N) (p : Fin 1024) (k : Fin 2048) :
    iblk0 V c 0 t (ValueIdx.ix2 p k) = (V c main_v2 : S2048x2048.Idx → EReal)
      (ValueIdx.ix2 ⟨1024 * (t.val / 25) + p.val, by have := t.isLt; have : cfg0.N = 50 := N_0; omega⟩ k) := by
  obtain ⟨e0, e1, -⟩ := blockIdx0 t
  unfold iblk0
  rw [View.read_apply]
  show V c main_v2 _ = V c main_v2 _
  congr 1
  funext a
  apply Fin.ext
  match a with
  | ⟨0, _⟩ => show win0_0.index t 0 * 1024 + 1 * p.val = 1024 * (t.val / 25) + p.val; rw [e0]; omega
  | ⟨1, _⟩ => show win0_0.index t 1 * 2048 + 1 * k.val = k.val; rw [e1]; omega

/-- The weights' block at position t is rows 1280·(t % 25) … of the weights. -/
theorem iblk0_1_apply (c : Dev nD) (t : Fin cfg0.N) (j : Fin 1280) (k : Fin 2048) :
    iblk0 V c 1 t (ValueIdx.ix2 j k) = (V c main_v3 : S32000x2048.Idx → EReal)
      (ValueIdx.ix2 ⟨1280 * (t.val % 25) + j.val, by omega⟩ k) := by
  obtain ⟨-, -, e0, e1, -⟩ := blockIdx0 t
  unfold iblk0
  rw [View.read_apply]
  show V c main_v3 _ = V c main_v3 _
  congr 1
  funext a
  apply Fin.ext
  match a with
  | ⟨0, _⟩ => show win0_1.index t 0 * 1280 + 1 * j.val = 1280 * (t.val % 25) + j.val; rw [e0]; omega
  | ⟨1, _⟩ => show win0_1.index t 1 * 2048 + 1 * k.val = k.val; rw [e1]; omega

/-- The bias' block at position t is columns 1280·(t % 25) … of the bias. -/
theorem iblk0_2_apply (c : Dev nD) (t : Fin cfg0.N) (j : Fin 1280) :
    iblk0 V c 2 t (ValueIdx.ix2 (0 : Fin 1) j) = (V c main_v4 : S1x32000.Idx → EReal)
      (ValueIdx.ix2 (0 : Fin 1) ⟨1280 * (t.val % 25) + j.val, by omega⟩) := by
  obtain ⟨-, -, -, -, e0, e1, -⟩ := blockIdx0 t
  unfold iblk0
  rw [View.read_apply]
  show V c main_v4 _ = V c main_v4 _
  congr 1
  funext a
  apply Fin.ext
  match a with
  | ⟨0, _⟩ => show win0_2.index t 0 * 1 + 1 * 0 = 0; rw [e0]
  | ⟨1, _⟩ => show win0_2.index t 1 * 1280 + 1 * j.val = 1280 * (t.val % 25) + j.val; rw [e1]; omega

/-- A column of 2048 entries as contents of a 2048 × 1 array. -/
abbrev colArr0 (G : Fin 2048 → EReal) : S2048x1.Idx → EReal := fun i => G (i 0)

/-- What the write-back after the last tile of a row block writes into the first output column is that row block's
    rows of the column G, when the staging buffer holds them there. -/
theorem flushed0_3_eq (c : Dev nD) (G : Fin 2048 → EReal)
    (hG : ∀ (i : Fin 2) (p : Fin 1024), (outsAt0 V c (25 * i.val + 24) (by have : cfg0.N = 50 := N_0; omega)).1 (ValueIdx.ix2 p 0)
      = G ⟨1024 * i.val + p.val, by omega⟩)
    (t : Fin cfg0.N) (hf : (cfg0.win 3).flush t = true) :
    (dat0 V c).flushed 3 t = ((cfg0.win 3).blk t).view.read (Elt Ideal) (colArr0 G) := by
  have hN : cfg0.N = 50 := N_0
  have h24 : t.val % 25 = 24 := (flush0_3 t).mp hf
  have ht : t.val < 50 := lt_of_lt_of_eq t.isLt hN
  obtain ⟨-, -, -, -, -, -, e0, e1, -⟩ := blockIdx0 t
  have key : ∀ (n : ℕ) (hn : n < cfg0.N) (q : ℕ) (hq : q < 2) (hnq : n = 25 * q + 24) (p : Fin 1024),
      (outsAt0 V c n hn).1 (ValueIdx.ix2 p 0) = G ⟨1024 * q + p.val, by omega⟩ := by
    intro n hn q hq hnq p
    subst hnq
    exact hG ⟨q, hq⟩ p
  show (cfg0.win 3).cut (grid0.coords t) ((dat0 V c).after 3 t) = _
  rw [after0_3]
  funext y
  obtain ⟨p, z, rfl⟩ : ∃ (p : Fin 1024) (z : Fin 1), y = ValueIdx.ix2 p z := ⟨y 0, y 1, ValueIdx.eq_ix2 y⟩
  obtain rfl : z = 0 := Subsingleton.elim _ _
  rw [View.read_apply]
  refine (key t.val t.isLt (t.val / 25) (by omega) (by omega) p).trans ?_
  show G _ = G _
  congr 1
  apply Fin.ext
  show 1024 * (t.val / 25) + p.val = win0_3.index t 0 * 1024 + 1 * p.val
  rw [e0]; omega

/-- A row of the first output column is in the block written at position t iff it is in that block's range of rows. -/
theorem mem_blk0_3 (t : Fin cfg0.N) (i : S2048x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v5_0).slice (win0_3.rect t)).set ↔ _
  rw [View.set_slice_whole, Rect.mem_set_unit]
  exact Iff.rfl

/-- Every row of the first output column lies in the block written back after the last tile of its row block. -/
theorem cover0_3 (i : S2048x1.Idx) :
    ∃ t : Fin cfg0.N, (cfg0.win 3).flush t = true ∧ i ∈ ((cfg0.win 3).blk t).view.set := by
  have hN : cfg0.N = 50 := N_0
  have hi0 : (i 0).val < 2048 := (i 0).isLt
  have hi1 : (i 1).val < 1 := (i 1).isLt
  obtain ⟨t, ht⟩ : ∃ t : Fin cfg0.N, t.val = 25 * ((i 0).val / 1024) + 24 := ⟨⟨_, by omega⟩, rfl⟩
  obtain ⟨-, -, -, -, -, -, e0, e1, -⟩ := blockIdx0 t
  refine ⟨t, (flush0_3 t).mpr (by omega), ?_⟩
  rw [mem_blk0_3]
  intro a
  match a with
  | ⟨0, _⟩ =>
    show win0_3.index t 0 * 1024 ≤ (i 0).val ∧ (i 0).val < win0_3.index t 0 * 1024 + 1024
    rw [e0]; omega
  | ⟨1, _⟩ =>
    show win0_3.index t 1 * 1 ≤ (i 1).val ∧ (i 1).val < win0_3.index t 1 * 1 + 1
    rw [e1]; omega

/-- The first output column after the call: the column G whose two halves the staging buffer holds after the last
    tile of each row block. -/
theorem arrAt0_3 (c : Dev nD) (G : Fin 2048 → EReal)
    (hG : ∀ (i : Fin 2) (p : Fin 1024), (outsAt0 V c (25 * i.val + 24) (by have : cfg0.N = 50 := N_0; omega)).1 (ValueIdx.ix2 p 0)
      = G ⟨1024 * i.val + p.val, by omega⟩) :
    ∀ r : Fin 2048, ((dat0 V c).arrAt 3 cfg0.N : S2048x1.Idx → EReal) (ValueIdx.ix2 r 0) = G r := by
  intro r
  rw [(dat0 V c).arrAt_eq_of_cover 3 (colArr0 G) (flushed0_3_eq V c G hG) cover0_3]

/-- What the write-back after the last tile of a row block writes into the second output column is that row block's
    rows of the column G, when the staging buffer holds them there. -/
theorem flushed0_4_eq (c : Dev nD) (G : Fin 2048 → EReal)
    (hG : ∀ (i : Fin 2) (p : Fin 1024), (outsAt0 V c (25 * i.val + 24) (by have : cfg0.N = 50 := N_0; omega)).2.1 (ValueIdx.ix2 p 0)
      = G ⟨1024 * i.val + p.val, by omega⟩)
    (t : Fin cfg0.N) (hf : (cfg0.win 4).flush t = true) :
    (dat0 V c).flushed 4 t = ((cfg0.win 4).blk t).view.read (Elt Ideal) (colArr0 G) := by
  have hN : cfg0.N = 50 := N_0
  have h24 : t.val % 25 = 24 := (flush0_4 t).mp hf
  have ht : t.val < 50 := lt_of_lt_of_eq t.isLt hN
  obtain ⟨-, -, -, -, -, -, -, -, e0, e1⟩ := blockIdx0 t
  have key : ∀ (n : ℕ) (hn : n < cfg0.N) (q : ℕ) (hq : q < 2) (hnq : n = 25 * q + 24) (p : Fin 1024),
      (outsAt0 V c n hn).2.1 (ValueIdx.ix2 p 0) = G ⟨1024 * q + p.val, by omega⟩ := by
    intro n hn q hq hnq p
    subst hnq
    exact hG ⟨q, hq⟩ p
  show (cfg0.win 4).cut (grid0.coords t) ((dat0 V c).after 4 t) = _
  rw [after0_4]
  funext y
  obtain ⟨p, z, rfl⟩ : ∃ (p : Fin 1024) (z : Fin 1), y = ValueIdx.ix2 p z := ⟨y 0, y 1, ValueIdx.eq_ix2 y⟩
  obtain rfl : z = 0 := Subsingleton.elim _ _
  rw [View.read_apply]
  refine (key t.val t.isLt (t.val / 25) (by omega) (by omega) p).trans ?_
  show G _ = G _
  congr 1
  apply Fin.ext
  show 1024 * (t.val / 25) + p.val = win0_4.index t 0 * 1024 + 1 * p.val
  rw [e0]; omega

/-- A row of the second output column is in the block written at position t iff it is in that block's range of rows. -/
theorem mem_blk0_4 (t : Fin cfg0.N) (i : S2048x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v5_1).slice (win0_4.rect t)).set ↔ _
  rw [View.set_slice_whole, Rect.mem_set_unit]
  exact Iff.rfl

/-- Every row of the second output column lies in the block written back after the last tile of its row block. -/
theorem cover0_4 (i : S2048x1.Idx) :
    ∃ t : Fin cfg0.N, (cfg0.win 4).flush t = true ∧ i ∈ ((cfg0.win 4).blk t).view.set := by
  have hN : cfg0.N = 50 := N_0
  have hi0 : (i 0).val < 2048 := (i 0).isLt
  have hi1 : (i 1).val < 1 := (i 1).isLt
  obtain ⟨t, ht⟩ : ∃ t : Fin cfg0.N, t.val = 25 * ((i 0).val / 1024) + 24 := ⟨⟨_, by omega⟩, rfl⟩
  obtain ⟨-, -, -, -, -, -, -, -, e0, e1⟩ := blockIdx0 t
  refine ⟨t, (flush0_4 t).mpr (by omega), ?_⟩
  rw [mem_blk0_4]
  intro a
  match a with
  | ⟨0, _⟩ =>
    show win0_4.index t 0 * 1024 ≤ (i 0).val ∧ (i 0).val < win0_4.index t 0 * 1024 + 1024
    rw [e0]; omega
  | ⟨1, _⟩ =>
    show win0_4.index t 1 * 1 ≤ (i 1).val ∧ (i 1).val < win0_4.index t 1 * 1 + 1
    rw [e1]; omega

/-- The second output column after the call: the column G whose two halves the staging buffer holds after the last
    tile of each row block. -/
theorem arrAt0_4 (c : Dev nD) (G : Fin 2048 → EReal)
    (hG : ∀ (i : Fin 2) (p : Fin 1024), (outsAt0 V c (25 * i.val + 24) (by have : cfg0.N = 50 := N_0; omega)).2.1 (ValueIdx.ix2 p 0)
      = G ⟨1024 * i.val + p.val, by omega⟩) :
    ∀ r : Fin 2048, ((dat0 V c).arrAt 4 cfg0.N : S2048x1.Idx → EReal) (ValueIdx.ix2 r 0) = G r := by
  intro r
  rw [(dat0 V c).arrAt_eq_of_cover 4 (colArr0 G) (flushed0_4_eq V c G hG) cover0_4]

end Cert.KernelIdeal.Hand

end
-- ==== Proof.KI.Cover1.lean ====
/-
  Call 1, from blocks to arrays.

  The grid has 2 × 25 positions walked row-major: position n works on row block n / 25 and vocabulary tile n % 25.
  An element of a window's block sits in the window's array, on each axis, at (block index) × (block size) + its
  coordinate inside the block.  So the activations' block at position n is rows 1024·(n / 25) … of the activations,
  the weights' block is rows 1280·(n % 25) … of the weights, and the bias' block is columns 1280·(n % 25) … of the bias.

  Each of the two output columns (2048 × 1) is written back twice: after the last tile of row block i (position
  25·i + 24) rows 1024·i … 1024·i + 1023 receive what the output's staging buffer holds there.  The two written
  blocks tile the column, so if the buffer after position 25·i + 24 holds G (1024·i + p) at row p, for both i, the
  column ends holding G.
-/
import proofs.«174775_j19164144075542_1_alg».proof.Proof.KI.Frame1
import Idealize.ShloMosaic.Lib.Pipeline.Value
import Idealize.ShloMosaic.Lib.ValueIdx

noncomputable section

namespace Cert.KernelIdeal.Hand

open Cert.KernelIdeal Cert.KernelIdeal.Gen Idealize.ShloMosaic
open Idealize.ShloMosaic.TcCoe Idealize.SL.Sem
open Idealize.ShloMosaic.Pipeline (Dat)

variable (V : (c : Dev nD) → (b : Ref sig .tc) → Buf (Elt Ideal) ((c : Thread nD τ).loc b))

/-- The block indices of the five windows at every position of the grid: the row block is n / 25, the vocabulary tile
    n % 25. -/
theorem blockIdx1 : ∀ t : Fin cfg1.N,
    win1_0.index t (0 : Fin 2) = t.val / 25 ∧ win1_0.index t (1 : Fin 2) = 0
    ∧ win1_1.index t (0 : Fin 2) = t.val % 25 ∧ win1_1.index t (1 : Fin 2) = 0
    ∧ win1_2.index t (0 : Fin 2) = 0 ∧ win1_2.index t (1 : Fin 2) = t.val % 25
    ∧ win1_3.index t (0 : Fin 2) = t.val / 25 ∧ win1_3.index t (1 : Fin 2) = 0
    ∧ win1_4.index t (0 : Fin 2) = t.val / 25 ∧ win1_4.index t (1 : Fin 2) = 0 :=
  (by decide +kernel : ∀ t : Fin grid1.N, _)

/-- The activations' block at position t is rows 1024·(t / 25) … of the activations. -/
theorem iblk1_0_apply (c : Dev nD) (t : Fin cfg1.N) (p : Fin 1024) (k : Fin 2048) :
    iblk1 V c 0 t (ValueIdx.ix2 p k) = (V c main_v6 : S2048x2048.Idx → EReal)
      (ValueIdx.ix2 ⟨1024 * (t.val / 25) + p.val, by have := t.isLt; have : cfg1.N = 50 := N_1; omega⟩ k) := by
  obtain ⟨e0, e1, -⟩ := blockIdx1 t
  unfold iblk1
  rw [View.read_apply]
  show V c main_v6 _ = V c main_v6 _
  congr 1
  funext a
  apply Fin.ext
  match a with
  | ⟨0, _⟩ => show win1_0.index t 0 * 1024 + 1 * p.val = 1024 * (t.val / 25) + p.val; rw [e0]; omega
  | ⟨1, _⟩ => show win1_0.index t 1 * 2048 + 1 * k.val = k.val; rw [e1]; omega

/-- The weights' block at position t is rows 1280·(t % 25) … of the weights. -/
theorem iblk1_1_apply (c : Dev nD) (t : Fin cfg1.N) (j : Fin 1280) (k : Fin 2048) :
    iblk1 V c 1 t (ValueIdx.ix2 j k) = (V c main_v7 : S32000x2048.Idx → EReal)
      (ValueIdx.ix2 ⟨1280 * (t.val % 25) + j.val, by omega⟩ k) := by
  obtain ⟨-, -, e0, e1, -⟩ := blockIdx1 t
  unfold iblk1
  rw [View.read_apply]
  show V c main_v7 _ = V c main_v7 _
  congr 1
  funext a
  apply Fin.ext
  match a with
  | ⟨0, _⟩ => show win1_1.index t 0 * 1280 + 1 * j.val = 1280 * (t.val % 25) + j.val; rw [e0]; omega
  | ⟨1, _⟩ => show win1_1.index t 1 * 2048 + 1 * k.val = k.val; rw [e1]; omega

/-- The bias' block at position t is columns 1280·(t % 25) … of the bias. -/
theorem iblk1_2_apply (c : Dev nD) (t : Fin cfg1.N) (j : Fin 1280) :
    iblk1 V c 2 t (ValueIdx.ix2 (0 : Fin 1) j) = (V c main_v8 : S1x32000.Idx → EReal)
      (ValueIdx.ix2 (0 : Fin 1) ⟨1280 * (t.val % 25) + j.val, by omega⟩) := by
  obtain ⟨-, -, -, -, e0, e1, -⟩ := blockIdx1 t
  unfold iblk1
  rw [View.read_apply]
  show V c main_v8 _ = V c main_v8 _
  congr 1
  funext a
  apply Fin.ext
  match a with
  | ⟨0, _⟩ => show win1_2.index t 0 * 1 + 1 * 0 = 0; rw [e0]
  | ⟨1, _⟩ => show win1_2.index t 1 * 1280 + 1 * j.val = 1280 * (t.val % 25) + j.val; rw [e1]; omega

/-- A column of 2048 entries as contents of a 2048 × 1 array. -/
abbrev colArr1 (G : Fin 2048 → EReal) : S2048x1.Idx → EReal := fun i => G (i 0)

/-- What the write-back after the last tile of a row block writes into the first output column is that row block's
    rows of the column G, when the staging buffer holds them there. -/
theorem flushed1_3_eq (c : Dev nD) (G : Fin 2048 → EReal)
    (hG : ∀ (i : Fin 2) (p : Fin 1024), (outsAt1 V c (25 * i.val + 24) (by have : cfg1.N = 50 := N_1; omega)).1 (ValueIdx.ix2 p 0)
      = G ⟨1024 * i.val + p.val, by omega⟩)
    (t : Fin cfg1.N) (hf : (cfg1.win 3).flush t = true) :
    (dat1 V c).flushed 3 t = ((cfg1.win 3).blk t).view.read (Elt Ideal) (colArr1 G) := by
  have hN : cfg1.N = 50 := N_1
  have h24 : t.val % 25 = 24 := (flush1_3 t).mp hf
  have ht : t.val < 50 := lt_of_lt_of_eq t.isLt hN
  obtain ⟨-, -, -, -, -, -, e0, e1, -⟩ := blockIdx1 t
  have key : ∀ (n : ℕ) (hn : n < cfg1.N) (q : ℕ) (hq : q < 2) (hnq : n = 25 * q + 24) (p : Fin 1024),
      (outsAt1 V c n hn).1 (ValueIdx.ix2 p 0) = G ⟨1024 * q + p.val, by omega⟩ := by
    intro n hn q hq hnq p
    subst hnq
    exact hG ⟨q, hq⟩ p
  show (cfg1.win 3).cut (grid1.coords t) ((dat1 V c).after 3 t) = _
  rw [after1_3]
  funext y
  obtain ⟨p, z, rfl⟩ : ∃ (p : Fin 1024) (z : Fin 1), y = ValueIdx.ix2 p z := ⟨y 0, y 1, ValueIdx.eq_ix2 y⟩
  obtain rfl : z = 0 := Subsingleton.elim _ _
  rw [View.read_apply]
  refine (key t.val t.isLt (t.val / 25) (by omega) (by omega) p).trans ?_
  show G _ = G _
  congr 1
  apply Fin.ext
  show 1024 * (t.val / 25) + p.val = win1_3.index t 0 * 1024 + 1 * p.val
  rw [e0]; omega

/-- A row of the first output column is in the block written at position t iff it is in that block's range of rows. -/
theorem mem_blk1_3 (t : Fin cfg1.N) (i : S2048x1.Idx) :
    i ∈ ((cfg1.win 3).blk t).view.set ↔ ∀ a : Fin 2, win1_3.index t a * S1024x1.size a ≤ (i a).val
      ∧ (i a).val < win1_3.index t a * S1024x1.size a + S1024x1.size a := by
  show i ∈ ((View.whole main_v9_0).slice (win1_3.rect t)).set ↔ _
  rw [View.set_slice_whole, Rect.mem_set_unit]
  exact Iff.rfl

/-- Every row of the first output column lies in the block written back after the last tile of its row block. -/
theorem cover1_3 (i : S2048x1.Idx) :
    ∃ t : Fin cfg1.N, (cfg1.win 3).flush t = true ∧ i ∈ ((cfg1.win 3).blk t).view.set := by
  have hN : cfg1.N = 50 := N_1
  have hi0 : (i 0).val < 2048 := (i 0).isLt
  have hi1 : (i 1).val < 1 := (i 1).isLt
  obtain ⟨t, ht⟩ : ∃ t : Fin cfg1.N, t.val = 25 * ((i 0).val / 1024) + 24 := ⟨⟨_, by omega⟩, rfl⟩
  obtain ⟨-, -, -, -, -, -, e0, e1, -⟩ := blockIdx1 t
  refine ⟨t, (flush1_3 t).mpr (by omega), ?_⟩
  rw [mem_blk1_3]
  intro a
  match a with
  | ⟨0, _⟩ =>
    show win1_3.index t 0 * 1024 ≤ (i 0).val ∧ (i 0).val < win1_3.index t 0 * 1024 + 1024
    rw [e0]; omega
  | ⟨1, _⟩ =>
    show win1_3.index t 1 * 1 ≤ (i 1).val ∧ (i 1).val < win1_3.index t 1 * 1 + 1
    rw [e1]; omega

/-- The first output column after the call: the column G whose two halves the staging buffer holds after the last
    tile of each row block. -/
theorem arrAt1_3 (c : Dev nD) (G : Fin 2048 → EReal)
    (hG : ∀ (i : Fin 2) (p : Fin 1024), (outsAt1 V c (25 * i.val + 24) (by have : cfg1.N = 50 := N_1; omega)).1 (ValueIdx.ix2 p 0)
      = G ⟨1024 * i.val + p.val, by omega⟩) :
    ∀ r : Fin 2048, ((dat1 V c).arrAt 3 cfg1.N : S2048x1.Idx → EReal) (ValueIdx.ix2 r 0) = G r := by
  intro r
  rw [(dat1 V c).arrAt_eq_of_cover 3 (colArr1 G) (flushed1_3_eq V c G hG) cover1_3]

/-- What the write-back after the last tile of a row block writes into the second output column is that row block's
    rows of the column G, when the staging buffer holds them there. -/
theorem flushed1_4_eq (c : Dev nD) (G : Fin 2048 → EReal)
    (hG : ∀ (i : Fin 2) (p : Fin 1024), (outsAt1 V c (25 * i.val + 24) (by have : cfg1.N = 50 := N_1; omega)).2.1 (ValueIdx.ix2 p 0)
      = G ⟨1024 * i.val + p.val, by omega⟩)
    (t : Fin cfg1.N) (hf : (cfg1.win 4).flush t = true) :
    (dat1 V c).flushed 4 t = ((cfg1.win 4).blk t).view.read (Elt Ideal) (colArr1 G) := by
  have hN : cfg1.N = 50 := N_1
  have h24 : t.val % 25 = 24 := (flush1_4 t).mp hf
  have ht : t.val < 50 := lt_of_lt_of_eq t.isLt hN
  obtain ⟨-, -, -, -, -, -, -, -, e0, e1⟩ := blockIdx1 t
  have key : ∀ (n : ℕ) (hn : n < cfg1.N) (q : ℕ) (hq : q < 2) (hnq : n = 25 * q + 24) (p : Fin 1024),
      (outsAt1 V c n hn).2.1 (ValueIdx.ix2 p 0) = G ⟨1024 * q + p.val, by omega⟩ := by
    intro n hn q hq hnq p
    subst hnq
    exact hG ⟨q, hq⟩ p
  show (cfg1.win 4).cut (grid1.coords t) ((dat1 V c).after 4 t) = _
  rw [after1_4]
  funext y
  obtain ⟨p, z, rfl⟩ : ∃ (p : Fin 1024) (z : Fin 1), y = ValueIdx.ix2 p z := ⟨y 0, y 1, ValueIdx.eq_ix2 y⟩
  obtain rfl : z = 0 := Subsingleton.elim _ _
  rw [View.read_apply]
  refine (key t.val t.isLt (t.val / 25) (by omega) (by omega) p).trans ?_
  show G _ = G _
  congr 1
  apply Fin.ext
  show 1024 * (t.val / 25) + p.val = win1_4.index t 0 * 1024 + 1 * p.val
  rw [e0]; omega

/-- A row of the second output column is in the block written at position t iff it is in that block's range of rows. -/
theorem mem_blk1_4 (t : Fin cfg1.N) (i : S2048x1.Idx) :
    i ∈ ((cfg1.win 4).blk t).view.set ↔ ∀ a : Fin 2, win1_4.index t a * S1024x1.size a ≤ (i a).val
      ∧ (i a).val < win1_4.index t a * S1024x1.size a + S1024x1.size a := by
  show i ∈ ((View.whole main_v9_1).slice (win1_4.rect t)).set ↔ _
  rw [View.set_slice_whole, Rect.mem_set_unit]
  exact Iff.rfl

/-- Every row of the second output column lies in the block written back after the last tile of its row block. -/
theorem cover1_4 (i : S2048x1.Idx) :
    ∃ t : Fin cfg1.N, (cfg1.win 4).flush t = true ∧ i ∈ ((cfg1.win 4).blk t).view.set := by
  have hN : cfg1.N = 50 := N_1
  have hi0 : (i 0).val < 2048 := (i 0).isLt
  have hi1 : (i 1).val < 1 := (i 1).isLt
  obtain ⟨t, ht⟩ : ∃ t : Fin cfg1.N, t.val = 25 * ((i 0).val / 1024) + 24 := ⟨⟨_, by omega⟩, rfl⟩
  obtain ⟨-, -, -, -, -, -, -, -, e0, e1⟩ := blockIdx1 t
  refine ⟨t, (flush1_4 t).mpr (by omega), ?_⟩
  rw [mem_blk1_4]
  intro a
  match a with
  | ⟨0, _⟩ =>
    show win1_4.index t 0 * 1024 ≤ (i 0).val ∧ (i 0).val < win1_4.index t 0 * 1024 + 1024
    rw [e0]; omega
  | ⟨1, _⟩ =>
    show win1_4.index t 1 * 1 ≤ (i 1).val ∧ (i 1).val < win1_4.index t 1 * 1 + 1
    rw [e1]; omega

/-- The second output column after the call: the column G whose two halves the staging buffer holds after the last
    tile of each row block. -/
theorem arrAt1_4 (c : Dev nD) (G : Fin 2048 → EReal)
    (hG : ∀ (i : Fin 2) (p : Fin 1024), (outsAt1 V c (25 * i.val + 24) (by have : cfg1.N = 50 := N_1; omega)).2.1 (ValueIdx.ix2 p 0)
      = G ⟨1024 * i.val + p.val, by omega⟩) :
    ∀ r : Fin 2048, ((dat1 V c).arrAt 4 cfg1.N : S2048x1.Idx → EReal) (ValueIdx.ix2 r 0) = G r := by
  intro r
  rw [(dat1 V c).arrAt_eq_of_cover 4 (colArr1 G) (flushed1_4_eq V c G hG) cover1_4]

end Cert.KernelIdeal.Hand

end
-- ==== Proof.KI.HostIn.lean ====
/-
  What the two kernel regions are handed.

  Before the first region the host reshapes the activations [4, 512, 2048] to a matrix [2048, 2048] (row 512 p + s of
  the matrix is row s of batch member p), changes the format of that matrix and of the weight matrix [32000, 2048] to
  bf16, and reshapes the bias vector [32000] to a one-row matrix [1, 32000].  Before the second region it does the same
  with the reference model's activations, weights and bias.  Over the extended reals a format change is the identity,
  so each array the regions read is an argument array read at the index with the same row-major position.
-/
import proofs.«174775_j19164144075542_1_alg».proof.Proof.Gen.KernelIdeal.Regions
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.ShloMosaic.ValueIdx

variable (m : (ℓ : Loc nD τ sig) → Buf (Elt Ideal) ℓ) (outs : Outs (F := Ideal)) (c : Dev nD)

/-! ## Reshapes read at an index -/

/-- The [4, 512, 2048] array as a [2048, 2048] matrix: row `r` is row `r % 512` of batch member `r / 512`. -/
theorem reshape_act_apply (x : S4x512x2048.Idx → EReal) (r : Fin 2048) (k : Fin 2048) :
    shapeCast S2048x2048 x shapeCasts_S4x512x2048_S2048x2048 (ix2 r k)
      = x (ix3 (⟨r.val / 512, by omega⟩ : Fin 4) (⟨r.val % 512, by omega⟩ : Fin 512) k) :=
  shapeCast_apply x _ _ _ (by
    rw [Shape.rowMajor_val_three, Shape.rowMajor_val_two]
    show (r.val / 512 * 512 + r.val % 512) * 2048 + k.val = r.val * 2048 + k.val
    omega)

/-- The [32000] vector as a one-row matrix. -/
theorem reshape_bias_apply (x : S32000.Idx → EReal) (v : Fin 32000) :
    shapeCast S1x32000 x shapeCasts_S32000_S1x32000 (ix2 (0 : Fin 1) v) = x (ix1 v) :=
  shapeCast_a_1a_apply x _ 0 v

/-! ## The first region's arrays -/

theorem V1_v2_eq : (V1 m c main_v2 : S2048x2048.Idx → EReal)
    = truncf (F := Ideal) .bf16 (shapeCast S2048x2048 (m ((c.tc : Thread nD τ).loc main_arg1) : S4x512x2048.Idx → EReal)
        shapeCasts_S4x512x2048_S2048x2048) bitsLt_bf16_f32 := by
  dsimp only [V1, V0, hostOps0]; after_results; rfl

theorem V1_v3_eq : (V1 m c main_v3 : S32000x2048.Idx → EReal)
    = truncf (F := Ideal) .bf16 (m ((c.tc : Thread nD τ).loc main_arg0) : S32000x2048.Idx → EReal) bitsLt_bf16_f32 := by
  dsimp only [V1, V0, hostOps0]; after_results

theorem V1_v4_eq : (V1 m c main_v4 : S1x32000.Idx → EReal)
    = shapeCast S1x32000 (m ((c.tc : Thread nD τ).loc main_arg4) : S32000.Idx → EReal) shapeCasts_S32000_S1x32000 := by
  dsimp only [V1, V0, hostOps0]; after_results; rfl

/-- The first region's activations: the policy model's activations, batch and sequence position flattened. -/
theorem V1_v2_apply (r : Fin 2048) (k : Fin 2048) :
    (V1 m c main_v2 : S2048x2048.Idx → EReal) (ix2 r k)
      = (m ((c.tc : Thread nD τ).loc main_arg1) : S4x512x2048.Idx → EReal)
          (ix3 (⟨r.val / 512, by omega⟩ : Fin 4) (⟨r.val % 512, by omega⟩ : Fin 512) k) := by
  rw [V1_v2_eq, truncf_apply]; exact reshape_act_apply _ r k

/-- The first region's weights: the policy model's weights. -/
theorem V1_v3_apply (v : Fin 32000) (k : Fin 2048) :
    (V1 m c main_v3 : S32000x2048.Idx → EReal) (ix2 v k)
      = (m ((c.tc : Thread nD τ).loc main_arg0) : S32000x2048.Idx → EReal) (ix2 v k) := by
  rw [V1_v3_eq, truncf_apply]

/-- The first region's bias row: the policy model's bias. -/
theorem V1_v4_apply (v : Fin 32000) :
    (V1 m c main_v4 : S1x32000.Idx → EReal) (ix2 (0 : Fin 1) v)
      = (m ((c.tc : Thread nD τ).loc main_arg4) : S32000.Idx → EReal) (ix1 v) := by
  rw [V1_v4_eq]; exact reshape_bias_apply _ v

/-! ## The second region's arrays -/

theorem V1_v1_eq : (V1 m c main_v1 : S2048x2048.Idx → EReal)
    = shapeCast S2048x2048 (m ((c.tc : Thread nD τ).loc main_arg5) : S4x512x2048.Idx → EReal)
        shapeCasts_S4x512x2048_S2048x2048 := by
  dsimp only [V1, V0, hostOps0]; after_results; rfl

theorem V3_v6_eq : (V3 m outs c main_v6 : S2048x2048.Idx → EReal)
    = truncf (F := Ideal) .bf16 (shapeCast S2048x2048 (m ((c.tc : Thread nD τ).loc main_arg5) : S4x512x2048.Idx → EReal)
        shapeCasts_S4x512x2048_S2048x2048) bitsLt_bf16_f32 := by
  have e : (V3 m outs c main_v6 : S2048x2048.Idx → EReal)
      = truncf (F := Ideal) .bf16 (V2 m outs c main_v1 : S2048x2048.Idx → EReal) bitsLt_bf16_f32 := by
    dsimp only [V3, hostOps1]; after_results
  rw [e, V2_of m outs c main_v1 (by decide), V1_v1_eq]

theorem V3_v7_eq : (V3 m outs c main_v7 : S32000x2048.Idx → EReal)
    = truncf (F := Ideal) .bf16 (m ((c.tc : Thread nD τ).loc main_arg6) : S32000x2048.Idx → EReal) bitsLt_bf16_f32 := by
  have e : (V3 m outs c main_v7 : S32000x2048.Idx → EReal)
      = truncf (F := Ideal) .bf16 (V2 m outs c main_arg6 : S32000x2048.Idx → EReal) bitsLt_bf16_f32 := by
    dsimp only [V3, hostOps1]; after_results
  rw [e, V2_of m outs c main_arg6 (by decide), V1_of m c main_arg6 (by decide)]

theorem V3_v8_eq : (V3 m outs c main_v8 : S1x32000.Idx → EReal)
    = shapeCast S1x32000 (m ((c.tc : Thread nD τ).loc main_arg7) : S32000.Idx → EReal) shapeCasts_S32000_S1x32000 := by
  have e : (V3 m outs c main_v8 : S1x32000.Idx → EReal)
      = shapeCast S1x32000 (V2 m outs c main_arg7 : S32000.Idx → EReal) shapeCasts_S32000_S1x32000 := by
    dsimp only [V3, hostOps1]; after_results; rfl
  rw [e, V2_of m outs c main_arg7 (by decide), V1_of m c main_arg7 (by decide)]

/-- The second region's activations: the reference model's activations, batch and sequence position flattened. -/
theorem V3_v6_apply (r : Fin 2048) (k : Fin 2048) :
    (V3 m outs c main_v6 : S2048x2048.Idx → EReal) (ix2 r k)
      = (m ((c.tc : Thread nD τ).loc main_arg5) : S4x512x2048.Idx → EReal)
          (ix3 (⟨r.val / 512, by omega⟩ : Fin 4) (⟨r.val % 512, by omega⟩ : Fin 512) k) := by
  rw [V3_v6_eq, truncf_apply]; exact reshape_act_apply _ r k

/-- The second region's weights: the reference model's weights. -/
theorem V3_v7_apply (v : Fin 32000) (k : Fin 2048) :
    (V3 m outs c main_v7 : S32000x2048.Idx → EReal) (ix2 v k)
      = (m ((c.tc : Thread nD τ).loc main_arg6) : S32000x2048.Idx → EReal) (ix2 v k) := by
  rw [V3_v7_eq, truncf_apply]

/-- The second region's bias row: the reference model's bias. -/
theorem V3_v8_apply (v : Fin 32000) :
    (V3 m outs c main_v8 : S1x32000.Idx → EReal) (ix2 (0 : Fin 1) v)
      = (m ((c.tc : Thread nD τ).loc main_arg7) : S32000.Idx → EReal) (ix1 v) := by
  rw [V3_v8_eq]; exact reshape_bias_apply _ v

end Cert.KernelIdeal.Hand

end
-- ==== Proof.KI.Close.lean ====
/-
  What the two calls leave in their result arrays, row by row, as functions of the argument arrays.

  A row r of the flattened activations is batch row r / 512, position r % 512; its logits are the products with the
  weight rows over the 2048 hidden coordinates plus the bias.  Row block q, row p of the block is row 1024 q + p; tile
  t, entry j is vocabulary entry 1280 t + j.  Through the windows' blocks and the host's reshapes, the tile the body
  sees at a position is that tile of that row's logits, so after the last tile of a row block the outputs hold the
  recurrences run over the whole row.
-/
import proofs.«174775_j19164144075542_1_alg».proof.Proof.KI.Value0
import proofs.«174775_j19164144075542_1_alg».proof.Proof.KI.Value1
import proofs.«174775_j19164144075542_1_alg».proof.Proof.KI.Cover0
import proofs.«174775_j19164144075542_1_alg».proof.Proof.KI.Cover1
import proofs.«174775_j19164144075542_1_alg».proof.Proof.KI.HostIn
import proofs.«174775_j19164144075542_1_alg».proof.Proof.KI.Region

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Math
variable (m : (ℓ : Loc nD τ sig) → Buf (Elt Ideal) ℓ)

/-- Row r's logit at vocabulary entry v. -/
def rowLogit (x : S4x512x2048.Idx → EReal) (w : S32000x2048.Idx → EReal) (b : S32000.Idx → EReal) (r : Fin 2048) (v : Fin 32000) : EReal :=
  (∑ k : Fin 2048, x (ValueIdx.ix3 ⟨r.val / 512, by have := r.isLt; omega⟩ ⟨r.val % 512, by omega⟩ k) * w (ValueIdx.ix2 v k)) + b (ValueIdx.ix1 v)

/-- The recurrences after tile s depend on the tiles up to s only. -/
theorem runMax_congr {n : ℕ} (L L' : ℕ → Fin n → EReal) (s : ℕ) (h : ∀ t, t ≤ s → L t = L' t) : runMax L s = runMax L' s := by
  induction s with
  | zero => simp only [runMax]; rw [h 0 le_rfl]
  | succ s ih => simp only [runMax]; rw [ih (fun t ht => h t (by omega)), h (s + 1) le_rfl]
theorem runLse_congr {n : ℕ} (L L' : ℕ → Fin n → EReal) (s : ℕ) (h : ∀ t, t ≤ s → L t = L' t) : runLse L s = runLse L' s := by
  induction s with
  | zero => simp only [runLse]; rw [h 0 le_rfl]
  | succ s ih => simp only [runLse]; rw [ih (fun t ht => h t (by omega)), runMax_congr L L' s (fun t ht => h t (by omega)), h (s + 1) le_rfl]
theorem runSum_congr {n : ℕ} (L L' : ℕ → Fin n → EReal) (s : ℕ) (h : ∀ t, t ≤ s → L t = L' t) : runSum L s = runSum L' s := by
  induction s with
  | zero => simp only [runSum]; rw [h 0 le_rfl]
  | succ s ih => simp only [runSum]; rw [ih (fun t ht => h t (by omega)), h (s + 1) le_rfl]

/-- Call 0: the tiles of row block q, seen from row p, are the tiles of that row's logits. -/
theorem tl0_row (c : Dev nD) (q : Fin 2) (p : Fin 1024) (t : ℕ) (ht : t ≤ 24) :
    tl0 (VR1 m) c (25 * q.val + t) p
      = tiles (rowLogit (m ((c.tc : Thread nD τ).loc main_arg1)) (m ((c.tc : Thread nD τ).loc main_arg0)) (m ((c.tc : Thread nD τ).loc main_arg4)) ⟨1024 * q.val + p.val, by have := q.isLt; have := p.isLt; omega⟩) t := by
  have hlt : t < 25 := by omega
  have hn : 25 * q.val + t < cfg0.N := by have : cfg0.N = 50 := N_0; have := q.isLt; omega
  have hq : (25 * q.val + t) / 25 = q.val := by omega
  have hr : (25 * q.val + t) % 25 = t := by omega
  funext j
  rw [tl0_pos (VR1 m) c _ hn p]
  unfold tiles tileLogit rowLogit
  rw [dif_pos hlt]
  have e2 : iblk0 (VR1 m) c 2 ⟨25 * q.val + t, hn⟩ (ValueIdx.ix2 (0 : Fin 1) j) = (m ((c.tc : Thread nD τ).loc main_arg4)) (ValueIdx.ix1 (tileIdx ⟨t, hlt⟩ j)) := by
    rw [iblk0_2_apply (VR1 m) c ⟨25 * q.val + t, hn⟩ j]
    refine (V1_v4_apply m c _).trans ?_
    congr 2
    exact Fin.ext (by simp only [tileIdx]; omega)
  have e0 : ∀ k : Fin 2048, (iblk0 (VR1 m) c 0 ⟨25 * q.val + t, hn⟩ (ValueIdx.ix2 p k) : EReal)
      = (m ((c.tc : Thread nD τ).loc main_arg1)) (ValueIdx.ix3 ⟨(1024 * q.val + p.val) / 512, by have := q.isLt; have := p.isLt; omega⟩ ⟨(1024 * q.val + p.val) % 512, by omega⟩ k) := fun k => by
    rw [iblk0_0_apply (VR1 m) c ⟨25 * q.val + t, hn⟩ p k]
    refine (V1_v2_apply m c _ k).trans ?_
    congr 2 <;> exact Fin.ext (by simp only []; omega)
  have e1 : ∀ k : Fin 2048, (iblk0 (VR1 m) c 1 ⟨25 * q.val + t, hn⟩ (ValueIdx.ix2 j k) : EReal)
      = (m ((c.tc : Thread nD τ).loc main_arg0)) (ValueIdx.ix2 (tileIdx ⟨t, hlt⟩ j) k) := fun k => by
    rw [iblk0_1_apply (VR1 m) c ⟨25 * q.val + t, hn⟩ j k]
    refine (V1_v3_apply m c _ k).trans ?_
    congr 2
    exact Fin.ext (by simp only [tileIdx]; omega)
  rw [e2]
  congr 1
  exact Finset.sum_congr rfl (fun k _ => by rw [e0 k, e1 k])

/-- Call 0: after the last tile of a row block the first output holds, at each row, the sum of exponentials of the whole
    row relative to its maximum, computed tile by tile; the second the row's sum of logits. -/
theorem lseArr0 (c : Dev nD) (r : Fin 2048) :
    ((dat0 (VR1 m) c).arrAt 3 cfg0.N : S2048x1.Idx → EReal) (ValueIdx.ix2 r 0)
      = runLse (tiles (rowLogit (m ((c.tc : Thread nD τ).loc main_arg1)) (m ((c.tc : Thread nD τ).loc main_arg0)) (m ((c.tc : Thread nD τ).loc main_arg4)) r)) 24 :=
  arrAt0_3 (VR1 m) c (fun r => runLse (tiles (rowLogit (m ((c.tc : Thread nD τ).loc main_arg1)) (m ((c.tc : Thread nD τ).loc main_arg0)) (m ((c.tc : Thread nD τ).loc main_arg4)) r)) 24)
    (fun i p => ((state0 (VR1 m) c i.val p 24 (by omega) (by have : cfg0.N = 50 := N_0; have := i.isLt; omega)).1).trans
      (runLse_congr _ _ 24 fun t ht => tl0_row m c i p t ht)) r

theorem sumArr0 (c : Dev nD) (r : Fin 2048) :
    ((dat0 (VR1 m) c).arrAt 4 cfg0.N : S2048x1.Idx → EReal) (ValueIdx.ix2 r 0)
      = runSum (tiles (rowLogit (m ((c.tc : Thread nD τ).loc main_arg1)) (m ((c.tc : Thread nD τ).loc main_arg0)) (m ((c.tc : Thread nD τ).loc main_arg4)) r)) 24 :=
  arrAt0_4 (VR1 m) c (fun r => runSum (tiles (rowLogit (m ((c.tc : Thread nD τ).loc main_arg1)) (m ((c.tc : Thread nD τ).loc main_arg0)) (m ((c.tc : Thread nD τ).loc main_arg4)) r)) 24)
    (fun i p => ((state0 (VR1 m) c i.val p 24 (by omega) (by have : cfg0.N = 50 := N_0; have := i.isLt; omega)).2.1).trans
      (runSum_congr _ _ 24 fun t ht => tl0_row m c i p t ht)) r

/-- Call 1: the tiles of row block q, seen from row p, are the tiles of that row's logits. -/
theorem tl1_row (c : Dev nD) (q : Fin 2) (p : Fin 1024) (t : ℕ) (ht : t ≤ 24) :
    tl1 (VR3 m) c (25 * q.val + t) p
      = tiles (rowLogit (m ((c.tc : Thread nD τ).loc main_arg5)) (m ((c.tc : Thread nD τ).loc main_arg6)) (m ((c.tc : Thread nD τ).loc main_arg7)) ⟨1024 * q.val + p.val, by have := q.isLt; have := p.isLt; omega⟩) t := by
  have hlt : t < 25 := by omega
  have hn : 25 * q.val + t < cfg1.N := by have : cfg1.N = 50 := N_1; have := q.isLt; omega
  have hq : (25 * q.val + t) / 25 = q.val := by omega
  have hr : (25 * q.val + t) % 25 = t := by omega
  funext j
  rw [tl1_pos (VR3 m) c _ hn p]
  unfold tiles tileLogit rowLogit
  rw [dif_pos hlt]
  have e2 : iblk1 (VR3 m) c 2 ⟨25 * q.val + t, hn⟩ (ValueIdx.ix2 (0 : Fin 1) j) = (m ((c.tc : Thread nD τ).loc main_arg7)) (ValueIdx.ix1 (tileIdx ⟨t, hlt⟩ j)) := by
    rw [iblk1_2_apply (VR3 m) c ⟨25 * q.val + t, hn⟩ j]
    refine (V3_v8_apply m (outsA m) c _).trans ?_
    congr 2
    exact Fin.ext (by simp only [tileIdx]; omega)
  have e0 : ∀ k : Fin 2048, (iblk1 (VR3 m) c 0 ⟨25 * q.val + t, hn⟩ (ValueIdx.ix2 p k) : EReal)
      = (m ((c.tc : Thread nD τ).loc main_arg5)) (ValueIdx.ix3 ⟨(1024 * q.val + p.val) / 512, by have := q.isLt; have := p.isLt; omega⟩ ⟨(1024 * q.val + p.val) % 512, by omega⟩ k) := fun k => by
    rw [iblk1_0_apply (VR3 m) c ⟨25 * q.val + t, hn⟩ p k]
    refine (V3_v6_apply m (outsA m) c _ k).trans ?_
    congr 2 <;> exact Fin.ext (by simp only []; omega)
  have e1 : ∀ k : Fin 2048, (iblk1 (VR3 m) c 1 ⟨25 * q.val + t, hn⟩ (ValueIdx.ix2 j k) : EReal)
      = (m ((c.tc : Thread nD τ).loc main_arg6)) (ValueIdx.ix2 (tileIdx ⟨t, hlt⟩ j) k) := fun k => by
    rw [iblk1_1_apply (VR3 m) c ⟨25 * q.val + t, hn⟩ j k]
    refine (V3_v7_apply m (outsA m) c _ k).trans ?_
    congr 2
    exact Fin.ext (by simp only [tileIdx]; omega)
  rw [e2]
  congr 1
  exact Finset.sum_congr rfl (fun k _ => by rw [e0 k, e1 k])

/-- Call 1: after the last tile of a row block the first output holds, at each row, the sum of exponentials of the whole
    row relative to its maximum, computed tile by tile; the second the row's sum of logits. -/
theorem lseArr1 (c : Dev nD) (r : Fin 2048) :
    ((dat1 (VR3 m) c).arrAt 3 cfg1.N : S2048x1.Idx → EReal) (ValueIdx.ix2 r 0)
      = runLse (tiles (rowLogit (m ((c.tc : Thread nD τ).loc main_arg5)) (m ((c.tc : Thread nD τ).loc main_arg6)) (m ((c.tc : Thread nD τ).loc main_arg7)) r)) 24 :=
  arrAt1_3 (VR3 m) c (fun r => runLse (tiles (rowLogit (m ((c.tc : Thread nD τ).loc main_arg5)) (m ((c.tc : Thread nD τ).loc main_arg6)) (m ((c.tc : Thread nD τ).loc main_arg7)) r)) 24)
    (fun i p => ((state1 (VR3 m) c i.val p 24 (by omega) (by have : cfg1.N = 50 := N_1; have := i.isLt; omega)).1).trans
      (runLse_congr _ _ 24 fun t ht => tl1_row m c i p t ht)) r

theorem sumArr1 (c : Dev nD) (r : Fin 2048) :
    ((dat1 (VR3 m) c).arrAt 4 cfg1.N : S2048x1.Idx → EReal) (ValueIdx.ix2 r 0)
      = runSum (tiles (rowLogit (m ((c.tc : Thread nD τ).loc main_arg5)) (m ((c.tc : Thread nD τ).loc main_arg6)) (m ((c.tc : Thread nD τ).loc main_arg7)) r)) 24 :=
  arrAt1_4 (VR3 m) c (fun r => runSum (tiles (rowLogit (m ((c.tc : Thread nD τ).loc main_arg5)) (m ((c.tc : Thread nD τ).loc main_arg6)) (m ((c.tc : Thread nD τ).loc main_arg7)) r)) 24)
    (fun i p => ((state1 (VR3 m) c i.val p 24 (by omega) (by have : cfg1.N = 50 := N_1; have := i.isLt; omega)).2.1).trans
      (runSum_congr _ _ 24 fun t ht => tl1_row m c i p t ht)) r

end Cert.KernelIdeal.Hand

end
-- ==== Proof.KI.HostRun.lean ====
/-
  The run of the whole program, given the two kernel regions' records.

  The program is a list of items: a stretch of host operations, the first kernel region, a second stretch, the
  second kernel region, then seven more stretches.  Between two items every core holds all of its unscoped buffers
  whole, at a known valuation: the launch contents, then what each stretch of host operations computes from the
  valuation before it, then whatever the regions leave in the arrays they may change.  Chaining the items, every weakly
  fair execution terminates, and the final memory agrees with the last valuation at every unscoped reference.  Here
  the last valuation is read back at the five result arrays (left as the valuation's own terms) and at the eight
  argument arrays (which no item writes, so they end as launched).
-/
import proofs.«174775_j19164144075542_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- What the final memory of core `c` is claimed to hold: the five results at the last valuation, the eight arguments
    as launched. -/
abbrev FinalAt (m : (ℓ : Loc nD τ sig) → Buf (Elt F) ℓ) (outs : Outs (F := F)) (c : Dev nD)
    (mem : (ℓ : Loc nD τ sig) → Buf (Elt F) ℓ) : Prop :=
  mem ((c.tc : Thread nD τ).loc main_v36) = V11 m outs c main_v36
  ∧ mem ((c.tc : Thread nD τ).loc main_v40) = V11 m outs c main_v40
  ∧ mem ((c.tc : Thread nD τ).loc main_v41) = V11 m outs c main_v41
  ∧ mem ((c.tc : Thread nD τ).loc main_v38) = V11 m outs c main_v38
  ∧ mem ((c.tc : Thread nD τ).loc main_v43) = V11 m outs c main_v43
  ∧ mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)

set_option backward.isDefEq.respectTransparency.types false in
/-- THE RUN, GIVEN THE REGIONS' RECORDS.  For any rest states `E` the launch makes on every core at once and that end
    owing nothing, any contents `outs` the regions leave and any proof data: given, per region, a segment record entered
    from the thread state before it and left at the one after it, every weakly fair execution of the program from
    memory `m` with zero counters terminates, and every final memory holds each result array at the last valuation
    and each argument array as launched. -/
theorem run_cond (m : (ℓ : Loc nD τ sig) → Buf (Elt F) ℓ)
    {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v36) = V11 m outs c main_v36
      ∧ r.2.mem ((c.tc : Thread nD τ).loc main_v40) = V11 m outs c main_v40
      ∧ r.2.mem ((c.tc : Thread nD τ).loc main_v41) = V11 m outs c main_v41
      ∧ r.2.mem ((c.tc : Thread nD τ).loc main_v38) = V11 m outs c main_v38
      ∧ r.2.mem ((c.tc : Thread nD τ).loc main_v43) = V11 m outs c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm pdats ι cellOf_inj EP defs₀ 𝒱₀ L lv m ρ main
    (segs m outs 𝒱₀ L lv E ι pdats R0 R1)
    (fun c Q => by
      -- the program is the chain of its items' programs
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, hpre0 c, hpost0 c, hpre1 c, hpost1 c, .rfl, .rfl, .rfl, .rfl, .rfl, .rfl, sep_mono .rfl (hE2 c)⟩)
    (hinit := ?_) (QY := fun c s => FinalAt m outs c s.mem)
    (hfin := fun c s' => ?_) (hQ := fun _ h => h)
  · -- the launch: each core's unscoped buffers are held at the launch valuation; the rest makes E 0 on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the memory agrees with the last valuation at every unscoped reference
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      have rd : ∀ r : Ref sig .tc, Proc.devRef (τ := τ) .tc r ∈ Pipeline.ucRefs τ sig →
          s'.mem.mem ((c.tc : Thread nD τ).loc r) = V11 m outs c r := fun r hr => h (Proc.devRef .tc r) hr
      exact ⟨rd main_v36 (Finset.mem_filter.mpr ⟨StableHlo.devRef_mem_tcRefs main_v36, by decide⟩),
        rd main_v40 (Finset.mem_filter.mpr ⟨StableHlo.devRef_mem_tcRefs main_v40, by decide⟩),
        rd main_v41 (Finset.mem_filter.mpr ⟨StableHlo.devRef_mem_tcRefs main_v41, by decide⟩),
        rd main_v38 (Finset.mem_filter.mpr ⟨StableHlo.devRef_mem_tcRefs main_v38, by decide⟩),
        rd main_v43 (Finset.mem_filter.mpr ⟨StableHlo.devRef_mem_tcRefs main_v43, by decide⟩),
        (rd main_arg0 (Finset.mem_filter.mpr ⟨StableHlo.devRef_mem_tcRefs main_arg0, by decide⟩)).trans (V11_main_arg0 m outs c),
        (rd main_arg1 (Finset.mem_filter.mpr ⟨StableHlo.devRef_mem_tcRefs main_arg1, by decide⟩)).trans (V11_main_arg1 m outs c),
        (rd main_arg2 (Finset.mem_filter.mpr ⟨StableHlo.devRef_mem_tcRefs main_arg2, by decide⟩)).trans (V11_main_arg2 m outs c),
        (rd main_arg3 (Finset.mem_filter.mpr ⟨StableHlo.devRef_mem_tcRefs main_arg3, by decide⟩)).trans (V11_main_arg3 m outs c),
        (rd main_arg4 (Finset.mem_filter.mpr ⟨StableHlo.devRef_mem_tcRefs main_arg4, by decide⟩)).trans (V11_main_arg4 m outs c),
        (rd main_arg5 (Finset.mem_filter.mpr ⟨StableHlo.devRef_mem_tcRefs main_arg5, by decide⟩)).trans (V11_main_arg5 m outs c),
        (rd main_arg6 (Finset.mem_filter.mpr ⟨StableHlo.devRef_mem_tcRefs main_arg6, by decide⟩)).trans (V11_main_arg6 m outs c),
        (rd main_arg7 (Finset.mem_filter.mpr ⟨StableHlo.devRef_mem_tcRefs main_arg7, by decide⟩)).trans (V11_main_arg7 m outs c)⟩
    · iexact HSI

end Cert.KernelIdeal.Hand

end
-- ==== Proof.KI.RunMain.lean ====
/-
  The idealized kernel program's run with its five results named.

  The same launch as for the frame, read at five more buffers: every weakly fair execution terminates and each result
  buffer ends at the host tail's value, a function of what the two calls leave in their result arrays and of the
  argument arrays; the arguments end as launched.
-/
import proofs.«174775_j19164144075542_1_alg».proof.Proof.KI.Region
import proofs.«174775_j19164144075542_1_alg».proof.Proof.KI.HostRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem run (ρ : Dev nD → PrngReg) : θ_run defs (onTc (τ := τ) (main (F := F))) ⟨m, fun _ => 0, ρ⟩ (fun r => ∀ c : Dev nD,
      r.2.mem ((c.tc : Thread nD τ).loc main_v36) = V11 m (outsH m) c main_v36
      ∧ r.2.mem ((c.tc : Thread nD τ).loc main_v40) = V11 m (outsH m) c main_v40
      ∧ r.2.mem ((c.tc : Thread nD τ).loc main_v41) = V11 m (outsH m) c main_v41
      ∧ r.2.mem ((c.tc : Thread nD τ).loc main_v38) = V11 m (outsH m) c main_v38
      ∧ r.2.mem ((c.tc : Thread nD τ).loc main_v43) = V11 m (outsH m) c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_cond m emb₁ () 𝒱h Lh lvh (fun _ _ => rfl) ρ (outsH m) (pdats m) 0 (fun _ => iprop(emp))
    (initOf (Pipeline.cells cfgs cellOf_inj) (Pipeline.launchToks cfgs cellOf_inj)) (hu0h (F := F))
    (fun _ c => Rr c) (hE0h ρ) (fun c => by iintro ⟨-, HO⟩; iexact HO)
    (reg0 m) (fun _ => .rfl) (fun _ => .rfl) (reg1 m) (fun _ => .rfl) (fun _ => .rfl)

end Cert.KernelIdeal.Hand

end
-- ==== Proof.KI.HostTail.lean ====
/-
  The five results as functions of what the two kernel regions leave.

  The first region leaves, per flattened position r = 512 p + s, the sum of exponentials of the policy model's logits
  (array of shape [2048, 1]) and the sum of those logits; the second region leaves the reference model's sum of
  exponentials.  After the regions the host computes, with lp = -log of such a sum reshaped to [4, 512]:

    S(lp)_p   = 0 + sum over s of lp_{p,s} * mask_{p,s}                 (a per-sequence masked sum)
    mean4(x)  = (0 + sum over p of x_p) / 4
    adv       = rewards - mean4(rewards)
    std(x)    = sqrt( if 4 - 1 > 0 then (0 + sum over p of (x_p - mean4(x))^2) / (4 - 1) else NaN )
    advN      = if std(rewards) > 0 then adv / std(rewards) else adv
    loss      = mean4( -(advN * S(lpP)) + 0.1 * (S(lpP) - S(lpR)) )
    second    = mean4( S(lpP) ),   third = std( S(lpP) ),   fifth = mean4( S(lpP) - S(lpR) )
    fourth    = (0 + sum over all r of the first region's logit sums) / 65536000

  Each stretch of host operations is first read over an arbitrary valuation of the buffers (what it writes as a
  function of what it reads); the stretches are then chained along the program's valuations, a buffer that a stretch
  does not write being carried over unchanged.
-/
import proofs.«174775_j19164144075542_1_alg».proof.Proof.Gen.KernelIdeal.Regions
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.ShloMosaic.ValueIdx
open scoped BigOperators

/-! ## The functions -/

/-- Minus the logarithm of a [2048, 1] array, reshaped to [4, 512]. -/
def lpK (lse : FVec Ideal S2048x1 .f32) : FVec Ideal S4x512 .f32 :=
  shapeCast S4x512 (Host.negf (Host.log lse)) shapeCasts_S2048x1_S4x512

/-- The total of a [2048, 1] array, from zero. -/
def totK (sl : FVec Ideal S2048x1 .f32) : FVec Ideal S_ .f32 :=
  Host.reduceAdd sl (constant (F := Ideal) S_ .f32 0x00000000#32) reducesTo_S2048x1_S_d0_1 h_S_

/-- Per sequence, the sum over positions of the masked values, from zero. -/
def seqSum (lp mask : FVec Ideal S4x512 .f32) : FVec Ideal S4 .f32 :=
  Host.reduceAdd (mulf lp mask) (constant (F := Ideal) S_ .f32 0x00000000#32) reducesTo_S4x512_S4_d1 h_S_

/-- The mean of four values: their sum from zero, divided by four. -/
def mean4 (x : FVec Ideal S4 .f32) : FVec Ideal S_ .f32 :=
  Host.divf (Host.reduceAdd x (constant (F := Ideal) S_ .f32 0x00000000#32) reducesTo_S4_S_d0 h_S_)
    (constant (F := Ideal) S_ .f32 0x40800000#32)

/-- Four values minus their mean. -/
def centred (x : FVec Ideal S4 .f32) : FVec Ideal S4 .f32 :=
  subf x (broadcastInDim S4 ![] bcast_S_S4 (mean4 x))

/-- The deviations of four values from their mean, the mean taken through a one-element array. -/
def devs (x : FVec Ideal S4 .f32) : FVec Ideal S4 .f32 :=
  subf x (broadcastInDim S4 ![0] bcast_S1_S4_0
    (Host.divf
      (broadcastInDim S1 ![] bcast_S_S1
        (Host.reduceAdd x (constant (F := Ideal) S_ .f32 0x00000000#32) reducesTo_S4_S_d0 h_S_))
      (broadcastInDim S1 ![] bcast_S_S1 (constant (F := Ideal) S_ .f32 0x40800000#32))))

/-- The standard deviation of four values with `n` taken off the count: the root of the sum of squared deviations over
    `4 - n` when that is positive, of NaN otherwise. -/
def stdOf (x : FVec Ideal S4 .f32) (n : IVec S_ 32) : FVec Ideal S_ .f32 :=
  Host.sqrt
    (select
      (cmpf .ogt (subf (constant (F := Ideal) S_ .f32 0x40800000#32) (sitofp (F := Ideal) .f32 n))
        (constant (F := Ideal) S_ .f32 0x00000000#32))
      (Host.divf
        (Host.reduceAdd (mulf (devs x) (devs x)) (constant (F := Ideal) S_ .f32 0x00000000#32) reducesTo_S4_S_d0 h_S_)
        (subf (constant (F := Ideal) S_ .f32 0x40800000#32) (sitofp (F := Ideal) .f32 n)))
      (id (constant (F := Ideal) S_ .f32 0x7FC00000#32)))

/-- The centred rewards divided by their standard deviation where that is positive, left as they are otherwise. -/
def normAdv (adv : FVec Ideal S4 .f32) (sd : FVec Ideal S_ .f32) : FVec Ideal S4 .f32 :=
  select (broadcastInDim S4 ![] bcast_S_S4 (cmpf .ogt sd (constant (F := Ideal) S_ .f32 0x00000000#32)))
    (Host.divf adv (broadcastInDim S4 ![] bcast_S_S4 sd)) adv

/-- The loss from the normalised advantages and the two models' per-sequence sums. -/
def lossOf (adv sP sR : FVec Ideal S4 .f32) : FVec Ideal S_ .f32 :=
  Host.divf
    (Host.reduceAdd
      (addf (Host.negf (mulf adv sP))
        (mulf (broadcastInDim S4 ![] bcast_S_S4 (constant (F := Ideal) S_ .f32 0x3DCCCCCD#32)) (subf sP sR)))
      (constant (F := Ideal) S_ .f32 0x00000000#32) reducesTo_S4_S_d0 h_S_)
    (constant (F := Ideal) S_ .f32 0x40800000#32)

/-- The first result, the loss. -/
def tailK36 (lpP lpR mask : FVec Ideal S4x512 .f32) (rew : FVec Ideal S4 .f32) : FVec Ideal S_ .f32 :=
  lossOf (normAdv (centred rew) (stdOf rew (constantI S_ 32 1#32))) (seqSum lpP mask) (seqSum lpR mask)

/-- The second result: the mean of the policy model's per-sequence sums. -/
def tailK40 (lpP mask : FVec Ideal S4x512 .f32) : FVec Ideal S_ .f32 :=
  mean4 (seqSum lpP mask)

/-- The third result: the standard deviation of the policy model's per-sequence sums. -/
def tailK41 (lpP mask : FVec Ideal S4x512 .f32) : FVec Ideal S_ .f32 :=
  stdOf (seqSum lpP mask) (constantI S_ 32 1#32)

/-- The fourth result: the total divided by 65536000. -/
def tailK38 (tot : FVec Ideal S_ .f32) : FVec Ideal S_ .f32 :=
  Host.divf tot (constant (F := Ideal) S_ .f32 0x4C7A0000#32)

/-- The fifth result: the mean of the difference of the two models' per-sequence sums. -/
def tailK43 (lpP lpR mask : FVec Ideal S4x512 .f32) : FVec Ideal S_ .f32 :=
  mean4 (subf (seqSum lpP mask) (seqSum lpR mask))

/-! ## Each stretch over an arbitrary valuation -/

section Stages

variable (W : Valuation τ sig (Elt Ideal))

theorem st2_v17 : (after hostOps2 W main_v17 : S4.Idx → EReal)
    = seqSum (lpK (W main_v5_0)) (W main_arg2) := by
  dsimp only [hostOps2]; after_results; rfl

theorem st2_v19 : (after hostOps2 W main_v19 : S4.Idx → EReal)
    = seqSum (lpK (W main_v9_0)) (W main_arg2) := by
  dsimp only [hostOps2]; after_results; rfl

theorem st2_v23 : (after hostOps2 W main_v23 : S4.Idx → EReal) = centred (W main_arg3) := by
  dsimp only [hostOps2]; after_results; rfl

theorem st2_c : (after hostOps2 W main_c : IVec S_ 32) = constantI S_ 32 1#32 := by
  dsimp only [hostOps2]; after_results

theorem st21_v24 : (after hostOps2_1 W main_v24 : S_.Idx → EReal) = stdOf (W main_arg3) (W main_c) := by
  dsimp only [hostOps2_1]; after_results_simp; rfl

theorem st22_v25 : (after hostOps2_2 W main_v25 : IVec S_ 1)
    = cmpf (F := Ideal) (φ := .f32) .ogt (W main_v24) (constant (F := Ideal) S_ .f32 0x00000000#32) := by
  dsimp only [hostOps2_2]; after_results

theorem st22_v27 : (after hostOps2_2 W main_v27 : S4.Idx → EReal)
    = Host.divf (F := Ideal) (φ := .f32) (W main_v23) (broadcastInDim S4 ![] bcast_S_S4 (W main_v24 : S_.Idx → EReal)) := by
  dsimp only [hostOps2_2]; after_results

theorem st23_v28 : (after hostOps2_3 W main_v28 : S4.Idx → EReal)
    = select (broadcastInDim S4 ![] bcast_S_S4 (W main_v25 : IVec S_ 1)) (W main_v27 : S4.Idx → EReal)
        (W main_v23 : S4.Idx → EReal) := by
  dsimp only [hostOps2_3]; after_results; rfl

theorem st24_v36 : (after hostOps2_4 W main_v36 : S_.Idx → EReal)
    = lossOf (W main_v28) (W main_v17) (W main_v19) := by
  dsimp only [hostOps2_4]; after_results; rfl

theorem st24_v38 : (after hostOps2_4 W main_v38 : S_.Idx → EReal) = tailK38 (totK (W main_v5_1)) := by
  dsimp only [hostOps2_4]; after_results; rfl

theorem st24_v40 : (after hostOps2_4 W main_v40 : S_.Idx → EReal) = mean4 (W main_v17) := by
  dsimp only [hostOps2_4]; after_results; rfl

theorem st24_v29 : (after hostOps2_4 W main_v29 : S4.Idx → EReal)
    = subf (F := Ideal) (s := S4) (φ := .f32) (W main_v17) (W main_v19) := by
  dsimp only [hostOps2_4]; after_results

theorem st24_c11 : (after hostOps2_4 W main_c_11 : IVec S_ 32) = constantI S_ 32 1#32 := by
  dsimp only [hostOps2_4]; after_results

theorem st25_v41 : (after hostOps2_5 W main_v41 : S_.Idx → EReal) = stdOf (W main_v17) (W main_c_11) := by
  dsimp only [hostOps2_5]; after_results_simp; rfl

theorem st26_v43 : (after hostOps2_6 W main_v43 : S_.Idx → EReal) = mean4 (W main_v29) := by
  dsimp only [hostOps2_6]; after_results; rfl

end Stages

/-! ## What the regions and the launch leave at the cut points -/

section Chain

variable (m : (ℓ : Loc nD τ sig) → Buf (Elt Ideal) ℓ) (outs : Outs (F := Ideal)) (c : Dev nD)

/-- After the first region its first output array holds what the region left there. -/
theorem V2_v5_0 : V2 m outs c main_v5_0 = outs 2 main_v5_0 c := by
  dsimp only [V2]
  rw [Function.update_of_ne (StableHlo.devRef_ne_of_ne (by decide) : (Proc.devRef .tc main_v5_0 : DevRef τ sig) ≠ Proc.devRef .tc main_v5_1),
    Function.update_self]

/-- After the first region its second output array holds what the region left there. -/
theorem V2_v5_1 : V2 m outs c main_v5_1 = outs 2 main_v5_1 c := by
  dsimp only [V2]
  rw [Function.update_self]

theorem V4_v5_0 : V4 m outs c main_v5_0 = outs 2 main_v5_0 c :=
  (V4_of m outs c main_v5_0 (by decide)).trans <| (V3_of m outs c main_v5_0 (by decide)).trans (V2_v5_0 m outs c)

theorem V4_v5_1 : V4 m outs c main_v5_1 = outs 2 main_v5_1 c :=
  (V4_of m outs c main_v5_1 (by decide)).trans <| (V3_of m outs c main_v5_1 (by decide)).trans (V2_v5_1 m outs c)

/-- After the second region its first output array holds what the region left there. -/
theorem V4_v9_0 : V4 m outs c main_v9_0 = outs 4 main_v9_0 c := by
  dsimp only [V4]
  rw [Function.update_of_ne (StableHlo.devRef_ne_of_ne (by decide) : (Proc.devRef .tc main_v9_0 : DevRef τ sig) ≠ Proc.devRef .tc main_v9_1),
    Function.update_self]

theorem V4_arg2 : V4 m outs c main_arg2 = m ((c.tc : Thread nD τ).loc main_arg2) :=
  (V4_of m outs c main_arg2 (by decide)).trans <| (V3_of m outs c main_arg2 (by decide)).trans <|
    (V2_of m outs c main_arg2 (by decide)).trans <| (V1_of m c main_arg2 (by decide)).trans rfl

theorem V4_arg3 : V4 m outs c main_arg3 = m ((c.tc : Thread nD τ).loc main_arg3) :=
  (V4_of m outs c main_arg3 (by decide)).trans <| (V3_of m outs c main_arg3 (by decide)).trans <|
    (V2_of m outs c main_arg3 (by decide)).trans <| (V1_of m c main_arg3 (by decide)).trans rfl

/-! ## The stretches chained -/

/-- The policy model's per-sequence sums, as every later stretch reads them. -/
theorem V5_v17 : (V5 m outs c main_v17 : S4.Idx → EReal)
    = seqSum (lpK (outs 2 main_v5_0 c)) (m ((c.tc : Thread nD τ).loc main_arg2)) := by
  refine (st2_v17 (V4 m outs c)).trans ?_
  rw [V4_v5_0, V4_arg2]

/-- The reference model's per-sequence sums. -/
theorem V5_v19 : (V5 m outs c main_v19 : S4.Idx → EReal)
    = seqSum (lpK (outs 4 main_v9_0 c)) (m ((c.tc : Thread nD τ).loc main_arg2)) := by
  refine (st2_v19 (V4 m outs c)).trans ?_
  rw [V4_v9_0, V4_arg2]

/-- The centred rewards. -/
theorem V5_v23 : (V5 m outs c main_v23 : S4.Idx → EReal) = centred (m ((c.tc : Thread nD τ).loc main_arg3)) := by
  refine (st2_v23 (V4 m outs c)).trans ?_
  rw [V4_arg3]

theorem V8_v17 : (V8 m outs c main_v17 : S4.Idx → EReal)
    = seqSum (lpK (outs 2 main_v5_0 c)) (m ((c.tc : Thread nD τ).loc main_arg2)) :=
  (V8_of m outs c main_v17 (by decide)).trans <| (V7_of m outs c main_v17 (by decide)).trans <|
    (V6_of m outs c main_v17 (by decide)).trans (V5_v17 m outs c)

theorem V8_v19 : (V8 m outs c main_v19 : S4.Idx → EReal)
    = seqSum (lpK (outs 4 main_v9_0 c)) (m ((c.tc : Thread nD τ).loc main_arg2)) :=
  (V8_of m outs c main_v19 (by decide)).trans <| (V7_of m outs c main_v19 (by decide)).trans <|
    (V6_of m outs c main_v19 (by decide)).trans (V5_v19 m outs c)

/-- The rewards' standard deviation. -/
theorem V6_v24 : (V6 m outs c main_v24 : S_.Idx → EReal)
    = stdOf (m ((c.tc : Thread nD τ).loc main_arg3)) (constantI S_ 32 1#32) := by
  refine (st21_v24 (V5 m outs c)).trans ?_
  have hc : (V5 m outs c main_c : IVec S_ 32) = constantI S_ 32 1#32 := st2_c (V4 m outs c)
  rw [hc, V5_of m outs c main_arg3 (by decide), V4_arg3]

/-- The normalised advantages. -/
theorem V8_v28 : (V8 m outs c main_v28 : S4.Idx → EReal)
    = normAdv (centred (m ((c.tc : Thread nD τ).loc main_arg3)))
        (stdOf (m ((c.tc : Thread nD τ).loc main_arg3)) (constantI S_ 32 1#32)) := by
  refine (st23_v28 (V7 m outs c)).trans ?_
  have h25 : (V7 m outs c main_v25 : IVec S_ 1)
      = cmpf (F := Ideal) (φ := .f32) .ogt (V6 m outs c main_v24) (constant (F := Ideal) S_ .f32 0x00000000#32) :=
    st22_v25 (V6 m outs c)
  have h27 : (V7 m outs c main_v27 : S4.Idx → EReal)
      = Host.divf (F := Ideal) (φ := .f32) (V6 m outs c main_v23)
          (broadcastInDim S4 ![] bcast_S_S4 (V6 m outs c main_v24 : S_.Idx → EReal)) :=
    st22_v27 (V6 m outs c)
  rw [h25, h27, V7_of m outs c main_v23 (by decide), V6_of m outs c main_v23 (by decide), V5_v23, V6_v24]
  rfl

theorem V9_v29 : (V9 m outs c main_v29 : S4.Idx → EReal)
    = subf (seqSum (lpK (outs 2 main_v5_0 c)) (m ((c.tc : Thread nD τ).loc main_arg2)))
        (seqSum (lpK (outs 4 main_v9_0 c)) (m ((c.tc : Thread nD τ).loc main_arg2))) := by
  refine (st24_v29 (V8 m outs c)).trans ?_
  rw [V8_v17, V8_v19]

/-! ## The five results -/

/-- The first result. -/
theorem V11_v36 : (V11 m outs c main_v36 : S_.Idx → EReal)
    = tailK36 (lpK (outs 2 main_v5_0 c)) (lpK (outs 4 main_v9_0 c)) (m ((c.tc : Thread nD τ).loc main_arg2))
        (m ((c.tc : Thread nD τ).loc main_arg3)) := by
  refine (V11_of m outs c main_v36 (by decide)).trans <| (V10_of m outs c main_v36 (by decide)).trans <|
    (st24_v36 (V8 m outs c)).trans ?_
  rw [V8_v28, V8_v17, V8_v19]
  rfl

/-- The second result. -/
theorem V11_v40 : (V11 m outs c main_v40 : S_.Idx → EReal)
    = tailK40 (lpK (outs 2 main_v5_0 c)) (m ((c.tc : Thread nD τ).loc main_arg2)) := by
  refine (V11_of m outs c main_v40 (by decide)).trans <| (V10_of m outs c main_v40 (by decide)).trans <|
    (st24_v40 (V8 m outs c)).trans ?_
  rw [V8_v17]
  rfl

/-- The third result. -/
theorem V11_v41 : (V11 m outs c main_v41 : S_.Idx → EReal)
    = tailK41 (lpK (outs 2 main_v5_0 c)) (m ((c.tc : Thread nD τ).loc main_arg2)) := by
  refine (V11_of m outs c main_v41 (by decide)).trans <| (st25_v41 (V9 m outs c)).trans ?_
  have hc : (V9 m outs c main_c_11 : IVec S_ 32) = constantI S_ 32 1#32 := st24_c11 (V8 m outs c)
  rw [hc, V9_of m outs c main_v17 (by decide), V8_v17]
  rfl

/-- The fourth result. -/
theorem V11_v38 : (V11 m outs c main_v38 : S_.Idx → EReal) = tailK38 (totK (outs 2 main_v5_1 c)) := by
  refine (V11_of m outs c main_v38 (by decide)).trans <| (V10_of m outs c main_v38 (by decide)).trans <|
    (st24_v38 (V8 m outs c)).trans ?_
  rw [V8_of m outs c main_v5_1 (by decide), V7_of m outs c main_v5_1 (by decide), V6_of m outs c main_v5_1 (by decide),
    V5_of m outs c main_v5_1 (by decide), V4_v5_1]

/-- The fifth result. -/
theorem V11_v43 : (V11 m outs c main_v43 : S_.Idx → EReal)
    = tailK43 (lpK (outs 2 main_v5_0 c)) (lpK (outs 4 main_v9_0 c)) (m ((c.tc : Thread nD τ).loc main_arg2)) := by
  refine (st26_v43 (V10 m outs c)).trans ?_
  rw [V10_of m outs c main_v29 (by decide), V9_v29]
  rfl

end Chain

/-! ## The cut-point functions read at an index -/

/-- Entry `(p, s)` of the reshaped array is minus the logarithm of entry `512 p + s` of the [2048, 1] array. -/
theorem lpK_apply (lse : FVec Ideal S2048x1 .f32) (p : Fin 4) (s : Fin 512) :
    lpK lse (ix2 p s) = - Ideal.log (lse (ix2 (⟨512 * p.val + s.val, by omega⟩ : Fin 2048) (0 : Fin 1))) := by
  unfold lpK
  refine (shapeCast_apply _ _ _ (ix2 (⟨512 * p.val + s.val, by omega⟩ : Fin 2048) (0 : Fin 1)) ?_).trans rfl
  rw [Shape.rowMajor_val_two, Shape.rowMajor_val_two]
  show (512 * p.val + s.val) * 1 + 0 = p.val * 512 + s.val
  omega

/-- The total is zero plus the sum of all 2048 entries. -/
theorem totK_apply (sl : FVec Ideal S2048x1 .f32) : totK sl ix0 = 0 + ∑ i : S2048x1.Idx, sl i := by
  unfold totK
  rw [hostReduceAdd_apply, Ideal.hostReduceAdd_total _ (fun b => b.elim0)]
  show Ideal.ofBits .f32 0x00000000#32 + _ = _
  rw [Ideal.ofBits_zero_f32]

end Cert.KernelIdeal.Hand

end
-- ==== Proof.Ref.Read.lean ====
/-
The reference's three stages read entry by entry, over the extended reals.

The logit of sequence p, position s and vocabulary entry v is the inner product
over the 2048 features of the activations at (p, s) and row v of the weights,
plus the bias at v.  The largest log-probability of a row is the maximum over v,
started from the bottom element, of (L v - M) - log (0 + Σ exp (L v' - M)), where
M is the larger of the bottom element and the row's maximum started from the
bottom element.  The total of an array is zero plus the sum of all its entries.
Each statement follows the program operation by operation: a reduction along the
vocabulary axis is the fold or sum over that axis's coordinates, a value
repeated along an axis reads the value, and the elementwise operations act
entry by entry.
-/
import proofs.«174775_j19164144075542_1_alg».proof.Proof.Ref.Stages
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.PureOps.Reduce

noncomputable section

namespace Cert.ReferenceIdeal.Hand
open Cert.ReferenceIdeal Cert.ReferenceIdeal.Gen Idealize.ShloMosaic Idealize.ShloMosaic.ValueIdx

/-! ## Shapes and indices -/

/-- dropping the vocabulary axis of [4, 512, 32000] leaves [4, 512] -/
theorem red_vocab : S4x512x32000.Reduces [2] S4x512 := by decide

/-- the row (p, s) with the vocabulary entry v put back is (p, s, v) -/
theorem lift3_apply (p : Fin 4) (s : Fin 512) (v : Fin 32000) :
    red_vocab.lift (ix2 p s) v = ix3 p s v := by
  funext ax
  apply Fin.ext
  match ax with
  | ⟨0, _⟩ => rfl
  | ⟨1, _⟩ => rfl
  | ⟨2, _⟩ => rfl

/-- the pattern of minus infinity is the bottom element -/
theorem ofBits_neg_inf : Ideal.ofBits .f32 0xFF800000#32 = ⊥ := by simp [Ideal.ofBits, Ideal.ieee]

/-! ## Values repeated along axes -/

/-- a column [4, 512, 1] repeated along the vocabulary axis reads, at (p, s, v), the column at (p, s, 0) -/
theorem bcastA_apply {α : Type} (c : S4x512x1.Idx → α) (p : Fin 4) (s : Fin 512) (v : Fin 32000) :
    broadcastInDim S4x512x32000 ![0, 1, 2] bcast_S4x512x1_S4x512x32000_0_1_2 c (ix3 p s v)
      = c (ix3 p s (0 : Fin 1)) := by
  refine broadcastInDim_apply _ _ c (ix3 p s v) (ix3 p s (0 : Fin 1)) fun a => ?_
  match a with
  | ⟨0, _⟩ =>
    show p.val = if (4 : ℕ) = 1 then 0 else p.val
    simp
  | ⟨1, _⟩ =>
    show s.val = if (512 : ℕ) = 1 then 0 else s.val
    simp
  | ⟨2, _⟩ =>
    show (0 : ℕ) = if (1 : ℕ) = 1 then 0 else v.val
    simp

/-- a [4, 512] array seen as a column reads, at (p, s, 0), the array at (p, s) -/
theorem bcastB_apply {α : Type} (r : S4x512.Idx → α) (p : Fin 4) (s : Fin 512) :
    broadcastInDim S4x512x1 ![0, 1] bcast_S4x512_S4x512x1_0_1 r (ix3 p s (0 : Fin 1)) = r (ix2 p s) := by
  refine broadcastInDim_apply _ _ r (ix3 p s (0 : Fin 1)) (ix2 p s) fun a => ?_
  match a with
  | ⟨0, _⟩ =>
    show p.val = if (4 : ℕ) = 1 then 0 else p.val
    simp
  | ⟨1, _⟩ =>
    show s.val = if (512 : ℕ) = 1 then 0 else s.val
    simp

/-- the bias laid along sequences and positions reads, at (p, s, v), the bias at v -/
theorem bias_apply {α : Type} (b : S32000.Idx → α) (p : Fin 4) (s : Fin 512) (v : Fin 32000) :
    broadcastInDim S4x512x32000 ![0, 1, 2] bcast_S1x1x32000_S4x512x32000_0_1_2
        (broadcastInDim S1x1x32000 ![2] bcast_S32000_S1x1x32000_2 b) (ix3 p s v) = b (ix1 v) := by
  refine (broadcastInDim_apply _ _ _ (ix3 p s v) (ix3 (0 : Fin 1) (0 : Fin 1) v) fun a => ?_).trans ?_
  · match a with
    | ⟨0, _⟩ =>
      show (0 : ℕ) = if (1 : ℕ) = 1 then 0 else p.val
      simp
    | ⟨1, _⟩ =>
      show (0 : ℕ) = if (1 : ℕ) = 1 then 0 else s.val
      simp
    | ⟨2, _⟩ =>
      show v.val = if (32000 : ℕ) = 1 then 0 else v.val
      simp
  · refine broadcastInDim_apply _ _ b (ix3 (0 : Fin 1) (0 : Fin 1) v) (ix1 v) fun a => ?_
    match a with
    | ⟨0, _⟩ =>
      show v.val = if (32000 : ℕ) = 1 then 0 else v.val
      simp

/-! ## Reductions along the vocabulary axis -/

/-- the host's maximum along the vocabulary axis, from minus infinity -/
theorem hostmax_apply (X : FVec Ideal S4x512x32000 .f32) (p : Fin 4) (s : Fin 512) :
    Host.reduce FloatOps.maximumf X (constant S_ .f32 0xFF800000#32) reducesTo_S4x512x32000_S4x512_d2 h_S_ (ix2 p s)
      = Finset.univ.fold max ⊥ (fun v : Fin 32000 => X (ix3 p s v)) := by
  rw [Host.reduce_eq_fold_single FloatOps.maximumf X _ reducesTo_S4x512x32000_S4x512_d2 red_vocab h_S_]
  show (Finset.univ : Finset (Fin 32000)).fold max (Ideal.ofBits .f32 0xFF800000#32)
      (fun v => X (red_vocab.lift (ix2 p s) v)) = _
  rw [ofBits_neg_inf]
  exact congrArg (fun f : Fin 32000 → EReal => Finset.univ.fold max ⊥ f)
    (funext fun v => congrArg X (lift3_apply p s v))

/-- the host's sum along the vocabulary axis, from zero -/
theorem hostsum_apply (X : FVec Ideal S4x512x32000 .f32) (p : Fin 4) (s : Fin 512) :
    Host.reduceAdd X (constant S_ .f32 0x00000000#32) reducesTo_S4x512x32000_S4x512_d2 h_S_ (ix2 p s)
      = 0 + ∑ v : Fin 32000, X (ix3 p s v) := by
  rw [hostReduceAdd_apply, Ideal.hostReduceAdd_single reducesTo_S4x512x32000_S4x512_d2 red_vocab]
  show Ideal.ofBits .f32 0x00000000#32 + ∑ v : Fin 32000, X (red_vocab.lift (ix2 p s) v) = _
  rw [Ideal.ofBits_zero_f32]
  exact congrArg (fun t : EReal => 0 + t)
    (Finset.sum_congr rfl fun v _ => congrArg X (lift3_apply p s v))

/-! ## The host's logarithm and exponential, entry by entry -/

theorem hostlog_apply {s : Shape} (c : FVec Ideal s .f32) (i : s.Idx) : Host.log c i = Ideal.log (c i) := rfl

theorem hostexp_apply {s : Shape} (c : FVec Ideal s .f32) (i : s.Idx) : Host.exp c i = Ideal.exp (c i) := rfl

/-! ## The contraction -/

theorem dot_lhs (p : Fin 4) (s : Fin 512) (v : Fin 32000) (c : Fin 2048) :
    dot_S4x512x2048_S32000x2048_S4x512x32000_2_1_01_0_n_n.lhsIdx (ix3 p s v) ((contrEquiv1 dot_S4x512x2048_S32000x2048_S4x512x32000_2_1_01_0_n_n 2048 rfl rfl).symm c) = ix3 p s c := by
  have c2 := contrEquiv1_symm_val dot_S4x512x2048_S32000x2048_S4x512x32000_2_1_01_0_n_n 2048 rfl rfl c
  funext ax
  apply Fin.ext
  match ax with
  | ⟨0, _⟩ => simp [DotDims.lhsIdx, dot_S4x512x2048_S32000x2048_S4x512x32000_2_1_01_0_n_n]; rfl
  | ⟨1, _⟩ => simp [DotDims.lhsIdx, dot_S4x512x2048_S32000x2048_S4x512x32000_2_1_01_0_n_n]; rfl
  | ⟨2, _⟩ => simp [DotDims.lhsIdx, dot_S4x512x2048_S32000x2048_S4x512x32000_2_1_01_0_n_n]; exact c2

theorem dot_rhs (p : Fin 4) (s : Fin 512) (v : Fin 32000) (c : Fin 2048) :
    dot_S4x512x2048_S32000x2048_S4x512x32000_2_1_01_0_n_n.rhsIdx (ix3 p s v) ((contrEquiv1 dot_S4x512x2048_S32000x2048_S4x512x32000_2_1_01_0_n_n 2048 rfl rfl).symm c) = ix2 v c := by
  have c2 := contrEquiv1_symm_val dot_S4x512x2048_S32000x2048_S4x512x32000_2_1_01_0_n_n 2048 rfl rfl c
  funext ax
  apply Fin.ext
  match ax with
  | ⟨0, _⟩ => simp [DotDims.rhsIdx, dot_S4x512x2048_S32000x2048_S4x512x32000_2_1_01_0_n_n]; rfl
  | ⟨1, _⟩ => simp [DotDims.rhsIdx, dot_S4x512x2048_S32000x2048_S4x512x32000_2_1_01_0_n_n]; exact c2

/-- the product of the activations with the transposed weights, entry by entry -/
theorem dot_apply (x : FVec Ideal S4x512x2048 .f32) (w : FVec Ideal S32000x2048 .f32)
    (p : Fin 4) (s : Fin 512) (v : Fin 32000) :
    Host.dotGeneral dot_S4x512x2048_S32000x2048_S4x512x32000_2_1_01_0_n_n none x w (ix3 p s v)
      = ∑ k : Fin 2048, x (ix3 p s k) * w (ix2 v k) := by
  show FloatOps.dotGeneral dot_S4x512x2048_S32000x2048_S4x512x32000_2_1_01_0_n_n none _ x w (ix3 p s v) = _
  rw [Ideal.dotGeneral_apply, ← Equiv.sum_comp (contrEquiv1 dot_S4x512x2048_S32000x2048_S4x512x32000_2_1_01_0_n_n 2048 rfl rfl).symm]
  refine Finset.sum_congr rfl fun c _ => ?_
  rw [dot_lhs, dot_rhs]

/-! ## The stages -/

theorem logits_apply (x : FVec Ideal S4x512x2048 .f32) (w : FVec Ideal S32000x2048 .f32) (b : FVec Ideal S32000 .f32)
    (p : Fin 4) (s : Fin 512) (v : Fin 32000) :
    logits x w b (ValueIdx.ix3 p s v)
      = (∑ k : Fin 2048, x (ValueIdx.ix3 p s k) * w (ValueIdx.ix2 v k)) + b (ValueIdx.ix1 v) := by
  unfold logits
  rw [addf_apply, dot_apply, bias_apply]

/-- the row maximum: the larger of the bottom element and the row's maximum from the bottom element -/
theorem rowMax_apply (L : FVec Ideal S4x512x32000 .f32) (p : Fin 4) (s : Fin 512) :
    rowMax L (ix2 p s) = max ⊥ (Finset.univ.fold max ⊥ (fun v : Fin 32000 => L (ix3 p s v))) := by
  unfold rowMax
  rw [maximumf_apply, broadcastInDim_scalar_apply, constant_apply, ofBits_neg_inf, hostmax_apply]

/-- a logit minus its row's maximum -/
theorem shifted_apply (L : FVec Ideal S4x512x32000 .f32) (p : Fin 4) (s : Fin 512) (v : Fin 32000) :
    shifted L (ix3 p s v) = L (ix3 p s v) - rowMax L (ix2 p s) := by
  unfold shifted alongVocab
  rw [subf_apply, bcastA_apply, bcastB_apply]

/-- the log-softmax, entry by entry, in terms of the row maximum M = rowMax L (p, s) -/
theorem logSoftmax_apply (L : FVec Ideal S4x512x32000 .f32) (p : Fin 4) (s : Fin 512) (v : Fin 32000) :
    logSoftmax L (ix3 p s v)
      = (L (ix3 p s v) - rowMax L (ix2 p s))
        - Ideal.log (0 + ∑ v' : Fin 32000, Ideal.exp (L (ix3 p s v') - rowMax L (ix2 p s))) := by
  unfold logSoftmax
  rw [subf_apply, shifted_apply, bcastA_apply]
  refine congrArg (fun t : EReal => (L (ix3 p s v) - rowMax L (ix2 p s)) - t) ?_
  rw [hostlog_apply, bcastB_apply, hostsum_apply]
  refine congrArg (fun t : EReal => Ideal.log (0 + t)) ?_
  refine Finset.sum_congr rfl fun v' _ => ?_
  rw [hostexp_apply, shifted_apply]

theorem lp_apply (L : FVec Ideal S4x512x32000 .f32) (p : Fin 4) (s : Fin 512) :
    lp L (ValueIdx.ix2 p s) = Finset.univ.fold max ⊥ (fun v : Fin 32000 =>
      (L (ValueIdx.ix3 p s v) - max ⊥ (Finset.univ.fold max ⊥ (fun v' : Fin 32000 => L (ValueIdx.ix3 p s v'))))
        - Ideal.log (0 + ∑ v' : Fin 32000, Ideal.exp (L (ValueIdx.ix3 p s v')
            - max ⊥ (Finset.univ.fold max ⊥ (fun v'' : Fin 32000 => L (ValueIdx.ix3 p s v'')))))) := by
  unfold lp
  rw [hostmax_apply, ← rowMax_apply L p s]
  exact congrArg (fun f : Fin 32000 → EReal => Finset.univ.fold max ⊥ f)
    (funext fun v => logSoftmax_apply L p s v)

theorem total_apply (L : FVec Ideal S4x512x32000 .f32) :
    total L ValueIdx.ix0 = 0 + ∑ i : S4x512x32000.Idx, L i := by
  unfold total
  rw [hostReduceAdd_apply, Ideal.hostReduceAdd_total reducesTo_S4x512x32000_S_d0_1_2 (fun b => b.elim0),
    constant_apply, Ideal.ofBits_zero_f32]

end Cert.ReferenceIdeal.Hand
-- ==== Proof.TailEq.lean ====
/-
The scalar tail of the two programs is one and the same function.

After the per-position log-probabilities are known, both programs compute, on
vectors of four and on scalars: the masked sum over each sequence; the mean of
four values (their sum from zero over four); the rewards minus their mean; the
unbiased standard deviation (the root of the sum of squared deviations over
4 - 1, guarded by 4 - 1 > 0); the advantages (the centred rewards over their
standard deviation where that is positive, unchanged otherwise); the loss (the
mean of -(advantage * sum) + 0.1 * (sum - sum')); and the four metrics.  The two
programs spell these with the same operations in the same order over shapes that
are the same literals, and the side conditions they cite are proofs of the same
propositions, so each pair of terms is equal by unfolding the names.
-/
import proofs.«174775_j19164144075542_1_alg».proof.Proof.KI.HostTail
import proofs.«174775_j19164144075542_1_alg».proof.Proof.Ref.Stages

namespace Cert.Bridge
open Idealize.ShloMosaic

variable [Cert.KernelIdeal.Facts] [Cert.ReferenceIdeal.Facts]
variable (lpP lpR mask : FVec Ideal Cert.KernelIdeal.S4x512 .f32) (rew : FVec Ideal Cert.KernelIdeal.S4 .f32)
  (tot : FVec Ideal Cert.KernelIdeal.S_ .f32)

/-- the loss -/
theorem tail36_eq :
    Cert.KernelIdeal.Hand.tailK36 lpP lpR mask rew = Cert.ReferenceIdeal.Hand.tail32 lpP lpR mask rew := rfl

/-- the mean of the per-sequence sums -/
theorem tail40_eq :
    Cert.KernelIdeal.Hand.tailK40 lpP mask = Cert.ReferenceIdeal.Hand.tail34 lpP mask := rfl

/-- the unbiased standard deviation of the per-sequence sums -/
theorem tail41_eq :
    Cert.KernelIdeal.Hand.tailK41 lpP mask = Cert.ReferenceIdeal.Hand.tail35 lpP mask := rfl

/-- the total over 65536000 -/
theorem tail38_eq :
    Cert.KernelIdeal.Hand.tailK38 tot = Cert.ReferenceIdeal.Hand.tail37 tot := rfl

/-- the mean difference of the two models' per-sequence sums -/
theorem tail43_eq :
    Cert.KernelIdeal.Hand.tailK43 lpP lpR mask = Cert.ReferenceIdeal.Hand.tail39 lpP lpR mask := rfl

end Cert.Bridge
-- ==== Proof.Math.Finite.lean ====
/-
Finiteness of the inputs. The precondition states that, for each of the eight
argument arrays x, the conjunction over all indices of the comparison |x i| < +∞
is true, and that the conjunction of these eight statements is true. In the
extended reals |x| = max x (-x), and max x (-x) < +∞ fails both at +∞ and at -∞;
hence every entry of every argument array is (the cast of) a real number.
One lemma reads a single all-reduction back to its entries; the main theorem
splits the eightfold conjunction and applies it to arguments 0, 1, 4, 5, 6, 7.
-/
import proofs.«174775_j19164144075542_1_alg».proof.Defs
import Idealize.ShloMosaic.Lib.ReduceAll
import Idealize.ShloMosaic.Lib.ValueIdx
import Idealize.ShloMosaic.PureOps.Ideal

noncomputable section

namespace Cert.Finite

open Idealize.ShloMosaic Idealize.SL.Sem

/-- the rank-zero shape has exactly one index -/
instance : Subsingleton Cert.Pre_finite_inputs.S_.Idx := ⟨fun a b => funext fun d => d.elim0⟩

/-- an extended real whose absolute value max x (-x) lies strictly below +∞ is a real -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- the bit pattern 0x7F800000 denotes +∞ -/
theorem inf_bits : Ideal.ofBits .f32 0x7F800000#32 = (⊤ : EReal) := by
  simp [Ideal.ofBits, Ideal.ieee]

/-- an array whose all-reduction of (|x| < +∞) is true has only real entries -/
theorem real_of_all {s : Shape} {axes : List (Fin s.rank)}
    (x : FVec Ideal s .f32) (init : IVec Cert.Pre_finite_inputs.S_ 1)
    (hb : Cert.Pre_finite_inputs.S_.BroadcastsInDim s (![] : Fin 0 → Fin s.rank))
    (h : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          init h hu j = 1#1)
    (i : s.Idx) : ∃ r : ℝ, x i = (r : EReal) := by
  have hi := Host.reduce_andi_all _ init h hu j e i
  apply real_of_abs_lt_top
  simp only [cmpf, Host.absf, broadcastInDim, constant] at hi
  change Ideal.cmp .olt (max (x i) (-(x i))) (Ideal.ofBits .f32 0x7F800000#32) = 1#1 at hi
  rw [inf_bits] at hi
  by_contra hn
  have h0 : Ideal.cmp .olt (max (x i) (-(x i))) (⊤ : EReal) = 0#1 := by
    simp only [Ideal.cmp, decide_eq_false hn]; rfl
  rw [h0] at hi
  exact absurd hi (by decide)

variable [Cert.KernelIdeal.Facts] [Cert.Pre_finite_inputs.Facts]

/-- under the precondition every entry of arguments 0, 1, 4, 5, 6, 7 is a real number -/
theorem real_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal)) := by
  have h0 := congrFun (h c) ValueIdx.ix0
  dsimp only [Cert.Pre_finite_inputs.fn, Cert.Pre_finite_inputs.fn_part1, Cert.Pre_finite_inputs.fn_part2, andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, _⟩ := IntOp.andi_eq_one.1 h0
  obtain ⟨h0, _⟩ := IntOp.andi_eq_one.1 h0
  obtain ⟨e0, e1⟩ := IntOp.andi_eq_one.1 h0
  exact ⟨fun i => real_of_all _ _ _ _ _ _ e0 i, fun i => real_of_all _ _ _ _ _ _ e1 i,
    fun i => real_of_all _ _ _ _ _ _ e4 i, fun i => real_of_all _ _ _ _ _ _ e5 i,
    fun i => real_of_all _ _ _ _ _ _ e6 i, fun i => real_of_all _ _ _ _ _ _ e7 i⟩

end Cert.Finite

end
-- ==== Proof.Math.Sums.lean ====
/-
Sums over index sets, re-indexed by coordinates. A sum over the indices of a
rank-3 array is the triple sum over its three coordinates; a sum over 2048 rows
is the double sum over 4 blocks of 512 rows, row 512 b + s being row s of
block b; a sum over the indices of a 2048-by-1 array is the sum over its 2048
rows. Also: a finite sum of products of real numbers, plus a real number, is a
real number (stated in the extended reals, where each factor is the cast of a real).
-/
import Mathlib
import Idealize.ShloMosaic.Lib.ValueIdx
import Idealize.ShloMosaic.PureOps.Ideal

namespace Cert.Math

open Idealize.ShloMosaic Idealize.ShloMosaic.ValueIdx

/-- a rank-3 index set is the product of its three coordinate ranges -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- a sum over a rank-3 index set is the triple sum over the coordinates -/
theorem sum_idx3 {M : Type*} [AddCommMonoid M] {n0 n1 n2 : Nat}
    (f : (⟨3, ![n0, n1, n2]⟩ : Idealize.ShloMosaic.Shape).Idx → M) :
    ∑ i, f i = ∑ a : Fin n0, ∑ b : Fin n1, ∑ c : Fin n2, f (Idealize.ShloMosaic.ValueIdx.ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- 2048 rows are 4 blocks of 512 rows: row 512 b + s is row s of block b -/
theorem sum_rows2048 {M : Type*} [AddCommMonoid M] (g : Fin 2048 → M) :
    ∑ r : Fin 2048, g r = ∑ b : Fin 4, ∑ s : Fin 512, g ⟨512 * b.val + s.val, by omega⟩ := by
  have h := Equiv.sum_comp (finProdFinEquiv : Fin 4 × Fin 512 ≃ Fin (4 * 512)) (g : Fin (4 * 512) → M)
  rw [Fintype.sum_prod_type] at h
  refine h.symm.trans ?_
  refine Finset.sum_congr rfl fun b _ => Finset.sum_congr rfl fun s _ => ?_
  refine congrArg g (Fin.ext ?_)
  show s.val + 512 * b.val = 512 * b.val + s.val
  omega

/-- a finite sum of products of reals, plus a real, is a real -/
theorem real_dot_add {n : ℕ} (x w : Fin n → EReal) (b : EReal)
    (hx : ∀ k, ∃ r : ℝ, x k = (r : EReal)) (hw : ∀ k, ∃ r : ℝ, w k = (r : EReal))
    (hb : ∃ r : ℝ, b = (r : EReal)) : ∃ r : ℝ, (∑ k : Fin n, x k * w k) + b = (r : EReal) := by
  classical
  have hs : ∀ s : Finset (Fin n), ∃ r : ℝ, ∑ k ∈ s, x k * w k = (r : EReal) := by
    intro s
    induction s using Finset.induction_on with
    | empty => exact ⟨0, by simp⟩
    | insert a s ha ih =>
      obtain ⟨r, hr⟩ := ih
      obtain ⟨p, hp⟩ := hx a
      obtain ⟨q, hq⟩ := hw a
      refine ⟨p * q + r, ?_⟩
      rw [Finset.sum_insert ha, hr, hp, hq, EReal.coe_add, EReal.coe_mul]
  obtain ⟨r, hr⟩ := hs Finset.univ
  obtain ⟨c, hc⟩ := hb
  exact ⟨r + c, by rw [hr, hc, EReal.coe_add]⟩

/-- a sum over the indices of a 2048-by-1 array is the sum over its rows -/
theorem sum_col2048 {M : Type*} [AddCommMonoid M]
    (f : (⟨2, ![2048, 1]⟩ : Idealize.ShloMosaic.Shape).Idx → M) :
    ∑ i, f i = ∑ r : Fin 2048, f (Idealize.ShloMosaic.ValueIdx.ix2 r (0 : Fin 1)) := by
  rw [sum_idx2]
  refine Finset.sum_congr rfl fun a _ => ?_
  rw [Fin.sum_univ_one]

end Cert.Math
-- ==== Proof.Final.lean ====
/-
  The two idealized programs compute the same five numbers.

  Kernel side: each call leaves, at every row, the sum of exponentials of the row's logits relative to the row maximum
  (accumulated tile by tile with rescaling) and the row's sum of logits; the host takes minus the logarithm of the
  first and sums the second.  Reference side: it forms all logits, takes the log-softmax along the vocabulary and its
  maximum, and sums all logits.  For real logits — which finite inputs give — minus the log of the sum of exponentials
  relative to the maximum IS the maximum of the log-softmax, and a sum of row sums is the sum of everything; after that
  both programs apply the same scalar tail.
-/
import proofs.«174775_j19164144075542_1_alg».proof.Proof.KI.Close
import proofs.«174775_j19164144075542_1_alg».proof.Proof.KI.RunMain
import proofs.«174775_j19164144075542_1_alg».proof.Proof.KI.HostTail
import proofs.«174775_j19164144075542_1_alg».proof.Proof.Ref.Run
import proofs.«174775_j19164144075542_1_alg».proof.Proof.Ref.Read
import proofs.«174775_j19164144075542_1_alg».proof.Proof.TailEq
import proofs.«174775_j19164144075542_1_alg».proof.Proof.Math.Finite
import proofs.«174775_j19164144075542_1_alg».proof.Proof.Math.Sums
import proofs.«174775_j19164144075542_1_alg».proof.Proof.Math.Online
import proofs.«174775_j19164144075542_1_alg».proof.Proof.Gen.Pre_finite_inputs
import proofs.«174775_j19164144075542_1_alg».proof.Defs

noncomputable section

namespace Cert.Bridge

open Idealize.ShloMosaic Idealize.ShloMosaic.TcCoe Idealize.SL.Sem Cert.Math
open Cert.KernelIdeal.Hand (rowLogit lpK totK lseArr0 lseArr1 sumArr0 sumArr1 outsH outsA outsH_v5_0 outsH_v5_1 outsH_v9_0 lpK_apply totK_apply)
open Cert.ReferenceIdeal.Hand (logits lp total logits_apply lp_apply total_apply)

/-- Row r = 512 b + s of the flattened activations is batch row b, position s: its logits are the reference's. -/
theorem rowLogit_eq (x : Cert.KernelIdeal.S4x512x2048.Idx → EReal) (w : Cert.KernelIdeal.S32000x2048.Idx → EReal) (bb : Cert.KernelIdeal.S32000.Idx → EReal)
    (b : Fin 4) (s : Fin 512) :
    rowLogit x w bb ⟨512 * b.val + s.val, by have := b.isLt; have := s.isLt; omega⟩ = fun v => logits x w bb (ValueIdx.ix3 b s v) := by
  funext v
  rw [logits_apply]
  unfold rowLogit
  have e1 : (⟨(512 * b.val + s.val) / 512, by have := b.isLt; have := s.isLt; omega⟩ : Fin 4) = b := Fin.ext (by simp only []; have := s.isLt; omega)
  have e2 : (⟨(512 * b.val + s.val) % 512, by omega⟩ : Fin 512) = s := Fin.ext (by simp only []; have := s.isLt; omega)
  simp only [e1, e2]

/-- Finite inputs give real logits. -/
theorem real_logits (x : Cert.KernelIdeal.S4x512x2048.Idx → EReal) (w : Cert.KernelIdeal.S32000x2048.Idx → EReal) (bb : Cert.KernelIdeal.S32000.Idx → EReal)
    (hx : ∀ i, ∃ r : ℝ, x i = (r : EReal)) (hw : ∀ i, ∃ r : ℝ, w i = (r : EReal)) (hb : ∀ i, ∃ r : ℝ, bb i = (r : EReal))
    (b : Fin 4) (s : Fin 512) (v : Fin 32000) : ∃ r : ℝ, logits x w bb (ValueIdx.ix3 b s v) = (r : EReal) := by
  rw [logits_apply]
  exact real_dot_add (fun k => x (ValueIdx.ix3 b s k)) (fun k => w (ValueIdx.ix2 v k)) (bb (ValueIdx.ix1 v)) (fun k => hx _) (fun k => hw _) (hb _)

/-- The kernel's "minus log of the accumulated sum of exponentials" is the reference's maximum of the log-softmax. -/
theorem lp_of_lse (x : Cert.KernelIdeal.S4x512x2048.Idx → EReal) (w : Cert.KernelIdeal.S32000x2048.Idx → EReal) (bb : Cert.KernelIdeal.S32000.Idx → EReal)
    (hx : ∀ i, ∃ r : ℝ, x i = (r : EReal)) (hw : ∀ i, ∃ r : ℝ, w i = (r : EReal)) (hb : ∀ i, ∃ r : ℝ, bb i = (r : EReal))
    (lse : FVec Ideal Cert.KernelIdeal.S2048x1 .f32)
    (hlse : ∀ r : Fin 2048, lse (ValueIdx.ix2 r 0) = runLse (tiles (rowLogit x w bb r)) 24) :
    lpK lse = lp (logits x w bb) := by
  funext j
  obtain ⟨b, s, rfl⟩ : ∃ (b : Fin 4) (s : Fin 512), j = ValueIdx.ix2 b s := ⟨j 0, j 1, ValueIdx.eq_ix2 j⟩
  rw [lpK_apply, hlse, rowLogit_eq x w bb b s, lp_apply]
  exact online_lp (fun v => logits x w bb (ValueIdx.ix3 b s v)) (fun v => real_logits x w bb hx hw hb b s v)

set_option maxRecDepth 100000 in
/-- The sum of the accumulated row sums is the sum of all logits. -/
theorem total_of_sums (x : Cert.KernelIdeal.S4x512x2048.Idx → EReal) (w : Cert.KernelIdeal.S32000x2048.Idx → EReal) (bb : Cert.KernelIdeal.S32000.Idx → EReal)
    (hx : ∀ i, ∃ r : ℝ, x i = (r : EReal)) (hw : ∀ i, ∃ r : ℝ, w i = (r : EReal)) (hb : ∀ i, ∃ r : ℝ, bb i = (r : EReal))
    (sl : FVec Ideal Cert.KernelIdeal.S2048x1 .f32)
    (hsl : ∀ r : Fin 2048, sl (ValueIdx.ix2 r 0) = runSum (tiles (rowLogit x w bb r)) 24) :
    totK sl = total (logits x w bb) := by
  funext j
  have hj := ValueIdx.eq_ix0 j
  subst hj
  rw [totK_apply, total_apply]
  rw [sum_col2048 sl, sum_idx3 (logits x w bb), sum_rows2048]
  congr 1
  refine Finset.sum_congr rfl fun b _ => Finset.sum_congr rfl fun s _ => ?_
  rw [hsl, rowLogit_eq x w bb b s]
  exact online_sum (fun v => logits x w bb (ValueIdx.ix3 b s v)) (fun v => real_logits x w bb hx hw hb b s v)

/-- THE CLAIM: from memories agreeing on the arguments both idealized programs run and end with equal results. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m g m' g' hpre hagree
  refine ⟨_, _, _, _, _, ?_, Cert.ReferenceIdeal.Hand.run m' g'⟩
  refine (θ_run (Cert.KernelIdeal.defs (F := Ideal)) _ _).mono (fun r h c => ?_) (Cert.KernelIdeal.Hand.run m g)
  obtain ⟨h36, h40, h41, h38, h43, hargs⟩ := h c
  obtain ⟨a0, a1, a2, a3, a4, a5, a6, a7⟩ := hagree c
  obtain ⟨r0, r1, r4, r5, r6, r7⟩ := Cert.Finite.real_of_pre m hpre c
  have hP : lpK (outsH m 2 Cert.KernelIdeal.main_v5_0 c) = lp (logits (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg4))) :=
    lp_of_lse _ _ _ r1 r0 r4 _ (fun r => by rw [outsH_v5_0]; exact lseArr0 m c r)
  have hR : lpK (outsH m 4 Cert.KernelIdeal.main_v9_0 c) = lp (logits (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) :=
    lp_of_lse _ _ _ r5 r6 r7 _ (fun r => by rw [outsH_v9_0]; exact lseArr1 m c r)
  have hT : totK (outsH m 2 Cert.KernelIdeal.main_v5_1 c) = total (logits (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg4))) :=
    total_of_sums _ _ _ r1 r0 r4 _ (fun r => by rw [outsH_v5_1]; exact sumArr0 m c r)
  rw [a0, a1, a2, a3, a4, a5, a6, a7]
  refine ⟨h36.trans ?_, h40.trans ?_, h41.trans ?_, h38.trans ?_, h43.trans ?_, hargs⟩
  · rw [Cert.KernelIdeal.Hand.V11_v36, hP, hR]; exact tail36_eq _ _ _ _
  · rw [Cert.KernelIdeal.Hand.V11_v40, hP]; exact tail40_eq _ _
  · rw [Cert.KernelIdeal.Hand.V11_v41, hP]; exact tail41_eq _ _
  · rw [Cert.KernelIdeal.Hand.V11_v38, hT]; exact tail38_eq _
  · rw [Cert.KernelIdeal.Hand.V11_v43, hP, hR]; exact tail43_eq _ _ _

end Cert.Bridge

end
-- ==== Proof.lean ====
/-
  The certificate: a fused "linear layer + row statistics" kernel against its plain reference.

  The kernel program calls one tiled kernel twice (policy model, reference model).  On a 2 × 25 grid it walks a row
  block of 1024 activation rows across 25 vocabulary tiles of 1280 entries, forms each tile of logits (product over the
  2048 hidden coordinates plus bias) and keeps, per row, a running maximum, a running sum of exponentials relative to
  the running maximum (rescaled whenever the maximum rises) and a running sum of the logits.  The host then takes minus
  the logarithm of the sum of exponentials, masks and sums over the sequence, and computes a loss and four metrics on
  4-vectors; the mean of all logits is the sum of the row sums over 65536000.  The reference forms all logits at once,
  takes the log-softmax along the vocabulary and its maximum, and the same scalar tail.

  The five claims:
  * the three programs run to the end, fault nowhere and leave their eight argument arrays unchanged — for the two
    kernel programs by the launch of a program of two pipelined regions, each region's invariant holding the scratch
    (the running maximum) at exactly the value defined by recursion over the grid positions; for the reference by its
    run as a list of host operations;
  * the idealization rewrote nothing, so there is nothing to preserve;
  * over the extended reals, with finite inputs, both idealized programs end with equal results: minus the log of the
    tile-by-tile sum of exponentials is the maximum of the log-softmax, a sum of row sums is the sum of all entries,
    and the scalar tails are the same functions.
-/
import proofs.«174775_j19164144075542_1_alg».proof.Defs
import proofs.«174775_j19164144075542_1_alg».proof.Proof.Gen.Kernel
import proofs.«174775_j19164144075542_1_alg».proof.Proof.Gen.KernelIdeal
import proofs.«174775_j19164144075542_1_alg».proof.Proof.Gen.ReferenceIdeal
import proofs.«174775_j19164144075542_1_alg».proof.Proof.Gen.Pre_finite_inputs
import proofs.«174775_j19164144075542_1_alg».proof.Proof.KB.Region
import proofs.«174775_j19164144075542_1_alg».proof.Proof.KI.Region
import proofs.«174775_j19164144075542_1_alg».proof.Proof.Ref.Run
import proofs.«174775_j19164144075542_1_alg».proof.Proof.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m g _ => Cert.ReferenceIdeal.Hand.frame m g,
    trivial,
    Cert.Bridge.algebraic⟩

end Cert.Proof

end
